-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v165)) (v1 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_v185) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v304) = v0 c
          ∧ r.2.mem ((c.tc : Thread Cert.ReferenceIdeal.nD Cert.ReferenceIdeal.τ).loc Cert.ReferenceIdeal.main_v315) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : IVec S1600000 32) (main_arg3 : IVec S1600000 32) (main_arg4 : IVec S1600000 32) (main_arg5 : IVec S1600000 32) (main_arg6 : FVec F S4x128x128 .f32) (main_arg7 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S4x128x128 .f32 := Host.absf main_arg6
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg7
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S4x128x128 : Shape := ⟨3, ![4, 128, 128]⟩
abbrev S4x128 : Shape := ⟨2, ![4, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S200000x1 : Shape := ⟨2, ![200000, 1]⟩
abbrev S200000x128 : Shape := ⟨2, ![200000, 128]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000x1 : Shape := ⟨2, ![2000, 1]⟩
abbrev S5000x128 : Shape := ⟨2, ![5000, 128]⟩

abbrev nBuf : Space → Nat
  | .hbm => 254
  | .vmem => 60
  | .smem => 0
  | _ => 0

abbrev hbmTy0_0 (i : Nat) : BufTy := match i % 128 with
  | 0 => ⟨S100000x128, .f32⟩
  | 1 => ⟨S100000x128, .f32⟩
  | 2 => ⟨S1600000, .i32⟩
  | 3 => ⟨S1600000, .i32⟩
  | 4 => ⟨S1600000, .i32⟩
  | 5 => ⟨S1600000, .i32⟩
  | 6 => ⟨S4x128x128, .f32⟩
  | 7 => ⟨S4x128, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S100000x128, .f32⟩
  | 39 => ⟨S100000x128, .f32⟩
  | 40 => ⟨S200000x1, .f32⟩
  | 41 => ⟨S200000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S_, .f32⟩
  | 65 => ⟨S100000x128, .f32⟩
  | 66 => ⟨S1600000x1, .i32⟩
  | 67 => ⟨S100000x128, .f32⟩
  | 68 => ⟨S200000x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S200000x128, .f32⟩
  | 75 => ⟨S200000x128, .f32⟩
  | 76 => ⟨S100000x128, .f32⟩
  | 77 => ⟨S100000x128, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S100000x128, .f32⟩
  | 104 => ⟨S1600000x1, .i32⟩
  | 105 => ⟨S100000x128, .f32⟩
  | 106 => ⟨S200000x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S200000x128, .f32⟩
  | 113 => ⟨S200000x128, .f32⟩
  | 114 => ⟨S100000x128, .f32⟩
  | 115 => ⟨S100000x128, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S_, .f32⟩
  | 13 => ⟨S100000x128, .f32⟩
  | 14 => ⟨S1600000x1, .i32⟩
  | 15 => ⟨S100000x128, .f32⟩
  | 16 => ⟨S200000x128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S200000x128, .f32⟩
  | 23 => ⟨S200000x128, .f32⟩
  | 24 => ⟨S100000x128, .f32⟩
  | 25 => ⟨S100000x128, .f32⟩
  | 26 => ⟨S100000x128, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S_, .f32⟩
  | 51 => ⟨S100000x128, .f32⟩
  | 52 => ⟨S1600000x1, .i32⟩
  | 53 => ⟨S100000x128, .f32⟩
  | 54 => ⟨S200000x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S200000x128, .f32⟩
  | 61 => ⟨S200000x128, .f32⟩
  | 62 => ⟨S100000x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S1x128, .f32⟩
  | 69 => ⟨S100000x128, .f32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S_, .f32⟩
  | 89 => ⟨S_, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S100000x128, .f32⟩
  | 96 => ⟨S_, .f32⟩
  | 97 => ⟨S128, .f32⟩
  | 98 => ⟨S1x128, .f32⟩
  | 99 => ⟨S100000x128, .f32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S_, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48_0 : Ref sig .tc := ⟨.hbm, 74, rfl⟩
abbrev main_v48_1 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79_0 : Ref sig .tc := ⟨.hbm, 112, rfl⟩
abbrev main_v79_1 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_c_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_20 : Ref sig .tc := ⟨.hbm, 127, rfl⟩
abbrev main_v91 : Ref sig .tc := ⟨.hbm, 128, rfl⟩
abbrev main_v92 : Ref sig .tc := ⟨.hbm, 129, rfl⟩
abbrev main_c_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_22 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_23 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110_0 : Ref sig .tc := ⟨.hbm, 150, rfl⟩
abbrev main_v110_1 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_24 : Ref sig .tc := ⟨.hbm, 156, rfl⟩
abbrev main_v115 : Ref sig .tc := ⟨.hbm, 157, rfl⟩
abbrev main_v116 : Ref sig .tc := ⟨.hbm, 158, rfl⟩
abbrev main_c_25 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_26 : Ref sig .tc := ⟨.hbm, 165, rfl⟩
abbrev main_v122 : Ref sig .tc := ⟨.hbm, 166, rfl⟩
abbrev main_v123 : Ref sig .tc := ⟨.hbm, 167, rfl⟩
abbrev main_c_27 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_28 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_29 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141_0 : Ref sig .tc := ⟨.hbm, 188, rfl⟩
abbrev main_v141_1 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_30 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_31 : Ref sig .tc := ⟨.hbm, 198, rfl⟩
abbrev main_v149 : Ref sig .tc := ⟨.hbm, 199, rfl⟩
abbrev main_v150 : Ref sig .tc := ⟨.hbm, 200, rfl⟩
abbrev main_cst_32 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_33 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_34 : Ref sig .tc := ⟨.hbm, 209, rfl⟩
abbrev main_v157 : Ref sig .tc := ⟨.hbm, 210, rfl⟩
abbrev main_v158 : Ref sig .tc := ⟨.hbm, 211, rfl⟩
abbrev main_cst_35 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_36 : Ref sig .tc := ⟨.hbm, 216, rfl⟩
abbrev main_call2_v0 : Ref sig .tc := ⟨.hbm, 217, rfl⟩
abbrev main_call2_v1 : Ref sig .tc := ⟨.hbm, 218, rfl⟩
abbrev main_v162 : Ref sig .tc := ⟨.hbm, 219, rfl⟩
abbrev main_cst_37 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_38 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_39 : Ref sig .tc := ⟨.hbm, 228, rfl⟩
abbrev main_v169 : Ref sig .tc := ⟨.hbm, 229, rfl⟩
abbrev main_v170 : Ref sig .tc := ⟨.hbm, 230, rfl⟩
abbrev main_cst_40 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_41 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_42 : Ref sig .tc := ⟨.hbm, 239, rfl⟩
abbrev main_v177 : Ref sig .tc := ⟨.hbm, 240, rfl⟩
abbrev main_v178 : Ref sig .tc := ⟨.hbm, 241, rfl⟩
abbrev main_cst_43 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_44 : Ref sig .tc := ⟨.hbm, 246, rfl⟩
abbrev main_call3_v0 : Ref sig .tc := ⟨.hbm, 247, rfl⟩
abbrev main_call3_v1 : Ref sig .tc := ⟨.hbm, 248, rfl⟩
abbrev main_v182 : Ref sig .tc := ⟨.hbm, 249, rfl⟩
abbrev main_cst_45 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg3_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem3_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem3_1 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  concatenates_S100000x1_S100000x1_S200000x1_d0 : Shape.Concatenates [S100000x1, S100000x1] S200000x1 0
  concatenates_S100000x128_S100000x128_S200000x128_d0 : Shape.Concatenates [S100000x128, S100000x128] S200000x128 0
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S200000x128_S100000x128_0_0 : S200000x128.Slices ![0, 0] S100000x128
  slices_S200000x128_S100000x128_100000_0 : S200000x128.Slices ![100000, 0] S100000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .f32 = 32 ∨ (Rect.block (s := S200000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S200000x128.size a
  hwx0_2 : ∀ i : grid0.Coords, EltTy.bits .f32 = 32 ∨ (Rect.block (s := S200000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S200000x128.size a
  hwx0_5 : ∀ i : grid0.Coords, EltTy.bits .f32 = 32 ∨ (Rect.block (s := S200000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S200000x128.size a
  hwx0_6 : ∀ i : grid0.Coords, EltTy.bits .f32 = 32 ∨ (Rect.block (s := S200000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S200000x1.size a
  hwx1_1 : ∀ i : grid1.Coords, EltTy.bits .f32 = 32 ∨ (Rect.block (s := S200000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S200000x128.size a
  hwx1_2 : ∀ i : grid1.Coords, EltTy.bits .f32 = 32 ∨ (Rect.block (s := S200000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S200000x128.size a
  hwx1_5 : ∀ i : grid1.Coords, EltTy.bits .f32 = 32 ∨ (Rect.block (s := S200000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S200000x128.size a
  hwx1_6 : ∀ i : grid1.Coords, EltTy.bits .f32 = 32 ∨ (Rect.block (s := S200000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S200000x1.size a
  hwx2_1 : ∀ i : grid2.Coords, EltTy.bits .f32 = 32 ∨ (Rect.block (s := S200000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S200000x128.size a
  hwx2_2 : ∀ i : grid2.Coords, EltTy.bits .f32 = 32 ∨ (Rect.block (s := S200000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S200000x128.size a
  hwx2_5 : ∀ i : grid2.Coords, EltTy.bits .f32 = 32 ∨ (Rect.block (s := S200000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S200000x128.size a
  hwx2_6 : ∀ i : grid2.Coords, EltTy.bits .f32 = 32 ∨ (Rect.block (s := S200000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S200000x128.size a
  hwx3_0 : ∀ i : grid3.Coords, EltTy.bits .f32 = 32 ∨ (Rect.block (s := S200000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S200000x1.size a
  hwx3_1 : ∀ i : grid3.Coords, EltTy.bits .f32 = 32 ∨ (Rect.block (s := S200000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S200000x128.size a
  hwx3_2 : ∀ i : grid3.Coords, EltTy.bits .f32 = 32 ∨ (Rect.block (s := S200000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S200000x128.size a
  hwx3_5 : ∀ i : grid3.Coords, EltTy.bits .f32 = 32 ∨ (Rect.block (s := S200000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S200000x128.size a
  hwx3_6 : ∀ i : grid3.Coords, EltTy.bits .f32 = 32 ∨ (Rect.block (s := S200000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v42) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v73) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v79_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v104) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v106) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v109) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v110_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v110_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v135) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v137) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v140) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v141_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v141_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v142) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v152) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v164) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v165) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v143) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v172) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v184) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v185) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S4x128x128 : Shape := ⟨3, ![4, 128, 128]⟩
abbrev S4x128 : Shape := ⟨2, ![4, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 464
  | .vmem => 0
  | .smem => 0
  | _ => 0

abbrev hbmTy0_0 (i : Nat) : BufTy := match i % 128 with
  | 0 => ⟨S100000x128, .f32⟩
  | 1 => ⟨S100000x128, .f32⟩
  | 2 => ⟨S1600000, .i32⟩
  | 3 => ⟨S1600000, .i32⟩
  | 4 => ⟨S1600000, .i32⟩
  | 5 => ⟨S1600000, .i32⟩
  | 6 => ⟨S4x128x128, .f32⟩
  | 7 => ⟨S4x128, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S100000x1, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x1, .f32⟩
  | 66 => ⟨S100000x128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S100000x1, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x1, .f32⟩
  | 110 => ⟨S100000x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S1x128x128, .f32⟩
  | 11 => ⟨S128x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x1, .f32⟩
  | 26 => ⟨S100000x128, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S1x128x128, .f32⟩
  | 55 => ⟨S128x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .f32⟩
  | 70 => ⟨S1600000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x1, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x1, .f32⟩
  | 127 => ⟨S100000x128, .f32⟩
  | _ => ⟨S100000x128, .f32⟩

abbrev hbmTy0_2 (i : Nat) : BufTy := match i % 128 with
  | 0 => ⟨S100000x128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S100000x1, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x1, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x1, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x1, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S1x128x128, .f32⟩
  | 116 => ⟨S128x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_3 (i : Nat) : BufTy := match i % 128 with
  | 0 => ⟨S100000x128, .f32⟩
  | 1 => ⟨S100000x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S_, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_cst : Ref sig .tc := ⟨.hbm, 62, rfl⟩
abbrev main_call1_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call2_cst : Ref sig .tc := ⟨.hbm, 106, rfl⟩
abbrev main_call2_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_22 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call3_cst : Ref sig .tc := ⟨.hbm, 150, rfl⟩
abbrev main_call3_v0 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_23 : Ref sig .tc := ⟨.hbm, 156, rfl⟩
abbrev main_v115 : Ref sig .tc := ⟨.hbm, 157, rfl⟩
abbrev main_v116 : Ref sig .tc := ⟨.hbm, 158, rfl⟩
abbrev main_c_24 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_25 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_26 : Ref sig .tc := ⟨.hbm, 172, rfl⟩
abbrev main_v128 : Ref sig .tc := ⟨.hbm, 173, rfl⟩
abbrev main_v129 : Ref sig .tc := ⟨.hbm, 174, rfl⟩
abbrev main_cst_27 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_28 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_29 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_call4_cst : Ref sig .tc := ⟨.hbm, 194, rfl⟩
abbrev main_call4_v0 : Ref sig .tc := ⟨.hbm, 195, rfl⟩
abbrev main_v146 : Ref sig .tc := ⟨.hbm, 196, rfl⟩
abbrev main_cst_30 : Ref sig .tc := ⟨.hbm, 197, rfl⟩
abbrev main_v147 : Ref sig .tc := ⟨.hbm, 198, rfl⟩
abbrev main_cst_31 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_32 : Ref sig .tc := ⟨.hbm, 203, rfl⟩
abbrev main_call5_v0 : Ref sig .tc := ⟨.hbm, 204, rfl⟩
abbrev main_call5_v1 : Ref sig .tc := ⟨.hbm, 205, rfl⟩
abbrev main_v151 : Ref sig .tc := ⟨.hbm, 206, rfl⟩
abbrev main_cst_33 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_c_34 : Ref sig .tc := ⟨.hbm, 213, rfl⟩
abbrev main_v157 : Ref sig .tc := ⟨.hbm, 214, rfl⟩
abbrev main_v158 : Ref sig .tc := ⟨.hbm, 215, rfl⟩
abbrev main_c_35 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_36 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_37 : Ref sig .tc := ⟨.hbm, 229, rfl⟩
abbrev main_v170 : Ref sig .tc := ⟨.hbm, 230, rfl⟩
abbrev main_v171 : Ref sig .tc := ⟨.hbm, 231, rfl⟩
abbrev main_cst_38 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_cst_39 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_40 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_call6_cst : Ref sig .tc := ⟨.hbm, 251, rfl⟩
abbrev main_call6_v0 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_c_41 : Ref sig .tc := ⟨.hbm, 257, rfl⟩
abbrev main_v192 : Ref sig .tc := ⟨.hbm, 258, rfl⟩
abbrev main_v193 : Ref sig .tc := ⟨.hbm, 259, rfl⟩
abbrev main_c_42 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_cst_43 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_cst_44 : Ref sig .tc := ⟨.hbm, 273, rfl⟩
abbrev main_v205 : Ref sig .tc := ⟨.hbm, 274, rfl⟩
abbrev main_v206 : Ref sig .tc := ⟨.hbm, 275, rfl⟩
abbrev main_cst_45 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_cst_46 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_cst_47 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_call7_cst : Ref sig .tc := ⟨.hbm, 295, rfl⟩
abbrev main_call7_v0 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_c_48 : Ref sig .tc := ⟨.hbm, 301, rfl⟩
abbrev main_v227 : Ref sig .tc := ⟨.hbm, 302, rfl⟩
abbrev main_v228 : Ref sig .tc := ⟨.hbm, 303, rfl⟩
abbrev main_c_49 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_cst_50 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_cst_51 : Ref sig .tc := ⟨.hbm, 317, rfl⟩
abbrev main_v240 : Ref sig .tc := ⟨.hbm, 318, rfl⟩
abbrev main_v241 : Ref sig .tc := ⟨.hbm, 319, rfl⟩
abbrev main_cst_52 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_cst_53 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_cst_54 : Ref sig .tc := ⟨.hbm, 330, rfl⟩
abbrev main_v250 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_call8_cst : Ref sig .tc := ⟨.hbm, 339, rfl⟩
abbrev main_call8_v0 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_c_55 : Ref sig .tc := ⟨.hbm, 345, rfl⟩
abbrev main_v262 : Ref sig .tc := ⟨.hbm, 346, rfl⟩
abbrev main_v263 : Ref sig .tc := ⟨.hbm, 347, rfl⟩
abbrev main_c_56 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_cst_57 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_cst_58 : Ref sig .tc := ⟨.hbm, 361, rfl⟩
abbrev main_v275 : Ref sig .tc := ⟨.hbm, 362, rfl⟩
abbrev main_v276 : Ref sig .tc := ⟨.hbm, 363, rfl⟩
abbrev main_cst_59 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_cst_60 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_v284 : Ref sig .tc := ⟨.hbm, 373, rfl⟩
abbrev main_cst_61 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_call9_cst : Ref sig .tc := ⟨.hbm, 383, rfl⟩
abbrev main_call9_v0 : Ref sig .tc := ⟨.hbm, 384, rfl⟩
abbrev main_v293 : Ref sig .tc := ⟨.hbm, 385, rfl⟩
abbrev main_cst_62 : Ref sig .tc := ⟨.hbm, 386, rfl⟩
abbrev main_v294 : Ref sig .tc := ⟨.hbm, 387, rfl⟩
abbrev main_cst_63 : Ref sig .tc := ⟨.hbm, 388, rfl⟩
abbrev main_v295 : Ref sig .tc := ⟨.hbm, 389, rfl⟩
abbrev main_v296 : Ref sig .tc := ⟨.hbm, 390, rfl⟩
abbrev main_c_64 : Ref sig .tc := ⟨.hbm, 391, rfl⟩
abbrev main_call10_call0_cst : Ref sig .tc := ⟨.hbm, 392, rfl⟩
abbrev main_call10_call0_v0 : Ref sig .tc := ⟨.hbm, 393, rfl⟩
abbrev main_call10_call0_v1 : Ref sig .tc := ⟨.hbm, 394, rfl⟩
abbrev main_call10_call0_cst_0 : Ref sig .tc := ⟨.hbm, 395, rfl⟩
abbrev main_call10_call0_v2 : Ref sig .tc := ⟨.hbm, 396, rfl⟩
abbrev main_call10_call0_v3 : Ref sig .tc := ⟨.hbm, 397, rfl⟩
abbrev main_call10_call0_v4 : Ref sig .tc := ⟨.hbm, 398, rfl⟩
abbrev main_call10_call0_v5 : Ref sig .tc := ⟨.hbm, 399, rfl⟩
abbrev main_call10_call0_v6 : Ref sig .tc := ⟨.hbm, 400, rfl⟩
abbrev main_call10_call0_v7 : Ref sig .tc := ⟨.hbm, 401, rfl⟩
abbrev main_call10_call0_cst_1 : Ref sig .tc := ⟨.hbm, 402, rfl⟩
abbrev main_call10_call0_v8 : Ref sig .tc := ⟨.hbm, 403, rfl⟩
abbrev main_call10_call0_cst_2 : Ref sig .tc := ⟨.hbm, 404, rfl⟩
abbrev main_call10_call0_v9 : Ref sig .tc := ⟨.hbm, 405, rfl⟩
abbrev main_call10_call0_v10 : Ref sig .tc := ⟨.hbm, 406, rfl⟩
abbrev main_call10_call0_v11 : Ref sig .tc := ⟨.hbm, 407, rfl⟩
abbrev main_call10_call0_cst_3 : Ref sig .tc := ⟨.hbm, 408, rfl⟩
abbrev main_call10_call0_v12 : Ref sig .tc := ⟨.hbm, 409, rfl⟩
abbrev main_call10_call0_cst_4 : Ref sig .tc := ⟨.hbm, 410, rfl⟩
abbrev main_call10_call0_call0_v0 : Ref sig .tc := ⟨.hbm, 411, rfl⟩
abbrev main_call10_call0_call0_v1 : Ref sig .tc := ⟨.hbm, 412, rfl⟩
abbrev main_call10_v0 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_cst_65 : Ref sig .tc := ⟨.hbm, 418, rfl⟩
abbrev main_call11_v0 : Ref sig .tc := ⟨.hbm, 419, rfl⟩
abbrev main_call11_v1 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_cst_66 : Ref sig .tc := ⟨.hbm, 425, rfl⟩
abbrev main_v305 : Ref sig .tc := ⟨.hbm, 426, rfl⟩
abbrev main_cst_67 : Ref sig .tc := ⟨.hbm, 427, rfl⟩
abbrev main_v306 : Ref sig .tc := ⟨.hbm, 428, rfl⟩
abbrev main_v307 : Ref sig .tc := ⟨.hbm, 429, rfl⟩
abbrev main_c_68 : Ref sig .tc := ⟨.hbm, 430, rfl⟩
abbrev main_call12_call0_cst : Ref sig .tc := ⟨.hbm, 431, rfl⟩
abbrev main_call12_call0_v0 : Ref sig .tc := ⟨.hbm, 432, rfl⟩
abbrev main_call12_call0_v1 : Ref sig .tc := ⟨.hbm, 433, rfl⟩
abbrev main_call12_call0_cst_0 : Ref sig .tc := ⟨.hbm, 434, rfl⟩
abbrev main_call12_call0_v2 : Ref sig .tc := ⟨.hbm, 435, rfl⟩
abbrev main_call12_call0_v3 : Ref sig .tc := ⟨.hbm, 436, rfl⟩
abbrev main_call12_call0_v4 : Ref sig .tc := ⟨.hbm, 437, rfl⟩
abbrev main_call12_call0_v5 : Ref sig .tc := ⟨.hbm, 438, rfl⟩
abbrev main_call12_call0_v6 : Ref sig .tc := ⟨.hbm, 439, rfl⟩
abbrev main_call12_call0_v7 : Ref sig .tc := ⟨.hbm, 440, rfl⟩
abbrev main_call12_call0_cst_1 : Ref sig .tc := ⟨.hbm, 441, rfl⟩
abbrev main_call12_call0_v8 : Ref sig .tc := ⟨.hbm, 442, rfl⟩
abbrev main_call12_call0_cst_2 : Ref sig .tc := ⟨.hbm, 443, rfl⟩
abbrev main_call12_call0_v9 : Ref sig .tc := ⟨.hbm, 444, rfl⟩
abbrev main_call12_call0_v10 : Ref sig .tc := ⟨.hbm, 445, rfl⟩
abbrev main_call12_call0_v11 : Ref sig .tc := ⟨.hbm, 446, rfl⟩
abbrev main_call12_call0_cst_3 : Ref sig .tc := ⟨.hbm, 447, rfl⟩
abbrev main_call12_call0_v12 : Ref sig .tc := ⟨.hbm, 448, rfl⟩
abbrev main_call12_call0_cst_4 : Ref sig .tc := ⟨.hbm, 449, rfl⟩
abbrev main_call12_call0_call0_v0 : Ref sig .tc := ⟨.hbm, 450, rfl⟩
abbrev main_call12_call0_call0_v1 : Ref sig .tc := ⟨.hbm, 451, rfl⟩
abbrev main_call12_v0 : Ref sig .tc := ⟨.hbm, 452, rfl⟩
abbrev main_v308 : Ref sig .tc := ⟨.hbm, 453, rfl⟩
abbrev main_v309 : Ref sig .tc := ⟨.hbm, 454, rfl⟩
abbrev main_v310 : Ref sig .tc := ⟨.hbm, 455, rfl⟩
abbrev main_v311 : Ref sig .tc := ⟨.hbm, 456, rfl⟩
abbrev main_cst_69 : Ref sig .tc := ⟨.hbm, 457, rfl⟩
abbrev main_call13_v0 : Ref sig .tc := ⟨.hbm, 458, rfl⟩
abbrev main_call13_v1 : Ref sig .tc := ⟨.hbm, 459, rfl⟩
abbrev main_v312 : Ref sig .tc := ⟨.hbm, 460, rfl⟩
abbrev main_v313 : Ref sig .tc := ⟨.hbm, 461, rfl⟩
abbrev main_v314 : Ref sig .tc := ⟨.hbm, 462, rfl⟩
abbrev main_v315 : Ref sig .tc := ⟨.hbm, 463, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The two-graph residual graph convolution and the column standardisation, as pure functions of the argument arrays.

  For one graph with node features `feat`, edge lists `src`, `dst`, layer weights `W` and biases `B`:
  the in-degree scale is n = max(1, #{e : dst e = r})^(-1/2) per node r; one layer maps features x to
    relu( c₁·h + c₂·(h W_l) + b_l ),   h = 0.9·(n ⊙ Σ_{e : dst e = r} (n ⊙ x)[src e]) + 0.1·feat,
  and four layers are applied in turn; the result's columns are then centred by their mean and divided by
  max(ε, their sample standard deviation). Every function below is the composition of the host operations
  in the order the jnp reference applies them, so that the reference's run ends, by definition, at
  `out feat src dst W B`; the kernel's run is proved to end at the same function.
-/
import proofs.«158605_j26792005992870_2_alg».proof.ReferenceIdeal
import Idealize.ShloMosaic.PureOps.Ideal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- A float array of shape `s`, as a buffer's contents. -/
abbrev FArr (F : FTy → Type) (s : Shape) : Type := (⟨s, .f32⟩ : BufTy).Contents (Elt F)
/-- A 32-bit integer array of shape `s`, as a buffer's contents. -/
abbrev IArr (F : FTy → Type) (s : Shape) : Type := (⟨s, .i32⟩ : BufTy).Contents (Elt F)

/-- One float word at every entry of a node-feature array. -/
def splat (w : BitVec 32) : FArr F S100000x128 :=
  broadcastInDim S100000x128 ![] bcast_S_S100000x128 (constant S_ .f32 w)

/-- The in-degree scale of every node: max(1, in-degree)^(-1/2), the in-degree counted by adding a one per edge
    at the edge's target. -/
def degScale (dst : IArr F S1600000) : FArr F S100000 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32))))
    (broadcastInDim S100000 ![] bcast_S_S100000 (constant S_ .f32 0xBF000000#32))

/-- A per-node value repeated along the feature axis. -/
def alongRows (n : FArr F S100000) : FArr F S100000x128 :=
  broadcastInDim S100000x128 ![0, 1] bcast_S100000x1_S100000x128_0_1
    (broadcastInDim S100000x1 ![0] bcast_S100000_S100000x1_0 n)

/-- A per-feature value repeated along the node axis. -/
def alongCols (b : FArr F S128) : FArr F S100000x128 :=
  broadcastInDim S100000x128 ![0, 1] bcast_S1x128_S100000x128_0_1 (broadcastInDim S1x128 ![1] bcast_S128_S1x128_1 b)

/-- The edges' source rows as gather indices: a negative index counts from the end. -/
def sourceRows (src : IArr F S1600000) : IArr F S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Σ over the edges into each node of the source node's row of `h`. -/
def neighbourSum (h : FArr F S100000x128) (src dst : IArr F S1600000) : FArr F S100000x128 :=
  Host.scatterAdd scatter_S100000x128_S1600000x1_S1600000x128_1_0_0_1 (splat 0x00000000#32)
    (broadcastInDim S1600000x1 ![0] bcast_S1600000_S1600000x1_0 dst)
    (Host.gather gather_S100000x128_S1600000x1_S1600000x128_1_0_n_n_0_1_1128 h (sourceRows src))

/-- The initial residual: 0.9·(agg ⊙ n) + 0.1·feat. -/
def residual (agg nrows feat0 : FArr F S100000x128) : FArr F S100000x128 :=
  addf (mulf (splat 0x3F666666#32) (mulf agg nrows)) (mulf (splat 0x3DCCCCCD#32) feat0)

/-- The identity mapping and the activation: relu(c₁·h + c₂·(h W) + b). -/
def activate (c₁ c₂ : BitVec 32) (W : FArr F S128x128) (b : FArr F S128) (h : FArr F S100000x128) : FArr F S100000x128 :=
  maximumf
    (addf (addf (mulf (splat c₁) h)
        (mulf (splat c₂) (Host.dotGeneral dot_S100000x128_S128x128_S100000x128_1_0_0_1_n_n none h W)))
      (alongCols b))
    (splat 0x00000000#32)

/-- One layer, from the previous layer's features `x`. -/
def layer (c₁ c₂ : BitVec 32) (W : FArr F S128x128) (b : FArr F S128) (n : FArr F S100000) (feat0 : FArr F S100000x128)
    (src dst : IArr F S1600000) (x : FArr F S100000x128) : FArr F S100000x128 :=
  activate c₁ c₂ W b (residual (neighbourSum (mulf x (alongRows n)) src dst) (alongRows n) feat0)

def weight0 (W : FArr F S4x128x128) : FArr F S128x128 :=
  shapeCast S128x128 (extractStridedSlice S1x128x128 ![0, 0, 0] W slices_S4x128x128_S1x128x128_0_0_0) shapeCasts_S1x128x128_S128x128
def weight1 (W : FArr F S4x128x128) : FArr F S128x128 :=
  shapeCast S128x128 (extractStridedSlice S1x128x128 ![1, 0, 0] W slices_S4x128x128_S1x128x128_1_0_0) shapeCasts_S1x128x128_S128x128
def weight2 (W : FArr F S4x128x128) : FArr F S128x128 :=
  shapeCast S128x128 (extractStridedSlice S1x128x128 ![2, 0, 0] W slices_S4x128x128_S1x128x128_2_0_0) shapeCasts_S1x128x128_S128x128
def weight3 (W : FArr F S4x128x128) : FArr F S128x128 :=
  shapeCast S128x128 (extractStridedSlice S1x128x128 ![3, 0, 0] W slices_S4x128x128_S1x128x128_3_0_0) shapeCasts_S1x128x128_S128x128
def bias0 (B : FArr F S4x128) : FArr F S128 :=
  shapeCast S128 (extractStridedSlice S1x128 ![0, 0] B slices_S4x128_S1x128_0_0) shapeCasts_S1x128_S128
def bias1 (B : FArr F S4x128) : FArr F S128 :=
  shapeCast S128 (extractStridedSlice S1x128 ![1, 0] B slices_S4x128_S1x128_1_0) shapeCasts_S1x128_S128
def bias2 (B : FArr F S4x128) : FArr F S128 :=
  shapeCast S128 (extractStridedSlice S1x128 ![2, 0] B slices_S4x128_S1x128_2_0) shapeCasts_S1x128_S128
def bias3 (B : FArr F S4x128) : FArr F S128 :=
  shapeCast S128 (extractStridedSlice S1x128 ![3, 0] B slices_S4x128_S1x128_3_0) shapeCasts_S1x128_S128

/-- The features after each of the four layers (c₁ = 1 − log(1 + 1/l), c₂ = log(1 + 1/l), as their f32 words). -/
def feat1 (feat : FArr F S100000x128) (src dst : IArr F S1600000) (W : FArr F S4x128x128) (B : FArr F S4x128) : FArr F S100000x128 :=
  layer 0x3E9D1BD0#32 0x3F317218#32 (weight0 W) (bias0 B) (degScale dst) feat src dst feat
def feat2 (feat : FArr F S100000x128) (src dst : IArr F S1600000) (W : FArr F S4x128x128) (B : FArr F S4x128) : FArr F S100000x128 :=
  layer 0x3F183370#32 0x3ECF991F#32 (weight1 W) (bias1 B) (degScale dst) feat src dst (feat1 feat src dst W B)
def feat3 (feat : FArr F S100000x128) (src dst : IArr F S1600000) (W : FArr F S4x128x128) (B : FArr F S4x128) : FArr F S100000x128 :=
  layer 0x3F365A78#32 0x3E934B11#32 (weight2 W) (bias2 B) (degScale dst) feat src dst (feat2 feat src dst W B)
def feat4 (feat : FArr F S100000x128) (src dst : IArr F S1600000) (W : FArr F S4x128x128) (B : FArr F S4x128) : FArr F S100000x128 :=
  layer 0x3F46E010#32 0x3E647FBE#32 (weight3 W) (bias3 B) (degScale dst) feat src dst (feat3 feat src dst W B)

/-- Σ over the nodes, per feature. -/
def colSum (x : FArr F S100000x128) : FArr F S128 :=
  Host.reduceAdd x (constant S_ .f32 0x00000000#32) reducesTo_S100000x128_S128_d0 h_S_

/-- The column means: the column sums over 100000. -/
def colMean (x : FArr F S100000x128) : FArr F S128 :=
  Host.divf (colSum x) (broadcastInDim S128 ![] bcast_S_S128 (constant S_ .f32 0x47C35000#32))

/-- The number of degrees of freedom, 100000 − 1. -/
def dofs : (⟨S_, .f32⟩ : BufTy).Contents (Elt F) :=
  subf (constant S_ .f32 0x47C35000#32) (sitofp .f32 (constantI S_ 32 1#32))

/-- The deviations from the column mean. -/
def centred (x : FArr F S100000x128) : FArr F S100000x128 :=
  subf x (broadcastInDim S100000x128 ![0, 1] bcast_S1x128_S100000x128_0_1
    (Host.divf (broadcastInDim S1x128 ![1] bcast_S128_S1x128_1 (colSum x))
      (broadcastInDim S1x128 ![] bcast_S_S1x128 (constant S_ .f32 0x47C35000#32))))

/-- The sample variance per feature: Σ (x − mean)² over the degrees of freedom (where these are positive). -/
def colVar (x : FArr F S100000x128) : FArr F S128 :=
  select (broadcastInDim S128 ![] bcast_S_S128 (cmpf .ogt (dofs (F := F)) (constant S_ .f32 0x00000000#32)))
    (Host.divf (colSum (mulf (centred x) (centred x))) (broadcastInDim S128 ![] bcast_S_S128 (dofs (F := F))))
    (broadcastInDim S128 ![] bcast_S_S128 (id (constant S_ .f32 0x7FC00000#32)))

/-- Centre every column and divide it by max(ε, its sample standard deviation). -/
def standardize (x : FArr F S100000x128) : FArr F S100000x128 :=
  Host.divf (subf x (alongCols (colMean x)))
    (alongCols (maximumf (broadcastInDim S128 ![] bcast_S_S128 (id (constant S_ .f32 0x2B8CBCCC#32))) (Host.sqrt (colVar x))))

/-- The result for one graph. -/
def out (feat : FArr F S100000x128) (src dst : IArr F S1600000) (W : FArr F S4x128x128) (B : FArr F S4x128) : FArr F S100000x128 :=
  standardize (feat4 feat src dst W B)

/-- Every entry of an array of extended reals is a real number. -/
def AllReal {s : Shape} (x : FVec Ideal s .f32) : Prop := ∀ i, ∃ r : ℝ, x i = (r : EReal)

end Cert.Gcn

end
-- ==== Proof.PreReal.lean ====
/-
  The precondition read back: every float input is real.

  The precondition is jnp.all(|a| < +∞) of each of the four float inputs, and-ed.  On the extended reals |a| = max(a, −a),
  and max(a, −a) < +∞ fails exactly at a = +∞ and a = −∞; so where the and of the four reductions is 1, every entry of every
  float input is a real number.
-/
import proofs.«158605_j26792005992870_2_alg».proof.Pre_finite_inputs
import proofs.«158605_j26792005992870_2_alg».proof.Proof.Spec
import Idealize.ShloMosaic.Lib.ReduceAll
import Idealize.ShloMosaic.Lib.IdealHost

namespace Cert.Gcn

open Idealize.ShloMosaic Idealize.ShloMosaic.ValueIdx

/-- The scalar shape has one index. -/
instance subsingleton_scalarIdx : Subsingleton (⟨0, ![]⟩ : Shape).Idx := ⟨fun a b => funext fun d => d.elim0⟩

/-- The word 0x7F800000 is +∞. -/
theorem word_inf : Ideal.ofBits .f32 0x7F800000#32 = ⊤ := by simp [Ideal.ofBits, Ideal.ieee]

/-- max(a, −a) < +∞ says a is a real number. -/
theorem real_of_abs_lt_top (a : EReal) (h : Ideal.cmp .olt (max a (-a)) (Ideal.ofBits .f32 0x7F800000#32) = 1#1) :
    ∃ r : ℝ, a = (r : EReal) := by
  rw [word_inf] at h
  induction a using EReal.rec with
  | bot => simp [Ideal.cmp] at h
  | top => simp [Ideal.cmp] at h
  | coe r => exact ⟨r, rfl⟩

/-- One jnp.all(|a| < +∞) that is 1: every entry of a is real. -/
theorem allReal_of_all {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (init : IVec ⟨0, ![]⟩ 1)
    (e : Host.reduce IntOp.andi
        (cmpf .olt (Host.absf a) (broadcastInDim s ![] hb (constant (F := Ideal) ⟨0, ![]⟩ .f32 0x7F800000#32))) init hr hu ix0 = 1#1) :
    AllReal a := by
  intro i
  have hi := Host.reduce_andi_all _ init hr hu ix0 e i
  rw [cmpf_apply, broadcastInDim_scalar_apply] at hi
  exact real_of_abs_lt_top (a i) hi

/-- THE PRECONDITION READ BACK: each of the four float inputs has only real entries. -/
theorem pre_real [Cert.Pre_finite_inputs.Facts]
    (a0 a1 : FVec Ideal Cert.Pre_finite_inputs.S100000x128 .f32) (a2 a3 a4 a5 : IVec Cert.Pre_finite_inputs.S1600000 32)
    (a6 : FVec Ideal Cert.Pre_finite_inputs.S4x128x128 .f32) (a7 : FVec Ideal Cert.Pre_finite_inputs.S4x128 .f32)
    (h : Cert.Pre_finite_inputs.fn (F := Ideal) a0 a1 a2 a3 a4 a5 a6 a7 = fun _ => 1#1) :
    AllReal a0 ∧ AllReal a1 ∧ AllReal a6 ∧ AllReal a7 := by
  have e := congrFun h ix0
  dsimp only [Cert.Pre_finite_inputs.fn, Cert.Pre_finite_inputs.fn_part1] at e
  obtain ⟨e13, e17⟩ := IntOp.andi_eq_one.1 e
  obtain ⟨e8, e12⟩ := IntOp.andi_eq_one.1 e13
  obtain ⟨e3, e7⟩ := IntOp.andi_eq_one.1 e8
  exact ⟨allReal_of_all a0 _ _ _ _ e3, allReal_of_all a1 _ _ _ _ e7, allReal_of_all a6 _ _ _ _ e12,
    allReal_of_all a7 _ _ _ _ e17⟩

end Cert.Gcn
-- ==== Proof.KernelRun.lean ====
/-
  The idealized kernel's run, with its two result arrays named.

  Every weakly fair execution of the program from a memory with zero counters terminates without a fault; at the end
  each result buffer holds what the fold of the program's twenty segments (stretches of host operations and the six
  kernel regions, each region's arrays at what its write-backs leave) puts there, and the argument arrays are as launched.
-/
import proofs.«158605_j26792005992870_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the segments, the last thread state read against the final state; each result buffer at
    the last boundary's contents, each argument walked back to the launch memory. -/
theorem run : θ_run defs (onTc (τ := τ) (main (F := F))) ⟨m, fun _ => 0, ρ⟩ (fun r => ∀ c : Dev nD,
      r.2.mem ((c.tc : Thread nD τ).loc main_v165) = W20 m ρ c (Proc.devRef .tc main_v165)
      ∧ r.2.mem ((c.tc : Thread nD τ).loc main_v185) = W20 m ρ c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v165 (by decide)),
       h c _ (mem_uc main_v185 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c)⟩)

end Cert.KernelIdeal.Hand

end
-- ==== Proof.StdK.lean ====
/-
  The kernel's column statistics for the standardisation, as pure functions of the feature array.

  For x of shape 100000 × 128 the kernel forms, per column, s = Σ_r x and q = Σ_r x·x in one pass, then
    mean = s / 100000,   var = (q − s·s / 100000) / 99999,   inv = 1 / max(ε, √(max(var, 0))),
  each as a 1 × 128 row; the final (x − mean)·inv is computed entry by entry afterwards.  The two functions
  below are the compositions of the host operations in the order the kernel applies them.
-/
import proofs.«158605_j26792005992870_2_alg».proof.KernelIdeal

noncomputable section

namespace Cert.GcnK

open Idealize.ShloMosaic Cert.KernelIdeal Cert.KernelIdeal.Facts₀ Cert.KernelIdeal.Facts

variable {F : FTy → Type} [FloatOps F] [Cert.KernelIdeal.Facts]

/-- The column means as a 1 × 128 row: the column sums over 100000. -/
def meanK (x : (⟨S100000x128, .f32⟩ : BufTy).Contents (Elt F)) : (⟨S1x128, .f32⟩ : BufTy).Contents (Elt F) :=
  Host.divf
    (broadcastInDim S1x128 ![1] bcast_S128_S1x128_1
      (Host.reduceAdd x (constant S_ .f32 0x00000000#32) reducesTo_S100000x128_S128_d0 h_S_))
    (broadcastInDim S1x128 ![] bcast_S_S1x128 (constant S_ .f32 0x47C35000#32))

/-- The reciprocal of max(ε, √(max(var, 0))) as a 1 × 128 row, with var = (Σ x·x − (Σ x)·(Σ x) / 100000) / 99999. -/
def invStdK (x : (⟨S100000x128, .f32⟩ : BufTy).Contents (Elt F)) : (⟨S1x128, .f32⟩ : BufTy).Contents (Elt F) :=
  Host.divf
    (broadcastInDim S1x128 ![] bcast_S_S1x128 (constant S_ .f32 0x3F800000#32))
    (maximumf
      (broadcastInDim S1x128 ![] bcast_S_S1x128 (id (constant S_ .f32 0x2B8CBCCC#32)))
      (Host.sqrt
        (maximumf
          (Host.divf
            (subf
              (broadcastInDim S1x128 ![1] bcast_S128_S1x128_1
                (Host.reduceAdd (mulf x x) (constant S_ .f32 0x00000000#32) reducesTo_S100000x128_S128_d0 h_S_))
              (Host.divf
                (mulf
                  (broadcastInDim S1x128 ![1] bcast_S128_S1x128_1
                    (Host.reduceAdd x (constant S_ .f32 0x00000000#32) reducesTo_S100000x128_S128_d0 h_S_))
                  (broadcastInDim S1x128 ![1] bcast_S128_S1x128_1
                    (Host.reduceAdd x (constant S_ .f32 0x00000000#32) reducesTo_S100000x128_S128_d0 h_S_)))
                (broadcastInDim S1x128 ![] bcast_S_S1x128 (constant S_ .f32 0x47C35000#32))))
            (broadcastInDim S1x128 ![] bcast_S_S1x128 (constant S_ .f32 0x47C34F80#32)))
          (broadcastInDim S1x128 ![] bcast_S_S1x128 (constant S_ .f32 0x00000000#32)))))

end Cert.GcnK

end
-- ==== Proof.KDefs.lean ====
/-
  The kernel program's host side as pure functions.

  The kernel keeps the two graphs stacked along the node axis: rows 0 … 99999 are the first graph's, rows
  100000 … 199999 the second's. Before the first region the host computes each graph's in-degree scale as a column,
  the scaled input features, the neighbour sums of both graphs stacked, and the stacked scales and input features;
  between two regions it cuts the previous region's scaled output back into the two graphs, sums over the neighbours
  again and stacks; after the last layer it cuts the output into the two graphs and forms each one's column statistics.
  Each definition is the composition of the host operations in program order; each theorem reads one buffer at one
  boundary as such a composition of the buffers at the previous boundary (the operations' results unfolded in one pass).
-/
import proofs.«158605_j26792005992870_2_alg».proof.Proof.Gen.KernelIdeal.Frame
import proofs.«158605_j26792005992870_2_alg».proof.Proof.StdK

set_option maxRecDepth 16384

noncomputable section

namespace Cert.GcnK

open Idealize.ShloMosaic Cert.KernelIdeal Cert.KernelIdeal.Facts₀ Cert.KernelIdeal.Facts

variable {F : FTy → Type} [FloatOps F] [Cert.KernelIdeal.Facts]

/-- The in-degree scale max(1, in-degree)^(-1/2) of every node. -/
def degScaleK (dst : (⟨S1600000, .i32⟩ : BufTy).Contents (Elt F)) : (⟨S100000, .f32⟩ : BufTy).Contents (Elt F) :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32))))
    (broadcastInDim S100000 ![] bcast_S_S100000 (constant S_ .f32 0xBF000000#32))

/-- A per-node value as a column. -/
def colK (n : (⟨S100000, .f32⟩ : BufTy).Contents (Elt F)) : (⟨S100000x1, .f32⟩ : BufTy).Contents (Elt F) := shapeCast S100000x1 n shapeCasts_S100000_S100000x1

/-- A column repeated along the feature axis. -/
def colRowsK (v : (⟨S100000x1, .f32⟩ : BufTy).Contents (Elt F)) : (⟨S100000x128, .f32⟩ : BufTy).Contents (Elt F) :=
  broadcastInDim S100000x128 ![0, 1] bcast_S100000x1_S100000x128_0_1 v

/-- The edges' source rows as gather indices: a negative index counts from the end. -/
def sourceRowsK (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Σ over the edges into each node of the source node's row of `h`. -/
def neighbourSumK (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (sourceRowsK src))

/-- Two graphs' node-feature arrays stacked along the node axis. -/
def stack (a b : (⟨S100000x128, .f32⟩ : BufTy).Contents (Elt F)) : (⟨S200000x128, .f32⟩ : BufTy).Contents (Elt F) :=
  concatenate S200000x128 0 [⟨S100000x128, a⟩, ⟨S100000x128, b⟩] concatenates_S100000x128_S100000x128_S200000x128_d0
/-- Two graphs' columns stacked along the node axis. -/
def stackCol (a b : (⟨S100000x1, .f32⟩ : BufTy).Contents (Elt F)) : (⟨S200000x1, .f32⟩ : BufTy).Contents (Elt F) :=
  concatenate S200000x1 0 [⟨S100000x1, a⟩, ⟨S100000x1, b⟩] concatenates_S100000x1_S100000x1_S200000x1_d0
/-- The first graph's rows of a stacked array. -/
def lo (X : (⟨S200000x128, .f32⟩ : BufTy).Contents (Elt F)) : (⟨S100000x128, .f32⟩ : BufTy).Contents (Elt F) :=
  extractStridedSlice S100000x128 ![0, 0] X slices_S200000x128_S100000x128_0_0
/-- The second graph's rows of a stacked array. -/
def hi (X : (⟨S200000x128, .f32⟩ : BufTy).Contents (Elt F)) : (⟨S100000x128, .f32⟩ : BufTy).Contents (Elt F) :=
  extractStridedSlice S100000x128 ![100000, 0] X slices_S200000x128_S100000x128_100000_0

/-- The two graphs' neighbour sums, stacked. -/
def aggStackK (h₁ h₂ : (⟨S100000x128, .f32⟩ : BufTy).Contents (Elt F)) (src₁ dst₁ src₂ dst₂ : (⟨S1600000, .i32⟩ : BufTy).Contents (Elt F)) : (⟨S200000x128, .f32⟩ : BufTy).Contents (Elt F) :=
  stack (neighbourSumK h₁ src₁ dst₁) (neighbourSumK h₂ src₂ dst₂)

/-- Layer 1's weight matrix. -/
def weightK0 (W : (⟨S4x128x128, .f32⟩ : BufTy).Contents (Elt F)) : (⟨S128x128, .f32⟩ : BufTy).Contents (Elt F) :=
  shapeCast S128x128 (extractStridedSlice S1x128x128 ![0, 0, 0] W slices_S4x128x128_S1x128x128_0_0_0) shapeCasts_S1x128x128_S128x128
/-- Layer 1's bias as a row. -/
def biasRowK0 (B : (⟨S4x128, .f32⟩ : BufTy).Contents (Elt F)) : (⟨S1x128, .f32⟩ : BufTy).Contents (Elt F) :=
  shapeCast S1x128 (shapeCast S128 (extractStridedSlice S1x128 ![0, 0] B slices_S4x128_S1x128_0_0) shapeCasts_S1x128_S128) shapeCasts_S128_S1x128

/-- Layer 2's weight matrix. -/
def weightK1 (W : (⟨S4x128x128, .f32⟩ : BufTy).Contents (Elt F)) : (⟨S128x128, .f32⟩ : BufTy).Contents (Elt F) :=
  shapeCast S128x128 (extractStridedSlice S1x128x128 ![1, 0, 0] W slices_S4x128x128_S1x128x128_1_0_0) shapeCasts_S1x128x128_S128x128
/-- Layer 2's bias as a row. -/
def biasRowK1 (B : (⟨S4x128, .f32⟩ : BufTy).Contents (Elt F)) : (⟨S1x128, .f32⟩ : BufTy).Contents (Elt F) :=
  shapeCast S1x128 (shapeCast S128 (extractStridedSlice S1x128 ![1, 0] B slices_S4x128_S1x128_1_0) shapeCasts_S1x128_S128) shapeCasts_S128_S1x128

/-- Layer 3's weight matrix. -/
def weightK2 (W : (⟨S4x128x128, .f32⟩ : BufTy).Contents (Elt F)) : (⟨S128x128, .f32⟩ : BufTy).Contents (Elt F) :=
  shapeCast S128x128 (extractStridedSlice S1x128x128 ![2, 0, 0] W slices_S4x128x128_S1x128x128_2_0_0) shapeCasts_S1x128x128_S128x128
/-- Layer 3's bias as a row. -/
def biasRowK2 (B : (⟨S4x128, .f32⟩ : BufTy).Contents (Elt F)) : (⟨S1x128, .f32⟩ : BufTy).Contents (Elt F) :=
  shapeCast S1x128 (shapeCast S128 (extractStridedSlice S1x128 ![2, 0] B slices_S4x128_S1x128_2_0) shapeCasts_S1x128_S128) shapeCasts_S128_S1x128

/-- Layer 4's weight matrix. -/
def weightK3 (W : (⟨S4x128x128, .f32⟩ : BufTy).Contents (Elt F)) : (⟨S128x128, .f32⟩ : BufTy).Contents (Elt F) :=
  shapeCast S128x128 (extractStridedSlice S1x128x128 ![3, 0, 0] W slices_S4x128x128_S1x128x128_3_0_0) shapeCasts_S1x128x128_S128x128
/-- Layer 4's bias as a row. -/
def biasRowK3 (B : (⟨S4x128, .f32⟩ : BufTy).Contents (Elt F)) : (⟨S1x128, .f32⟩ : BufTy).Contents (Elt F) :=
  shapeCast S1x128 (shapeCast S128 (extractStridedSlice S1x128 ![3, 0] B slices_S4x128_S1x128_3_0) shapeCasts_S1x128_S128) shapeCasts_S128_S1x128

end Cert.GcnK

end
-- ==== Proof.KHost.lean ====
/-
  What the kernel program's buffers hold at each boundary between a stretch of host operations and a kernel region.

  Each theorem reads one buffer at one boundary as the composition of the host operations that produced it, applied to
  the buffers at the previous boundary (the operations' results unfolded in one pass); a buffer no operation of a stretch
  writes, and no region's write-back touches, keeps its contents, and an input array of a region is left as it was
  found. The stacked in-degree scales and the stacked input features are computed once, before the first region, and are
  an input array of each of the four regions.
-/
import proofs.«158605_j26792005992870_2_alg».proof.Proof.Gen.KernelIdeal.Frame
import proofs.«158605_j26792005992870_2_alg».proof.Proof.KDefs

set_option maxRecDepth 16384

noncomputable section

namespace Cert.KernelIdeal.Hand

open Cert.KernelIdeal Cert.KernelIdeal.Gen Cert.GcnK
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer none of a literal line's operations writes keeps its contents over the line. -/
macro "keeps " ops:ident : tactic => `(tactic| exact StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton]
  repeat' apply And.intro
  all_goals exact StableHlo.devRef_ne_of_ne (by decide))))

/-! ## The arguments at every region's exit, and the stacked scales and features at every region's entry -/
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by keeps hostOps0_4
    _ = W3 m ρ c (Proc.devRef .tc main_arg7) := by keeps hostOps0_3
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by keeps hostOps1
    _ = W5 m ρ c (Proc.devRef .tc main_arg2) := W6_of_ne m ρ c main_arg2 (by decide)
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by keeps hostOps1
    _ = W5 m ρ c (Proc.devRef .tc main_arg3) := W6_of_ne m ρ c main_arg3 (by decide)
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by keeps hostOps1
    _ = W5 m ρ c (Proc.devRef .tc main_arg4) := W6_of_ne m ρ c main_arg4 (by decide)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by keeps hostOps1
    _ = W5 m ρ c (Proc.devRef .tc main_arg5) := W6_of_ne m ρ c main_arg5 (by decide)
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by keeps hostOps1
    _ = W5 m ρ c (Proc.devRef .tc main_arg6) := W6_of_ne m ρ c main_arg6 (by decide)
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by keeps hostOps1
    _ = W5 m ρ c (Proc.devRef .tc main_arg7) := W6_of_ne m ρ c main_arg7 (by decide)
    _ = W4 m ρ c (Proc.devRef .tc main_arg7) := by keeps hostOps0_4
    _ = W3 m ρ c (Proc.devRef .tc main_arg7) := by keeps hostOps0_3
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by keeps hostOps2
    _ = W7 m ρ c (Proc.devRef .tc main_arg2) := W8_of_ne m ρ c main_arg2 (by decide)
    _ = W6 m ρ c (Proc.devRef .tc main_arg2) := by keeps hostOps1
    _ = W5 m ρ c (Proc.devRef .tc main_arg2) := W6_of_ne m ρ c main_arg2 (by decide)
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

theorem W10_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := by keeps hostOps2
    _ = W7 m ρ c (Proc.devRef .tc main_arg3) := W8_of_ne m ρ c main_arg3 (by decide)
    _ = W6 m ρ c (Proc.devRef .tc main_arg3) := by keeps hostOps1
    _ = W5 m ρ c (Proc.devRef .tc main_arg3) := W6_of_ne m ρ c main_arg3 (by decide)
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

theorem W10_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := by keeps hostOps2
    _ = W7 m ρ c (Proc.devRef .tc main_arg4) := W8_of_ne m ρ c main_arg4 (by decide)
    _ = W6 m ρ c (Proc.devRef .tc main_arg4) := by keeps hostOps1
    _ = W5 m ρ c (Proc.devRef .tc main_arg4) := W6_of_ne m ρ c main_arg4 (by decide)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

theorem W10_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := by keeps hostOps2
    _ = W7 m ρ c (Proc.devRef .tc main_arg5) := W8_of_ne m ρ c main_arg5 (by decide)
    _ = W6 m ρ c (Proc.devRef .tc main_arg5) := by keeps hostOps1
    _ = W5 m ρ c (Proc.devRef .tc main_arg5) := W6_of_ne m ρ c main_arg5 (by decide)
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

theorem W10_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by keeps hostOps2
    _ = W7 m ρ c (Proc.devRef .tc main_arg6) := W8_of_ne m ρ c main_arg6 (by decide)
    _ = W6 m ρ c (Proc.devRef .tc main_arg6) := by keeps hostOps1
    _ = W5 m ρ c (Proc.devRef .tc main_arg6) := W6_of_ne m ρ c main_arg6 (by decide)
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by keeps hostOps2
    _ = W7 m ρ c (Proc.devRef .tc main_arg7) := W8_of_ne m ρ c main_arg7 (by decide)
    _ = W6 m ρ c (Proc.devRef .tc main_arg7) := by keeps hostOps1
    _ = W5 m ρ c (Proc.devRef .tc main_arg7) := W6_of_ne m ρ c main_arg7 (by decide)
    _ = W4 m ρ c (Proc.devRef .tc main_arg7) := by keeps hostOps0_4
    _ = W3 m ρ c (Proc.devRef .tc main_arg7) := by keeps hostOps0_3
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by keeps hostOps0_4
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by keeps hostOps0_4
    _ = W3 m ρ c (Proc.devRef .tc main_arg1) := by keeps hostOps0_3
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c : Thread nD τ).loc main_arg1) := rfl

theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by keeps hostOps0_4
    _ = W3 m ρ c (Proc.devRef .tc main_arg7) := by keeps hostOps0_3
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

/-! ## The stacked scales and the stacked input features are input arrays of every layer's region -/

theorem W6_v20 (c : Dev nD) : W6 m ρ c (Proc.devRef .tc main_v20) = W5 m ρ c (Proc.devRef .tc main_v20) :=
  (W6_arr m ρ c 1).trans (((dat0 (V5 m ρ) c).arrAt_in 1 rfl cfg0.N).trans (A_eq0 (V5 m ρ) c 1))
theorem W7_v20_step (c : Dev nD) : W7 m ρ c (Proc.devRef .tc main_v20) = W6 m ρ c (Proc.devRef .tc main_v20) := by keeps hostOps1

theorem W8_v20 (c : Dev nD) : W8 m ρ c (Proc.devRef .tc main_v20) = W7 m ρ c (Proc.devRef .tc main_v20) :=
  (W8_arr m ρ c 1).trans (((dat1 (V7 m ρ) c).arrAt_in 1 rfl cfg1.N).trans (A_eq1 (V7 m ρ) c 1))
theorem W9_v20_step (c : Dev nD) : W9 m ρ c (Proc.devRef .tc main_v20) = W8 m ρ c (Proc.devRef .tc main_v20) := by keeps hostOps2

theorem W10_v20 (c : Dev nD) : W10 m ρ c (Proc.devRef .tc main_v20) = W9 m ρ c (Proc.devRef .tc main_v20) :=
  (W10_arr m ρ c 1).trans (((dat2 (V9 m ρ) c).arrAt_in 1 rfl cfg2.N).trans (A_eq2 (V9 m ρ) c 1))
theorem W11_v20_step (c : Dev nD) : W11 m ρ c (Proc.devRef .tc main_v20) = W10 m ρ c (Proc.devRef .tc main_v20) := by keeps hostOps3

theorem W7_v20 (c : Dev nD) : W7 m ρ c (Proc.devRef .tc main_v20) = W5 m ρ c (Proc.devRef .tc main_v20) :=
  (W7_v20_step m ρ c).trans (W6_v20 m ρ c)
theorem W9_v20 (c : Dev nD) : W9 m ρ c (Proc.devRef .tc main_v20) = W5 m ρ c (Proc.devRef .tc main_v20) :=
  (W9_v20_step m ρ c).trans ((W8_v20 m ρ c).trans (W7_v20 m ρ c))
theorem W11_v20 (c : Dev nD) : W11 m ρ c (Proc.devRef .tc main_v20) = W5 m ρ c (Proc.devRef .tc main_v20) :=
  (W11_v20_step m ρ c).trans ((W10_v20 m ρ c).trans (W9_v20 m ρ c))

theorem W6_v21 (c : Dev nD) : W6 m ρ c (Proc.devRef .tc main_v21) = W5 m ρ c (Proc.devRef .tc main_v21) :=
  (W6_arr m ρ c 2).trans (((dat0 (V5 m ρ) c).arrAt_in 2 rfl cfg0.N).trans (A_eq0 (V5 m ρ) c 2))
theorem W7_v21_step (c : Dev nD) : W7 m ρ c (Proc.devRef .tc main_v21) = W6 m ρ c (Proc.devRef .tc main_v21) := by keeps hostOps1

theorem W8_v21 (c : Dev nD) : W8 m ρ c (Proc.devRef .tc main_v21) = W7 m ρ c (Proc.devRef .tc main_v21) :=
  (W8_arr m ρ c 2).trans (((dat1 (V7 m ρ) c).arrAt_in 2 rfl cfg1.N).trans (A_eq1 (V7 m ρ) c 2))
theorem W9_v21_step (c : Dev nD) : W9 m ρ c (Proc.devRef .tc main_v21) = W8 m ρ c (Proc.devRef .tc main_v21) := by keeps hostOps2

theorem W10_v21 (c : Dev nD) : W10 m ρ c (Proc.devRef .tc main_v21) = W9 m ρ c (Proc.devRef .tc main_v21) :=
  (W10_arr m ρ c 2).trans (((dat2 (V9 m ρ) c).arrAt_in 2 rfl cfg2.N).trans (A_eq2 (V9 m ρ) c 2))
theorem W11_v21_step (c : Dev nD) : W11 m ρ c (Proc.devRef .tc main_v21) = W10 m ρ c (Proc.devRef .tc main_v21) := by keeps hostOps3

theorem W7_v21 (c : Dev nD) : W7 m ρ c (Proc.devRef .tc main_v21) = W5 m ρ c (Proc.devRef .tc main_v21) :=
  (W7_v21_step m ρ c).trans (W6_v21 m ρ c)
theorem W9_v21 (c : Dev nD) : W9 m ρ c (Proc.devRef .tc main_v21) = W5 m ρ c (Proc.devRef .tc main_v21) :=
  (W9_v21_step m ρ c).trans ((W8_v21 m ρ c).trans (W7_v21 m ρ c))
theorem W11_v21 (c : Dev nD) : W11 m ρ c (Proc.devRef .tc main_v21) = W5 m ρ c (Proc.devRef .tc main_v21) :=
  (W11_v21_step m ρ c).trans ((W10_v21 m ρ c).trans (W9_v21 m ρ c))

/-! ## Before the first region -/

theorem W5_v20 (c : Dev nD) : W5 m ρ c (Proc.devRef .tc main_v20)
    = stackCol (colK (degScaleK (m ((c : Thread nD τ).loc main_arg3)))) (colK (degScaleK (m ((c : Thread nD τ).loc main_arg5)))) := by
  after_results_simp
  rfl

theorem W5_v21 (c : Dev nD) : W5 m ρ c (Proc.devRef .tc main_v21)
    = stack (m ((c : Thread nD τ).loc main_arg0)) (m ((c : Thread nD τ).loc main_arg1)) := by
  after_results_simp
  rfl

theorem W5_v42 (c : Dev nD) : W5 m ρ c (Proc.devRef .tc main_v42)
    = aggStackK (mulf (m ((c : Thread nD τ).loc main_arg0)) (colRowsK (colK (degScaleK (m ((c : Thread nD τ).loc main_arg3))))))
        (mulf (m ((c : Thread nD τ).loc main_arg1)) (colRowsK (colK (degScaleK (m ((c : Thread nD τ).loc main_arg5))))))
        (m ((c : Thread nD τ).loc main_arg2)) (m ((c : Thread nD τ).loc main_arg3))
        (m ((c : Thread nD τ).loc main_arg4)) (m ((c : Thread nD τ).loc main_arg5)) := by
  after_results_simp
  rfl

theorem W5_v44 (c : Dev nD) : W5 m ρ c (Proc.devRef .tc main_v44) = weightK0 (m ((c : Thread nD τ).loc main_arg6)) := by
  after_results_simp
  rfl

theorem W5_v47 (c : Dev nD) : W5 m ρ c (Proc.devRef .tc main_v47) = biasRowK0 (m ((c : Thread nD τ).loc main_arg7)) := by
  after_results_simp
  rfl

/-! ## Between regions 0 and 1 -/

theorem W7_v75 (c : Dev nD) : W7 m ρ c (Proc.devRef .tc main_v75) = weightK1 (m ((c : Thread nD τ).loc main_arg6)) := by
  rw [← W6_arg6 m ρ c]
  after_results_simp
  rfl

theorem W7_v78 (c : Dev nD) : W7 m ρ c (Proc.devRef .tc main_v78) = biasRowK1 (m ((c : Thread nD τ).loc main_arg7)) := by
  rw [← W6_arg7 m ρ c]
  after_results_simp
  rfl

/-! ## Between regions 1 and 2 -/

theorem W9_v106 (c : Dev nD) : W9 m ρ c (Proc.devRef .tc main_v106) = weightK2 (m ((c : Thread nD τ).loc main_arg6)) := by
  rw [← W8_arg6 m ρ c]
  after_results_simp
  rfl

theorem W9_v109 (c : Dev nD) : W9 m ρ c (Proc.devRef .tc main_v109) = biasRowK2 (m ((c : Thread nD τ).loc main_arg7)) := by
  rw [← W8_arg7 m ρ c]
  after_results_simp
  rfl

/-! ## Between regions 2 and 3 -/

theorem W11_v137 (c : Dev nD) : W11 m ρ c (Proc.devRef .tc main_v137) = weightK3 (m ((c : Thread nD τ).loc main_arg6)) := by
  rw [← W10_arg6 m ρ c]
  after_results_simp
  rfl

theorem W11_v140 (c : Dev nD) : W11 m ρ c (Proc.devRef .tc main_v140) = biasRowK3 (m ((c : Thread nD τ).loc main_arg7)) := by
  rw [← W10_arg7 m ρ c]
  after_results_simp
  rfl

/-! ## After the last layer: the two graphs' features and their column statistics -/

theorem W15_v142 (c : Dev nD) : W15 m ρ c (Proc.devRef .tc main_v142) = lo (W12 m ρ c (Proc.devRef .tc main_v141_0)) := by
  after_results_simp
  rfl

theorem W15_v143 (c : Dev nD) : W15 m ρ c (Proc.devRef .tc main_v143) = hi (W12 m ρ c (Proc.devRef .tc main_v141_0)) := by
  after_results_simp
  rfl

theorem W15_v152 (c : Dev nD) : W15 m ρ c (Proc.devRef .tc main_v152) = meanK (W15 m ρ c (Proc.devRef .tc main_v142)) := by
  after_results_simp
  rfl

theorem W15_v164 (c : Dev nD) : W15 m ρ c (Proc.devRef .tc main_v164) = invStdK (W15 m ρ c (Proc.devRef .tc main_v142)) := by
  after_results_simp
  rfl

theorem W19_v143 (c : Dev nD) : W19 m ρ c (Proc.devRef .tc main_v143) = W15 m ρ c (Proc.devRef .tc main_v143) :=
  calc W19 m ρ c (Proc.devRef .tc main_v143)
    _ = W18 m ρ c (Proc.devRef .tc main_v143) := by keeps hostOps5_2
    _ = W17 m ρ c (Proc.devRef .tc main_v143) := by keeps hostOps5_1
    _ = W16 m ρ c (Proc.devRef .tc main_v143) := by keeps hostOps5
    _ = W15 m ρ c (Proc.devRef .tc main_v143) := W16_of_ne m ρ c main_v143 (by decide)

theorem W19_v172 (c : Dev nD) : W19 m ρ c (Proc.devRef .tc main_v172) = meanK (W19 m ρ c (Proc.devRef .tc main_v143)) := by
  after_results_simp
  rfl

theorem W19_v184 (c : Dev nD) : W19 m ρ c (Proc.devRef .tc main_v184) = invStdK (W19 m ρ c (Proc.devRef .tc main_v143)) := by
  after_results_simp
  rfl

/-! ## The results -/

theorem W20_v165 (c : Dev nD) : W20 m ρ c (Proc.devRef .tc main_v165) = (dat4 (V15 m ρ) c).arrAt 3 cfg4.N :=
  calc W20 m ρ c (Proc.devRef .tc main_v165)
    _ = W19 m ρ c (Proc.devRef .tc main_v165) := W20_of_ne m ρ c main_v165 (by decide)
    _ = W18 m ρ c (Proc.devRef .tc main_v165) := by keeps hostOps5_2
    _ = W17 m ρ c (Proc.devRef .tc main_v165) := by keeps hostOps5_1
    _ = W16 m ρ c (Proc.devRef .tc main_v165) := by keeps hostOps5
    _ = (dat4 (V15 m ρ) c).arrAt 3 cfg4.N := W16_arr m ρ c 3

theorem W20_v185 (c : Dev nD) : W20 m ρ c (Proc.devRef .tc main_v185) = (dat5 (V19 m ρ) c).arrAt 3 cfg5.N :=
  W20_arr m ρ c 3

end Cert.KernelIdeal.Hand

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«158605_j26792005992870_2_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.LibHostOnce.lean ====
/-
  A line of host operations in which every buffer is written once: the side conditions, from the list of written
  buffers having no repetition.

  When the buffers a line writes are all different, the buffer written at place k is not written after place k, and a
  buffer written at an earlier place j < k is not written from place k on; a buffer the line never writes is not written
  from any place on. Also here: an operation of any number of operands read as an equation between the buffers' contents
  after the whole line, and the written-buffer lists of two lines run one after the other.
-/
import proofs.«158605_j26792005992870_2_alg».proof.Proof.LibHostSsa
import Mathlib.Data.List.Nodup

namespace HostRead

open Idealize.ShloMosaic Idealize.ShloMosaic.StableHlo Idealize.ShloMosaic.TcCoe

/-- In a list without repetition, the entry at place j does not occur from a later place k on. -/
theorem not_mem_drop_of_lt {α : Type*} {ys : List α} (h : ys.Nodup) {j k : Nat} {x : α} (hj : ys[j]? = some x) (hjk : j < k) :
    x ∉ ys.drop k := by
  intro hx
  obtain ⟨i, hi⟩ := List.mem_iff_getElem?.mp hx
  rw [List.getElem?_drop] at hi
  have hlt : k + i < ys.length := by
    by_contra hge
    rw [List.getElem?_eq_none (Nat.le_of_not_lt hge)] at hi
    cases hi
  exact (List.nodup_iff_getElem?_ne_getElem?.mp h) j (k + i) (by omega) hlt (hj.trans hi.symm)

variable {sig : RefSig} {τ : Topo} {Val : EltTy → Type}

/-- Two lines, each writing its listed buffers, run one after the other write the two lists in turn. -/
theorem outs_append {l₁ l₂ : List (HloOp τ sig Val)} {y₁ y₂ : List (Ref sig .tc)} (h₁ : Outs l₁ y₁) (h₂ : Outs l₂ y₂) :
    Outs (l₁ ++ l₂) (y₁ ++ y₂) := by
  induction h₁ with
  | nil => exact h₂
  | cons hw _ ih => exact List.Forall₂.cons hw ih

variable {l : List (HloOp τ sig Val)} {ys : List (Ref sig .tc)}

/-- An operation of any number of operands. -/
theorem nary_at (h : Outs l ys) (V : Valuation τ sig Val) (k : Nat) {n : Nat} (xs : Fin n → Ref sig .tc) (y : Ref sig .tc)
    (f : ((i : Fin n) → (xs i).ty.Contents Val) → y.ty.Contents Val) (hxs hy)
    (hk : l[k]? = some (nary xs y f hxs hy)) (hy' : y ∉ ys.drop (k + 1)) (hx' : ∀ i, xs i ∉ ys.drop k) :
    after l V (Proc.devRef .tc y) = f (fun i => after l V (Proc.devRef .tc (xs i))) := by
  rw [after_at h k _ y hk hy' V, nary_result]
  exact congrArg f (funext fun i => (after_take h k (xs i) (hx' i) V).symm)

end HostRead
-- ==== Proof.KBetween1.lean ====
/-
  The host stretch before region 1 of the kernel program: the stacked neighbour sums.

  The stretch cuts the previous region's scaled output into the two graphs, gathers each graph's source rows, adds
  them at the target rows, and concatenates the two sums along the node axis. Each of the two sums is read through the
  stretch in one pass from the buffers at the stretch's entry; the concatenation is then read as ONE operation of the
  line: its result buffer is written once, and its two operand buffers are not written again after it, so after the
  whole line the result is the concatenation of what the two operand buffers hold after the whole line.
-/
import proofs.«158605_j26792005992870_2_alg».proof.Proof.Gen.KernelIdeal.Frame
import proofs.«158605_j26792005992870_2_alg».proof.Proof.KDefs
import proofs.«158605_j26792005992870_2_alg».proof.Proof.LibHostOnce

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)
open HostRead Cert.GcnK

variable {F : FTy → Type} [FloatOps F]
variable (m : (ℓ : Loc nD τ sig) → Buf (Elt F) ℓ) (ρ : Dev nD → PrngReg)

/-- The buffers the stretch's operations write, in order. -/
abbrev ysBetween1 : List (Ref sig .tc) :=
  [
    main_v49, main_v50, main_v51, main_v52, main_c_12, main_v53, main_v54, main_c_13,
    main_v55, main_v56, main_v57, main_v58, main_v59, main_c_14, main_v60, main_v61,
    main_c_15, main_v62, main_v63, main_v64, main_v65, main_v66, main_cst_16, main_v67,
    main_v68, main_v69, main_cst_17, main_v70, main_v71, main_v72, main_v73, main_v74,
    main_v75, main_v76, main_v77, main_v78 ]

/-- Each operation of the stretch writes the buffer listed at its place. -/
theorem outsBetween1 : Outs (hostOps1 : List (HloOp τ sig (Elt F))) ysBetween1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

set_option maxHeartbeats 400000 in
/-- The first graph's neighbour sum, read through the stretch. -/
theorem W7_v69_raw (c : Dev nD) :
    W7 m ρ c (Proc.devRef .tc main_v69)
      = neighbourSumK (lo (W6 m ρ c (Proc.devRef .tc main_v48_1))) (W6 m ρ c (Proc.devRef .tc main_arg2)) (W6 m ρ c (Proc.devRef .tc main_arg3)) := by
  after_results_simp
  rfl

set_option maxHeartbeats 400000 in
/-- The second graph's neighbour sum, read through the stretch. -/
theorem W7_v72_raw (c : Dev nD) :
    W7 m ρ c (Proc.devRef .tc main_v72)
      = neighbourSumK (hi (W6 m ρ c (Proc.devRef .tc main_v48_1))) (W6 m ρ c (Proc.devRef .tc main_arg4)) (W6 m ρ c (Proc.devRef .tc main_arg5)) := by
  after_results_simp
  rfl

set_option maxHeartbeats 400000 in
/-- The two sums stacked: what region 1 takes as its neighbour sums. -/
theorem W7_v73_raw (c : Dev nD) :
    W7 m ρ c (Proc.devRef .tc main_v73)
      = aggStackK (lo (W6 m ρ c (Proc.devRef .tc main_v48_1))) (hi (W6 m ρ c (Proc.devRef .tc main_v48_1)))
          (W6 m ρ c (Proc.devRef .tc main_arg2)) (W6 m ρ c (Proc.devRef .tc main_arg3)) (W6 m ρ c (Proc.devRef .tc main_arg4)) (W6 m ρ c (Proc.devRef .tc main_arg5)) := by
  have h := binary_at (outsBetween1 (F := F)) (W6 m ρ c) 30 main_v69 main_v72 main_v73 _ _ _ _ rfl
    (by decide) (by decide) (by decide)
  refine h.trans ?_
  have e₁ : StableHlo.after hostOps1 (W6 m ρ c) (Proc.devRef .tc main_v69) = _ := W7_v69_raw m ρ c
  have e₂ : StableHlo.after hostOps1 (W6 m ρ c) (Proc.devRef .tc main_v72) = _ := W7_v72_raw m ρ c
  rw [e₁, e₂]
  rfl

end Cert.KernelIdeal.Hand

end
-- ==== Proof.KBetween2.lean ====
/-
  The host stretch before region 2 of the kernel program: the stacked neighbour sums.

  The stretch cuts the previous region's scaled output into the two graphs, gathers each graph's source rows, adds
  them at the target rows, and concatenates the two sums along the node axis. Each of the two sums is read through the
  stretch in one pass from the buffers at the stretch's entry; the concatenation is then read as ONE operation of the
  line: its result buffer is written once, and its two operand buffers are not written again after it, so after the
  whole line the result is the concatenation of what the two operand buffers hold after the whole line.
-/
import proofs.«158605_j26792005992870_2_alg».proof.Proof.Gen.KernelIdeal.Frame
import proofs.«158605_j26792005992870_2_alg».proof.Proof.KDefs
import proofs.«158605_j26792005992870_2_alg».proof.Proof.LibHostOnce

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)
open HostRead Cert.GcnK

variable {F : FTy → Type} [FloatOps F]
variable (m : (ℓ : Loc nD τ sig) → Buf (Elt F) ℓ) (ρ : Dev nD → PrngReg)

/-- The buffers the stretch's operations write, in order. -/
abbrev ysBetween2 : List (Ref sig .tc) :=
  [
    main_v80, main_v81, main_v82, main_v83, main_c_18, main_v84, main_v85, main_c_19,
    main_v86, main_v87, main_v88, main_v89, main_v90, main_c_20, main_v91, main_v92,
    main_c_21, main_v93, main_v94, main_v95, main_v96, main_v97, main_cst_22, main_v98,
    main_v99, main_v100, main_cst_23, main_v101, main_v102, main_v103, main_v104, main_v105,
    main_v106, main_v107, main_v108, main_v109 ]

/-- Each operation of the stretch writes the buffer listed at its place. -/
theorem outsBetween2 : Outs (hostOps2 : List (HloOp τ sig (Elt F))) ysBetween2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

set_option maxHeartbeats 400000 in
/-- The first graph's neighbour sum, read through the stretch. -/
theorem W9_v100_raw (c : Dev nD) :
    W9 m ρ c (Proc.devRef .tc main_v100)
      = neighbourSumK (lo (W8 m ρ c (Proc.devRef .tc main_v79_1))) (W8 m ρ c (Proc.devRef .tc main_arg2)) (W8 m ρ c (Proc.devRef .tc main_arg3)) := by
  after_results_simp
  rfl

set_option maxHeartbeats 400000 in
/-- The second graph's neighbour sum, read through the stretch. -/
theorem W9_v103_raw (c : Dev nD) :
    W9 m ρ c (Proc.devRef .tc main_v103)
      = neighbourSumK (hi (W8 m ρ c (Proc.devRef .tc main_v79_1))) (W8 m ρ c (Proc.devRef .tc main_arg4)) (W8 m ρ c (Proc.devRef .tc main_arg5)) := by
  after_results_simp
  rfl

set_option maxHeartbeats 400000 in
/-- The two sums stacked: what region 2 takes as its neighbour sums. -/
theorem W9_v104_raw (c : Dev nD) :
    W9 m ρ c (Proc.devRef .tc main_v104)
      = aggStackK (lo (W8 m ρ c (Proc.devRef .tc main_v79_1))) (hi (W8 m ρ c (Proc.devRef .tc main_v79_1)))
          (W8 m ρ c (Proc.devRef .tc main_arg2)) (W8 m ρ c (Proc.devRef .tc main_arg3)) (W8 m ρ c (Proc.devRef .tc main_arg4)) (W8 m ρ c (Proc.devRef .tc main_arg5)) := by
  have h := binary_at (outsBetween2 (F := F)) (W8 m ρ c) 30 main_v100 main_v103 main_v104 _ _ _ _ rfl
    (by decide) (by decide) (by decide)
  refine h.trans ?_
  have e₁ : StableHlo.after hostOps2 (W8 m ρ c) (Proc.devRef .tc main_v100) = _ := W9_v100_raw m ρ c
  have e₂ : StableHlo.after hostOps2 (W8 m ρ c) (Proc.devRef .tc main_v103) = _ := W9_v103_raw m ρ c
  rw [e₁, e₂]
  rfl

end Cert.KernelIdeal.Hand

end
-- ==== Proof.KBetween3.lean ====
/-
  The host stretch before region 3 of the kernel program: the stacked neighbour sums.

  The stretch cuts the previous region's scaled output into the two graphs, gathers each graph's source rows, adds
  them at the target rows, and concatenates the two sums along the node axis. Each of the two sums is read through the
  stretch in one pass from the buffers at the stretch's entry; the concatenation is then read as ONE operation of the
  line: its result buffer is written once, and its two operand buffers are not written again after it, so after the
  whole line the result is the concatenation of what the two operand buffers hold after the whole line.
-/
import proofs.«158605_j26792005992870_2_alg».proof.Proof.Gen.KernelIdeal.Frame
import proofs.«158605_j26792005992870_2_alg».proof.Proof.KDefs
import proofs.«158605_j26792005992870_2_alg».proof.Proof.LibHostOnce

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)
open HostRead Cert.GcnK

variable {F : FTy → Type} [FloatOps F]
variable (m : (ℓ : Loc nD τ sig) → Buf (Elt F) ℓ) (ρ : Dev nD → PrngReg)

/-- The buffers the stretch's operations write, in order. -/
abbrev ysBetween3 : List (Ref sig .tc) :=
  [
    main_v111, main_v112, main_v113, main_v114, main_c_24, main_v115, main_v116, main_c_25,
    main_v117, main_v118, main_v119, main_v120, main_v121, main_c_26, main_v122, main_v123,
    main_c_27, main_v124, main_v125, main_v126, main_v127, main_v128, main_cst_28, main_v129,
    main_v130, main_v131, main_cst_29, main_v132, main_v133, main_v134, main_v135, main_v136,
    main_v137, main_v138, main_v139, main_v140 ]

/-- Each operation of the stretch writes the buffer listed at its place. -/
theorem outsBetween3 : Outs (hostOps3 : List (HloOp τ sig (Elt F))) ysBetween3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

set_option maxHeartbeats 400000 in
/-- The first graph's neighbour sum, read through the stretch. -/
theorem W11_v131_raw (c : Dev nD) :
    W11 m ρ c (Proc.devRef .tc main_v131)
      = neighbourSumK (lo (W10 m ρ c (Proc.devRef .tc main_v110_1))) (W10 m ρ c (Proc.devRef .tc main_arg2)) (W10 m ρ c (Proc.devRef .tc main_arg3)) := by
  after_results_simp
  rfl

set_option maxHeartbeats 400000 in
/-- The second graph's neighbour sum, read through the stretch. -/
theorem W11_v134_raw (c : Dev nD) :
    W11 m ρ c (Proc.devRef .tc main_v134)
      = neighbourSumK (hi (W10 m ρ c (Proc.devRef .tc main_v110_1))) (W10 m ρ c (Proc.devRef .tc main_arg4)) (W10 m ρ c (Proc.devRef .tc main_arg5)) := by
  after_results_simp
  rfl

set_option maxHeartbeats 400000 in
/-- The two sums stacked: what region 3 takes as its neighbour sums. -/
theorem W11_v135_raw (c : Dev nD) :
    W11 m ρ c (Proc.devRef .tc main_v135)
      = aggStackK (lo (W10 m ρ c (Proc.devRef .tc main_v110_1))) (hi (W10 m ρ c (Proc.devRef .tc main_v110_1)))
          (W10 m ρ c (Proc.devRef .tc main_arg2)) (W10 m ρ c (Proc.devRef .tc main_arg3)) (W10 m ρ c (Proc.devRef .tc main_arg4)) (W10 m ρ c (Proc.devRef .tc main_arg5)) := by
  have h := binary_at (outsBetween3 (F := F)) (W10 m ρ c) 30 main_v131 main_v134 main_v135 _ _ _ _ rfl
    (by decide) (by decide) (by decide)
  refine h.trans ?_
  have e₁ : StableHlo.after hostOps3 (W10 m ρ c) (Proc.devRef .tc main_v131) = _ := W11_v131_raw m ρ c
  have e₂ : StableHlo.after hostOps3 (W10 m ρ c) (Proc.devRef .tc main_v134) = _ := W11_v134_raw m ρ c
  rw [e₁, e₂]
  rfl

end Cert.KernelIdeal.Hand

end
-- ==== Proof.KEntry.lean ====
/-
  The stacked neighbour sums at the entry of the second, third and fourth layers' regions, over the launch memory's
  edge lists: the edge lists are arguments, which no host operation and no region writes, so at every region's exit
  they are what the program was launched with.
-/
import proofs.«158605_j26792005992870_2_alg».proof.Proof.KHost
import proofs.«158605_j26792005992870_2_alg».proof.Proof.KBetween1
import proofs.«158605_j26792005992870_2_alg».proof.Proof.KBetween2
import proofs.«158605_j26792005992870_2_alg».proof.Proof.KBetween3

noncomputable section

namespace Cert.KernelIdeal.Hand

open Cert.KernelIdeal Cert.KernelIdeal.Gen Cert.GcnK
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

theorem W7_v73 (c : Dev nD) : W7 m ρ c (Proc.devRef .tc main_v73)
    = aggStackK (lo (W6 m ρ c (Proc.devRef .tc main_v48_1))) (hi (W6 m ρ c (Proc.devRef .tc main_v48_1)))
        (m ((c : Thread nD τ).loc main_arg2)) (m ((c : Thread nD τ).loc main_arg3))
        (m ((c : Thread nD τ).loc main_arg4)) (m ((c : Thread nD τ).loc main_arg5)) := by
  rw [W7_v73_raw, W6_arg2, W6_arg3, W6_arg4, W6_arg5]

theorem W9_v104 (c : Dev nD) : W9 m ρ c (Proc.devRef .tc main_v104)
    = aggStackK (lo (W8 m ρ c (Proc.devRef .tc main_v79_1))) (hi (W8 m ρ c (Proc.devRef .tc main_v79_1)))
        (m ((c : Thread nD τ).loc main_arg2)) (m ((c : Thread nD τ).loc main_arg3))
        (m ((c : Thread nD τ).loc main_arg4)) (m ((c : Thread nD τ).loc main_arg5)) := by
  rw [W9_v104_raw, W8_arg2, W8_arg3, W8_arg4, W8_arg5]

theorem W11_v135 (c : Dev nD) : W11 m ρ c (Proc.devRef .tc main_v135)
    = aggStackK (lo (W10 m ρ c (Proc.devRef .tc main_v110_1))) (hi (W10 m ρ c (Proc.devRef .tc main_v110_1)))
        (m ((c : Thread nD τ).loc main_arg2)) (m ((c : Thread nD τ).loc main_arg3))
        (m ((c : Thread nD τ).loc main_arg4)) (m ((c : Thread nD τ).loc main_arg5)) := by
  rw [W11_v135_raw, W10_arg2, W10_arg3, W10_arg4, W10_arg5]

end Cert.KernelIdeal.Hand

end
-- ==== Proof.RegionSpec.lean ====
/-
  The dense part of one layer at one entry of the stacked arrays.

  With A the stacked neighbour sums, N the stacked in-degree scales as a column and F₀ the stacked input features,
  the residual mix at row r, feature k is  0.9·(A[r,k]·N[r]) + 0.1·F₀[r,k];  the layer's output at (r, j) is
  relu( c₁·mix[r,j] + c₂·Σ_k mix[r,k]·W[k,j] + b[j] ).
-/
import proofs.«158605_j26792005992870_2_alg».proof.KernelIdeal
import Idealize.ShloMosaic.PureOps.Ideal
import Idealize.ShloMosaic.Lib.ValueIdx

noncomputable section

namespace Cert.KernelIdeal.Hand

open Idealize.ShloMosaic Idealize.ShloMosaic.ValueIdx Cert.KernelIdeal

/-- The residual mix at one entry. -/
def mixAt (A : FVec Ideal S200000x128 .f32) (Nn : FVec Ideal S200000x1 .f32) (F0 : FVec Ideal S200000x128 .f32)
    (r : Fin 200000) (k : Fin 128) : EReal :=
  Ideal.ofBits .f32 0x3F666666#32 * (A (ix2 r k) * Nn (ix2 r (0 : Fin 1))) + Ideal.ofBits .f32 0x3DCCCCCD#32 * F0 (ix2 r k)

/-- The layer's output at one entry. -/
def denseAt (c₁ c₂ : BitVec 32) (A : FVec Ideal S200000x128 .f32) (Nn : FVec Ideal S200000x1 .f32)
    (F0 : FVec Ideal S200000x128 .f32) (Wm : FVec Ideal S128x128 .f32) (bias : FVec Ideal S1x128 .f32)
    (r : Fin 200000) (j : Fin 128) : EReal :=
  max (Ideal.ofBits .f32 c₁ * mixAt A Nn F0 r j + Ideal.ofBits .f32 c₂ * (∑ k : Fin 128, mixAt A Nn F0 r k * Wm (ix2 k j))
      + bias (ix2 (0 : Fin 1) j))
    (Ideal.ofBits .f32 0x00000000#32)

end Cert.KernelIdeal.Hand

end
-- ==== Proof.KLayout.lean ====
/-
  Stacking two arrays along the node axis, cutting a stacked array back, and a vector as a column or a row, read at an
  index. Rows 0 … 99999 of a stack are the first array's rows, rows 100000 … 199999 the second's; the two cuts
  of a stacked array are its two halves; a vector of length n reshaped to n × 1 (or 1 × n) has the vector's entries down
  its one column (along its one row), and so has the vector broadcast to a new unit axis.
-/
import Idealize.ShloMosaic.Lib.ValueIdx
import Idealize.ShloMosaic.Lib.Pipeline.Value

namespace Cert.GcnK.Layout

open Idealize.ShloMosaic Idealize.ShloMosaic.ValueIdx

variable {α : Type}

/-- A row of the first array, as a row of the stack. -/
abbrev rowLo (r : Fin 100000) : Fin 200000 := ⟨r.val, by omega⟩
/-- A row of the second array, as a row of the stack. -/
abbrev rowHi (r : Fin 100000) : Fin 200000 := ⟨r.val + 100000, by omega⟩

/-- One graph's array of row width `w`. -/
abbrev T₁ (w : Nat) : Shape := ⟨2, ![100000, w]⟩
/-- Two graphs' arrays stacked. -/
abbrev T₂ (w : Nat) : Shape := ⟨2, ![200000, w]⟩

variable {w : Nat}

theorem stack_lo (a b : (T₁ w).Idx → α) (h : Shape.Concatenates [T₁ w, T₁ w] (T₂ w) 0) (r : Fin 100000) (j : Fin w) :
    concatenate (T₂ w) 0 [⟨T₁ w, a⟩, ⟨T₁ w, b⟩] h (ix2 (rowLo r) j) = a (ix2 r j) :=
  concatenate_pair_apply_left 0 a b h (ix2 (rowLo r) j) rfl (ix2 r j)
    (fun d => by match d with | ⟨0, _⟩ => rfl | ⟨1, _⟩ => rfl)

theorem stack_hi (a b : (T₁ w).Idx → α) (h : Shape.Concatenates [T₁ w, T₁ w] (T₂ w) 0) (r : Fin 100000) (j : Fin w) :
    concatenate (T₂ w) 0 [⟨T₁ w, a⟩, ⟨T₁ w, b⟩] h (ix2 (rowHi r) j) = b (ix2 r j) :=
  concatenate_pair_apply_right 0 a b h (ix2 (rowHi r) j) rfl rfl (ix2 r j)
    (fun d hd => by match d with | ⟨0, _⟩ => exact absurd rfl hd | ⟨1, _⟩ => rfl)
    rfl

theorem cut_lo (X : (T₂ w).Idx → α) (h : (T₂ w).Slices ![0, 0] (T₁ w)) (r : Fin 100000) (j : Fin w) :
    extractStridedSlice (T₁ w) ![0, 0] X h (ix2 r j) = X (ix2 (rowLo r) j) :=
  extractStridedSlice_apply ![0, 0] X h (ix2 r j) (ix2 (rowLo r) j)
    (fun d => by
      match d with
      | ⟨0, _⟩ => show r.val = 0 + r.val; omega
      | ⟨1, _⟩ => show j.val = 0 + j.val; omega)

theorem cut_hi (X : (T₂ w).Idx → α) (h : (T₂ w).Slices ![100000, 0] (T₁ w)) (r : Fin 100000) (j : Fin w) :
    extractStridedSlice (T₁ w) ![100000, 0] X h (ix2 r j) = X (ix2 (rowHi r) j) :=
  extractStridedSlice_apply ![100000, 0] X h (ix2 r j) (ix2 (rowHi r) j)
    (fun d => by
      match d with
      | ⟨0, _⟩ => show r.val + 100000 = 100000 + r.val; omega
      | ⟨1, _⟩ => show j.val = 0 + j.val; omega)

/-- Every row of a stack is a row of one of the two arrays. -/
theorem row_cases (r : Fin 200000) : (∃ r' : Fin 100000, r = rowLo r') ∨ (∃ r' : Fin 100000, r = rowHi r') := by
  by_cases hr : r.val < 100000
  · exact Or.inl ⟨⟨r.val, hr⟩, Fin.ext rfl⟩
  · exact Or.inr ⟨⟨r.val - 100000, by omega⟩, Fin.ext (by show r.val = r.val - 100000 + 100000; omega)⟩

/-- A vector reshaped to a column. -/
theorem col_apply {n : Nat} (x : (⟨1, ![n]⟩ : Shape).Idx → α) (h : (⟨1, ![n]⟩ : Shape).ShapeCasts ⟨2, ![n, 1]⟩) (r : Fin n) :
    shapeCast (⟨2, ![n, 1]⟩ : Shape) x h (ix2 r (0 : Fin 1)) = x (ix1 r) :=
  shapeCast_apply x h (ix2 r (0 : Fin 1)) (ix1 r) (by
    rw [Shape.rowMajor_val_one, Shape.rowMajor_val_two]; show r.val = r.val * 1 + 0; omega)

/-- A vector reshaped to a row. -/
theorem row_apply {n : Nat} (x : (⟨1, ![n]⟩ : Shape).Idx → α) (h : (⟨1, ![n]⟩ : Shape).ShapeCasts ⟨2, ![1, n]⟩) (j : Fin n) :
    shapeCast (⟨2, ![1, n]⟩ : Shape) x h (ix2 (0 : Fin 1) j) = x (ix1 j) :=
  shapeCast_apply x h (ix2 (0 : Fin 1) j) (ix1 j) (by
    rw [Shape.rowMajor_val_one, Shape.rowMajor_val_two]; show j.val = 0 * n + j.val; omega)

/-- A row reshaped to a vector. -/
theorem unrow_apply {n : Nat} (x : (⟨2, ![1, n]⟩ : Shape).Idx → α) (h : (⟨2, ![1, n]⟩ : Shape).ShapeCasts ⟨1, ![n]⟩) (j : Fin n) :
    shapeCast (⟨1, ![n]⟩ : Shape) x h (ix1 j) = x (ix2 (0 : Fin 1) j) :=
  shapeCast_apply x h (ix1 j) (ix2 (0 : Fin 1) j) (by
    rw [Shape.rowMajor_val_one, Shape.rowMajor_val_two]; show 0 * n + j.val = j.val; omega)

/-- A vector broadcast to a new trailing unit axis is the vector as a column. -/
theorem bcastCol_apply {n : Nat} (x : (⟨1, ![n]⟩ : Shape).Idx → α) (h : (⟨1, ![n]⟩ : Shape).BroadcastsInDim ⟨2, ![n, 1]⟩ ![0])
    (r : Fin n) (hn : n ≠ 1) :
    broadcastInDim (⟨2, ![n, 1]⟩ : Shape) ![0] h x (ix2 r (0 : Fin 1)) = x (ix1 r) :=
  broadcastInDim_apply ![0] h x (ix2 r (0 : Fin 1)) (ix1 r) (fun d => by
    match d with
    | ⟨0, _⟩ => show r.val = if n = 1 then 0 else r.val; rw [if_neg hn])

/-- A column repeated along a second axis. -/
theorem colRows_apply {n w : Nat} (v : (⟨2, ![n, 1]⟩ : Shape).Idx → α)
    (h : (⟨2, ![n, 1]⟩ : Shape).BroadcastsInDim ⟨2, ![n, w]⟩ ![0, 1]) (r : Fin n) (j : Fin w) (hn : n ≠ 1) :
    broadcastInDim (⟨2, ![n, w]⟩ : Shape) ![0, 1] h v (ix2 r j) = v (ix2 r (0 : Fin 1)) :=
  broadcastInDim_apply ![0, 1] h v (ix2 r j) (ix2 r (0 : Fin 1)) (fun d => by
    match d with
    | ⟨0, _⟩ => show r.val = if n = 1 then 0 else r.val; rw [if_neg hn]
    | ⟨1, _⟩ => show (0 : ℕ) = if (1 : ℕ) = 1 then 0 else j.val; rw [if_pos rfl])

end Cert.GcnK.Layout
-- ==== Proof.LayerRead.lean ====
/-
  One layer of the graph convolution read at an index.

  Every function of the common specification is a composition of layout operations (broadcasts, slices, reshapes),
  elementwise arithmetic and one matrix product. At the exact (extended-real) values each of them, read at one
  entry, is the textbook expression in the entries of its arguments:
    * a splat reads its word everywhere; a per-node value repeated along the features reads the node's value, a
      per-feature value repeated along the nodes reads the feature's value;
    * layer l's weight matrix and bias vector are the l-th slab of the stacked weights and biases;
    * the residual at (r, j) is 0.9·(agg·n) + 0.1·feat there;
    * the activation at (r, j) is max(c₁·h[r,j] + c₂·Σ_k h[r,k]·W[k,j] + b[j], 0).
-/
import proofs.«158605_j26792005992870_2_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.Gcn

open Idealize.ShloMosaic Idealize.ShloMosaic.ValueIdx Cert.ReferenceIdeal Cert.ReferenceIdeal.Facts₀ Cert.ReferenceIdeal.Facts

variable [Cert.ReferenceIdeal.Facts]

/-- A splat reads the value of its word at every entry. -/
theorem splat_apply (w : BitVec 32) (i : S100000x128.Idx) : splat (F := Ideal) w i = Ideal.ofBits .f32 w := rfl

/-- A per-node value repeated along the feature axis reads, at (r, j), the value of node r. -/
theorem alongRows_apply (n : FVec Ideal S100000 .f32) (r : Fin 100000) (j : Fin 128) :
    alongRows (F := Ideal) n (ix2 r j) = n (ix1 r) := by
  unfold alongRows
  refine (broadcastInDim_apply _ _ _ (ix2 r j) (ix2 r (0 : Fin 1)) fun a => ?_).trans ?_
  · match a with
    | ⟨0, _⟩ => rfl
    | ⟨1, _⟩ => rfl
  · refine broadcastInDim_apply _ _ _ (ix2 r (0 : Fin 1)) (ix1 r) fun a => ?_
    match a with
    | ⟨0, _⟩ => rfl

/-- A per-feature value repeated along the node axis reads, at (r, j), the value of feature j. -/
theorem alongCols_apply (b : FVec Ideal S128 .f32) (r : Fin 100000) (j : Fin 128) :
    alongCols (F := Ideal) b (ix2 r j) = b (ix1 j) := by
  unfold alongCols
  refine (broadcastInDim_apply _ _ _ (ix2 r j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- Layer 0's weight matrix is the first slab of the stacked weights. -/
theorem weight0_apply (W : FVec Ideal S4x128x128 .f32) (k j : Fin 128) :
    weight0 (F := Ideal) W (ix2 k j) = W (ix3 (0 : Fin 4) k j) := by
  unfold weight0
  refine (shapeCast_apply _ _ (ix2 k j) (ix3 (0 : Fin 1) k j) ?_).trans ?_
  · rw [Shape.rowMajor_val_three, Shape.rowMajor_val_two]
    show ((0 : Nat) * 128 + k.val) * 128 + j.val = k.val * 128 + j.val
    omega
  · refine extractStridedSlice_apply _ _ _ (ix3 (0 : Fin 1) k j) (ix3 (0 : Fin 4) k j) fun a => ?_
    match a with
    | ⟨0, _⟩ => rfl
    | ⟨1, _⟩ => exact (Nat.zero_add k.val).symm
    | ⟨2, _⟩ => exact (Nat.zero_add j.val).symm

/-- Layer 1's weight matrix is slab 1 of the stacked weights. -/
theorem weight1_apply (W : FVec Ideal S4x128x128 .f32) (k j : Fin 128) :
    weight1 (F := Ideal) W (ix2 k j) = W (ix3 (1 : Fin 4) k j) := by
  unfold weight1
  refine (shapeCast_apply _ _ (ix2 k j) (ix3 (0 : Fin 1) k j) ?_).trans ?_
  · rw [Shape.rowMajor_val_three, Shape.rowMajor_val_two]
    show ((0 : Nat) * 128 + k.val) * 128 + j.val = k.val * 128 + j.val
    omega
  · refine extractStridedSlice_apply _ _ _ (ix3 (0 : Fin 1) k j) (ix3 (1 : Fin 4) k j) fun a => ?_
    match a with
    | ⟨0, _⟩ => rfl
    | ⟨1, _⟩ => exact (Nat.zero_add k.val).symm
    | ⟨2, _⟩ => exact (Nat.zero_add j.val).symm

/-- Layer 2's weight matrix is slab 2 of the stacked weights. -/
theorem weight2_apply (W : FVec Ideal S4x128x128 .f32) (k j : Fin 128) :
    weight2 (F := Ideal) W (ix2 k j) = W (ix3 (2 : Fin 4) k j) := by
  unfold weight2
  refine (shapeCast_apply _ _ (ix2 k j) (ix3 (0 : Fin 1) k j) ?_).trans ?_
  · rw [Shape.rowMajor_val_three, Shape.rowMajor_val_two]
    show ((0 : Nat) * 128 + k.val) * 128 + j.val = k.val * 128 + j.val
    omega
  · refine extractStridedSlice_apply _ _ _ (ix3 (0 : Fin 1) k j) (ix3 (2 : Fin 4) k j) fun a => ?_
    match a with
    | ⟨0, _⟩ => rfl
    | ⟨1, _⟩ => exact (Nat.zero_add k.val).symm
    | ⟨2, _⟩ => exact (Nat.zero_add j.val).symm

/-- Layer 3's weight matrix is slab 3 of the stacked weights. -/
theorem weight3_apply (W : FVec Ideal S4x128x128 .f32) (k j : Fin 128) :
    weight3 (F := Ideal) W (ix2 k j) = W (ix3 (3 : Fin 4) k j) := by
  unfold weight3
  refine (shapeCast_apply _ _ (ix2 k j) (ix3 (0 : Fin 1) k j) ?_).trans ?_
  · rw [Shape.rowMajor_val_three, Shape.rowMajor_val_two]
    show ((0 : Nat) * 128 + k.val) * 128 + j.val = k.val * 128 + j.val
    omega
  · refine extractStridedSlice_apply _ _ _ (ix3 (0 : Fin 1) k j) (ix3 (3 : Fin 4) k j) fun a => ?_
    match a with
    | ⟨0, _⟩ => rfl
    | ⟨1, _⟩ => exact (Nat.zero_add k.val).symm
    | ⟨2, _⟩ => exact (Nat.zero_add j.val).symm

/-- Layer 0's bias vector is row 0 of the stacked biases. -/
theorem bias0_apply (B : FVec Ideal S4x128 .f32) (j : Fin 128) :
    bias0 (F := Ideal) B (ix1 j) = B (ix2 (0 : Fin 4) j) := by
  unfold bias0
  refine (shapeCast_apply _ _ (ix1 j) (ix2 (0 : Fin 1) j) ?_).trans ?_
  · rw [Shape.rowMajor_val_two, Shape.rowMajor_val_one]
    show (0 : Nat) * 128 + j.val = j.val
    omega
  · refine extractStridedSlice_apply _ _ _ (ix2 (0 : Fin 1) j) (ix2 (0 : Fin 4) j) fun a => ?_
    match a with
    | ⟨0, _⟩ => rfl
    | ⟨1, _⟩ => exact (Nat.zero_add j.val).symm

/-- Layer 1's bias vector is row 1 of the stacked biases. -/
theorem bias1_apply (B : FVec Ideal S4x128 .f32) (j : Fin 128) :
    bias1 (F := Ideal) B (ix1 j) = B (ix2 (1 : Fin 4) j) := by
  unfold bias1
  refine (shapeCast_apply _ _ (ix1 j) (ix2 (0 : Fin 1) j) ?_).trans ?_
  · rw [Shape.rowMajor_val_two, Shape.rowMajor_val_one]
    show (0 : Nat) * 128 + j.val = j.val
    omega
  · refine extractStridedSlice_apply _ _ _ (ix2 (0 : Fin 1) j) (ix2 (1 : Fin 4) j) fun a => ?_
    match a with
    | ⟨0, _⟩ => rfl
    | ⟨1, _⟩ => exact (Nat.zero_add j.val).symm

/-- Layer 2's bias vector is row 2 of the stacked biases. -/
theorem bias2_apply (B : FVec Ideal S4x128 .f32) (j : Fin 128) :
    bias2 (F := Ideal) B (ix1 j) = B (ix2 (2 : Fin 4) j) := by
  unfold bias2
  refine (shapeCast_apply _ _ (ix1 j) (ix2 (0 : Fin 1) j) ?_).trans ?_
  · rw [Shape.rowMajor_val_two, Shape.rowMajor_val_one]
    show (0 : Nat) * 128 + j.val = j.val
    omega
  · refine extractStridedSlice_apply _ _ _ (ix2 (0 : Fin 1) j) (ix2 (2 : Fin 4) j) fun a => ?_
    match a with
    | ⟨0, _⟩ => rfl
    | ⟨1, _⟩ => exact (Nat.zero_add j.val).symm

/-- Layer 3's bias vector is row 3 of the stacked biases. -/
theorem bias3_apply (B : FVec Ideal S4x128 .f32) (j : Fin 128) :
    bias3 (F := Ideal) B (ix1 j) = B (ix2 (3 : Fin 4) j) := by
  unfold bias3
  refine (shapeCast_apply _ _ (ix1 j) (ix2 (0 : Fin 1) j) ?_).trans ?_
  · rw [Shape.rowMajor_val_two, Shape.rowMajor_val_one]
    show (0 : Nat) * 128 + j.val = j.val
    omega
  · refine extractStridedSlice_apply _ _ _ (ix2 (0 : Fin 1) j) (ix2 (3 : Fin 4) j) fun a => ?_
    match a with
    | ⟨0, _⟩ => rfl
    | ⟨1, _⟩ => exact (Nat.zero_add j.val).symm

/-- The initial residual at an entry: 0.9·(agg·n) + 0.1·feat. -/
theorem residual_apply (agg nrows feat0 : FVec Ideal S100000x128 .f32) (i : S100000x128.Idx) :
    residual (F := Ideal) agg nrows feat0 i
      = Ideal.ofBits .f32 0x3F666666#32 * (agg i * nrows i) + Ideal.ofBits .f32 0x3DCCCCCD#32 * feat0 i := rfl

/-- The matrix product of the specification is the plain rows-by-columns product. -/
theorem dot_eq_plain :
    dot_S100000x128_S128x128_S100000x128_1_0_0_1_n_n = DotDims.plain 100000 128 128 := rfl

/-- The activation at (r, j): max(c₁·h[r,j] + c₂·Σ_k h[r,k]·W[k,j] + b[j], 0). -/
theorem activate_apply (c₁ c₂ : BitVec 32) (W : FVec Ideal S128x128 .f32) (b : FVec Ideal S128 .f32)
    (h : FVec Ideal S100000x128 .f32) (r : Fin 100000) (j : Fin 128) :
    activate (F := Ideal) c₁ c₂ W b h (ix2 r j)
      = max (Ideal.ofBits .f32 c₁ * h (ix2 r j) + Ideal.ofBits .f32 c₂ * (∑ k : Fin 128, h (ix2 r k) * W (ix2 k j)) + b (ix1 j))
          (Ideal.ofBits .f32 0x00000000#32) := by
  have hdot : Host.dotGeneral dot_S100000x128_S128x128_S100000x128_1_0_0_1_n_n none h W (ix2 r j)
      = ∑ k : Fin 128, h (ix2 r k) * W (ix2 k j) := by
    rw [dot_eq_plain]
    exact StackMember.dotGeneral_plain_apply none h W r j
  show max (Ideal.ofBits .f32 c₁ * h (ix2 r j)
      + Ideal.ofBits .f32 c₂ * Host.dotGeneral dot_S100000x128_S128x128_S100000x128_1_0_0_1_n_n none h W (ix2 r j)
      + alongCols (F := Ideal) b (ix2 r j)) (Ideal.ofBits .f32 0x00000000#32) = _
  rw [hdot, alongCols_apply]

end Cert.Gcn

end
-- ==== Proof.LayerStack.lean ====
/-
  The stacked kernel layer against the specification's layer, entry by entry.

  The kernel keeps the two graphs stacked along the node axis (rows 0 … 99999 the first graph's, rows 100000 … 199999
  the second's) and runs the dense part of a layer once over the stack. Its host-side functions (in-degree scale,
  neighbour sum, the layer's weight slab and bias row) are the specification's functions, written with the kernel
  program's own shape witnesses; and the dense part read at a row of the first (second) half of the stack is the
  specification's layer of the first (second) graph at that row: the residual mix 0.9·(A·n) + 0.1·F₀ reads the stacked
  arrays at the half's rows, and the activation is the same expression in the mix.
-/
import proofs.«158605_j26792005992870_2_alg».proof.Proof.RegionSpec
import proofs.«158605_j26792005992870_2_alg».proof.Proof.KDefs
import proofs.«158605_j26792005992870_2_alg».proof.Proof.KLayout
import proofs.«158605_j26792005992870_2_alg».proof.Proof.LayerRead

noncomputable section

namespace Cert.GcnK

open Idealize.ShloMosaic Idealize.ShloMosaic.ValueIdx Cert.KernelIdeal Cert.KernelIdeal.Hand

variable [Cert.KernelIdeal.Facts] [Cert.ReferenceIdeal.Facts]

/-! ## The kernel's host functions are the specification's -/

theorem degScaleK_eq (dst : Cert.Gcn.IArr Ideal S1600000) :
    degScaleK (F := Ideal) dst = Cert.Gcn.degScale (F := Ideal) dst := rfl

theorem neighbourSumK_eq (h : FVec Ideal S100000x128 .f32) (src dst : Cert.Gcn.IArr Ideal S1600000) :
    neighbourSumK (F := Ideal) h src dst = Cert.Gcn.neighbourSum (F := Ideal) h src dst := rfl

theorem weightK0_eq (W : FVec Ideal S4x128x128 .f32) : weightK0 (F := Ideal) W = Cert.Gcn.weight0 (F := Ideal) W := rfl
theorem weightK1_eq (W : FVec Ideal S4x128x128 .f32) : weightK1 (F := Ideal) W = Cert.Gcn.weight1 (F := Ideal) W := rfl
theorem weightK2_eq (W : FVec Ideal S4x128x128 .f32) : weightK2 (F := Ideal) W = Cert.Gcn.weight2 (F := Ideal) W := rfl
theorem weightK3_eq (W : FVec Ideal S4x128x128 .f32) : weightK3 (F := Ideal) W = Cert.Gcn.weight3 (F := Ideal) W := rfl

/-- The in-degree scale as a column, repeated along the features, is the scale repeated along the features. -/
theorem colRowsK_colK (n : FVec Ideal S100000 .f32) :
    colRowsK (F := Ideal) (colK (F := Ideal) n) = Cert.Gcn.alongRows (F := Ideal) n := by
  funext i
  obtain ⟨r, j, rfl⟩ : ∃ (r : Fin 100000) (j : Fin 128), i = ix2 r j := ⟨i 0, i 1, eq_ix2 i⟩
  rw [Cert.Gcn.alongRows_apply]
  unfold colRowsK colK
  exact (Layout.colRows_apply _ _ r j (by decide)).trans (Layout.col_apply n _ r)

/-- The bias as a row holds the bias vector's entries. -/
theorem biasRowK0_apply (B : FVec Ideal S4x128 .f32) (j : Fin 128) :
    biasRowK0 (F := Ideal) B (ix2 (0 : Fin 1) j) = Cert.Gcn.bias0 (F := Ideal) B (ix1 j) :=
  Layout.row_apply (Cert.Gcn.bias0 (F := Ideal) B) _ j
theorem biasRowK1_apply (B : FVec Ideal S4x128 .f32) (j : Fin 128) :
    biasRowK1 (F := Ideal) B (ix2 (0 : Fin 1) j) = Cert.Gcn.bias1 (F := Ideal) B (ix1 j) :=
  Layout.row_apply (Cert.Gcn.bias1 (F := Ideal) B) _ j
theorem biasRowK2_apply (B : FVec Ideal S4x128 .f32) (j : Fin 128) :
    biasRowK2 (F := Ideal) B (ix2 (0 : Fin 1) j) = Cert.Gcn.bias2 (F := Ideal) B (ix1 j) :=
  Layout.row_apply (Cert.Gcn.bias2 (F := Ideal) B) _ j
theorem biasRowK3_apply (B : FVec Ideal S4x128 .f32) (j : Fin 128) :
    biasRowK3 (F := Ideal) B (ix2 (0 : Fin 1) j) = Cert.Gcn.bias3 (F := Ideal) B (ix1 j) :=
  Layout.row_apply (Cert.Gcn.bias3 (F := Ideal) B) _ j

/-! ## The stacked arrays at a row of either half -/

section Halves
variable (A₁ A₂ f₁ f₂ : FVec Ideal S100000x128 .f32) (n₁ n₂ : FVec Ideal S100000 .f32) (r : Fin 100000)

theorem stack_rowLo (k : Fin 128) : stack (F := Ideal) A₁ A₂ (ix2 (Layout.rowLo r) k) = A₁ (ix2 r k) :=
  Layout.stack_lo (w := 128) A₁ A₂ _ r k
theorem stack_rowHi (k : Fin 128) : stack (F := Ideal) A₁ A₂ (ix2 (Layout.rowHi r) k) = A₂ (ix2 r k) :=
  Layout.stack_hi (w := 128) A₁ A₂ _ r k
theorem stackCol_rowLo :
    stackCol (F := Ideal) (colK (F := Ideal) n₁) (colK (F := Ideal) n₂) (ix2 (Layout.rowLo r) (0 : Fin 1)) = n₁ (ix1 r) :=
  (Layout.stack_lo (w := 1) (colK (F := Ideal) n₁) (colK (F := Ideal) n₂) _ r 0).trans (Layout.col_apply n₁ _ r)
theorem stackCol_rowHi :
    stackCol (F := Ideal) (colK (F := Ideal) n₁) (colK (F := Ideal) n₂) (ix2 (Layout.rowHi r) (0 : Fin 1)) = n₂ (ix1 r) :=
  (Layout.stack_hi (w := 1) (colK (F := Ideal) n₁) (colK (F := Ideal) n₂) _ r 0).trans (Layout.col_apply n₂ _ r)

/-- The residual mix at a row of the first half is the first graph's residual. -/
theorem mix_lo (k : Fin 128) :
    mixAt (stack (F := Ideal) A₁ A₂) (stackCol (F := Ideal) (colK (F := Ideal) n₁) (colK (F := Ideal) n₂))
        (stack (F := Ideal) f₁ f₂) (Layout.rowLo r) k
      = Cert.Gcn.residual (F := Ideal) A₁ (Cert.Gcn.alongRows (F := Ideal) n₁) f₁ (ix2 r k) := by
  rw [Cert.Gcn.residual_apply, Cert.Gcn.alongRows_apply]
  unfold mixAt
  rw [stack_rowLo, stack_rowLo, stackCol_rowLo]

/-- The residual mix at a row of the second half is the second graph's residual. -/
theorem mix_hi (k : Fin 128) :
    mixAt (stack (F := Ideal) A₁ A₂) (stackCol (F := Ideal) (colK (F := Ideal) n₁) (colK (F := Ideal) n₂))
        (stack (F := Ideal) f₁ f₂) (Layout.rowHi r) k
      = Cert.Gcn.residual (F := Ideal) A₂ (Cert.Gcn.alongRows (F := Ideal) n₂) f₂ (ix2 r k) := by
  rw [Cert.Gcn.residual_apply, Cert.Gcn.alongRows_apply]
  unfold mixAt
  rw [stack_rowHi, stack_rowHi, stackCol_rowHi]

end Halves

/-! ## The dense part of a layer at a row of either half -/

section Dense
variable (c₁ c₂ : BitVec 32) (A₁ A₂ f₁ f₂ : FVec Ideal S100000x128 .f32) (n₁ n₂ : FVec Ideal S100000 .f32)
  (W : FVec Ideal S128x128 .f32) (b : FVec Ideal S128 .f32) (bias : FVec Ideal S1x128 .f32)
  (hb : ∀ j : Fin 128, bias (ix2 (0 : Fin 1) j) = b (ix1 j)) (r : Fin 100000) (j : Fin 128)

include hb

/-- For any stacked neighbour sums: the dense part at a row of the first half is the first graph's activation of its
    residual. -/
theorem denseAt_lo :
    denseAt c₁ c₂ (stack (F := Ideal) A₁ A₂) (stackCol (F := Ideal) (colK (F := Ideal) n₁) (colK (F := Ideal) n₂))
        (stack (F := Ideal) f₁ f₂) W bias (Layout.rowLo r) j
      = Cert.Gcn.activate (F := Ideal) c₁ c₂ W b
          (Cert.Gcn.residual (F := Ideal) A₁ (Cert.Gcn.alongRows (F := Ideal) n₁) f₁) (ix2 r j) := by
  rw [Cert.Gcn.activate_apply]
  unfold denseAt
  rw [mix_lo, hb j, Finset.sum_congr rfl fun k _ => congrArg (· * W (ix2 k j)) (mix_lo A₁ A₂ f₁ f₂ n₁ n₂ r k)]

/-- … and at a row of the second half the second graph's. -/
theorem denseAt_hi :
    denseAt c₁ c₂ (stack (F := Ideal) A₁ A₂) (stackCol (F := Ideal) (colK (F := Ideal) n₁) (colK (F := Ideal) n₂))
        (stack (F := Ideal) f₁ f₂) W bias (Layout.rowHi r) j
      = Cert.Gcn.activate (F := Ideal) c₁ c₂ W b
          (Cert.Gcn.residual (F := Ideal) A₂ (Cert.Gcn.alongRows (F := Ideal) n₂) f₂) (ix2 r j) := by
  rw [Cert.Gcn.activate_apply]
  unfold denseAt
  rw [mix_hi, hb j, Finset.sum_congr rfl fun k _ => congrArg (· * W (ix2 k j)) (mix_hi A₁ A₂ f₁ f₂ n₁ n₂ r k)]

variable (x₁ x₂ : FVec Ideal S100000x128 .f32) (src₁ dst₁ src₂ dst₂ : Cert.Gcn.IArr Ideal S1600000)

/-- The kernel's layer over the stack, at a row of the first graph, is the specification's layer of the first graph. -/
theorem dense_lo :
    denseAt c₁ c₂
        (stack (F := Ideal)
          (Cert.Gcn.neighbourSum (F := Ideal) (mulf x₁ (Cert.Gcn.alongRows (F := Ideal) n₁)) src₁ dst₁)
          (Cert.Gcn.neighbourSum (F := Ideal) (mulf x₂ (Cert.Gcn.alongRows (F := Ideal) n₂)) src₂ dst₂))
        (stackCol (F := Ideal) (colK (F := Ideal) n₁) (colK (F := Ideal) n₂)) (stack (F := Ideal) f₁ f₂) W bias (Layout.rowLo r) j
      = Cert.Gcn.layer (F := Ideal) c₁ c₂ W b n₁ f₁ src₁ dst₁ x₁ (ix2 r j) :=
  denseAt_lo c₁ c₂ _ _ f₁ f₂ n₁ n₂ W b bias hb r j

/-- … and at a row of the second graph the specification's layer of the second graph. -/
theorem dense_hi :
    denseAt c₁ c₂
        (stack (F := Ideal)
          (Cert.Gcn.neighbourSum (F := Ideal) (mulf x₁ (Cert.Gcn.alongRows (F := Ideal) n₁)) src₁ dst₁)
          (Cert.Gcn.neighbourSum (F := Ideal) (mulf x₂ (Cert.Gcn.alongRows (F := Ideal) n₂)) src₂ dst₂))
        (stackCol (F := Ideal) (colK (F := Ideal) n₁) (colK (F := Ideal) n₂)) (stack (F := Ideal) f₁ f₂) W bias (Layout.rowHi r) j
      = Cert.Gcn.layer (F := Ideal) c₁ c₂ W b n₂ f₂ src₂ dst₂ x₂ (ix2 r j) :=
  denseAt_hi c₁ c₂ _ _ f₁ f₂ n₁ n₂ W b bias hb r j

/-- The region's second output, the layer's output times the in-degree scale, at a row of the first graph. -/
theorem scaled_lo :
    denseAt c₁ c₂
        (stack (F := Ideal)
          (Cert.Gcn.neighbourSum (F := Ideal) (mulf x₁ (Cert.Gcn.alongRows (F := Ideal) n₁)) src₁ dst₁)
          (Cert.Gcn.neighbourSum (F := Ideal) (mulf x₂ (Cert.Gcn.alongRows (F := Ideal) n₂)) src₂ dst₂))
        (stackCol (F := Ideal) (colK (F := Ideal) n₁) (colK (F := Ideal) n₂)) (stack (F := Ideal) f₁ f₂) W bias (Layout.rowLo r) j
        * (stackCol (F := Ideal) (colK (F := Ideal) n₁) (colK (F := Ideal) n₂)) (ix2 (Layout.rowLo r) (0 : Fin 1))
      = mulf (F := Ideal) (s := S100000x128) (φ := .f32) (Cert.Gcn.layer (F := Ideal) c₁ c₂ W b n₁ f₁ src₁ dst₁ x₁) (Cert.Gcn.alongRows (F := Ideal) n₁) (ix2 r j) := by
  rw [mulf_apply, Cert.Gcn.alongRows_apply, stackCol_rowLo,
    dense_lo c₁ c₂ f₁ f₂ n₁ n₂ W b bias hb r j x₁ x₂ src₁ dst₁ src₂ dst₂]

/-- … and at a row of the second graph. -/
theorem scaled_hi :
    denseAt c₁ c₂
        (stack (F := Ideal)
          (Cert.Gcn.neighbourSum (F := Ideal) (mulf x₁ (Cert.Gcn.alongRows (F := Ideal) n₁)) src₁ dst₁)
          (Cert.Gcn.neighbourSum (F := Ideal) (mulf x₂ (Cert.Gcn.alongRows (F := Ideal) n₂)) src₂ dst₂))
        (stackCol (F := Ideal) (colK (F := Ideal) n₁) (colK (F := Ideal) n₂)) (stack (F := Ideal) f₁ f₂) W bias (Layout.rowHi r) j
        * (stackCol (F := Ideal) (colK (F := Ideal) n₁) (colK (F := Ideal) n₂)) (ix2 (Layout.rowHi r) (0 : Fin 1))
      = mulf (F := Ideal) (s := S100000x128) (φ := .f32) (Cert.Gcn.layer (F := Ideal) c₁ c₂ W b n₂ f₂ src₂ dst₂ x₂) (Cert.Gcn.alongRows (F := Ideal) n₂) (ix2 r j) := by
  rw [mulf_apply, Cert.Gcn.alongRows_apply, stackCol_rowHi,
    dense_hi c₁ c₂ f₁ f₂ n₁ n₂ W b bias hb r j x₁ x₂ src₁ dst₁ src₂ dst₂]

end Dense

end Cert.GcnK

end
-- ==== Proof.RegionNormPay.lean ====
/- The standardisation's last step, entry by entry: the formula, the array it defines, and the normalize body's
   payload read at one entry of its block (at the ideal instance: the extended reals, every operation exact). -/
import proofs.«158605_j26792005992870_2_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The offsets of a whole-block access are all zero. -/
theorem offsets_zero : (![0, 0] : Fin 2 → Nat) = fun _ => 0 := funext fun a => by fin_cases a <;> rfl

/-- The standardised entry: the entry less its column's mean, times its column's inverse deviation. -/
def normalizedAt (X : FVec Ideal S100000x128 .f32) (mu sg : FVec Ideal S1x128 .f32) (r : Fin 100000) (j : Fin 128) : EReal :=
  (X (ix2 r j) - mu (ix2 0 j)) * sg (ix2 0 j)

/-- The standardised array, index by index. -/
def normalized (X : FVec Ideal S100000x128 .f32) (mu sg : FVec Ideal S1x128 .f32) : FVec Ideal S100000x128 .f32 :=
  fun i => normalizedAt X mu sg (i 0) (i 1)

/-- The standardised array at an index whose column is `q`. -/
theorem normalized_apply (X : FVec Ideal S100000x128 .f32) (mu sg : FVec Ideal S1x128 .f32) (i : S100000x128.Idx) (q : Fin 128)
    (hq : (i 1).val = q.val) : normalized X mu sg i = (X i - mu (ix2 0 q)) * sg (ix2 0 q) := by
  obtain ⟨r, j, rfl⟩ : ∃ (r : Fin 100000) (j : Fin 128), i = ix2 r j := ⟨i 0, i 1, eq_ix2 i⟩
  obtain rfl : j = q := Fin.ext hq
  rfl

/-- The standardised array at row `r`, column `j`. -/
theorem normalized_ix2 (X : FVec Ideal S100000x128 .f32) (mu sg : FVec Ideal S1x128 .f32) (r : Fin 100000) (j : Fin 128) :
    normalized X mu sg (ix2 r j) = normalizedAt X mu sg r j := rfl

/-- A row vector broadcast down the rows of a block reads, at row `p` and column `q`, the vector's entry `q`. -/
theorem broadcast_row_apply (x : Vec Ideal S1x128 .f32) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => by match a with | ⟨0, _⟩ => rfl | ⟨1, _⟩ => rfl)

/-- The first normalize body's payload at an entry: the block's entry less the mean's, times the inverse deviation's. -/
theorem k4_pay1_apply (x0 : Vec Ideal S5000x128 .f32) (x1 x2 : Vec Ideal S1x128 .f32) (p : Fin 5000) (q : Fin 128) :
    k4_pay1 x0 x1 x2 (ix2 p q) = (x0 (ix2 p q) - x1 (ix2 0 q)) * x2 (ix2 0 q) := by
  unfold k4_pay1
  simp only [shapeCast_self]
  rw [mulf_apply, subf_apply, broadcast_row_apply, broadcast_row_apply]

/-- The second normalize body's payload at an entry: the same formula. -/
theorem k5_pay1_apply (x0 : Vec Ideal S5000x128 .f32) (x1 x2 : Vec Ideal S1x128 .f32) (p : Fin 5000) (q : Fin 128) :
    k5_pay1 x0 x1 x2 (ix2 p q) = (x0 (ix2 p q) - x1 (ix2 0 q)) * x2 (ix2 0 q) := by
  unfold k5_pay1
  simp only [shapeCast_self]
  rw [mulf_apply, subf_apply, broadcast_row_apply, broadcast_row_apply]

end Cert.KernelIdeal.Hand

end
-- ==== Proof.RegionMixPay.lean ====
/- The dense part of one layer, entry by entry: the combine body's payloads read at one entry of their block (at the
   ideal instance: the extended reals, every operation exact, the format changes the identity), the block's matrix
   product as a sum over the contracted coordinate, and the passage from a block's entries to the stacked arrays' entries. -/
import proofs.«158605_j26792005992870_2_alg».proof.Proof.Gen.KernelIdeal.Frame
import proofs.«158605_j26792005992870_2_alg».proof.Proof.RegionSpec
import proofs.«158605_j26792005992870_2_alg».proof.Proof.RegionNormPay
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

open scoped BigOperators

/-! ## The matrix product of a block -/

theorem dot_contr_rank : (dot_S2000x128_S128x128_S2000x128_1_0_0_1_n_n).contr.rank = 1 := rfl
theorem dot_contr_size : (dot_S2000x128_S128x128_S2000x128_1_0_0_1_n_n).contr.size ⟨0, by rw [dot_contr_rank]; exact Nat.one_pos⟩ = 128 := rfl

/-- The block's matrix product into a zero accumulator, at an entry: the row of the left factor against the column of
    the right one. The contraction index has one coordinate; the sum is re-indexed through it. -/
theorem matmul_block_apply (l : FVec Ideal S2000x128 .bf16) (w : FVec Ideal S128x128 .bf16) (p : Fin 2000) (q : Fin 128) :
    matmul dot_S2000x128_S128x128_S2000x128_1_0_0_1_n_n none l w (constant (F := Ideal) S2000x128 .f32 0x00000000#32) (ix2 p q)
      = ∑ k : Fin 128, l (ix2 p k) * w (ix2 k q) := by
  show FloatOps.matmul dot_S2000x128_S128x128_S2000x128_1_0_0_1_n_n none l w (constant (F := Ideal) S2000x128 .f32 0x00000000#32) (ix2 p q) = _
  rw [Ideal.matmul_constant_zero_apply]
  rw [← Equiv.sum_comp (contrEquiv1 dot_S2000x128_S128x128_S2000x128_1_0_0_1_n_n 128 dot_contr_rank dot_contr_size).symm]
  refine Finset.sum_congr rfl fun k _ => ?_
  have hl : dot_S2000x128_S128x128_S2000x128_1_0_0_1_n_n.lhsIdx (ix2 p q) ((contrEquiv1 dot_S2000x128_S128x128_S2000x128_1_0_0_1_n_n 128 dot_contr_rank dot_contr_size).symm k) = ix2 p k := by
    funext a
    apply Fin.ext
    match a with
    | ⟨0, _⟩ => rfl
    | ⟨1, _⟩ =>
      refine (DotDims.lhsIdx_val_of_single (d := dot_S2000x128_S128x128_S2000x128_1_0_0_1_n_n) (cl := (1 : Fin 2)) rfl (ix2 p q) _).trans ?_
      exact contrEquiv1_symm_val dot_S2000x128_S128x128_S2000x128_1_0_0_1_n_n 128 dot_contr_rank dot_contr_size k
  have hr : dot_S2000x128_S128x128_S2000x128_1_0_0_1_n_n.rhsIdx (ix2 p q) ((contrEquiv1 dot_S2000x128_S128x128_S2000x128_1_0_0_1_n_n 128 dot_contr_rank dot_contr_size).symm k) = ix2 k q := by
    funext a
    apply Fin.ext
    match a with
    | ⟨0, _⟩ =>
      refine (DotDims.rhsIdx_val_of_single (d := dot_S2000x128_S128x128_S2000x128_1_0_0_1_n_n) (cr := (0 : Fin 2)) rfl (ix2 p q) _).trans ?_
      exact contrEquiv1_symm_val dot_S2000x128_S128x128_S2000x128_1_0_0_1_n_n 128 dot_contr_rank dot_contr_size k
    | ⟨1, _⟩ => rfl
  rw [hl, hr]

/-! ## The formulas on a block -/

/-- The residual mix at one entry of a block. -/
def mixBlk (a : Vec Ideal S2000x128 .f32) (n : Vec Ideal S2000x1 .f32) (f : Vec Ideal S2000x128 .f32) (p : Fin 2000) (k : Fin 128) : EReal :=
  Ideal.ofBits .f32 0x3F666666#32 * (a (ix2 p k) * n (ix2 p (0 : Fin 1))) + Ideal.ofBits .f32 0x3DCCCCCD#32 * f (ix2 p k)

/-- The layer's output at one entry of a block. -/
def denseBlk (c₁ c₂ : BitVec 32) (a : Vec Ideal S2000x128 .f32) (n : Vec Ideal S2000x1 .f32) (f : Vec Ideal S2000x128 .f32)
    (w : Vec Ideal S128x128 .f32) (b : Vec Ideal S1x128 .f32) (p : Fin 2000) (q : Fin 128) : EReal :=
  max (Ideal.ofBits .f32 c₁ * mixBlk a n f p q + Ideal.ofBits .f32 c₂ * (∑ k : Fin 128, mixBlk a n f p k * w (ix2 k q))
      + b (ix2 (0 : Fin 1) q))
    (Ideal.ofBits .f32 0x00000000#32)

/-- The scale column broadcast along the features reads, at row `p`, the column's entry `p`. -/
theorem broadcast_col_apply (n : Vec Ideal S2000x1 .f32) (p : Fin 2000) (q : Fin 128) :
    broadcastTo S2000x128 n broadcasts_S2000x1_S2000x128 (ix2 p q) = n (ix2 p (0 : Fin 1)) :=
  broadcastTo_apply n broadcasts_S2000x1_S2000x128 (ix2 p q) (ix2 p (0 : Fin 1)) (fun a => by match a with | ⟨0, _⟩ => rfl | ⟨1, _⟩ => rfl)

/-- The bias row broadcast down the rows reads, at column `q`, the row's entry `q`. -/
theorem broadcast_bias_apply (b : Vec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => by match a with | ⟨0, _⟩ => rfl | ⟨1, _⟩ => rfl)

/-! ## The four combine bodies' payloads at an entry -/

/-- The first combine body's broadcast scale at an entry. -/
theorem k0_pay1_apply (n : Vec Ideal S2000x1 .f32) (p : Fin 2000) (q : Fin 128) : k0_pay1 n (ix2 p q) = n (ix2 p (0 : Fin 1)) := by
  unfold k0_pay1
  simp only [shapeCast_self]
  exact broadcast_col_apply n p q

/-- The first combine body's first stored value at an entry: the layer's output there. -/
theorem k0_pay2_apply (n : Vec Ideal S2000x1 .f32) (a f : Vec Ideal S2000x128 .f32) (w : Vec Ideal S128x128 .f32) (b : Vec Ideal S1x128 .f32)
    (p : Fin 2000) (q : Fin 128) :
    k0_pay2 n a f w b (ix2 p q) = denseBlk 0x3E9D1BD0#32 0x3F317218#32 a n f w b p q := by
  unfold k0_pay2
  simp only [shapeCast_self]
  simp only [maximumf_apply, addf_apply, mulf_apply, broadcast_apply, matmul_block_apply, truncf_apply, k0_pay1_apply]
  rw [broadcast_bias_apply]
  rfl

/-- The first combine body's second stored value at an entry: the output scaled by the row's scale. -/
theorem k0_pay3_apply (n : Vec Ideal S2000x1 .f32) (a f : Vec Ideal S2000x128 .f32) (w : Vec Ideal S128x128 .f32) (b : Vec Ideal S1x128 .f32)
    (p : Fin 2000) (q : Fin 128) :
    k0_pay3 n a f w b (ix2 p q) = denseBlk 0x3E9D1BD0#32 0x3F317218#32 a n f w b p q * n (ix2 p (0 : Fin 1)) := by
  unfold k0_pay3
  rw [mulf_apply, k0_pay2_apply, k0_pay1_apply]

/-- The second combine body's broadcast scale at an entry. -/
theorem k1_pay1_apply (n : Vec Ideal S2000x1 .f32) (p : Fin 2000) (q : Fin 128) : k1_pay1 n (ix2 p q) = n (ix2 p (0 : Fin 1)) := by
  unfold k1_pay1
  simp only [shapeCast_self]
  exact broadcast_col_apply n p q

/-- The second combine body's first stored value at an entry: the layer's output there. -/
theorem k1_pay2_apply (n : Vec Ideal S2000x1 .f32) (a f : Vec Ideal S2000x128 .f32) (w : Vec Ideal S128x128 .f32) (b : Vec Ideal S1x128 .f32)
    (p : Fin 2000) (q : Fin 128) :
    k1_pay2 n a f w b (ix2 p q) = denseBlk 0x3F183370#32 0x3ECF991F#32 a n f w b p q := by
  unfold k1_pay2
  simp only [shapeCast_self]
  simp only [maximumf_apply, addf_apply, mulf_apply, broadcast_apply, matmul_block_apply, truncf_apply, k1_pay1_apply]
  rw [broadcast_bias_apply]
  rfl

/-- The second combine body's second stored value at an entry: the output scaled by the row's scale. -/
theorem k1_pay3_apply (n : Vec Ideal S2000x1 .f32) (a f : Vec Ideal S2000x128 .f32) (w : Vec Ideal S128x128 .f32) (b : Vec Ideal S1x128 .f32)
    (p : Fin 2000) (q : Fin 128) :
    k1_pay3 n a f w b (ix2 p q) = denseBlk 0x3F183370#32 0x3ECF991F#32 a n f w b p q * n (ix2 p (0 : Fin 1)) := by
  unfold k1_pay3
  rw [mulf_apply, k1_pay2_apply, k1_pay1_apply]

/-- The third combine body's broadcast scale at an entry. -/
theorem k2_pay1_apply (n : Vec Ideal S2000x1 .f32) (p : Fin 2000) (q : Fin 128) : k2_pay1 n (ix2 p q) = n (ix2 p (0 : Fin 1)) := by
  unfold k2_pay1
  simp only [shapeCast_self]
  exact broadcast_col_apply n p q

/-- The third combine body's first stored value at an entry: the layer's output there. -/
theorem k2_pay2_apply (n : Vec Ideal S2000x1 .f32) (a f : Vec Ideal S2000x128 .f32) (w : Vec Ideal S128x128 .f32) (b : Vec Ideal S1x128 .f32)
    (p : Fin 2000) (q : Fin 128) :
    k2_pay2 n a f w b (ix2 p q) = denseBlk 0x3F365A78#32 0x3E934B11#32 a n f w b p q := by
  unfold k2_pay2
  simp only [shapeCast_self]
  simp only [maximumf_apply, addf_apply, mulf_apply, broadcast_apply, matmul_block_apply, truncf_apply, k2_pay1_apply]
  rw [broadcast_bias_apply]
  rfl

/-- The third combine body's second stored value at an entry: the output scaled by the row's scale. -/
theorem k2_pay3_apply (n : Vec Ideal S2000x1 .f32) (a f : Vec Ideal S2000x128 .f32) (w : Vec Ideal S128x128 .f32) (b : Vec Ideal S1x128 .f32)
    (p : Fin 2000) (q : Fin 128) :
    k2_pay3 n a f w b (ix2 p q) = denseBlk 0x3F365A78#32 0x3E934B11#32 a n f w b p q * n (ix2 p (0 : Fin 1)) := by
  unfold k2_pay3
  rw [mulf_apply, k2_pay2_apply, k2_pay1_apply]

/-- The fourth combine body's broadcast scale at an entry. -/
theorem k3_pay1_apply (n : Vec Ideal S2000x1 .f32) (p : Fin 2000) (q : Fin 128) : k3_pay1 n (ix2 p q) = n (ix2 p (0 : Fin 1)) := by
  unfold k3_pay1
  simp only [shapeCast_self]
  exact broadcast_col_apply n p q

/-- The fourth combine body's first stored value at an entry: the layer's output there. -/
theorem k3_pay2_apply (n : Vec Ideal S2000x1 .f32) (a f : Vec Ideal S2000x128 .f32) (w : Vec Ideal S128x128 .f32) (b : Vec Ideal S1x128 .f32)
    (p : Fin 2000) (q : Fin 128) :
    k3_pay2 n a f w b (ix2 p q) = denseBlk 0x3F46E010#32 0x3E647FBE#32 a n f w b p q := by
  unfold k3_pay2
  simp only [shapeCast_self]
  simp only [maximumf_apply, addf_apply, mulf_apply, broadcast_apply, matmul_block_apply, truncf_apply, k3_pay1_apply]
  rw [broadcast_bias_apply]
  rfl

/-- The fourth combine body's second stored value at an entry: the output scaled by the row's scale. -/
theorem k3_pay3_apply (n : Vec Ideal S2000x1 .f32) (a f : Vec Ideal S2000x128 .f32) (w : Vec Ideal S128x128 .f32) (b : Vec Ideal S1x128 .f32)
    (p : Fin 2000) (q : Fin 128) :
    k3_pay3 n a f w b (ix2 p q) = denseBlk 0x3F46E010#32 0x3E647FBE#32 a n f w b p q * n (ix2 p (0 : Fin 1)) := by
  unfold k3_pay3
  rw [mulf_apply, k3_pay2_apply, k3_pay1_apply]

/-! ## From a block's entries to the stacked arrays' -/

/-- The layer's output as an array, index by index. -/
def denseArr (c₁ c₂ : BitVec 32) (A : FVec Ideal S200000x128 .f32) (Nn : FVec Ideal S200000x1 .f32)
    (F0 : FVec Ideal S200000x128 .f32) (Wm : FVec Ideal S128x128 .f32) (bias : FVec Ideal S1x128 .f32) : FVec Ideal S200000x128 .f32 :=
  fun i => denseAt c₁ c₂ A Nn F0 Wm bias (i 0) (i 1)

/-- The layer's output scaled row by row, at one entry. -/
def scaledAt (c₁ c₂ : BitVec 32) (A : FVec Ideal S200000x128 .f32) (Nn : FVec Ideal S200000x1 .f32)
    (F0 : FVec Ideal S200000x128 .f32) (Wm : FVec Ideal S128x128 .f32) (bias : FVec Ideal S1x128 .f32) (r : Fin 200000) (j : Fin 128) : EReal :=
  denseAt c₁ c₂ A Nn F0 Wm bias r j * Nn (ix2 r (0 : Fin 1))

/-- The scaled output as an array, index by index. -/
def scaledArr (c₁ c₂ : BitVec 32) (A : FVec Ideal S200000x128 .f32) (Nn : FVec Ideal S200000x1 .f32)
    (F0 : FVec Ideal S200000x128 .f32) (Wm : FVec Ideal S128x128 .f32) (bias : FVec Ideal S1x128 .f32) : FVec Ideal S200000x128 .f32 :=
  fun i => scaledAt c₁ c₂ A Nn F0 Wm bias (i 0) (i 1)

/-- The output array at an index whose coordinates are `r` and `q`. -/
theorem denseArr_apply (c₁ c₂ : BitVec 32) (A : FVec Ideal S200000x128 .f32) (Nn : FVec Ideal S200000x1 .f32)
    (F0 : FVec Ideal S200000x128 .f32) (Wm : FVec Ideal S128x128 .f32) (bias : FVec Ideal S1x128 .f32)
    (i : S200000x128.Idx) (r : Fin 200000) (q : Fin 128) (h0 : (i 0).val = r.val) (h1 : (i 1).val = q.val) :
    denseArr c₁ c₂ A Nn F0 Wm bias i = denseAt c₁ c₂ A Nn F0 Wm bias r q := by
  obtain ⟨r', q', rfl⟩ : ∃ (r' : Fin 200000) (q' : Fin 128), i = ix2 r' q' := ⟨i 0, i 1, eq_ix2 i⟩
  obtain rfl : r' = r := Fin.ext h0
  obtain rfl : q' = q := Fin.ext h1
  rfl

/-- The scaled array at an index whose coordinates are `r` and `q`. -/
theorem scaledArr_apply (c₁ c₂ : BitVec 32) (A : FVec Ideal S200000x128 .f32) (Nn : FVec Ideal S200000x1 .f32)
    (F0 : FVec Ideal S200000x128 .f32) (Wm : FVec Ideal S128x128 .f32) (bias : FVec Ideal S1x128 .f32)
    (i : S200000x128.Idx) (r : Fin 200000) (q : Fin 128) (h0 : (i 0).val = r.val) (h1 : (i 1).val = q.val) :
    scaledArr c₁ c₂ A Nn F0 Wm bias i = scaledAt c₁ c₂ A Nn F0 Wm bias r q := by
  obtain ⟨r', q', rfl⟩ : ∃ (r' : Fin 200000) (q' : Fin 128), i = ix2 r' q' := ⟨i 0, i 1, eq_ix2 i⟩
  obtain rfl : r' = r := Fin.ext h0
  obtain rfl : q' = q := Fin.ext h1
  rfl

/-- A block whose row `p` is row `r` of the stacked arrays (and whose weight and bias blocks are the whole weight and
    bias) has, at row `p`, the layer's output at row `r`. -/
theorem denseBlk_eq_denseAt (c₁ c₂ : BitVec 32) (a : Vec Ideal S2000x128 .f32) (n : Vec Ideal S2000x1 .f32) (f : Vec Ideal S2000x128 .f32)
    (w : Vec Ideal S128x128 .f32) (b : Vec Ideal S1x128 .f32)
    (A : FVec Ideal S200000x128 .f32) (Nn : FVec Ideal S200000x1 .f32) (F0 : FVec Ideal S200000x128 .f32)
    (Wm : FVec Ideal S128x128 .f32) (bias : FVec Ideal S1x128 .f32) (p : Fin 2000) (r : Fin 200000) (q : Fin 128)
    (ha : ∀ k : Fin 128, a (ix2 p k) = A (ix2 r k)) (hn : n (ix2 p (0 : Fin 1)) = Nn (ix2 r (0 : Fin 1)))
    (hf : ∀ k : Fin 128, f (ix2 p k) = F0 (ix2 r k)) (hw : ∀ k : Fin 128, w (ix2 k q) = Wm (ix2 k q))
    (hb : b (ix2 (0 : Fin 1) q) = bias (ix2 (0 : Fin 1) q)) :
    denseBlk c₁ c₂ a n f w b p q = denseAt c₁ c₂ A Nn F0 Wm bias r q := by
  unfold denseBlk denseAt mixBlk mixAt
  simp only [ha, hn, hf, hw, hb]

end Cert.KernelIdeal.Hand

end
-- ==== Proof.Region0.lean ====
/- What the first combine region leaves in its two output arrays, as functions of the arrays it finds: every point of
   the grid writes back its row block of the layer's output (and of the output scaled row by row), and the hundred row
   blocks cover the stacked array. -/
import proofs.«158605_j26792005992870_2_alg».proof.Proof.RegionMixPay

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row block of the three stacked inputs and of the two outputs is the point's
    number; the weight's and the bias's block, and every column block, is zero. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The neighbour sums' block at a point: rows `2000 t … 2000 t + 1999` of the stacked array. -/
theorem iblk0_0_apply (c : Dev nD) (t : Fin cfg0.N) (p : Fin 2000) (k : Fin 128) (r : Fin 200000) (hr : r.val = t.val * 2000 + p.val) :
    iblk0 V c 0 t (ix2 p k) = V c (Pipeline.arrRef spec0 0) (ix2 r k) := by
  obtain ⟨e00, e01, -⟩ := idx_facts0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

/-- The scales' block at a point: the same rows of the stacked column. -/
theorem iblk0_1_apply (c : Dev nD) (t : Fin cfg0.N) (p : Fin 2000) (r : Fin 200000) (hr : r.val = t.val * 2000 + p.val) :
    iblk0 V c 1 t (ix2 p (0 : Fin 1)) = V c (Pipeline.arrRef spec0 1) (ix2 r (0 : Fin 1)) := by
  obtain ⟨-, -, e10, e11, -⟩ := idx_facts0 t
  show V c (Pipeline.arrRef spec0 1) (((cfg0.win 1).blk t).view.emb (ix2 p (0 : Fin 1))) = V c (Pipeline.arrRef spec0 1) (ix2 r (0 : Fin 1))
  refine congrArg _ (funext fun a => Fin.ext ?_)
  match a with
  | ⟨0, _⟩ => show win0_1.index t (0 : Fin 2) * 2000 + 1 * p.val = r.val; rw [e10, hr]; omega
  | ⟨1, _⟩ => show win0_1.index t (1 : Fin 2) * 1 + 1 * 0 = 0; rw [e11]

/-- The input features' block at a point: the same rows of the stacked array. -/
theorem iblk0_2_apply (c : Dev nD) (t : Fin cfg0.N) (p : Fin 2000) (k : Fin 128) (r : Fin 200000) (hr : r.val = t.val * 2000 + p.val) :
    iblk0 V c 2 t (ix2 p k) = V c (Pipeline.arrRef spec0 2) (ix2 r k) := by
  obtain ⟨-, -, -, -, e20, e21, -⟩ := idx_facts0 t
  show V c (Pipeline.arrRef spec0 2) (((cfg0.win 2).blk t).view.emb (ix2 p k)) = V c (Pipeline.arrRef spec0 2) (ix2 r k)
  refine congrArg _ (funext fun a => Fin.ext ?_)
  match a with
  | ⟨0, _⟩ => show win0_2.index t (0 : Fin 2) * 2000 + 1 * p.val = r.val; rw [e20, hr]; omega
  | ⟨1, _⟩ => show win0_2.index t (1 : Fin 2) * 128 + 1 * k.val = k.val; rw [e21]; omega

/-- The weight's block at every point is the whole weight. -/
theorem iblk0_3_apply (c : Dev nD) (t : Fin cfg0.N) (k q : Fin 128) :
    iblk0 V c 3 t (ix2 k q) = V c (Pipeline.arrRef spec0 3) (ix2 k q) := by
  obtain ⟨-, -, -, -, -, -, e30, e31, -⟩ := idx_facts0 t
  show V c (Pipeline.arrRef spec0 3) (((cfg0.win 3).blk t).view.emb (ix2 k q)) = V c (Pipeline.arrRef spec0 3) (ix2 k q)
  refine congrArg _ (funext fun a => Fin.ext ?_)
  match a with
  | ⟨0, _⟩ => show win0_3.index t (0 : Fin 2) * 128 + 1 * k.val = k.val; rw [e30]; omega
  | ⟨1, _⟩ => show win0_3.index t (1 : Fin 2) * 128 + 1 * q.val = q.val; rw [e31]; omega

/-- The bias's block at every point is the whole bias row. -/
theorem iblk0_4_apply (c : Dev nD) (t : Fin cfg0.N) (q : Fin 128) :
    iblk0 V c 4 t (ix2 (0 : Fin 1) q) = V c (Pipeline.arrRef spec0 4) (ix2 (0 : Fin 1) q) := by
  obtain ⟨-, -, -, -, -, -, -, -, e40, e41, -⟩ := idx_facts0 t
  show V c (Pipeline.arrRef spec0 4) (((cfg0.win 4).blk t).view.emb (ix2 (0 : Fin 1) q)) = V c (Pipeline.arrRef spec0 4) (ix2 (0 : Fin 1) q)
  refine congrArg _ (funext fun a => Fin.ext ?_)
  match a with
  | ⟨0, _⟩ => show win0_4.index t (0 : Fin 2) * 1 + 1 * 0 = 0; rw [e40]
  | ⟨1, _⟩ => show win0_4.index t (1 : Fin 2) * 128 + 1 * q.val = q.val; rw [e41]; omega

/-- The layer's output at row `p` of a point's blocks is the layer's output at row `2000 t + p` of the stacked arrays. -/
theorem denseBlk0_eq (c : Dev nD) (t : Fin cfg0.N) (p : Fin 2000) (q : Fin 128) (r : Fin 200000) (hr : r.val = t.val * 2000 + p.val) :
    denseBlk 0x3E9D1BD0#32 0x3F317218#32 (iblk0 V c 0 t) (iblk0 V c 1 t) (iblk0 V c 2 t) (iblk0 V c 3 t) (iblk0 V c 4 t) p q
      = denseAt 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4)) r q :=
  denseBlk_eq_denseAt _ _ _ _ _ _ _ _ _ _ _ _ p r q (fun k => iblk0_0_apply V c t p k r hr) (iblk0_1_apply V c t p r hr)
    (fun k => iblk0_2_apply V c t p k r hr) (fun k => iblk0_3_apply V c t k q) (iblk0_4_apply V c t q)

/-- A row inside a point's block is a row of the stacked array. -/
theorem row_lt0 (t : Fin cfg0.N) (p : Fin 2000) : t.val * 2000 + p.val < 200000 := by
  have ht : t.val < 100 := lt_of_lt_of_eq t.isLt (show cfg0.N = 100 from N_0)
  have hp : p.val < 2000 := p.isLt
  omega

set_option maxHeartbeats 2000000 in
/-- What a point writes back to window 5 is its block of the layer's output. -/
theorem flushed0_5_eq (c : Dev nD) (t : Fin cfg0.N) :
    (dat0 V c).flushed 5 t = ((cfg0.win 5).blk t).view.read (Elt Ideal) (denseArr 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k0_pay2 (iblk0 V c 1 t) (iblk0 V c 0 t) (iblk0 V c 2 t) (iblk0 V c 3 t) (iblk0 V c 4 t) (ix2 p q) = _
  rw [k0_pay2_apply, denseBlk0_eq V c t p q ⟨t.val * 2000 + p.val, row_lt0 t p⟩ rfl]
  show _ = denseArr 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4)) (((cfg0.win 5).blk t).view.emb (ix2 p q))
  obtain ⟨-, -, -, -, -, -, -, -, -, -, e50, e51, e60, e61⟩ := idx_facts0 t
  refine (denseArr_apply _ _ _ _ _ _ _ (((cfg0.win 5).blk t).view.emb (ix2 p q)) ⟨t.val * 2000 + p.val, row_lt0 t p⟩ q ?_ ?_).symm
  · show win0_5.index t (0 : Fin 2) * 2000 + 1 * p.val = t.val * 2000 + p.val
    rw [e50]; omega
  · show win0_5.index t (1 : Fin 2) * 128 + 1 * q.val = q.val
    rw [e51]; omega

/-- An index of the array is in a point's block of window 5 iff each coordinate is in the block's range on its axis. -/
theorem mem_blk0_5 (t : Fin cfg0.N) (i : S200000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v48_0).slice (win0_5.rect t)).set ↔ _
  rw [View.set_slice_whole, Rect.mem_set_unit]
  exact Iff.rfl

/-- Row `r` of the stacked array is in window 5's block of point `r / 2000`. -/
theorem cover0_5 (i : S200000x128.Idx) : ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 100 := N_0
  have hlt : (i 0).val / 2000 < cfg0.N := by rw [hN]; omega
  obtain ⟨-, -, -, -, -, -, -, -, -, -, e50, e51, e60, e61⟩ := idx_facts0 ⟨(i 0).val / 2000, hlt⟩
  refine ⟨⟨(i 0).val / 2000, hlt⟩, flush0_5 _, ?_⟩
  rw [mem_blk0_5]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    rw [e51]; omega

/-- The array the region leaves under window 5: the layer's output, of the arrays it finds. -/
theorem final0_5 (c : Dev nD) : (dat0 V c).arrAt 5 cfg0.N = denseArr 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => flushed0_5_eq V c t) cover0_5

set_option maxHeartbeats 2000000 in
/-- What a point writes back to window 6 is its block of the scaled output. -/
theorem flushed0_6_eq (c : Dev nD) (t : Fin cfg0.N) :
    (dat0 V c).flushed 6 t = ((cfg0.win 6).blk t).view.read (Elt Ideal) (scaledArr 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4))) := by
  show (cfg0.win 6).cut (grid0.coords t) ((dat0 V c).after 6 t) = _
  rw [after0_6]
  unfold out0_6
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k0_pay3 (iblk0 V c 1 t) (iblk0 V c 0 t) (iblk0 V c 2 t) (iblk0 V c 3 t) (iblk0 V c 4 t) (ix2 p q) = _
  rw [k0_pay3_apply, denseBlk0_eq V c t p q ⟨t.val * 2000 + p.val, row_lt0 t p⟩ rfl, iblk0_1_apply V c t p ⟨t.val * 2000 + p.val, row_lt0 t p⟩ rfl]
  show _ = scaledArr 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4)) (((cfg0.win 6).blk t).view.emb (ix2 p q))
  obtain ⟨-, -, -, -, -, -, -, -, -, -, e50, e51, e60, e61⟩ := idx_facts0 t
  refine (scaledArr_apply _ _ _ _ _ _ _ (((cfg0.win 6).blk t).view.emb (ix2 p q)) ⟨t.val * 2000 + p.val, row_lt0 t p⟩ q ?_ ?_).symm
  · show win0_6.index t (0 : Fin 2) * 2000 + 1 * p.val = t.val * 2000 + p.val
    rw [e60]; omega
  · show win0_6.index t (1 : Fin 2) * 128 + 1 * q.val = q.val
    rw [e61]; omega

/-- An index of the array is in a point's block of window 6 iff each coordinate is in the block's range on its axis. -/
theorem mem_blk0_6 (t : Fin cfg0.N) (i : S200000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v48_1).slice (win0_6.rect t)).set ↔ _
  rw [View.set_slice_whole, Rect.mem_set_unit]
  exact Iff.rfl

/-- Row `r` of the stacked array is in window 6's block of point `r / 2000`. -/
theorem cover0_6 (i : S200000x128.Idx) : ∃ t : Fin cfg0.N, (cfg0.win 6).flush t = true ∧ i ∈ ((cfg0.win 6).blk t).view.set := by
  have hi0 : (i 0).val < 200000 := (i 0).isLt
  have hi1 : (i 1).val < 128 := (i 1).isLt
  have hN : cfg0.N = 100 := N_0
  have hlt : (i 0).val / 2000 < cfg0.N := by rw [hN]; omega
  obtain ⟨-, -, -, -, -, -, -, -, -, -, e50, e51, e60, e61⟩ := idx_facts0 ⟨(i 0).val / 2000, hlt⟩
  refine ⟨⟨(i 0).val / 2000, hlt⟩, flush0_6 _, ?_⟩
  rw [mem_blk0_6]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, hlt⟩ (1 : Fin 2) * 128 ≤ (i 1).val ∧ (i 1).val < win0_6.index ⟨(i 0).val / 2000, hlt⟩ (1 : Fin 2) * 128 + 128
    rw [e61]; omega

/-- The array the region leaves under window 6: the scaled output, of the arrays it finds. -/
theorem final0_6 (c : Dev nD) : (dat0 V c).arrAt 6 cfg0.N = scaledArr 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 6 _ (fun t _ => flushed0_6_eq V c t) cover0_6

/-- The region's first output array, entry by entry: the layer's output. -/
theorem region0_out (c : Dev nD) (r : Fin 200000) (j : Fin 128) :
    (dat0 (F := Ideal) V c).arrAt 5 cfg0.N (ix2 r j) = denseAt 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4)) r j := by
  rw [final0_5]; rfl

/-- The region's second output array, entry by entry: the layer's output times the row's scale (`scaledAt`, by definition). -/
theorem region0_scaled (c : Dev nD) (r : Fin 200000) (j : Fin 128) :
    (dat0 (F := Ideal) V c).arrAt 6 cfg0.N (ix2 r j) = scaledAt 0x3E9D1BD0#32 0x3F317218#32 (V c (Pipeline.arrRef spec0 0)) (V c (Pipeline.arrRef spec0 1)) (V c (Pipeline.arrRef spec0 2)) (V c (Pipeline.arrRef spec0 3)) (V c (Pipeline.arrRef spec0 4)) r j := by
  rw [final0_6]; rfl

end Cert.KernelIdeal.Hand

end
-- ==== Proof.Region1.lean ====
/- What the second combine region leaves in its two output arrays, as functions of the arrays it finds: every point of
   the grid writes back its row block of the layer's output (and of the output scaled row by row), and the hundred row
   blocks cover the stacked array. -/
import proofs.«158605_j26792005992870_2_alg».proof.Proof.RegionMixPay

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row block of the three stacked inputs and of the two outputs is the point's
    number; the weight's and the bias's block, and every column block, is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The neighbour sums' block at a point: rows `2000 t … 2000 t + 1999` of the stacked array. -/
theorem iblk1_0_apply (c : Dev nD) (t : Fin cfg1.N) (p : Fin 2000) (k : Fin 128) (r : Fin 200000) (hr : r.val = t.val * 2000 + p.val) :
    iblk1 V c 0 t (ix2 p k) = V c (Pipeline.arrRef spec1 0) (ix2 r k) := by
  obtain ⟨e00, e01, -⟩ := idx_facts1 t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 2000 + 1 * p.val = r.val; rw [e00, hr]; omega
  | ⟨1, _⟩ => show win1_0.index t (1 : Fin 2) * 128 + 1 * k.val = k.val; rw [e01]; omega

/-- The scales' block at a point: the same rows of the stacked column. -/
theorem iblk1_1_apply (c : Dev nD) (t : Fin cfg1.N) (p : Fin 2000) (r : Fin 200000) (hr : r.val = t.val * 2000 + p.val) :
    iblk1 V c 1 t (ix2 p (0 : Fin 1)) = V c (Pipeline.arrRef spec1 1) (ix2 r (0 : Fin 1)) := by
  obtain ⟨-, -, e10, e11, -⟩ := idx_facts1 t
  show V c (Pipeline.arrRef spec1 1) (((cfg1.win 1).blk t).view.emb (ix2 p (0 : Fin 1))) = V c (Pipeline.arrRef spec1 1) (ix2 r (0 : Fin 1))
  refine congrArg _ (funext fun a => Fin.ext ?_)
  match a with
  | ⟨0, _⟩ => show win1_1.index t (0 : Fin 2) * 2000 + 1 * p.val = r.val; rw [e10, hr]; omega
  | ⟨1, _⟩ => show win1_1.index t (1 : Fin 2) * 1 + 1 * 0 = 0; rw [e11]

/-- The input features' block at a point: the same rows of the stacked array. -/
theorem iblk1_2_apply (c : Dev nD) (t : Fin cfg1.N) (p : Fin 2000) (k : Fin 128) (r : Fin 200000) (hr : r.val = t.val * 2000 + p.val) :
    iblk1 V c 2 t (ix2 p k) = V c (Pipeline.arrRef spec1 2) (ix2 r k) := by
  obtain ⟨-, -, -, -, e20, e21, -⟩ := idx_facts1 t
  show V c (Pipeline.arrRef spec1 2) (((cfg1.win 2).blk t).view.emb (ix2 p k)) = V c (Pipeline.arrRef spec1 2) (ix2 r k)
  refine congrArg _ (funext fun a => Fin.ext ?_)
  match a with
  | ⟨0, _⟩ => show win1_2.index t (0 : Fin 2) * 2000 + 1 * p.val = r.val; rw [e20, hr]; omega
  | ⟨1, _⟩ => show win1_2.index t (1 : Fin 2) * 128 + 1 * k.val = k.val; rw [e21]; omega

/-- The weight's block at every point is the whole weight. -/
theorem iblk1_3_apply (c : Dev nD) (t : Fin cfg1.N) (k q : Fin 128) :
    iblk1 V c 3 t (ix2 k q) = V c (Pipeline.arrRef spec1 3) (ix2 k q) := by
  obtain ⟨-, -, -, -, -, -, e30, e31, -⟩ := idx_facts1 t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 128 + 1 * k.val = k.val; rw [e30]; omega
  | ⟨1, _⟩ => show win1_3.index t (1 : Fin 2) * 128 + 1 * q.val = q.val; rw [e31]; omega

/-- The bias's block at every point is the whole bias row. -/
theorem iblk1_4_apply (c : Dev nD) (t : Fin cfg1.N) (q : Fin 128) :
    iblk1 V c 4 t (ix2 (0 : Fin 1) q) = V c (Pipeline.arrRef spec1 4) (ix2 (0 : Fin 1) q) := by
  obtain ⟨-, -, -, -, -, -, -, -, e40, e41, -⟩ := idx_facts1 t
  show V c (Pipeline.arrRef spec1 4) (((cfg1.win 4).blk t).view.emb (ix2 (0 : Fin 1) q)) = V c (Pipeline.arrRef spec1 4) (ix2 (0 : Fin 1) q)
  refine congrArg _ (funext fun a => Fin.ext ?_)
  match a with
  | ⟨0, _⟩ => show win1_4.index t (0 : Fin 2) * 1 + 1 * 0 = 0; rw [e40]
  | ⟨1, _⟩ => show win1_4.index t (1 : Fin 2) * 128 + 1 * q.val = q.val; rw [e41]; omega

/-- The layer's output at row `p` of a point's blocks is the layer's output at row `2000 t + p` of the stacked arrays. -/
theorem denseBlk1_eq (c : Dev nD) (t : Fin cfg1.N) (p : Fin 2000) (q : Fin 128) (r : Fin 200000) (hr : r.val = t.val * 2000 + p.val) :
    denseBlk 0x3F183370#32 0x3ECF991F#32 (iblk1 V c 0 t) (iblk1 V c 1 t) (iblk1 V c 2 t) (iblk1 V c 3 t) (iblk1 V c 4 t) p q
      = denseAt 0x3F183370#32 0x3ECF991F#32 (V c (Pipeline.arrRef spec1 0)) (V c (Pipeline.arrRef spec1 1)) (V c (Pipeline.arrRef spec1 2)) (V c (Pipeline.arrRef spec1 3)) (V c (Pipeline.arrRef spec1 4)) r q :=
  denseBlk_eq_denseAt _ _ _ _ _ _ _ _ _ _ _ _ p r q (fun k => iblk1_0_apply V c t p k r hr) (iblk1_1_apply V c t p r hr)
    (fun k => iblk1_2_apply V c t p k r hr) (fun k => iblk1_3_apply V c t k q) (iblk1_4_apply V c t q)

/-- A row inside a point's block is a row of the stacked array. -/
theorem row_lt1 (t : Fin cfg1.N) (p : Fin 2000) : t.val * 2000 + p.val < 200000 := by
  have ht : t.val < 100 := lt_of_lt_of_eq t.isLt (show cfg1.N = 100 from N_1)
  have hp : p.val < 2000 := p.isLt
  omega

set_option maxHeartbeats 2000000 in
/-- What a point writes back to window 5 is its block of the layer's output. -/
theorem flushed1_5_eq (c : Dev nD) (t : Fin cfg1.N) :
    (dat1 V c).flushed 5 t = ((cfg1.win 5).blk t).view.read (Elt Ideal) (denseArr 0x3F183370#32 0x3ECF991F#32 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k1_pay2 (iblk1 V c 1 t) (iblk1 V c 0 t) (iblk1 V c 2 t) (iblk1 V c 3 t) (iblk1 V c 4 t) (ix2 p q) = _
  rw [k1_pay2_apply, denseBlk1_eq V c t p q ⟨t.val * 2000 + p.val, row_lt1 t p⟩ rfl]
  show _ = denseArr 0x3F183370#32 0x3ECF991F#32 (V c (Pipeline.arrRef spec1 0)) (V c (Pipeline.arrRef spec1 1)) (V c (Pipeline.arrRef spec1 2)) (V c (Pipeline.arrRef spec1 3)) (V c (Pipeline.arrRef spec1 4)) (((cfg1.win 5).blk t).view.emb (ix2 p q))
  obtain ⟨-, -, -, -, -, -, -, -, -, -, e50, e51, e60, e61⟩ := idx_facts1 t
  refine (denseArr_apply _ _ _ _ _ _ _ (((cfg1.win 5).blk t).view.emb (ix2 p q)) ⟨t.val * 2000 + p.val, row_lt1 t p⟩ q ?_ ?_).symm
  · show win1_5.index t (0 : Fin 2) * 2000 + 1 * p.val = t.val * 2000 + p.val
    rw [e50]; omega
  · show win1_5.index t (1 : Fin 2) * 128 + 1 * q.val = q.val
    rw [e51]; omega

/-- An index of the array is in a point's block of window 5 iff each coordinate is in the block's range on its axis. -/
theorem mem_blk1_5 (t : Fin cfg1.N) (i : S200000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v79_0).slice (win1_5.rect t)).set ↔ _
  rw [View.set_slice_whole, Rect.mem_set_unit]
  exact Iff.rfl

/-- Row `r` of the stacked array is in window 5's block of point `r / 2000`. -/
theorem cover1_5 (i : S200000x128.Idx) : ∃ t : Fin cfg1.N, (cfg1.win 5).flush t = true ∧ i ∈ ((cfg1.win 5).blk t).view.set := by
  have hi0 : (i 0).val < 200000 := (i 0).isLt
  have hi1 : (i 1).val < 128 := (i 1).isLt
  have hN : cfg1.N = 100 := N_1
  have hlt : (i 0).val / 2000 < cfg1.N := by rw [hN]; omega
  obtain ⟨-, -, -, -, -, -, -, -, -, -, e50, e51, e60, e61⟩ := idx_facts1 ⟨(i 0).val / 2000, hlt⟩
  refine ⟨⟨(i 0).val / 2000, hlt⟩, flush1_5 _, ?_⟩
  rw [mem_blk1_5]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e51]; omega

/-- The array the region leaves under window 5: the layer's output, of the arrays it finds. -/
theorem final1_5 (c : Dev nD) : (dat1 V c).arrAt 5 cfg1.N = denseArr 0x3F183370#32 0x3ECF991F#32 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_5_eq V c t) cover1_5

set_option maxHeartbeats 2000000 in
/-- What a point writes back to window 6 is its block of the scaled output. -/
theorem flushed1_6_eq (c : Dev nD) (t : Fin cfg1.N) :
    (dat1 V c).flushed 6 t = ((cfg1.win 6).blk t).view.read (Elt Ideal) (scaledArr 0x3F183370#32 0x3ECF991F#32 (V c (Pipeline.arrRef spec1 0)) (V c (Pipeline.arrRef spec1 1)) (V c (Pipeline.arrRef spec1 2)) (V c (Pipeline.arrRef spec1 3)) (V c (Pipeline.arrRef spec1 4))) := by
  show (cfg1.win 6).cut (grid1.coords t) ((dat1 V c).after 6 t) = _
  rw [after1_6]
  unfold out1_6
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k1_pay3 (iblk1 V c 1 t) (iblk1 V c 0 t) (iblk1 V c 2 t) (iblk1 V c 3 t) (iblk1 V c 4 t) (ix2 p q) = _
  rw [k1_pay3_apply, denseBlk1_eq V c t p q ⟨t.val * 2000 + p.val, row_lt1 t p⟩ rfl, iblk1_1_apply V c t p ⟨t.val * 2000 + p.val, row_lt1 t p⟩ rfl]
  show _ = scaledArr 0x3F183370#32 0x3ECF991F#32 (V c (Pipeline.arrRef spec1 0)) (V c (Pipeline.arrRef spec1 1)) (V c (Pipeline.arrRef spec1 2)) (V c (Pipeline.arrRef spec1 3)) (V c (Pipeline.arrRef spec1 4)) (((cfg1.win 6).blk t).view.emb (ix2 p q))
  obtain ⟨-, -, -, -, -, -, -, -, -, -, e50, e51, e60, e61⟩ := idx_facts1 t
  refine (scaledArr_apply _ _ _ _ _ _ _ (((cfg1.win 6).blk t).view.emb (ix2 p q)) ⟨t.val * 2000 + p.val, row_lt1 t p⟩ q ?_ ?_).symm
  · show win1_6.index t (0 : Fin 2) * 2000 + 1 * p.val = t.val * 2000 + p.val
    rw [e60]; omega
  · show win1_6.index t (1 : Fin 2) * 128 + 1 * q.val = q.val
    rw [e61]; omega

/-- An index of the array is in a point's block of window 6 iff each coordinate is in the block's range on its axis. -/
theorem mem_blk1_6 (t : Fin cfg1.N) (i : S200000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v79_1).slice (win1_6.rect t)).set ↔ _
  rw [View.set_slice_whole, Rect.mem_set_unit]
  exact Iff.rfl

/-- Row `r` of the stacked array is in window 6's block of point `r / 2000`. -/
theorem cover1_6 (i : S200000x128.Idx) : ∃ t : Fin cfg1.N, (cfg1.win 6).flush t = true ∧ i ∈ ((cfg1.win 6).blk t).view.set := by
  have hi0 : (i 0).val < 200000 := (i 0).isLt
  have hi1 : (i 1).val < 128 := (i 1).isLt
  have hN : cfg1.N = 100 := N_1
  have hlt : (i 0).val / 2000 < cfg1.N := by rw [hN]; omega
  obtain ⟨-, -, -, -, -, -, -, -, -, -, e50, e51, e60, e61⟩ := idx_facts1 ⟨(i 0).val / 2000, hlt⟩
  refine ⟨⟨(i 0).val / 2000, hlt⟩, flush1_6 _, ?_⟩
  rw [mem_blk1_6]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    rw [e61]; omega

/-- The array the region leaves under window 6: the scaled output, of the arrays it finds. -/
theorem final1_6 (c : Dev nD) : (dat1 V c).arrAt 6 cfg1.N = scaledArr 0x3F183370#32 0x3ECF991F#32 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 6 _ (fun t _ => flushed1_6_eq V c t) cover1_6

/-- The region's first output array, entry by entry: the layer's output. -/
theorem region1_out (c : Dev nD) (r : Fin 200000) (j : Fin 128) :
    (dat1 (F := Ideal) V c).arrAt 5 cfg1.N (ix2 r j) = denseAt 0x3F183370#32 0x3ECF991F#32 (V c (Pipeline.arrRef spec1 0)) (V c (Pipeline.arrRef spec1 1)) (V c (Pipeline.arrRef spec1 2)) (V c (Pipeline.arrRef spec1 3)) (V c (Pipeline.arrRef spec1 4)) r j := by
  rw [final1_5]; rfl

/-- The region's second output array, entry by entry: the layer's output times the row's scale (`scaledAt`, by definition). -/
theorem region1_scaled (c : Dev nD) (r : Fin 200000) (j : Fin 128) :
    (dat1 (F := Ideal) V c).arrAt 6 cfg1.N (ix2 r j) = scaledAt 0x3F183370#32 0x3ECF991F#32 (V c (Pipeline.arrRef spec1 0)) (V c (Pipeline.arrRef spec1 1)) (V c (Pipeline.arrRef spec1 2)) (V c (Pipeline.arrRef spec1 3)) (V c (Pipeline.arrRef spec1 4)) r j := by
  rw [final1_6]; rfl

end Cert.KernelIdeal.Hand

end
-- ==== Proof.Region2.lean ====
/- What the third combine region leaves in its two output arrays, as functions of the arrays it finds: every point of
   the grid writes back its row block of the layer's output (and of the output scaled row by row), and the hundred row
   blocks cover the stacked array. -/
import proofs.«158605_j26792005992870_2_alg».proof.Proof.RegionMixPay

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row block of the three stacked inputs and of the two outputs is the point's
    number; the weight's and the bias's block, and every column block, is zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The neighbour sums' block at a point: rows `2000 t … 2000 t + 1999` of the stacked array. -/
theorem iblk2_0_apply (c : Dev nD) (t : Fin cfg2.N) (p : Fin 2000) (k : Fin 128) (r : Fin 200000) (hr : r.val = t.val * 2000 + p.val) :
    iblk2 V c 0 t (ix2 p k) = V c (Pipeline.arrRef spec2 0) (ix2 r k) := by
  obtain ⟨e00, e01, -⟩ := idx_facts2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 2000 + 1 * p.val = r.val; rw [e00, hr]; omega
  | ⟨1, _⟩ => show win2_0.index t (1 : Fin 2) * 128 + 1 * k.val = k.val; rw [e01]; omega

/-- The scales' block at a point: the same rows of the stacked column. -/
theorem iblk2_1_apply (c : Dev nD) (t : Fin cfg2.N) (p : Fin 2000) (r : Fin 200000) (hr : r.val = t.val * 2000 + p.val) :
    iblk2 V c 1 t (ix2 p (0 : Fin 1)) = V c (Pipeline.arrRef spec2 1) (ix2 r (0 : Fin 1)) := by
  obtain ⟨-, -, e10, e11, -⟩ := idx_facts2 t
  show V c (Pipeline.arrRef spec2 1) (((cfg2.win 1).blk t).view.emb (ix2 p (0 : Fin 1))) = V c (Pipeline.arrRef spec2 1) (ix2 r (0 : Fin 1))
  refine congrArg _ (funext fun a => Fin.ext ?_)
  match a with
  | ⟨0, _⟩ => show win2_1.index t (0 : Fin 2) * 2000 + 1 * p.val = r.val; rw [e10, hr]; omega
  | ⟨1, _⟩ => show win2_1.index t (1 : Fin 2) * 1 + 1 * 0 = 0; rw [e11]

/-- The input features' block at a point: the same rows of the stacked array. -/
theorem iblk2_2_apply (c : Dev nD) (t : Fin cfg2.N) (p : Fin 2000) (k : Fin 128) (r : Fin 200000) (hr : r.val = t.val * 2000 + p.val) :
    iblk2 V c 2 t (ix2 p k) = V c (Pipeline.arrRef spec2 2) (ix2 r k) := by
  obtain ⟨-, -, -, -, e20, e21, -⟩ := idx_facts2 t
  show V c (Pipeline.arrRef spec2 2) (((cfg2.win 2).blk t).view.emb (ix2 p k)) = V c (Pipeline.arrRef spec2 2) (ix2 r k)
  refine congrArg _ (funext fun a => Fin.ext ?_)
  match a with
  | ⟨0, _⟩ => show win2_2.index t (0 : Fin 2) * 2000 + 1 * p.val = r.val; rw [e20, hr]; omega
  | ⟨1, _⟩ => show win2_2.index t (1 : Fin 2) * 128 + 1 * k.val = k.val; rw [e21]; omega

/-- The weight's block at every point is the whole weight. -/
theorem iblk2_3_apply (c : Dev nD) (t : Fin cfg2.N) (k q : Fin 128) :
    iblk2 V c 3 t (ix2 k q) = V c (Pipeline.arrRef spec2 3) (ix2 k q) := by
  obtain ⟨-, -, -, -, -, -, e30, e31, -⟩ := idx_facts2 t
  show V c (Pipeline.arrRef spec2 3) (((cfg2.win 3).blk t).view.emb (ix2 k q)) = V c (Pipeline.arrRef spec2 3) (ix2 k q)
  refine congrArg _ (funext fun a => Fin.ext ?_)
  match a with
  | ⟨0, _⟩ => show win2_3.index t (0 : Fin 2) * 128 + 1 * k.val = k.val; rw [e30]; omega
  | ⟨1, _⟩ => show win2_3.index t (1 : Fin 2) * 128 + 1 * q.val = q.val; rw [e31]; omega

/-- The bias's block at every point is the whole bias row. -/
theorem iblk2_4_apply (c : Dev nD) (t : Fin cfg2.N) (q : Fin 128) :
    iblk2 V c 4 t (ix2 (0 : Fin 1) q) = V c (Pipeline.arrRef spec2 4) (ix2 (0 : Fin 1) q) := by
  obtain ⟨-, -, -, -, -, -, -, -, e40, e41, -⟩ := idx_facts2 t
  show V c (Pipeline.arrRef spec2 4) (((cfg2.win 4).blk t).view.emb (ix2 (0 : Fin 1) q)) = V c (Pipeline.arrRef spec2 4) (ix2 (0 : Fin 1) q)
  refine congrArg _ (funext fun a => Fin.ext ?_)
  match a with
  | ⟨0, _⟩ => show win2_4.index t (0 : Fin 2) * 1 + 1 * 0 = 0; rw [e40]
  | ⟨1, _⟩ => show win2_4.index t (1 : Fin 2) * 128 + 1 * q.val = q.val; rw [e41]; omega

/-- The layer's output at row `p` of a point's blocks is the layer's output at row `2000 t + p` of the stacked arrays. -/
theorem denseBlk2_eq (c : Dev nD) (t : Fin cfg2.N) (p : Fin 2000) (q : Fin 128) (r : Fin 200000) (hr : r.val = t.val * 2000 + p.val) :
    denseBlk 0x3F365A78#32 0x3E934B11#32 (iblk2 V c 0 t) (iblk2 V c 1 t) (iblk2 V c 2 t) (iblk2 V c 3 t) (iblk2 V c 4 t) p q
      = denseAt 0x3F365A78#32 0x3E934B11#32 (V c (Pipeline.arrRef spec2 0)) (V c (Pipeline.arrRef spec2 1)) (V c (Pipeline.arrRef spec2 2)) (V c (Pipeline.arrRef spec2 3)) (V c (Pipeline.arrRef spec2 4)) r q :=
  denseBlk_eq_denseAt _ _ _ _ _ _ _ _ _ _ _ _ p r q (fun k => iblk2_0_apply V c t p k r hr) (iblk2_1_apply V c t p r hr)
    (fun k => iblk2_2_apply V c t p k r hr) (fun k => iblk2_3_apply V c t k q) (iblk2_4_apply V c t q)

/-- A row inside a point's block is a row of the stacked array. -/
theorem row_lt2 (t : Fin cfg2.N) (p : Fin 2000) : t.val * 2000 + p.val < 200000 := by
  have ht : t.val < 100 := lt_of_lt_of_eq t.isLt (show cfg2.N = 100 from N_2)
  have hp : p.val < 2000 := p.isLt
  omega

set_option maxHeartbeats 2000000 in
/-- What a point writes back to window 5 is its block of the layer's output. -/
theorem flushed2_5_eq (c : Dev nD) (t : Fin cfg2.N) :
    (dat2 V c).flushed 5 t = ((cfg2.win 5).blk t).view.read (Elt Ideal) (denseArr 0x3F365A78#32 0x3E934B11#32 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k2_pay2 (iblk2 V c 1 t) (iblk2 V c 0 t) (iblk2 V c 2 t) (iblk2 V c 3 t) (iblk2 V c 4 t) (ix2 p q) = _
  rw [k2_pay2_apply, denseBlk2_eq V c t p q ⟨t.val * 2000 + p.val, row_lt2 t p⟩ rfl]
  show _ = denseArr 0x3F365A78#32 0x3E934B11#32 (V c (Pipeline.arrRef spec2 0)) (V c (Pipeline.arrRef spec2 1)) (V c (Pipeline.arrRef spec2 2)) (V c (Pipeline.arrRef spec2 3)) (V c (Pipeline.arrRef spec2 4)) (((cfg2.win 5).blk t).view.emb (ix2 p q))
  obtain ⟨-, -, -, -, -, -, -, -, -, -, e50, e51, e60, e61⟩ := idx_facts2 t
  refine (denseArr_apply _ _ _ _ _ _ _ (((cfg2.win 5).blk t).view.emb (ix2 p q)) ⟨t.val * 2000 + p.val, row_lt2 t p⟩ q ?_ ?_).symm
  · show win2_5.index t (0 : Fin 2) * 2000 + 1 * p.val = t.val * 2000 + p.val
    rw [e50]; omega
  · show win2_5.index t (1 : Fin 2) * 128 + 1 * q.val = q.val
    rw [e51]; omega

/-- An index of the array is in a point's block of window 5 iff each coordinate is in the block's range on its axis. -/
theorem mem_blk2_5 (t : Fin cfg2.N) (i : S200000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v110_0).slice (win2_5.rect t)).set ↔ _
  rw [View.set_slice_whole, Rect.mem_set_unit]
  exact Iff.rfl

/-- Row `r` of the stacked array is in window 5's block of point `r / 2000`. -/
theorem cover2_5 (i : S200000x128.Idx) : ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 100 := N_2
  have hlt : (i 0).val / 2000 < cfg2.N := by rw [hN]; omega
  obtain ⟨-, -, -, -, -, -, -, -, -, -, e50, e51, e60, e61⟩ := idx_facts2 ⟨(i 0).val / 2000, hlt⟩
  refine ⟨⟨(i 0).val / 2000, hlt⟩, flush2_5 _, ?_⟩
  rw [mem_blk2_5]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hlt⟩ (1 : Fin 2) * 128 ≤ (i 1).val ∧ (i 1).val < win2_5.index ⟨(i 0).val / 2000, hlt⟩ (1 : Fin 2) * 128 + 128
    rw [e51]; omega

/-- The array the region leaves under window 5: the layer's output, of the arrays it finds. -/
theorem final2_5 (c : Dev nD) : (dat2 V c).arrAt 5 cfg2.N = denseArr 0x3F365A78#32 0x3E934B11#32 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed2_5_eq V c t) cover2_5

set_option maxHeartbeats 2000000 in
/-- What a point writes back to window 6 is its block of the scaled output. -/
theorem flushed2_6_eq (c : Dev nD) (t : Fin cfg2.N) :
    (dat2 V c).flushed 6 t = ((cfg2.win 6).blk t).view.read (Elt Ideal) (scaledArr 0x3F365A78#32 0x3E934B11#32 (V c (Pipeline.arrRef spec2 0)) (V c (Pipeline.arrRef spec2 1)) (V c (Pipeline.arrRef spec2 2)) (V c (Pipeline.arrRef spec2 3)) (V c (Pipeline.arrRef spec2 4))) := by
  show (cfg2.win 6).cut (grid2.coords t) ((dat2 V c).after 6 t) = _
  rw [after2_6]
  unfold out2_6
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k2_pay3 (iblk2 V c 1 t) (iblk2 V c 0 t) (iblk2 V c 2 t) (iblk2 V c 3 t) (iblk2 V c 4 t) (ix2 p q) = _
  rw [k2_pay3_apply, denseBlk2_eq V c t p q ⟨t.val * 2000 + p.val, row_lt2 t p⟩ rfl, iblk2_1_apply V c t p ⟨t.val * 2000 + p.val, row_lt2 t p⟩ rfl]
  show _ = scaledArr 0x3F365A78#32 0x3E934B11#32 (V c (Pipeline.arrRef spec2 0)) (V c (Pipeline.arrRef spec2 1)) (V c (Pipeline.arrRef spec2 2)) (V c (Pipeline.arrRef spec2 3)) (V c (Pipeline.arrRef spec2 4)) (((cfg2.win 6).blk t).view.emb (ix2 p q))
  obtain ⟨-, -, -, -, -, -, -, -, -, -, e50, e51, e60, e61⟩ := idx_facts2 t
  refine (scaledArr_apply _ _ _ _ _ _ _ (((cfg2.win 6).blk t).view.emb (ix2 p q)) ⟨t.val * 2000 + p.val, row_lt2 t p⟩ q ?_ ?_).symm
  · show win2_6.index t (0 : Fin 2) * 2000 + 1 * p.val = t.val * 2000 + p.val
    rw [e60]; omega
  · show win2_6.index t (1 : Fin 2) * 128 + 1 * q.val = q.val
    rw [e61]; omega

/-- An index of the array is in a point's block of window 6 iff each coordinate is in the block's range on its axis. -/
theorem mem_blk2_6 (t : Fin cfg2.N) (i : S200000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v110_1).slice (win2_6.rect t)).set ↔ _
  rw [View.set_slice_whole, Rect.mem_set_unit]
  exact Iff.rfl

/-- Row `r` of the stacked array is in window 6's block of point `r / 2000`. -/
theorem cover2_6 (i : S200000x128.Idx) : ∃ t : Fin cfg2.N, (cfg2.win 6).flush t = true ∧ i ∈ ((cfg2.win 6).blk t).view.set := by
  have hi0 : (i 0).val < 200000 := (i 0).isLt
  have hi1 : (i 1).val < 128 := (i 1).isLt
  have hN : cfg2.N = 100 := N_2
  have hlt : (i 0).val / 2000 < cfg2.N := by rw [hN]; omega
  obtain ⟨-, -, -, -, -, -, -, -, -, -, e50, e51, e60, e61⟩ := idx_facts2 ⟨(i 0).val / 2000, hlt⟩
  refine ⟨⟨(i 0).val / 2000, hlt⟩, flush2_6 _, ?_⟩
  rw [mem_blk2_6]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win2_6.index ⟨(i 0).val / 2000, hlt⟩ (1 : Fin 2) * 128 ≤ (i 1).val ∧ (i 1).val < win2_6.index ⟨(i 0).val / 2000, hlt⟩ (1 : Fin 2) * 128 + 128
    rw [e61]; omega

/-- The array the region leaves under window 6: the scaled output, of the arrays it finds. -/
theorem final2_6 (c : Dev nD) : (dat2 V c).arrAt 6 cfg2.N = scaledArr 0x3F365A78#32 0x3E934B11#32 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 6 _ (fun t _ => flushed2_6_eq V c t) cover2_6

/-- The region's first output array, entry by entry: the layer's output. -/
theorem region2_out (c : Dev nD) (r : Fin 200000) (j : Fin 128) :
    (dat2 (F := Ideal) V c).arrAt 5 cfg2.N (ix2 r j) = denseAt 0x3F365A78#32 0x3E934B11#32 (V c (Pipeline.arrRef spec2 0)) (V c (Pipeline.arrRef spec2 1)) (V c (Pipeline.arrRef spec2 2)) (V c (Pipeline.arrRef spec2 3)) (V c (Pipeline.arrRef spec2 4)) r j := by
  rw [final2_5]; rfl

/-- The region's second output array, entry by entry: the layer's output times the row's scale (`scaledAt`, by definition). -/
theorem region2_scaled (c : Dev nD) (r : Fin 200000) (j : Fin 128) :
    (dat2 (F := Ideal) V c).arrAt 6 cfg2.N (ix2 r j) = scaledAt 0x3F365A78#32 0x3E934B11#32 (V c (Pipeline.arrRef spec2 0)) (V c (Pipeline.arrRef spec2 1)) (V c (Pipeline.arrRef spec2 2)) (V c (Pipeline.arrRef spec2 3)) (V c (Pipeline.arrRef spec2 4)) r j := by
  rw [final2_6]; rfl

end Cert.KernelIdeal.Hand

end
-- ==== Proof.Region3.lean ====
/- What the fourth combine region leaves in its two output arrays, as functions of the arrays it finds: every point of
   the grid writes back its row block of the layer's output (and of the output scaled row by row), and the hundred row
   blocks cover the stacked array. -/
import proofs.«158605_j26792005992870_2_alg».proof.Proof.RegionMixPay

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row block of the three stacked inputs and of the two outputs is the point's
    number; the weight's and the bias's block, and every column block, is zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The neighbour sums' block at a point: rows `2000 t … 2000 t + 1999` of the stacked array. -/
theorem iblk3_0_apply (c : Dev nD) (t : Fin cfg3.N) (p : Fin 2000) (k : Fin 128) (r : Fin 200000) (hr : r.val = t.val * 2000 + p.val) :
    iblk3 V c 0 t (ix2 p k) = V c (Pipeline.arrRef spec3 0) (ix2 r k) := by
  obtain ⟨e00, e01, -⟩ := idx_facts3 t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 2000 + 1 * p.val = r.val; rw [e00, hr]; omega
  | ⟨1, _⟩ => show win3_0.index t (1 : Fin 2) * 128 + 1 * k.val = k.val; rw [e01]; omega

/-- The scales' block at a point: the same rows of the stacked column. -/
theorem iblk3_1_apply (c : Dev nD) (t : Fin cfg3.N) (p : Fin 2000) (r : Fin 200000) (hr : r.val = t.val * 2000 + p.val) :
    iblk3 V c 1 t (ix2 p (0 : Fin 1)) = V c (Pipeline.arrRef spec3 1) (ix2 r (0 : Fin 1)) := by
  obtain ⟨-, -, e10, e11, -⟩ := idx_facts3 t
  show V c (Pipeline.arrRef spec3 1) (((cfg3.win 1).blk t).view.emb (ix2 p (0 : Fin 1))) = V c (Pipeline.arrRef spec3 1) (ix2 r (0 : Fin 1))
  refine congrArg _ (funext fun a => Fin.ext ?_)
  match a with
  | ⟨0, _⟩ => show win3_1.index t (0 : Fin 2) * 2000 + 1 * p.val = r.val; rw [e10, hr]; omega
  | ⟨1, _⟩ => show win3_1.index t (1 : Fin 2) * 1 + 1 * 0 = 0; rw [e11]

/-- The input features' block at a point: the same rows of the stacked array. -/
theorem iblk3_2_apply (c : Dev nD) (t : Fin cfg3.N) (p : Fin 2000) (k : Fin 128) (r : Fin 200000) (hr : r.val = t.val * 2000 + p.val) :
    iblk3 V c 2 t (ix2 p k) = V c (Pipeline.arrRef spec3 2) (ix2 r k) := by
  obtain ⟨-, -, -, -, e20, e21, -⟩ := idx_facts3 t
  show V c (Pipeline.arrRef spec3 2) (((cfg3.win 2).blk t).view.emb (ix2 p k)) = V c (Pipeline.arrRef spec3 2) (ix2 r k)
  refine congrArg _ (funext fun a => Fin.ext ?_)
  match a with
  | ⟨0, _⟩ => show win3_2.index t (0 : Fin 2) * 2000 + 1 * p.val = r.val; rw [e20, hr]; omega
  | ⟨1, _⟩ => show win3_2.index t (1 : Fin 2) * 128 + 1 * k.val = k.val; rw [e21]; omega

/-- The weight's block at every point is the whole weight. -/
theorem iblk3_3_apply (c : Dev nD) (t : Fin cfg3.N) (k q : Fin 128) :
    iblk3 V c 3 t (ix2 k q) = V c (Pipeline.arrRef spec3 3) (ix2 k q) := by
  obtain ⟨-, -, -, -, -, -, e30, e31, -⟩ := idx_facts3 t
  show V c (Pipeline.arrRef spec3 3) (((cfg3.win 3).blk t).view.emb (ix2 k q)) = V c (Pipeline.arrRef spec3 3) (ix2 k q)
  refine congrArg _ (funext fun a => Fin.ext ?_)
  match a with
  | ⟨0, _⟩ => show win3_3.index t (0 : Fin 2) * 128 + 1 * k.val = k.val; rw [e30]; omega
  | ⟨1, _⟩ => show win3_3.index t (1 : Fin 2) * 128 + 1 * q.val = q.val; rw [e31]; omega

/-- The bias's block at every point is the whole bias row. -/
theorem iblk3_4_apply (c : Dev nD) (t : Fin cfg3.N) (q : Fin 128) :
    iblk3 V c 4 t (ix2 (0 : Fin 1) q) = V c (Pipeline.arrRef spec3 4) (ix2 (0 : Fin 1) q) := by
  obtain ⟨-, -, -, -, -, -, -, -, e40, e41, -⟩ := idx_facts3 t
  show V c (Pipeline.arrRef spec3 4) (((cfg3.win 4).blk t).view.emb (ix2 (0 : Fin 1) q)) = V c (Pipeline.arrRef spec3 4) (ix2 (0 : Fin 1) q)
  refine congrArg _ (funext fun a => Fin.ext ?_)
  match a with
  | ⟨0, _⟩ => show win3_4.index t (0 : Fin 2) * 1 + 1 * 0 = 0; rw [e40]
  | ⟨1, _⟩ => show win3_4.index t (1 : Fin 2) * 128 + 1 * q.val = q.val; rw [e41]; omega

/-- The layer's output at row `p` of a point's blocks is the layer's output at row `2000 t + p` of the stacked arrays. -/
theorem denseBlk3_eq (c : Dev nD) (t : Fin cfg3.N) (p : Fin 2000) (q : Fin 128) (r : Fin 200000) (hr : r.val = t.val * 2000 + p.val) :
    denseBlk 0x3F46E010#32 0x3E647FBE#32 (iblk3 V c 0 t) (iblk3 V c 1 t) (iblk3 V c 2 t) (iblk3 V c 3 t) (iblk3 V c 4 t) p q
      = denseAt 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4)) r q :=
  denseBlk_eq_denseAt _ _ _ _ _ _ _ _ _ _ _ _ p r q (fun k => iblk3_0_apply V c t p k r hr) (iblk3_1_apply V c t p r hr)
    (fun k => iblk3_2_apply V c t p k r hr) (fun k => iblk3_3_apply V c t k q) (iblk3_4_apply V c t q)

/-- A row inside a point's block is a row of the stacked array. -/
theorem row_lt3 (t : Fin cfg3.N) (p : Fin 2000) : t.val * 2000 + p.val < 200000 := by
  have ht : t.val < 100 := lt_of_lt_of_eq t.isLt (show cfg3.N = 100 from N_3)
  have hp : p.val < 2000 := p.isLt
  omega

set_option maxHeartbeats 2000000 in
/-- What a point writes back to window 5 is its block of the layer's output. -/
theorem flushed3_5_eq (c : Dev nD) (t : Fin cfg3.N) :
    (dat3 V c).flushed 5 t = ((cfg3.win 5).blk t).view.read (Elt Ideal) (denseArr 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k3_pay2 (iblk3 V c 1 t) (iblk3 V c 0 t) (iblk3 V c 2 t) (iblk3 V c 3 t) (iblk3 V c 4 t) (ix2 p q) = _
  rw [k3_pay2_apply, denseBlk3_eq V c t p q ⟨t.val * 2000 + p.val, row_lt3 t p⟩ rfl]
  show _ = denseArr 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4)) (((cfg3.win 5).blk t).view.emb (ix2 p q))
  obtain ⟨-, -, -, -, -, -, -, -, -, -, e50, e51, e60, e61⟩ := idx_facts3 t
  refine (denseArr_apply _ _ _ _ _ _ _ (((cfg3.win 5).blk t).view.emb (ix2 p q)) ⟨t.val * 2000 + p.val, row_lt3 t p⟩ q ?_ ?_).symm
  · show win3_5.index t (0 : Fin 2) * 2000 + 1 * p.val = t.val * 2000 + p.val
    rw [e50]; omega
  · show win3_5.index t (1 : Fin 2) * 128 + 1 * q.val = q.val
    rw [e51]; omega

/-- An index of the array is in a point's block of window 5 iff each coordinate is in the block's range on its axis. -/
theorem mem_blk3_5 (t : Fin cfg3.N) (i : S200000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v141_0).slice (win3_5.rect t)).set ↔ _
  rw [View.set_slice_whole, Rect.mem_set_unit]
  exact Iff.rfl

/-- Row `r` of the stacked array is in window 5's block of point `r / 2000`. -/
theorem cover3_5 (i : S200000x128.Idx) : ∃ t : Fin cfg3.N, (cfg3.win 5).flush t = true ∧ i ∈ ((cfg3.win 5).blk t).view.set := by
  have hi0 : (i 0).val < 200000 := (i 0).isLt
  have hi1 : (i 1).val < 128 := (i 1).isLt
  have hN : cfg3.N = 100 := N_3
  have hlt : (i 0).val / 2000 < cfg3.N := by rw [hN]; omega
  obtain ⟨-, -, -, -, -, -, -, -, -, -, e50, e51, e60, e61⟩ := idx_facts3 ⟨(i 0).val / 2000, hlt⟩
  refine ⟨⟨(i 0).val / 2000, hlt⟩, flush3_5 _, ?_⟩
  rw [mem_blk3_5]
  intro a
  match a with
  | ⟨0, _⟩ =>
    show win3_5.index ⟨(i 0).val / 2000, hlt⟩ (0 : Fin 2) * 2000 ≤ (i 0).val ∧ (i 0).val < win3_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win3_5.index ⟨(i 0).val / 2000, hlt⟩ (1 : Fin 2) * 128 ≤ (i 1).val ∧ (i 1).val < win3_5.index ⟨(i 0).val / 2000, hlt⟩ (1 : Fin 2) * 128 + 128
    rw [e51]; omega

/-- The array the region leaves under window 5: the layer's output, of the arrays it finds. -/
theorem final3_5 (c : Dev nD) : (dat3 V c).arrAt 5 cfg3.N = denseArr 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_5_eq V c t) cover3_5

set_option maxHeartbeats 2000000 in
/-- What a point writes back to window 6 is its block of the scaled output. -/
theorem flushed3_6_eq (c : Dev nD) (t : Fin cfg3.N) :
    (dat3 V c).flushed 6 t = ((cfg3.win 6).blk t).view.read (Elt Ideal) (scaledArr 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4))) := by
  show (cfg3.win 6).cut (grid3.coords t) ((dat3 V c).after 6 t) = _
  rw [after3_6]
  unfold out3_6
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  funext j
  obtain ⟨p, q, rfl⟩ : ∃ (p : Fin 2000) (q : Fin 128), j = ix2 p q := ⟨j 0, j 1, eq_ix2 j⟩
  show k3_pay3 (iblk3 V c 1 t) (iblk3 V c 0 t) (iblk3 V c 2 t) (iblk3 V c 3 t) (iblk3 V c 4 t) (ix2 p q) = _
  rw [k3_pay3_apply, denseBlk3_eq V c t p q ⟨t.val * 2000 + p.val, row_lt3 t p⟩ rfl, iblk3_1_apply V c t p ⟨t.val * 2000 + p.val, row_lt3 t p⟩ rfl]
  show _ = scaledArr 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4)) (((cfg3.win 6).blk t).view.emb (ix2 p q))
  obtain ⟨-, -, -, -, -, -, -, -, -, -, e50, e51, e60, e61⟩ := idx_facts3 t
  refine (scaledArr_apply _ _ _ _ _ _ _ (((cfg3.win 6).blk t).view.emb (ix2 p q)) ⟨t.val * 2000 + p.val, row_lt3 t p⟩ q ?_ ?_).symm
  · show win3_6.index t (0 : Fin 2) * 2000 + 1 * p.val = t.val * 2000 + p.val
    rw [e60]; omega
  · show win3_6.index t (1 : Fin 2) * 128 + 1 * q.val = q.val
    rw [e61]; omega

/-- An index of the array is in a point's block of window 6 iff each coordinate is in the block's range on its axis. -/
theorem mem_blk3_6 (t : Fin cfg3.N) (i : S200000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v141_1).slice (win3_6.rect t)).set ↔ _
  rw [View.set_slice_whole, Rect.mem_set_unit]
  exact Iff.rfl

/-- Row `r` of the stacked array is in window 6's block of point `r / 2000`. -/
theorem cover3_6 (i : S200000x128.Idx) : ∃ t : Fin cfg3.N, (cfg3.win 6).flush t = true ∧ i ∈ ((cfg3.win 6).blk t).view.set := by
  have hi0 : (i 0).val < 200000 := (i 0).isLt
  have hi1 : (i 1).val < 128 := (i 1).isLt
  have hN : cfg3.N = 100 := N_3
  have hlt : (i 0).val / 2000 < cfg3.N := by rw [hN]; omega
  obtain ⟨-, -, -, -, -, -, -, -, -, -, e50, e51, e60, e61⟩ := idx_facts3 ⟨(i 0).val / 2000, hlt⟩
  refine ⟨⟨(i 0).val / 2000, hlt⟩, flush3_6 _, ?_⟩
  rw [mem_blk3_6]
  intro a
  match a with
  | ⟨0, _⟩ =>
    show win3_6.index ⟨(i 0).val / 2000, hlt⟩ (0 : Fin 2) * 2000 ≤ (i 0).val ∧ (i 0).val < win3_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win3_6.index ⟨(i 0).val / 2000, hlt⟩ (1 : Fin 2) * 128 ≤ (i 1).val ∧ (i 1).val < win3_6.index ⟨(i 0).val / 2000, hlt⟩ (1 : Fin 2) * 128 + 128
    rw [e61]; omega

/-- The array the region leaves under window 6: the scaled output, of the arrays it finds. -/
theorem final3_6 (c : Dev nD) : (dat3 V c).arrAt 6 cfg3.N = scaledArr 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 6 _ (fun t _ => flushed3_6_eq V c t) cover3_6

/-- The region's first output array, entry by entry: the layer's output. -/
theorem region3_out (c : Dev nD) (r : Fin 200000) (j : Fin 128) :
    (dat3 (F := Ideal) V c).arrAt 5 cfg3.N (ix2 r j) = denseAt 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4)) r j := by
  rw [final3_5]; rfl

/-- The region's second output array, entry by entry: the layer's output times the row's scale (`scaledAt`, by definition). -/
theorem region3_scaled (c : Dev nD) (r : Fin 200000) (j : Fin 128) :
    (dat3 (F := Ideal) V c).arrAt 6 cfg3.N (ix2 r j) = scaledAt 0x3F46E010#32 0x3E647FBE#32 (V c (Pipeline.arrRef spec3 0)) (V c (Pipeline.arrRef spec3 1)) (V c (Pipeline.arrRef spec3 2)) (V c (Pipeline.arrRef spec3 3)) (V c (Pipeline.arrRef spec3 4)) r j := by
  rw [final3_6]; rfl

end Cert.KernelIdeal.Hand

end
-- ==== Proof.KBackbone.lean ====
/-
  The four layers on the kernel's side.

  The kernel keeps the two graphs stacked along the node axis and runs each layer's dense part as one region over the
  stack.  The invariant, for l = 1 … 4: after layer l's region the first half of its first output is the first graph's
  features after l layers and the second half the second graph's, and the halves of its second output are these times the
  graphs' in-degree scales.  It is kept by one step: the host cuts the previous second output into the two graphs, sums each
  over the neighbours and stacks the sums (for layer 1 it scales the input features itself); with these neighbour sums,
  the stacked scales, the stacked input features and the layer's weights and bias, the region's output at a row of either
  half is the specification's layer of that graph at that row.  After four steps the two halves of the last output are
  the two graphs' features after the four layers.
-/
import proofs.«158605_j26792005992870_2_alg».proof.Proof.KHost
import proofs.«158605_j26792005992870_2_alg».proof.Proof.KEntry
import proofs.«158605_j26792005992870_2_alg».proof.Proof.LayerStack
import proofs.«158605_j26792005992870_2_alg».proof.Proof.Spec
import proofs.«158605_j26792005992870_2_alg».proof.Proof.Region0
import proofs.«158605_j26792005992870_2_alg».proof.Proof.Region1
import proofs.«158605_j26792005992870_2_alg».proof.Proof.Region2
import proofs.«158605_j26792005992870_2_alg».proof.Proof.Region3

set_option maxRecDepth 16384

noncomputable section

namespace Cert.KernelIdeal.Hand

open Cert.KernelIdeal Cert.KernelIdeal.Gen Cert.GcnK
open Idealize.ShloMosaic Idealize.ShloMosaic.TcCoe Idealize.SL.Sem Idealize.ShloMosaic.ValueIdx

variable [Cert.ReferenceIdeal.Facts]

/-! ## One layer over the stack, cut back into the two graphs

With the region's five input arrays known — the stacked neighbour sums of the scaled previous features, the stacked
in-degree scales, the stacked input features, the layer's weights and its bias row — the first half of its output is
the specification's layer of the first graph and the second half the second graph's; the second output is each of
these times the graph's in-degree scale. -/

section Step

variable (c₁ c₂ : BitVec 32) (x₁ x₂ f₁ f₂ : FVec Ideal S100000x128 .f32) (n₁ n₂ : FVec Ideal S100000 .f32)
  (src₁ dst₁ src₂ dst₂ : Cert.Gcn.IArr Ideal S1600000) (W : FVec Ideal S128x128 .f32) (b : FVec Ideal S128 .f32)
  (A : FVec Ideal S200000x128 .f32) (N : FVec Ideal S200000x1 .f32) (F0 : FVec Ideal S200000x128 .f32)
  (Wm : FVec Ideal S128x128 .f32) (bias : FVec Ideal S1x128 .f32)
  (hA : A = stack (F := Ideal)
      (Cert.Gcn.neighbourSum (F := Ideal) (mulf x₁ (Cert.Gcn.alongRows (F := Ideal) n₁)) src₁ dst₁)
      (Cert.Gcn.neighbourSum (F := Ideal) (mulf x₂ (Cert.Gcn.alongRows (F := Ideal) n₂)) src₂ dst₂))
  (hN : N = stackCol (F := Ideal) (colK (F := Ideal) n₁) (colK (F := Ideal) n₂))
  (hF : F0 = stack (F := Ideal) f₁ f₂) (hW : Wm = W)
  (hb : ∀ j : Fin 128, bias (ix2 (0 : Fin 1) j) = b (ix1 j))

include hA hN hF hW hb

theorem step_out_lo (O : FVec Ideal S200000x128 .f32)
    (hO : ∀ (r : Fin 200000) (j : Fin 128), O (ix2 r j) = denseAt c₁ c₂ A N F0 Wm bias r j) :
    lo (F := Ideal) O = Cert.Gcn.layer (F := Ideal) c₁ c₂ W b n₁ f₁ src₁ dst₁ x₁ := by
  subst hA hN hF hW
  funext i
  obtain ⟨r, j, rfl⟩ : ∃ (r : Fin 100000) (j : Fin 128), i = ix2 r j := ⟨i 0, i 1, eq_ix2 i⟩
  unfold lo
  refine (Layout.cut_lo O _ r j).trans ?_
  rw [hO]
  exact dense_lo c₁ c₂ f₁ f₂ n₁ n₂ Wm b bias hb r j x₁ x₂ src₁ dst₁ src₂ dst₂

theorem step_out_hi (O : FVec Ideal S200000x128 .f32)
    (hO : ∀ (r : Fin 200000) (j : Fin 128), O (ix2 r j) = denseAt c₁ c₂ A N F0 Wm bias r j) :
    hi (F := Ideal) O = Cert.Gcn.layer (F := Ideal) c₁ c₂ W b n₂ f₂ src₂ dst₂ x₂ := by
  subst hA hN hF hW
  funext i
  obtain ⟨r, j, rfl⟩ : ∃ (r : Fin 100000) (j : Fin 128), i = ix2 r j := ⟨i 0, i 1, eq_ix2 i⟩
  unfold hi
  refine (Layout.cut_hi O _ r j).trans ?_
  rw [hO]
  exact dense_hi c₁ c₂ f₁ f₂ n₁ n₂ Wm b bias hb r j x₁ x₂ src₁ dst₁ src₂ dst₂

theorem step_scaled_lo (S : FVec Ideal S200000x128 .f32)
    (hS : ∀ (r : Fin 200000) (j : Fin 128), S (ix2 r j) = denseAt c₁ c₂ A N F0 Wm bias r j * N (ix2 r (0 : Fin 1))) :
    lo (F := Ideal) S
      = mulf (F := Ideal) (s := S100000x128) (φ := .f32) (Cert.Gcn.layer (F := Ideal) c₁ c₂ W b n₁ f₁ src₁ dst₁ x₁)
          (Cert.Gcn.alongRows (F := Ideal) n₁) := by
  subst hA hN hF hW
  funext i
  obtain ⟨r, j, rfl⟩ : ∃ (r : Fin 100000) (j : Fin 128), i = ix2 r j := ⟨i 0, i 1, eq_ix2 i⟩
  unfold lo
  refine (Layout.cut_lo S _ r j).trans ?_
  rw [hS]
  exact scaled_lo c₁ c₂ f₁ f₂ n₁ n₂ Wm b bias hb r j x₁ x₂ src₁ dst₁ src₂ dst₂

theorem step_scaled_hi (S : FVec Ideal S200000x128 .f32)
    (hS : ∀ (r : Fin 200000) (j : Fin 128), S (ix2 r j) = denseAt c₁ c₂ A N F0 Wm bias r j * N (ix2 r (0 : Fin 1))) :
    hi (F := Ideal) S
      = mulf (F := Ideal) (s := S100000x128) (φ := .f32) (Cert.Gcn.layer (F := Ideal) c₁ c₂ W b n₂ f₂ src₂ dst₂ x₂)
          (Cert.Gcn.alongRows (F := Ideal) n₂) := by
  subst hA hN hF hW
  funext i
  obtain ⟨r, j, rfl⟩ : ∃ (r : Fin 100000) (j : Fin 128), i = ix2 r j := ⟨i 0, i 1, eq_ix2 i⟩
  unfold hi
  refine (Layout.cut_hi S _ r j).trans ?_
  rw [hS]
  exact scaled_hi c₁ c₂ f₁ f₂ n₁ n₂ Wm b bias hb r j x₁ x₂ src₁ dst₁ src₂ dst₂

end Step

end Cert.KernelIdeal.Hand

namespace Cert.KernelIdeal.Hand

open Cert.KernelIdeal Cert.KernelIdeal.Gen Cert.GcnK
open Idealize.ShloMosaic Idealize.ShloMosaic.TcCoe Idealize.SL.Sem Idealize.ShloMosaic.ValueIdx

variable [Cert.ReferenceIdeal.Facts]

/-! ## Layer 1 -/

section Layer1
variable (m : (ℓ : Loc nD τ sig) → Buf (Elt Ideal) ℓ) (ρ : Dev nD → PrngReg)

/-- The region's stacked neighbour sums are those of the two graphs' scaled previous features. -/
theorem hA0 (c : Dev nD) : V5 m ρ c (Pipeline.arrRef spec0 0)
    = stack (F := Ideal)
        (Cert.Gcn.neighbourSum (F := Ideal) (mulf (F := Ideal) (s := S100000x128) (φ := .f32) (m ((c.tc : Thread nD τ).loc main_arg0)) (Cert.Gcn.alongRows (F := Ideal) (Cert.Gcn.degScale (F := Ideal) (m ((c.tc : Thread nD τ).loc main_arg3))))) (m ((c.tc : Thread nD τ).loc main_arg2)) (m ((c.tc : Thread nD τ).loc main_arg3)))
        (Cert.Gcn.neighbourSum (F := Ideal) (mulf (F := Ideal) (s := S100000x128) (φ := .f32) (m ((c.tc : Thread nD τ).loc main_arg1)) (Cert.Gcn.alongRows (F := Ideal) (Cert.Gcn.degScale (F := Ideal) (m ((c.tc : Thread nD τ).loc main_arg5))))) (m ((c.tc : Thread nD τ).loc main_arg4)) (m ((c.tc : Thread nD τ).loc main_arg5))) := by
  refine (W5_v42 m ρ c).trans ?_
  unfold aggStackK
  rw [neighbourSumK_eq, neighbourSumK_eq, degScaleK_eq, degScaleK_eq, colRowsK_colK, colRowsK_colK]

/-- The region's stacked in-degree scales. -/
theorem hN0 (c : Dev nD) : V5 m ρ c (Pipeline.arrRef spec0 1)
    = stackCol (F := Ideal) (colK (F := Ideal) (Cert.Gcn.degScale (F := Ideal) (m ((c.tc : Thread nD τ).loc main_arg3)))) (colK (F := Ideal) (Cert.Gcn.degScale (F := Ideal) (m ((c.tc : Thread nD τ).loc main_arg5)))) := by
  refine (W5_v20 m ρ c).trans ?_
  rw [degScaleK_eq, degScaleK_eq]

/-- The region's stacked input features. -/
theorem hF0 (c : Dev nD) : V5 m ρ c (Pipeline.arrRef spec0 2) = stack (F := Ideal) (m ((c.tc : Thread nD τ).loc main_arg0)) (m ((c.tc : Thread nD τ).loc main_arg1)) := by
  exact W5_v21 m ρ c

/-- The region's weights are the layer's. -/
theorem hW0 (c : Dev nD) : V5 m ρ c (Pipeline.arrRef spec0 3) = Cert.Gcn.weight0 (F := Ideal) (m ((c.tc : Thread nD τ).loc main_arg6)) :=
  (W5_v44 m ρ c).trans (weightK0_eq _)

/-- The region's bias row holds the layer's bias. -/
theorem hb0 (c : Dev nD) (j : Fin 128) : (V5 m ρ c (Pipeline.arrRef spec0 4)) (ix2 (0 : Fin 1) j) = Cert.Gcn.bias0 (F := Ideal) (m ((c.tc : Thread nD τ).loc main_arg7)) (ix1 j) := by
  rw [show V5 m ρ c (Pipeline.arrRef spec0 4) = biasRowK0 (F := Ideal) (m ((c.tc : Thread nD τ).loc main_arg7)) from W5_v47 m ρ c]
  exact biasRowK0_apply _ j

/-- The region's first output at an entry. -/
theorem hO0 (c : Dev nD) (r : Fin 200000) (j : Fin 128) :
    W6 m ρ c (Proc.devRef .tc main_v48_0) (ix2 r j) = denseAt 0x3E9D1BD0#32 0x3F317218#32 (V5 m ρ c (Pipeline.arrRef spec0 0)) (V5 m ρ c (Pipeline.arrRef spec0 1)) (V5 m ρ c (Pipeline.arrRef spec0 2)) (V5 m ρ c (Pipeline.arrRef spec0 3)) (V5 m ρ c (Pipeline.arrRef spec0 4)) r j := by
  rw [show W6 m ρ c (Proc.devRef .tc main_v48_0) = (dat0 (V5 m ρ) c).arrAt 5 cfg0.N from W6_arr m ρ c 5]
  exact region0_out (V5 m ρ) c r j

/-- The region's second output at an entry. -/
theorem hS0 (c : Dev nD) (r : Fin 200000) (j : Fin 128) :
    W6 m ρ c (Proc.devRef .tc main_v48_1) (ix2 r j) = denseAt 0x3E9D1BD0#32 0x3F317218#32 (V5 m ρ c (Pipeline.arrRef spec0 0)) (V5 m ρ c (Pipeline.arrRef spec0 1)) (V5 m ρ c (Pipeline.arrRef spec0 2)) (V5 m ρ c (Pipeline.arrRef spec0 3)) (V5 m ρ c (Pipeline.arrRef spec0 4)) r j * (V5 m ρ c (Pipeline.arrRef spec0 1)) (ix2 r (0 : Fin 1)) := by
  rw [show W6 m ρ c (Proc.devRef .tc main_v48_1) = (dat0 (V5 m ρ) c).arrAt 6 cfg0.N from W6_arr m ρ c 6]
  exact region0_scaled (V5 m ρ) c r j

/-- After layer 1 the first half of the output is the first graph's features … -/
theorem out0_lo (c : Dev nD) : lo (F := Ideal) (W6 m ρ c (Proc.devRef .tc main_v48_0)) = Cert.Gcn.feat1 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := by
  unfold Cert.Gcn.feat1
  exact step_out_lo 0x3E9D1BD0#32 0x3F317218#32 (m ((c.tc : Thread nD τ).loc main_arg0)) (m ((c.tc : Thread nD τ).loc main_arg1)) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight0 (F := Ideal) (m ((c.tc : Thread nD τ).loc main_arg6))) (Cert.Gcn.bias0 (F := Ideal) (m ((c.tc : Thread nD τ).loc main_arg7))) _ _ _ _ _
    (hA0 m ρ c) (hN0 m ρ c) (hF0 m ρ c) (hW0 m ρ c) (hb0 m ρ c) _ (hO0 m ρ c)

/-- … the second half the second graph's … -/
theorem out0_hi (c : Dev nD) : hi (F := Ideal) (W6 m ρ c (Proc.devRef .tc main_v48_0)) = Cert.Gcn.feat1 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  unfold Cert.Gcn.feat1
  exact step_out_hi 0x3E9D1BD0#32 0x3F317218#32 (m ((c.tc : Thread nD τ).loc main_arg0)) (m ((c.tc : Thread nD τ).loc main_arg1)) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight0 (F := Ideal) (m ((c.tc : Thread nD τ).loc main_arg6))) (Cert.Gcn.bias0 (F := Ideal) (m ((c.tc : Thread nD τ).loc main_arg7))) _ _ _ _ _
    (hA0 m ρ c) (hN0 m ρ c) (hF0 m ρ c) (hW0 m ρ c) (hb0 m ρ c) _ (hO0 m ρ c)

/-- … and the second output's halves are these times the graphs' in-degree scales. -/
theorem sc0_lo (c : Dev nD) : lo (F := Ideal) (W6 m ρ c (Proc.devRef .tc main_v48_1))
    = mulf (F := Ideal) (s := S100000x128) (φ := .f32) (Cert.Gcn.feat1 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.alongRows (F := Ideal) (Cert.Gcn.degScale (F := Ideal) (m ((c.tc : Thread nD τ).loc main_arg3)))) := by
  unfold Cert.Gcn.feat1
  exact step_scaled_lo 0x3E9D1BD0#32 0x3F317218#32 (m ((c.tc : Thread nD τ).loc main_arg0)) (m ((c.tc : Thread nD τ).loc main_arg1)) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight0 (F := Ideal) (m ((c.tc : Thread nD τ).loc main_arg6))) (Cert.Gcn.bias0 (F := Ideal) (m ((c.tc : Thread nD τ).loc main_arg7))) _ _ _ _ _
    (hA0 m ρ c) (hN0 m ρ c) (hF0 m ρ c) (hW0 m ρ c) (hb0 m ρ c) _ (hS0 m ρ c)

theorem sc0_hi (c : Dev nD) : hi (F := Ideal) (W6 m ρ c (Proc.devRef .tc main_v48_1))
    = mulf (F := Ideal) (s := S100000x128) (φ := .f32) (Cert.Gcn.feat1 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.Gcn.alongRows (F := Ideal) (Cert.Gcn.degScale (F := Ideal) (m ((c.tc : Thread nD τ).loc main_arg5)))) := by
  unfold Cert.Gcn.feat1
  exact step_scaled_hi 0x3E9D1BD0#32 0x3F317218#32 (m ((c.tc : Thread nD τ).loc main_arg0)) (m ((c.tc : Thread nD τ).loc main_arg1)) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight0 (F := Ideal) (m ((c.tc : Thread nD τ).loc main_arg6))) (Cert.Gcn.bias0 (F := Ideal) (m ((c.tc : Thread nD τ).loc main_arg7))) _ _ _ _ _
    (hA0 m ρ c) (hN0 m ρ c) (hF0 m ρ c) (hW0 m ρ c) (hb0 m ρ c) _ (hS0 m ρ c)

end Layer1

/-! ## Layer 2 -/

section Layer2
variable (m : (ℓ : Loc nD τ sig) → Buf (Elt Ideal) ℓ) (ρ : Dev nD → PrngReg)

/-- The region's stacked neighbour sums are those of the two graphs' scaled previous features. -/
theorem hA1 (c : Dev nD) : V7 m ρ c (Pipeline.arrRef spec1 0)
    = stack (F := Ideal)
        (Cert.Gcn.neighbourSum (F := Ideal) (mulf (F := Ideal) (s := S100000x128) (φ := .f32) (Cert.Gcn.feat1 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.alongRows (F := Ideal) (Cert.Gcn.degScale (F := Ideal) (m ((c.tc : Thread nD τ).loc main_arg3))))) (m ((c.tc : Thread nD τ).loc main_arg2)) (m ((c.tc : Thread nD τ).loc main_arg3)))
        (Cert.Gcn.neighbourSum (F := Ideal) (mulf (F := Ideal) (s := S100000x128) (φ := .f32) (Cert.Gcn.feat1 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.Gcn.alongRows (F := Ideal) (Cert.Gcn.degScale (F := Ideal) (m ((c.tc : Thread nD τ).loc main_arg5))))) (m ((c.tc : Thread nD τ).loc main_arg4)) (m ((c.tc : Thread nD τ).loc main_arg5))) := by
  refine (W7_v73 m ρ c).trans ?_
  rw [sc0_lo m ρ c, sc0_hi m ρ c]
  unfold aggStackK
  rw [neighbourSumK_eq, neighbourSumK_eq]

/-- The region's stacked in-degree scales. -/
theorem hN1 (c : Dev nD) : V7 m ρ c (Pipeline.arrRef spec1 1)
    = stackCol (F := Ideal) (colK (F := Ideal) (Cert.Gcn.degScale (F := Ideal) (m ((c.tc : Thread nD τ).loc main_arg3)))) (colK (F := Ideal) (Cert.Gcn.degScale (F := Ideal) (m ((c.tc : Thread nD τ).loc main_arg5)))) := by
  exact (W7_v20 m ρ c).trans (hN0 m ρ c)

/-- The region's stacked input features. -/
theorem hF1 (c : Dev nD) : V7 m ρ c (Pipeline.arrRef spec1 2) = stack (F := Ideal) (m ((c.tc : Thread nD τ).loc main_arg0)) (m ((c.tc : Thread nD τ).loc main_arg1)) := by
  exact (W7_v21 m ρ c).trans (W5_v21 m ρ c)

/-- The region's weights are the layer's. -/
theorem hW1 (c : Dev nD) : V7 m ρ c (Pipeline.arrRef spec1 3) = Cert.Gcn.weight1 (F := Ideal) (m ((c.tc : Thread nD τ).loc main_arg6)) :=
  (W7_v75 m ρ c).trans (weightK1_eq _)

/-- The region's bias row holds the layer's bias. -/
theorem hb1 (c : Dev nD) (j : Fin 128) : (V7 m ρ c (Pipeline.arrRef spec1 4)) (ix2 (0 : Fin 1) j) = Cert.Gcn.bias1 (F := Ideal) (m ((c.tc : Thread nD τ).loc main_arg7)) (ix1 j) := by
  rw [show V7 m ρ c (Pipeline.arrRef spec1 4) = biasRowK1 (F := Ideal) (m ((c.tc : Thread nD τ).loc main_arg7)) from W7_v78 m ρ c]
  exact biasRowK1_apply _ j

/-- The region's first output at an entry. -/
theorem hO1 (c : Dev nD) (r : Fin 200000) (j : Fin 128) :
    W8 m ρ c (Proc.devRef .tc main_v79_0) (ix2 r j) = denseAt 0x3F183370#32 0x3ECF991F#32 (V7 m ρ c (Pipeline.arrRef spec1 0)) (V7 m ρ c (Pipeline.arrRef spec1 1)) (V7 m ρ c (Pipeline.arrRef spec1 2)) (V7 m ρ c (Pipeline.arrRef spec1 3)) (V7 m ρ c (Pipeline.arrRef spec1 4)) r j := by
  rw [show W8 m ρ c (Proc.devRef .tc main_v79_0) = (dat1 (V7 m ρ) c).arrAt 5 cfg1.N from W8_arr m ρ c 5]
  exact region1_out (V7 m ρ) c r j

/-- The region's second output at an entry. -/
theorem hS1 (c : Dev nD) (r : Fin 200000) (j : Fin 128) :
    W8 m ρ c (Proc.devRef .tc main_v79_1) (ix2 r j) = denseAt 0x3F183370#32 0x3ECF991F#32 (V7 m ρ c (Pipeline.arrRef spec1 0)) (V7 m ρ c (Pipeline.arrRef spec1 1)) (V7 m ρ c (Pipeline.arrRef spec1 2)) (V7 m ρ c (Pipeline.arrRef spec1 3)) (V7 m ρ c (Pipeline.arrRef spec1 4)) r j * (V7 m ρ c (Pipeline.arrRef spec1 1)) (ix2 r (0 : Fin 1)) := by
  rw [show W8 m ρ c (Proc.devRef .tc main_v79_1) = (dat1 (V7 m ρ) c).arrAt 6 cfg1.N from W8_arr m ρ c 6]
  exact region1_scaled (V7 m ρ) c r j

/-- After layer 2 the first half of the output is the first graph's features … -/
theorem out1_lo (c : Dev nD) : lo (F := Ideal) (W8 m ρ c (Proc.devRef .tc main_v79_0)) = Cert.Gcn.feat2 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := by
  unfold Cert.Gcn.feat2
  exact step_out_lo 0x3F183370#32 0x3ECF991F#32 (Cert.Gcn.feat1 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat1 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight1 (F := Ideal) (m ((c.tc : Thread nD τ).loc main_arg6))) (Cert.Gcn.bias1 (F := Ideal) (m ((c.tc : Thread nD τ).loc main_arg7))) _ _ _ _ _
    (hA1 m ρ c) (hN1 m ρ c) (hF1 m ρ c) (hW1 m ρ c) (hb1 m ρ c) _ (hO1 m ρ c)

/-- … the second half the second graph's … -/
theorem out1_hi (c : Dev nD) : hi (F := Ideal) (W8 m ρ c (Proc.devRef .tc main_v79_0)) = Cert.Gcn.feat2 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  unfold Cert.Gcn.feat2
  exact step_out_hi 0x3F183370#32 0x3ECF991F#32 (Cert.Gcn.feat1 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat1 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight1 (F := Ideal) (m ((c.tc : Thread nD τ).loc main_arg6))) (Cert.Gcn.bias1 (F := Ideal) (m ((c.tc : Thread nD τ).loc main_arg7))) _ _ _ _ _
    (hA1 m ρ c) (hN1 m ρ c) (hF1 m ρ c) (hW1 m ρ c) (hb1 m ρ c) _ (hO1 m ρ c)

/-- … and the second output's halves are these times the graphs' in-degree scales. -/
theorem sc1_lo (c : Dev nD) : lo (F := Ideal) (W8 m ρ c (Proc.devRef .tc main_v79_1))
    = mulf (F := Ideal) (s := S100000x128) (φ := .f32) (Cert.Gcn.feat2 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.alongRows (F := Ideal) (Cert.Gcn.degScale (F := Ideal) (m ((c.tc : Thread nD τ).loc main_arg3)))) := by
  unfold Cert.Gcn.feat2
  exact step_scaled_lo 0x3F183370#32 0x3ECF991F#32 (Cert.Gcn.feat1 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat1 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight1 (F := Ideal) (m ((c.tc : Thread nD τ).loc main_arg6))) (Cert.Gcn.bias1 (F := Ideal) (m ((c.tc : Thread nD τ).loc main_arg7))) _ _ _ _ _
    (hA1 m ρ c) (hN1 m ρ c) (hF1 m ρ c) (hW1 m ρ c) (hb1 m ρ c) _ (hS1 m ρ c)

theorem sc1_hi (c : Dev nD) : hi (F := Ideal) (W8 m ρ c (Proc.devRef .tc main_v79_1))
    = mulf (F := Ideal) (s := S100000x128) (φ := .f32) (Cert.Gcn.feat2 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.Gcn.alongRows (F := Ideal) (Cert.Gcn.degScale (F := Ideal) (m ((c.tc : Thread nD τ).loc main_arg5)))) := by
  unfold Cert.Gcn.feat2
  exact step_scaled_hi 0x3F183370#32 0x3ECF991F#32 (Cert.Gcn.feat1 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat1 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight1 (F := Ideal) (m ((c.tc : Thread nD τ).loc main_arg6))) (Cert.Gcn.bias1 (F := Ideal) (m ((c.tc : Thread nD τ).loc main_arg7))) _ _ _ _ _
    (hA1 m ρ c) (hN1 m ρ c) (hF1 m ρ c) (hW1 m ρ c) (hb1 m ρ c) _ (hS1 m ρ c)

end Layer2

/-! ## Layer 3 -/

section Layer3
variable (m : (ℓ : Loc nD τ sig) → Buf (Elt Ideal) ℓ) (ρ : Dev nD → PrngReg)

/-- The region's stacked neighbour sums are those of the two graphs' scaled previous features. -/
theorem hA2 (c : Dev nD) : V9 m ρ c (Pipeline.arrRef spec2 0)
    = stack (F := Ideal)
        (Cert.Gcn.neighbourSum (F := Ideal) (mulf (F := Ideal) (s := S100000x128) (φ := .f32) (Cert.Gcn.feat2 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.alongRows (F := Ideal) (Cert.Gcn.degScale (F := Ideal) (m ((c.tc : Thread nD τ).loc main_arg3))))) (m ((c.tc : Thread nD τ).loc main_arg2)) (m ((c.tc : Thread nD τ).loc main_arg3)))
        (Cert.Gcn.neighbourSum (F := Ideal) (mulf (F := Ideal) (s := S100000x128) (φ := .f32) (Cert.Gcn.feat2 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.Gcn.alongRows (F := Ideal) (Cert.Gcn.degScale (F := Ideal) (m ((c.tc : Thread nD τ).loc main_arg5))))) (m ((c.tc : Thread nD τ).loc main_arg4)) (m ((c.tc : Thread nD τ).loc main_arg5))) := by
  refine (W9_v104 m ρ c).trans ?_
  rw [sc1_lo m ρ c, sc1_hi m ρ c]
  unfold aggStackK
  rw [neighbourSumK_eq, neighbourSumK_eq]

/-- The region's stacked in-degree scales. -/
theorem hN2 (c : Dev nD) : V9 m ρ c (Pipeline.arrRef spec2 1)
    = stackCol (F := Ideal) (colK (F := Ideal) (Cert.Gcn.degScale (F := Ideal) (m ((c.tc : Thread nD τ).loc main_arg3)))) (colK (F := Ideal) (Cert.Gcn.degScale (F := Ideal) (m ((c.tc : Thread nD τ).loc main_arg5)))) := by
  exact (W9_v20 m ρ c).trans (hN0 m ρ c)

/-- The region's stacked input features. -/
theorem hF2 (c : Dev nD) : V9 m ρ c (Pipeline.arrRef spec2 2) = stack (F := Ideal) (m ((c.tc : Thread nD τ).loc main_arg0)) (m ((c.tc : Thread nD τ).loc main_arg1)) := by
  exact (W9_v21 m ρ c).trans (W5_v21 m ρ c)

/-- The region's weights are the layer's. -/
theorem hW2 (c : Dev nD) : V9 m ρ c (Pipeline.arrRef spec2 3) = Cert.Gcn.weight2 (F := Ideal) (m ((c.tc : Thread nD τ).loc main_arg6)) :=
  (W9_v106 m ρ c).trans (weightK2_eq _)

/-- The region's bias row holds the layer's bias. -/
theorem hb2 (c : Dev nD) (j : Fin 128) : (V9 m ρ c (Pipeline.arrRef spec2 4)) (ix2 (0 : Fin 1) j) = Cert.Gcn.bias2 (F := Ideal) (m ((c.tc : Thread nD τ).loc main_arg7)) (ix1 j) := by
  rw [show V9 m ρ c (Pipeline.arrRef spec2 4) = biasRowK2 (F := Ideal) (m ((c.tc : Thread nD τ).loc main_arg7)) from W9_v109 m ρ c]
  exact biasRowK2_apply _ j

/-- The region's first output at an entry. -/
theorem hO2 (c : Dev nD) (r : Fin 200000) (j : Fin 128) :
    W10 m ρ c (Proc.devRef .tc main_v110_0) (ix2 r j) = denseAt 0x3F365A78#32 0x3E934B11#32 (V9 m ρ c (Pipeline.arrRef spec2 0)) (V9 m ρ c (Pipeline.arrRef spec2 1)) (V9 m ρ c (Pipeline.arrRef spec2 2)) (V9 m ρ c (Pipeline.arrRef spec2 3)) (V9 m ρ c (Pipeline.arrRef spec2 4)) r j := by
  rw [show W10 m ρ c (Proc.devRef .tc main_v110_0) = (dat2 (V9 m ρ) c).arrAt 5 cfg2.N from W10_arr m ρ c 5]
  exact region2_out (V9 m ρ) c r j

/-- The region's second output at an entry. -/
theorem hS2 (c : Dev nD) (r : Fin 200000) (j : Fin 128) :
    W10 m ρ c (Proc.devRef .tc main_v110_1) (ix2 r j) = denseAt 0x3F365A78#32 0x3E934B11#32 (V9 m ρ c (Pipeline.arrRef spec2 0)) (V9 m ρ c (Pipeline.arrRef spec2 1)) (V9 m ρ c (Pipeline.arrRef spec2 2)) (V9 m ρ c (Pipeline.arrRef spec2 3)) (V9 m ρ c (Pipeline.arrRef spec2 4)) r j * (V9 m ρ c (Pipeline.arrRef spec2 1)) (ix2 r (0 : Fin 1)) := by
  rw [show W10 m ρ c (Proc.devRef .tc main_v110_1) = (dat2 (V9 m ρ) c).arrAt 6 cfg2.N from W10_arr m ρ c 6]
  exact region2_scaled (V9 m ρ) c r j

/-- After layer 3 the first half of the output is the first graph's features … -/
theorem out2_lo (c : Dev nD) : lo (F := Ideal) (W10 m ρ c (Proc.devRef .tc main_v110_0)) = Cert.Gcn.feat3 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := by
  unfold Cert.Gcn.feat3
  exact step_out_lo 0x3F365A78#32 0x3E934B11#32 (Cert.Gcn.feat2 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat2 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight2 (F := Ideal) (m ((c.tc : Thread nD τ).loc main_arg6))) (Cert.Gcn.bias2 (F := Ideal) (m ((c.tc : Thread nD τ).loc main_arg7))) _ _ _ _ _
    (hA2 m ρ c) (hN2 m ρ c) (hF2 m ρ c) (hW2 m ρ c) (hb2 m ρ c) _ (hO2 m ρ c)

/-- … the second half the second graph's … -/
theorem out2_hi (c : Dev nD) : hi (F := Ideal) (W10 m ρ c (Proc.devRef .tc main_v110_0)) = Cert.Gcn.feat3 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  unfold Cert.Gcn.feat3
  exact step_out_hi 0x3F365A78#32 0x3E934B11#32 (Cert.Gcn.feat2 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat2 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight2 (F := Ideal) (m ((c.tc : Thread nD τ).loc main_arg6))) (Cert.Gcn.bias2 (F := Ideal) (m ((c.tc : Thread nD τ).loc main_arg7))) _ _ _ _ _
    (hA2 m ρ c) (hN2 m ρ c) (hF2 m ρ c) (hW2 m ρ c) (hb2 m ρ c) _ (hO2 m ρ c)

/-- … and the second output's halves are these times the graphs' in-degree scales. -/
theorem sc2_lo (c : Dev nD) : lo (F := Ideal) (W10 m ρ c (Proc.devRef .tc main_v110_1))
    = mulf (F := Ideal) (s := S100000x128) (φ := .f32) (Cert.Gcn.feat3 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.alongRows (F := Ideal) (Cert.Gcn.degScale (F := Ideal) (m ((c.tc : Thread nD τ).loc main_arg3)))) := by
  unfold Cert.Gcn.feat3
  exact step_scaled_lo 0x3F365A78#32 0x3E934B11#32 (Cert.Gcn.feat2 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat2 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight2 (F := Ideal) (m ((c.tc : Thread nD τ).loc main_arg6))) (Cert.Gcn.bias2 (F := Ideal) (m ((c.tc : Thread nD τ).loc main_arg7))) _ _ _ _ _
    (hA2 m ρ c) (hN2 m ρ c) (hF2 m ρ c) (hW2 m ρ c) (hb2 m ρ c) _ (hS2 m ρ c)

theorem sc2_hi (c : Dev nD) : hi (F := Ideal) (W10 m ρ c (Proc.devRef .tc main_v110_1))
    = mulf (F := Ideal) (s := S100000x128) (φ := .f32) (Cert.Gcn.feat3 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.Gcn.alongRows (F := Ideal) (Cert.Gcn.degScale (F := Ideal) (m ((c.tc : Thread nD τ).loc main_arg5)))) := by
  unfold Cert.Gcn.feat3
  exact step_scaled_hi 0x3F365A78#32 0x3E934B11#32 (Cert.Gcn.feat2 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat2 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight2 (F := Ideal) (m ((c.tc : Thread nD τ).loc main_arg6))) (Cert.Gcn.bias2 (F := Ideal) (m ((c.tc : Thread nD τ).loc main_arg7))) _ _ _ _ _
    (hA2 m ρ c) (hN2 m ρ c) (hF2 m ρ c) (hW2 m ρ c) (hb2 m ρ c) _ (hS2 m ρ c)

end Layer3

/-! ## Layer 4 -/

section Layer4
variable (m : (ℓ : Loc nD τ sig) → Buf (Elt Ideal) ℓ) (ρ : Dev nD → PrngReg)

/-- The region's stacked neighbour sums are those of the two graphs' scaled previous features. -/
theorem hA3 (c : Dev nD) : V11 m ρ c (Pipeline.arrRef spec3 0)
    = stack (F := Ideal)
        (Cert.Gcn.neighbourSum (F := Ideal) (mulf (F := Ideal) (s := S100000x128) (φ := .f32) (Cert.Gcn.feat3 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.alongRows (F := Ideal) (Cert.Gcn.degScale (F := Ideal) (m ((c.tc : Thread nD τ).loc main_arg3))))) (m ((c.tc : Thread nD τ).loc main_arg2)) (m ((c.tc : Thread nD τ).loc main_arg3)))
        (Cert.Gcn.neighbourSum (F := Ideal) (mulf (F := Ideal) (s := S100000x128) (φ := .f32) (Cert.Gcn.feat3 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.Gcn.alongRows (F := Ideal) (Cert.Gcn.degScale (F := Ideal) (m ((c.tc : Thread nD τ).loc main_arg5))))) (m ((c.tc : Thread nD τ).loc main_arg4)) (m ((c.tc : Thread nD τ).loc main_arg5))) := by
  refine (W11_v135 m ρ c).trans ?_
  rw [sc2_lo m ρ c, sc2_hi m ρ c]
  unfold aggStackK
  rw [neighbourSumK_eq, neighbourSumK_eq]

/-- The region's stacked in-degree scales. -/
theorem hN3 (c : Dev nD) : V11 m ρ c (Pipeline.arrRef spec3 1)
    = stackCol (F := Ideal) (colK (F := Ideal) (Cert.Gcn.degScale (F := Ideal) (m ((c.tc : Thread nD τ).loc main_arg3)))) (colK (F := Ideal) (Cert.Gcn.degScale (F := Ideal) (m ((c.tc : Thread nD τ).loc main_arg5)))) := by
  exact (W11_v20 m ρ c).trans (hN0 m ρ c)

/-- The region's stacked input features. -/
theorem hF3 (c : Dev nD) : V11 m ρ c (Pipeline.arrRef spec3 2) = stack (F := Ideal) (m ((c.tc : Thread nD τ).loc main_arg0)) (m ((c.tc : Thread nD τ).loc main_arg1)) := by
  exact (W11_v21 m ρ c).trans (W5_v21 m ρ c)

/-- The region's weights are the layer's. -/
theorem hW3 (c : Dev nD) : V11 m ρ c (Pipeline.arrRef spec3 3) = Cert.Gcn.weight3 (F := Ideal) (m ((c.tc : Thread nD τ).loc main_arg6)) :=
  (W11_v137 m ρ c).trans (weightK3_eq _)

/-- The region's bias row holds the layer's bias. -/
theorem hb3 (c : Dev nD) (j : Fin 128) : (V11 m ρ c (Pipeline.arrRef spec3 4)) (ix2 (0 : Fin 1) j) = Cert.Gcn.bias3 (F := Ideal) (m ((c.tc : Thread nD τ).loc main_arg7)) (ix1 j) := by
  rw [show V11 m ρ c (Pipeline.arrRef spec3 4) = biasRowK3 (F := Ideal) (m ((c.tc : Thread nD τ).loc main_arg7)) from W11_v140 m ρ c]
  exact biasRowK3_apply _ j

/-- The region's first output at an entry. -/
theorem hO3 (c : Dev nD) (r : Fin 200000) (j : Fin 128) :
    W12 m ρ c (Proc.devRef .tc main_v141_0) (ix2 r j) = denseAt 0x3F46E010#32 0x3E647FBE#32 (V11 m ρ c (Pipeline.arrRef spec3 0)) (V11 m ρ c (Pipeline.arrRef spec3 1)) (V11 m ρ c (Pipeline.arrRef spec3 2)) (V11 m ρ c (Pipeline.arrRef spec3 3)) (V11 m ρ c (Pipeline.arrRef spec3 4)) r j := by
  rw [show W12 m ρ c (Proc.devRef .tc main_v141_0) = (dat3 (V11 m ρ) c).arrAt 5 cfg3.N from W12_arr m ρ c 5]
  exact region3_out (V11 m ρ) c r j

/-- The region's second output at an entry. -/
theorem hS3 (c : Dev nD) (r : Fin 200000) (j : Fin 128) :
    W12 m ρ c (Proc.devRef .tc main_v141_1) (ix2 r j) = denseAt 0x3F46E010#32 0x3E647FBE#32 (V11 m ρ c (Pipeline.arrRef spec3 0)) (V11 m ρ c (Pipeline.arrRef spec3 1)) (V11 m ρ c (Pipeline.arrRef spec3 2)) (V11 m ρ c (Pipeline.arrRef spec3 3)) (V11 m ρ c (Pipeline.arrRef spec3 4)) r j * (V11 m ρ c (Pipeline.arrRef spec3 1)) (ix2 r (0 : Fin 1)) := by
  rw [show W12 m ρ c (Proc.devRef .tc main_v141_1) = (dat3 (V11 m ρ) c).arrAt 6 cfg3.N from W12_arr m ρ c 6]
  exact region3_scaled (V11 m ρ) c r j

/-- After layer 4 the first half of the output is the first graph's features … -/
theorem out3_lo (c : Dev nD) : lo (F := Ideal) (W12 m ρ c (Proc.devRef .tc main_v141_0)) = Cert.Gcn.feat4 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := by
  unfold Cert.Gcn.feat4
  exact step_out_lo 0x3F46E010#32 0x3E647FBE#32 (Cert.Gcn.feat3 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat3 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight3 (F := Ideal) (m ((c.tc : Thread nD τ).loc main_arg6))) (Cert.Gcn.bias3 (F := Ideal) (m ((c.tc : Thread nD τ).loc main_arg7))) _ _ _ _ _
    (hA3 m ρ c) (hN3 m ρ c) (hF3 m ρ c) (hW3 m ρ c) (hb3 m ρ c) _ (hO3 m ρ c)

/-- … the second half the second graph's … -/
theorem out3_hi (c : Dev nD) : hi (F := Ideal) (W12 m ρ c (Proc.devRef .tc main_v141_0)) = Cert.Gcn.feat4 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  unfold Cert.Gcn.feat4
  exact step_out_hi 0x3F46E010#32 0x3E647FBE#32 (Cert.Gcn.feat3 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat3 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight3 (F := Ideal) (m ((c.tc : Thread nD τ).loc main_arg6))) (Cert.Gcn.bias3 (F := Ideal) (m ((c.tc : Thread nD τ).loc main_arg7))) _ _ _ _ _
    (hA3 m ρ c) (hN3 m ρ c) (hF3 m ρ c) (hW3 m ρ c) (hb3 m ρ c) _ (hO3 m ρ c)

/-- … and the second output's halves are these times the graphs' in-degree scales. -/
theorem sc3_lo (c : Dev nD) : lo (F := Ideal) (W12 m ρ c (Proc.devRef .tc main_v141_1))
    = mulf (F := Ideal) (s := S100000x128) (φ := .f32) (Cert.Gcn.feat4 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.alongRows (F := Ideal) (Cert.Gcn.degScale (F := Ideal) (m ((c.tc : Thread nD τ).loc main_arg3)))) := by
  unfold Cert.Gcn.feat4
  exact step_scaled_lo 0x3F46E010#32 0x3E647FBE#32 (Cert.Gcn.feat3 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat3 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight3 (F := Ideal) (m ((c.tc : Thread nD τ).loc main_arg6))) (Cert.Gcn.bias3 (F := Ideal) (m ((c.tc : Thread nD τ).loc main_arg7))) _ _ _ _ _
    (hA3 m ρ c) (hN3 m ρ c) (hF3 m ρ c) (hW3 m ρ c) (hb3 m ρ c) _ (hS3 m ρ c)

theorem sc3_hi (c : Dev nD) : hi (F := Ideal) (W12 m ρ c (Proc.devRef .tc main_v141_1))
    = mulf (F := Ideal) (s := S100000x128) (φ := .f32) (Cert.Gcn.feat4 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.Gcn.alongRows (F := Ideal) (Cert.Gcn.degScale (F := Ideal) (m ((c.tc : Thread nD τ).loc main_arg5)))) := by
  unfold Cert.Gcn.feat4
  exact step_scaled_hi 0x3F46E010#32 0x3E647FBE#32 (Cert.Gcn.feat3 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Gcn.feat3 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (Cert.Gcn.degScale (F := Ideal) (m ((c.tc : Thread nD τ).loc main_arg3))) (Cert.Gcn.degScale (F := Ideal) (m ((c.tc : Thread nD τ).loc main_arg5))) (m ((c.tc : Thread nD τ).loc main_arg2)) (m ((c.tc : Thread nD τ).loc main_arg3)) (m ((c.tc : Thread nD τ).loc main_arg4)) (m ((c.tc : Thread nD τ).loc main_arg5))
    (Cert.Gcn.weight3 (F := Ideal) (m ((c.tc : Thread nD τ).loc main_arg6))) (Cert.Gcn.bias3 (F := Ideal) (m ((c.tc : Thread nD τ).loc main_arg7))) _ _ _ _ _
    (hA3 m ρ c) (hN3 m ρ c) (hF3 m ρ c) (hW3 m ρ c) (hb3 m ρ c) _ (hS3 m ρ c)

end Layer4

/-! ## After the four layers -/

section Final
variable (m : (ℓ : Loc nD τ sig) → Buf (Elt Ideal) ℓ) (ρ : Dev nD → PrngReg)

/-- The first graph's features after the four layers. -/
theorem feat4_lo (c : Dev nD) : Cert.GcnK.lo (F := Ideal) (W12 m ρ c (Proc.devRef .tc main_v141_0))
    = Cert.Gcn.feat4 (F := Ideal) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := out3_lo m ρ c

/-- The second graph's features after the four layers. -/
theorem feat4_hi (c : Dev nD) : Cert.GcnK.hi (F := Ideal) (W12 m ρ c (Proc.devRef .tc main_v141_0))
    = Cert.Gcn.feat4 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := out3_hi m ρ c

end Final

end Cert.KernelIdeal.Hand

end
-- ==== Proof.Region4.lean ====
/- What the first normalize region leaves in its output array, as one function of the arrays it finds: every point
   of the grid writes back its row block of the standardised array, and the twenty row blocks cover the array. -/
import proofs.«158605_j26792005992870_2_alg».proof.Proof.RegionNormPay

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row block of the input and of the output is the point's number, every other
    block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input block at a point, entry by entry: the array's entry under the same entry of the output's block. -/
theorem iblk4_0_apply (c : Dev nD) (t : Fin cfg4.N) (p : Fin 5000) (q : Fin 128) :
    iblk4 V c 0 t (ix2 p q) = V c (Pipeline.arrRef spec4 0) (((cfg4.win 3).blk t).view.emb (ix2 p q)) := by
  obtain ⟨e00, e01, e10, e11, e20, e21, e30, e31⟩ := idx_facts4 t
  show V c (Pipeline.arrRef spec4 0) (((cfg4.win 0).blk t).view.emb (ix2 p q)) = V c (Pipeline.arrRef spec4 0) (((cfg4.win 3).blk t).view.emb (ix2 p q))
  refine congrArg _ (funext fun a => Fin.ext ?_)
  match a with
  | ⟨0, _⟩ => show win4_0.index t (0 : Fin 2) * 5000 + 1 * p.val = win4_3.index t (0 : Fin 2) * 5000 + 1 * p.val; rw [e00, e30]
  | ⟨1, _⟩ => show win4_0.index t (1 : Fin 2) * 128 + 1 * q.val = win4_3.index t (1 : Fin 2) * 128 + 1 * q.val; rw [e01, e31]

/-- The mean's block at every point is the whole row vector. -/
theorem iblk4_1_apply (c : Dev nD) (t : Fin cfg4.N) (q : Fin 128) :
    iblk4 V c 1 t (ix2 0 q) = V c (Pipeline.arrRef spec4 1) (ix2 0 q) := by
  obtain ⟨e00, e01, e10, e11, e20, e21, e30, e31⟩ := idx_facts4 t
  show V c (Pipeline.arrRef spec4 1) (((cfg4.win 1).blk t).view.emb (ix2 0 q)) = V c (Pipeline.arrRef spec4 1) (ix2 0 q)
  refine congrArg _ (funext fun a => Fin.ext ?_)
  match a with
  | ⟨0, _⟩ => show win4_1.index t (0 : Fin 2) * 1 + 1 * 0 = 0; rw [e10]
  | ⟨1, _⟩ => show win4_1.index t (1 : Fin 2) * 128 + 1 * q.val = q.val; rw [e11]; omega

/-- The inverse deviation's block at every point is the whole row vector. -/
theorem iblk4_2_apply (c : Dev nD) (t : Fin cfg4.N) (q : Fin 128) :
    iblk4 V c 2 t (ix2 0 q) = V c (Pipeline.arrRef spec4 2) (ix2 0 q) := by
  obtain ⟨e00, e01, e10, e11, e20, e21, e30, e31⟩ := idx_facts4 t
  show V c (Pipeline.arrRef spec4 2) (((cfg4.win 2).blk t).view.emb (ix2 0 q)) = V c (Pipeline.arrRef spec4 2) (ix2 0 q)
  refine congrArg _ (funext fun a => Fin.ext ?_)
  match a with
  | ⟨0, _⟩ => show win4_2.index t (0 : Fin 2) * 1 + 1 * 0 = 0; rw [e20]
  | ⟨1, _⟩ => show win4_2.index t (1 : Fin 2) * 128 + 1 * q.val = q.val; rw [e21]; omega

set_option maxHeartbeats 1000000 in
/-- What a point writes back is its block of the standardised array. -/
theorem flushed4_eq (c : Dev nD) (t : Fin cfg4.N) :
    (dat4 V c).flushed 3 t = ((cfg4.win 3).blk t).view.read (Elt Ideal)
      (normalized (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (ix2 p q) = _
  rw [k4_pay1_apply, iblk4_0_apply, iblk4_1_apply, iblk4_2_apply]
  show _ = normalized (V c (Pipeline.arrRef spec4 0)) (V c (Pipeline.arrRef spec4 1)) (V c (Pipeline.arrRef spec4 2)) (((cfg4.win 3).blk t).view.emb (ix2 p q))
  obtain ⟨e00, e01, e10, e11, e20, e21, e30, e31⟩ := idx_facts4 t
  refine (normalized_apply (V c (Pipeline.arrRef spec4 0)) (V c (Pipeline.arrRef spec4 1)) (V c (Pipeline.arrRef spec4 2)) (((cfg4.win 3).blk t).view.emb (ix2 p q)) q ?_).symm
  show win4_3.index t (1 : Fin 2) * 128 + 1 * q.val = q.val
  rw [e31]; omega

/-- An index of the array is in a point's block iff each coordinate is in the block's range on its axis. -/
theorem mem_blk4 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v165).slice (win4_3.rect t)).set ↔ _
  rw [View.set_slice_whole, Rect.mem_set_unit]
  exact Iff.rfl

/-- Row `r` of the array is in the block of point `r / 5000`. -/
theorem cover4 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  have hlt : (i 0).val / 5000 < cfg4.N := by rw [hN]; omega
  obtain ⟨-, -, -, -, -, -, e30, e31⟩ := idx_facts4 ⟨(i 0).val / 5000, hlt⟩
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val ∧ (i 0).val < win4_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win4_3.index ⟨(i 0).val / 5000, hlt⟩ (1 : Fin 2) * 128 ≤ (i 1).val ∧ (i 1).val < win4_3.index ⟨(i 0).val / 5000, hlt⟩ (1 : Fin 2) * 128 + 128
    rw [e31]; omega

/-- The array the region leaves: the standardised array of the arrays it finds. -/
theorem final4 (c : Dev nD) : (dat4 V c).arrAt 3 cfg4.N
    = normalized (V c (Pipeline.arrRef spec4 0)) (V c (Pipeline.arrRef spec4 1)) (V c (Pipeline.arrRef spec4 2)) :=
  (dat4 V c).arrAt_eq_of_cover 3 _ (fun t _ => flushed4_eq V c t) cover4

/-- The region's output array, entry by entry: `(x r j - mean j) * inv j` (`normalizedAt`, by definition). -/
theorem region4_out (c : Dev nD) (r : Fin 100000) (j : Fin 128) :
    (dat4 (F := Ideal) V c).arrAt 3 cfg4.N (ix2 r j)
      = normalizedAt (V c (Pipeline.arrRef spec4 0)) (V c (Pipeline.arrRef spec4 1)) (V c (Pipeline.arrRef spec4 2)) r j := by
  rw [final4]; rfl

end Cert.KernelIdeal.Hand

end
-- ==== Proof.Region5.lean ====
/- What the second normalize region leaves in its output array, as one function of the arrays it finds: every point
   of the grid writes back its row block of the standardised array, and the twenty row blocks cover the array. -/
import proofs.«158605_j26792005992870_2_alg».proof.Proof.RegionNormPay

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row block of the input and of the output is the point's number, every other
    block index is zero. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input block at a point, entry by entry: the array's entry under the same entry of the output's block. -/
theorem iblk5_0_apply (c : Dev nD) (t : Fin cfg5.N) (p : Fin 5000) (q : Fin 128) :
    iblk5 V c 0 t (ix2 p q) = V c (Pipeline.arrRef spec5 0) (((cfg5.win 3).blk t).view.emb (ix2 p q)) := by
  obtain ⟨e00, e01, e10, e11, e20, e21, e30, e31⟩ := idx_facts5 t
  show V c (Pipeline.arrRef spec5 0) (((cfg5.win 0).blk t).view.emb (ix2 p q)) = V c (Pipeline.arrRef spec5 0) (((cfg5.win 3).blk t).view.emb (ix2 p q))
  refine congrArg _ (funext fun a => Fin.ext ?_)
  match a with
  | ⟨0, _⟩ => show win5_0.index t (0 : Fin 2) * 5000 + 1 * p.val = win5_3.index t (0 : Fin 2) * 5000 + 1 * p.val; rw [e00, e30]
  | ⟨1, _⟩ => show win5_0.index t (1 : Fin 2) * 128 + 1 * q.val = win5_3.index t (1 : Fin 2) * 128 + 1 * q.val; rw [e01, e31]

/-- The mean's block at every point is the whole row vector. -/
theorem iblk5_1_apply (c : Dev nD) (t : Fin cfg5.N) (q : Fin 128) :
    iblk5 V c 1 t (ix2 0 q) = V c (Pipeline.arrRef spec5 1) (ix2 0 q) := by
  obtain ⟨e00, e01, e10, e11, e20, e21, e30, e31⟩ := idx_facts5 t
  show V c (Pipeline.arrRef spec5 1) (((cfg5.win 1).blk t).view.emb (ix2 0 q)) = V c (Pipeline.arrRef spec5 1) (ix2 0 q)
  refine congrArg _ (funext fun a => Fin.ext ?_)
  match a with
  | ⟨0, _⟩ => show win5_1.index t (0 : Fin 2) * 1 + 1 * 0 = 0; rw [e10]
  | ⟨1, _⟩ => show win5_1.index t (1 : Fin 2) * 128 + 1 * q.val = q.val; rw [e11]; omega

/-- The inverse deviation's block at every point is the whole row vector. -/
theorem iblk5_2_apply (c : Dev nD) (t : Fin cfg5.N) (q : Fin 128) :
    iblk5 V c 2 t (ix2 0 q) = V c (Pipeline.arrRef spec5 2) (ix2 0 q) := by
  obtain ⟨e00, e01, e10, e11, e20, e21, e30, e31⟩ := idx_facts5 t
  show V c (Pipeline.arrRef spec5 2) (((cfg5.win 2).blk t).view.emb (ix2 0 q)) = V c (Pipeline.arrRef spec5 2) (ix2 0 q)
  refine congrArg _ (funext fun a => Fin.ext ?_)
  match a with
  | ⟨0, _⟩ => show win5_2.index t (0 : Fin 2) * 1 + 1 * 0 = 0; rw [e20]
  | ⟨1, _⟩ => show win5_2.index t (1 : Fin 2) * 128 + 1 * q.val = q.val; rw [e21]; omega

set_option maxHeartbeats 1000000 in
/-- What a point writes back is its block of the standardised array. -/
theorem flushed5_eq (c : Dev nD) (t : Fin cfg5.N) :
    (dat5 V c).flushed 3 t = ((cfg5.win 3).blk t).view.read (Elt Ideal)
      (normalized (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (ix2 p q) = _
  rw [k5_pay1_apply, iblk5_0_apply, iblk5_1_apply, iblk5_2_apply]
  show _ = normalized (V c (Pipeline.arrRef spec5 0)) (V c (Pipeline.arrRef spec5 1)) (V c (Pipeline.arrRef spec5 2)) (((cfg5.win 3).blk t).view.emb (ix2 p q))
  obtain ⟨e00, e01, e10, e11, e20, e21, e30, e31⟩ := idx_facts5 t
  refine (normalized_apply (V c (Pipeline.arrRef spec5 0)) (V c (Pipeline.arrRef spec5 1)) (V c (Pipeline.arrRef spec5 2)) (((cfg5.win 3).blk t).view.emb (ix2 p q)) q ?_).symm
  show win5_3.index t (1 : Fin 2) * 128 + 1 * q.val = q.val
  rw [e31]; omega

/-- An index of the array is in a point's block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v185).slice (win5_3.rect t)).set ↔ _
  rw [View.set_slice_whole, Rect.mem_set_unit]
  exact Iff.rfl

/-- Row `r` of the array is in the block of point `r / 5000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  have hlt : (i 0).val / 5000 < cfg5.N := by rw [hN]; omega
  obtain ⟨-, -, -, -, -, -, e30, e31⟩ := idx_facts5 ⟨(i 0).val / 5000, hlt⟩
  refine ⟨⟨(i 0).val / 5000, hlt⟩, flush5_3 _, ?_⟩
  rw [mem_blk5]
  intro a
  match a with
  | ⟨0, _⟩ =>
    show win5_3.index ⟨(i 0).val / 5000, hlt⟩ (0 : Fin 2) * 5000 ≤ (i 0).val ∧ (i 0).val < win5_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, hlt⟩ (1 : Fin 2) * 128 ≤ (i 1).val ∧ (i 1).val < win5_3.index ⟨(i 0).val / 5000, hlt⟩ (1 : Fin 2) * 128 + 128
    rw [e31]; omega

/-- The array the region leaves: the standardised array of the arrays it finds. -/
theorem final5 (c : Dev nD) : (dat5 V c).arrAt 3 cfg5.N
    = normalized (V c (Pipeline.arrRef spec5 0)) (V c (Pipeline.arrRef spec5 1)) (V c (Pipeline.arrRef spec5 2)) :=
  (dat5 V c).arrAt_eq_of_cover 3 _ (fun t _ => flushed5_eq V c t) cover5

/-- The region's output array, entry by entry: `(x r j - mean j) * inv j` (`normalizedAt`, by definition). -/
theorem region5_out (c : Dev nD) (r : Fin 100000) (j : Fin 128) :
    (dat5 (F := Ideal) V c).arrAt 3 cfg5.N (ix2 r j)
      = normalizedAt (V c (Pipeline.arrRef spec5 0)) (V c (Pipeline.arrRef spec5 1)) (V c (Pipeline.arrRef spec5 2)) r j := by
  rw [final5]; rfl

end Cert.KernelIdeal.Hand

end
-- ==== Proof.StdAlgebra.lean ====
/-
  The real algebra of the column standardisation, and the few facts on extended reals it is read through.

  For real numbers X_1 … X_n with S = Σ X and Q = Σ X·X and the mean μ = S / n (n ≠ 0),
      Σ (X_i − μ)² = Q − S·S / n,
  so that the one-pass variance (Q − S·S/n)/(n − 1) is the two-pass variance Σ (X_i − μ)²/(n − 1); the latter is
  not negative, so taking its maximum with zero changes nothing; and for c > 0, a·(1/c) = a/c.
  On extended reals: sums, quotients by a real that is not zero, square roots of reals that are not negative and
  maxima of reals are the reals' own.
-/
import Idealize.ShloMosaic.PureOps.Ideal
import Idealize.ShloMosaic.PureOps.Ideal.Laws

open scoped BigOperators

namespace Cert.StdAlgebra

open Idealize.ShloMosaic

/-! ## Over the reals -/

/-- Σ (X_i − S/N)² = Q − S·S/N, for N the number of terms. -/
theorem sum_sq_dev {ι : Type} [Fintype ι] (X : ι → ℝ) (N : ℝ) (hN : (Fintype.card ι : ℝ) = N) (h0 : N ≠ 0) :
    ∑ i, (X i - (∑ k, X k) / N) * (X i - (∑ k, X k) / N) = (∑ i, X i * X i) - (∑ k, X k) * (∑ k, X k) / N := by
  have e : ∀ i, (X i - (∑ k, X k) / N) * (X i - (∑ k, X k) / N)
      = X i * X i - (2 * ((∑ k, X k) / N)) * X i + ((∑ k, X k) / N) * ((∑ k, X k) / N) := fun i => by ring
  simp only [e, Finset.sum_add_distrib, Finset.sum_sub_distrib, ← Finset.mul_sum, Finset.sum_const, Finset.card_univ,
    nsmul_eq_mul, hN]
  field_simp
  ring

/-- A sum of squares is not negative. -/
theorem sum_sq_nonneg {ι : Type} [Fintype ι] (Y : ι → ℝ) : 0 ≤ ∑ i, Y i * Y i :=
  Finset.sum_nonneg fun i _ => mul_self_nonneg (Y i)

/-- The closing identity: with the one-pass variance equal to the two-pass one, the kernel's
    (x − μ)·(1 / max(ε, √(max(var, 0)))) is the reference's (x − μ) / max(ε, √var). -/
theorem standardize_real {ι : Type} [Fintype ι] (X : ι → ℝ) (i : ι) (N D ε : ℝ) (hN : (Fintype.card ι : ℝ) = N) (h0 : N ≠ 0)
    (hD : 0 < D) (hε : 0 < ε) :
    (X i - (∑ k, X k) / N) * (1 / max ε (Real.sqrt (max (((∑ k, X k * X k) - (∑ k, X k) * (∑ k, X k) / N) / D) 0)))
      = (X i - (∑ k, X k) / N) / max ε (Real.sqrt ((∑ k, (X k - (∑ k, X k) / N) * (X k - (∑ k, X k) / N)) / D)) := by
  rw [← sum_sq_dev X N hN h0, max_eq_left (div_nonneg (sum_sq_nonneg _) hD.le), mul_one_div]

/-! ## On extended reals -/

/-- A finite sum of reals, each read as an extended real, is the sum read as an extended real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul, mul_one_div]

/-- The square root of a real that is not negative. -/
theorem sqrt_coe_nonneg (a : ℝ) (ha : 0 ≤ a) : Ideal.sqrt (a : EReal) = ((Real.sqrt a : ℝ) : EReal) := by
  rw [Ideal.sqrt_coe, if_neg (not_lt.mpr ha)]

/-- The maximum of two reals. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

end Cert.StdAlgebra
-- ==== Proof.StdEq.lean ====
/-
  The column standardisation: the kernel's form against the reference's, at the ideal float values.

  For an array x of real entries, with per-column S = Σ_r x, Q = Σ_r x·x and n = 100000:
  the kernel forms mean = S/n, var = (Q − S·S/n)/(n − 1), inv = 1/max(ε, √(max(var, 0))) and then (x − mean)·inv;
  the reference forms (x − S/n) / max(ε, √(Σ_r (x − S/n)²/(n − 1))).  Each side is read entry by entry down to real
  arithmetic (a column sum is the initial value plus the sum over the rows; a one-row array repeated down the rows reads
  its one row; a quotient by a real that is not zero is the reals' quotient; the root of a real that is not negative is
  the reals' root), and the two real expressions agree because Σ (x − S/n)² = Q − S·S/n.
-/
import proofs.«158605_j26792005992870_2_alg».proof.Proof.StdK
import proofs.«158605_j26792005992870_2_alg».proof.Proof.StdAlgebra
import proofs.«158605_j26792005992870_2_alg».proof.Proof.Spec
import Idealize.ShloMosaic.Lib.IdealHost
import Idealize.ShloMosaic.Lib.KernelVsHost

open scoped BigOperators

namespace Cert.GcnK

open Idealize.ShloMosaic Idealize.ShloMosaic.ValueIdx Cert.StdAlgebra

/-! ## The float words as reals -/

theorem word_n : Ideal.ofBits .f32 0x47C35000#32 = ((100000 : ℝ) : EReal) := by
  simp [Ideal.ofBits, Ideal.ieee, -EReal.coe_mul]; norm_num

theorem word_dofs : Ideal.ofBits .f32 0x47C34F80#32 = ((99999 : ℝ) : EReal) := by
  simp [Ideal.ofBits, Ideal.ieee, -EReal.coe_mul]; norm_num

/-- The word of ε denotes a positive real. -/
theorem word_eps : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

/-! ## The layout operations and the column sum read at an index -/

/-- Removing the row axis of a 100000 × 128 array leaves its 128 columns. -/
theorem red : (⟨2, ![100000, 128]⟩ : Shape).Reduces [0] ⟨1, ![128]⟩ := by decide

/-- Row r of column j is the index the column index j lifts to at row r. -/
theorem lift_eq (j : Fin 128) (r : Fin 100000) : red.lift (ix1 j) r = ix2 r j := by
  funext c
  refine Fin.ext ?_
  match c with
  | ⟨0, _⟩ => rfl
  | ⟨1, _⟩ => rfl

/-- A column sum: the initial value plus the sum over the rows. -/
theorem colSum_read (h' : (⟨2, ![100000, 128]⟩ : Shape).ReducesTo [0] ⟨1, ![128]⟩) (hu : 0 < (⟨0, ![]⟩ : Shape).numel)
    (x : FVec Ideal ⟨2, ![100000, 128]⟩ .f32) (init : FVec Ideal ⟨0, ![]⟩ .f32) (j : Fin 128) :
    Host.reduceAdd x init h' hu (ix1 j) = init (Shape.Idx.first hu) + ∑ r : Fin 100000, x (ix2 r j) := by
  refine (hostReduceAdd_apply x init h' hu (ix1 j)).trans ?_
  refine (Ideal.hostReduceAdd_single h' red x _ (ix1 j)).trans ?_
  refine congrArg (init (Shape.Idx.first hu) + ·) ?_
  exact Finset.sum_congr rfl fun r _ => congrArg x (lift_eq j r)

/-- A length-128 array laid out as a 1 × 128 row reads its entry. -/
theorem row_read {α : Type} (h : (⟨1, ![128]⟩ : Shape).BroadcastsInDim ⟨2, ![1, 128]⟩ ![1])
    (v : (⟨1, ![128]⟩ : Shape).Idx → α) (j : Fin 128) :
    broadcastInDim ⟨2, ![1, 128]⟩ ![1] h v (ix2 (0 : Fin 1) j) = v (ix1 j) := by
  refine broadcastInDim_apply ![1] h v (ix2 (0 : Fin 1) j) (ix1 j) ?_
  intro a
  match a with
  | ⟨0, _⟩ => rfl

/-- The host's square root at an index. -/
theorem hostSqrt_apply {s : Shape} (a : FVec Ideal s .f32) (i : s.Idx) : Host.sqrt a i = Ideal.sqrt (a i) := rfl

/-! ## The two forms read at an entry -/

section Reads

variable [Cert.KernelIdeal.Facts] [Cert.ReferenceIdeal.Facts]

/-- The kernel's mean row at column j, over the host operations' readings. -/
theorem meanK_ops (x : FVec Ideal ⟨2, ![100000, 128]⟩ .f32) (j : Fin 128) :
    meanK (F := Ideal) x (ix2 (0 : Fin 1) j)
      = Ideal.div (Ideal.ofBits .f32 0x00000000#32 + ∑ r : Fin 100000, x (ix2 r j)) (Ideal.ofBits .f32 0x47C35000#32) := by
  unfold meanK
  refine (hostDivf_apply _ _ _).trans ?_
  rw [row_read, colSum_read, broadcastInDim_scalar_apply]
  rfl

/-- The kernel's reciprocal-deviation row at column j, over the host operations' readings. -/
theorem invStdK_ops (x : FVec Ideal ⟨2, ![100000, 128]⟩ .f32) (j : Fin 128) :
    invStdK (F := Ideal) x (ix2 (0 : Fin 1) j)
      = Ideal.div (Ideal.ofBits .f32 0x3F800000#32)
          (max (Ideal.ofBits .f32 0x2B8CBCCC#32)
            (Ideal.sqrt (max
              (Ideal.div
                ((Ideal.ofBits .f32 0x00000000#32 + ∑ r : Fin 100000, x (ix2 r j) * x (ix2 r j))
                  - Ideal.div ((Ideal.ofBits .f32 0x00000000#32 + ∑ r : Fin 100000, x (ix2 r j))
                      * (Ideal.ofBits .f32 0x00000000#32 + ∑ r : Fin 100000, x (ix2 r j))) (Ideal.ofBits .f32 0x47C35000#32))
                (Ideal.ofBits .f32 0x47C34F80#32))
              (Ideal.ofBits .f32 0x00000000#32)))) := by
  unfold invStdK
  show Ideal.div (broadcastInDim _ _ _ _ (ix2 (0 : Fin 1) j))
      (max (broadcastInDim _ _ _ _ (ix2 (0 : Fin 1) j))
        (Ideal.sqrt (max
          (Ideal.div
            (broadcastInDim _ _ _ _ (ix2 (0 : Fin 1) j)
              - Ideal.div (broadcastInDim _ _ _ _ (ix2 (0 : Fin 1) j) * broadcastInDim _ _ _ _ (ix2 (0 : Fin 1) j))
                  (broadcastInDim _ _ _ _ (ix2 (0 : Fin 1) j)))
            (broadcastInDim _ _ _ _ (ix2 (0 : Fin 1) j)))
          (broadcastInDim _ _ _ _ (ix2 (0 : Fin 1) j))))) = _
  rw [row_read, row_read, colSum_read, colSum_read]
  repeat rw [broadcastInDim_scalar_apply]
  rfl

/-- A per-column value repeated down the rows reads its column's value. -/
theorem alongCols_read (b : FVec Ideal ⟨1, ![128]⟩ .f32) (r : Fin 100000) (j : Fin 128) :
    Cert.Gcn.alongCols (F := Ideal) b (ix2 r j) = b (ix1 j) := by
  unfold Cert.Gcn.alongCols
  rw [broadcastInDim_oneRow_apply, row_read]

/-- The reference's column sum at column j. -/
theorem colSum_ops (y : FVec Ideal ⟨2, ![100000, 128]⟩ .f32) (j : Fin 128) :
    Cert.Gcn.colSum (F := Ideal) y (ix1 j) = Ideal.ofBits .f32 0x00000000#32 + ∑ r : Fin 100000, y (ix2 r j) := by
  unfold Cert.Gcn.colSum
  exact (colSum_read _ _ y _ j).trans rfl

/-- The reference's column mean at column j. -/
theorem colMean_ops (x : FVec Ideal ⟨2, ![100000, 128]⟩ .f32) (j : Fin 128) :
    Cert.Gcn.colMean (F := Ideal) x (ix1 j)
      = Ideal.div (Ideal.ofBits .f32 0x00000000#32 + ∑ r : Fin 100000, x (ix2 r j)) (Ideal.ofBits .f32 0x47C35000#32) := by
  unfold Cert.Gcn.colMean
  refine (hostDivf_apply _ _ _).trans ?_
  rw [colSum_ops, broadcastInDim_scalar_apply]
  rfl

/-- The reference's deviation from the column mean at an entry. -/
theorem centred_ops (x : FVec Ideal ⟨2, ![100000, 128]⟩ .f32) (r : Fin 100000) (j : Fin 128) :
    Cert.Gcn.centred (F := Ideal) x (ix2 r j)
      = x (ix2 r j) - Ideal.div (Ideal.ofBits .f32 0x00000000#32 + ∑ r' : Fin 100000, x (ix2 r' j)) (Ideal.ofBits .f32 0x47C35000#32) := by
  unfold Cert.Gcn.centred
  show x (ix2 r j) - broadcastInDim _ _ _ _ (ix2 r j) = _
  rw [broadcastInDim_oneRow_apply]
  show x (ix2 r j) - Ideal.div (broadcastInDim _ _ _ _ (ix2 (0 : Fin 1) j)) (broadcastInDim _ _ _ _ (ix2 (0 : Fin 1) j)) = _
  rw [row_read, colSum_ops, broadcastInDim_scalar_apply]
  rfl

/-- The number of degrees of freedom is the real 99999. -/
theorem dofs_read : Cert.Gcn.dofs (F := Ideal) ix0 = ((99999 : ℝ) : EReal) := by
  show Ideal.ofBits .f32 0x47C35000#32 - ((((1#32 : BitVec 32).toInt : ℝ)) : EReal) = _
  have h1 : (1#32 : BitVec 32).toInt = 1 := by decide
  rw [word_n, h1, ← EReal.coe_sub]
  norm_num

/-- The reference's column variance at column j: the select's condition, 99999 > 0, holds. -/
theorem colVar_ops (x : FVec Ideal ⟨2, ![100000, 128]⟩ .f32) (j : Fin 128) :
    Cert.Gcn.colVar (F := Ideal) x (ix1 j)
      = Ideal.div (Ideal.ofBits .f32 0x00000000#32
            + ∑ r : Fin 100000, Cert.Gcn.centred (F := Ideal) x (ix2 r j) * Cert.Gcn.centred (F := Ideal) x (ix2 r j))
          ((99999 : ℝ) : EReal) := by
  unfold Cert.Gcn.colVar
  refine (select_apply _ _ _ _).trans ?_
  have hsel : ∀ (T : Shape) (hT : (⟨0, ![]⟩ : Shape).BroadcastsInDim T ![]) (c : IVec ⟨0, ![]⟩ 1) (i : T.Idx), c ix0 = 1#1 →
      ∀ a b : EReal, Scalar.select (broadcastInDim T ![] hT c i) a b = a := by
    intro T hT c i hc a b
    rw [broadcastInDim_scalar_apply, hc, select_one]
  refine (hsel _ _ _ _ ?_ _ _).trans ?_
  · show Ideal.cmp .ogt (Cert.Gcn.dofs (F := Ideal) ix0) (Ideal.ofBits .f32 0x00000000#32) = 1#1
    rw [dofs_read, Ideal.ofBits_zero_f32]
    have : (0 : EReal) < ((99999 : ℝ) : EReal) := EReal.coe_pos.mpr (by norm_num)
    simp [Ideal.cmp, this]
  refine (hostDivf_apply _ _ _).trans ?_
  rw [colSum_ops, broadcastInDim_scalar_apply, dofs_read]
  rfl

/-- The reference's standardised entry. -/
theorem standardize_ops (x : FVec Ideal ⟨2, ![100000, 128]⟩ .f32) (r : Fin 100000) (j : Fin 128) :
    Cert.Gcn.standardize (F := Ideal) x (ix2 r j)
      = Ideal.div (x (ix2 r j) - Cert.Gcn.colMean (F := Ideal) x (ix1 j))
          (max (Ideal.ofBits .f32 0x2B8CBCCC#32) (Ideal.sqrt (Cert.Gcn.colVar (F := Ideal) x (ix1 j)))) := by
  unfold Cert.Gcn.standardize
  show Ideal.div (x (ix2 r j) - Cert.Gcn.alongCols (F := Ideal) _ (ix2 r j)) (Cert.Gcn.alongCols (F := Ideal) _ (ix2 r j)) = _
  rw [alongCols_read, alongCols_read]
  show Ideal.div _ (max (broadcastInDim _ _ _ _ (ix1 j)) _) = _
  rw [broadcastInDim_scalar_apply]
  rfl

end Reads

/-! ## Down to the reals, and the equality -/

section Real

variable [Cert.KernelIdeal.Facts] [Cert.ReferenceIdeal.Facts]
variable (x : FVec Ideal ⟨2, ![100000, 128]⟩ .f32) (X : Fin 100000 → Fin 128 → ℝ)
  (hX : ∀ r j, x (ix2 r j) = ((X r j : ℝ) : EReal))

include hX

/-- A column sum of real entries is the real sum. -/
theorem sum_real (j : Fin 128) :
    Ideal.ofBits .f32 0x00000000#32 + ∑ r : Fin 100000, x (ix2 r j) = ((∑ r : Fin 100000, X r j : ℝ) : EReal) := by
  rw [Ideal.ofBits_zero_f32, zero_add]
  simp only [hX]
  exact coe_sum _ _

/-- A column sum of squares of real entries is the real sum of squares. -/
theorem sumsq_real (j : Fin 128) :
    Ideal.ofBits .f32 0x00000000#32 + ∑ r : Fin 100000, x (ix2 r j) * x (ix2 r j)
      = ((∑ r : Fin 100000, X r j * X r j : ℝ) : EReal) := by
  rw [Ideal.ofBits_zero_f32, zero_add]
  simp only [hX, ← EReal.coe_mul]
  exact coe_sum _ _

/-- The kernel's mean: S / n. -/
theorem meanK_real (j : Fin 128) :
    meanK (F := Ideal) x (ix2 (0 : Fin 1) j) = (((∑ r : Fin 100000, X r j) / 100000 : ℝ) : EReal) := by
  rw [meanK_ops, sum_real x X hX, word_n, div_coe_coe _ _ (by norm_num)]

/-- The kernel's reciprocal deviation: 1 / max(ε, √(max((Q − S·S/n)/(n − 1), 0))). -/
theorem invStdK_real (e : ℝ) (he : Ideal.ofBits .f32 0x2B8CBCCC#32 = (e : EReal)) (hpos : 0 < e) (j : Fin 128) :
    invStdK (F := Ideal) x (ix2 (0 : Fin 1) j)
      = ((1 / max e (Real.sqrt (max (((∑ r : Fin 100000, X r j * X r j)
            - (∑ r : Fin 100000, X r j) * (∑ r : Fin 100000, X r j) / 100000) / 99999) 0)) : ℝ) : EReal) := by
  rw [invStdK_ops, sumsq_real x X hX, sum_real x X hX, word_n, word_dofs, he, Ideal.ofBits_one_f32, Ideal.ofBits_zero_f32,
    ← EReal.coe_mul, div_coe_coe _ _ (by norm_num), ← EReal.coe_sub, div_coe_coe _ _ (by norm_num), ← EReal.coe_zero,
    max_coe_coe, sqrt_coe_nonneg _ (le_max_right _ _), max_coe_coe, ← EReal.coe_one,
    div_coe_coe _ _ (ne_of_gt (lt_max_of_lt_left hpos))]

/-- The reference's deviation from the mean: x − S / n. -/
theorem centred_real (r : Fin 100000) (j : Fin 128) :
    Cert.Gcn.centred (F := Ideal) x (ix2 r j) = ((X r j - (∑ r' : Fin 100000, X r' j) / 100000 : ℝ) : EReal) := by
  rw [centred_ops, sum_real x X hX, word_n, div_coe_coe _ _ (by norm_num), hX, ← EReal.coe_sub]

/-- The reference's standardised entry: (x − S/n) / max(ε, √(Σ (x − S/n)² / (n − 1))). -/
theorem standardize_real' (e : ℝ) (he : Ideal.ofBits .f32 0x2B8CBCCC#32 = (e : EReal)) (hpos : 0 < e) (r : Fin 100000) (j : Fin 128) :
    Cert.Gcn.standardize (F := Ideal) x (ix2 r j)
      = (((X r j - (∑ r' : Fin 100000, X r' j) / 100000)
          / max e (Real.sqrt ((∑ k : Fin 100000, (X k j - (∑ r' : Fin 100000, X r' j) / 100000)
              * (X k j - (∑ r' : Fin 100000, X r' j) / 100000)) / 99999)) : ℝ) : EReal) := by
  have hv : Cert.Gcn.colVar (F := Ideal) x (ix1 j)
      = (((∑ k : Fin 100000, (X k j - (∑ r' : Fin 100000, X r' j) / 100000)
              * (X k j - (∑ r' : Fin 100000, X r' j) / 100000)) / 99999 : ℝ) : EReal) := by
    rw [colVar_ops, Ideal.ofBits_zero_f32, zero_add]
    simp only [centred_real x X hX, ← EReal.coe_mul]
    rw [coe_sum, div_coe_coe _ _ (by norm_num)]
  have hnn : 0 ≤ (∑ k : Fin 100000, (X k j - (∑ r' : Fin 100000, X r' j) / 100000)
              * (X k j - (∑ r' : Fin 100000, X r' j) / 100000)) / 99999 :=
    div_nonneg (sum_sq_nonneg _) (by norm_num)
  rw [standardize_ops, colMean_ops, hv, sum_real x X hX, word_n, div_coe_coe _ _ (by norm_num), hX, ← EReal.coe_sub, he,
    sqrt_coe_nonneg _ hnn, max_coe_coe, div_coe_coe _ _ (ne_of_gt (lt_max_of_lt_left hpos))]

end Real

/-- THE STANDARDISATION'S TWO FORMS AGREE at every entry of an array of real entries: the kernel's
    (x − mean)·inv, with mean and inv its one-pass column statistics, is the reference's standardised entry. -/
theorem standardize_eq [Cert.KernelIdeal.Facts] [Cert.ReferenceIdeal.Facts] (x : FVec Ideal Cert.ReferenceIdeal.S100000x128 .f32)
    (hx : Cert.Gcn.AllReal x) (r : Fin 100000) (j : Fin 128) :
    (x (ix2 r j) - meanK (F := Ideal) x (ix2 0 j)) * invStdK (F := Ideal) x (ix2 0 j)
      = Cert.Gcn.standardize (F := Ideal) x (ix2 r j) := by
  choose X' hX' using hx
  obtain ⟨e, hpos, he⟩ := word_eps
  have hX : ∀ r j, x (ix2 r j) = (((fun r j => X' (ix2 r j)) r j : ℝ) : EReal) := fun r j => hX' (ix2 r j)
  rw [meanK_real x _ hX, invStdK_real x _ hX e he hpos, standardize_real' x _ hX e he hpos, hX r j, ← EReal.coe_sub,
    ← EReal.coe_mul, EReal.coe_eq_coe_iff]
  exact standardize_real (fun r => X' (ix2 r j)) r 100000 99999 e (by simp) (by norm_num) (by norm_num) hpos

end Cert.GcnK
-- ==== Proof.LayerReal.lean ====
/-
  Everything in a layer stays a real number.

  At the exact values an entry is an extended real; the junk conventions of the extended reals (∞ − ∞, 0·∞) are
  never met by the graph convolution as long as the node features, weights and biases are real numbers, because
  every operation of a layer maps real numbers to real numbers:
    * the float words that occur (0, 1, −1/2, 0.9, 0.1 and the eight layer coefficients) are finite patterns;
    * sums, products and maxima of reals are real, and so is a finite sum of reals: this covers the scatter
      (each entry plus the finitely many updates landing on it), the matrix product and the elementwise steps;
    * a gather only picks entries of its operand, whatever the indices;
    * the in-degree scale is (a real) to the power −1/2, which on real arguments is Mathlib's real power.
-/
import proofs.«158605_j26792005992870_2_alg».proof.Proof.LayerRead

noncomputable section

namespace Cert.Gcn

open Idealize.ShloMosaic Idealize.ShloMosaic.ValueIdx Cert.ReferenceIdeal Cert.ReferenceIdeal.Facts₀ Cert.ReferenceIdeal.Facts

/-! ## Real numbers among the extended reals -/

theorem real_add {x y : EReal} (hx : ∃ r : ℝ, x = r) (hy : ∃ r : ℝ, y = r) : ∃ r : ℝ, x + y = r := by
  obtain ⟨a, rfl⟩ := hx; obtain ⟨b, rfl⟩ := hy
  exact ⟨a + b, (EReal.coe_add a b).symm⟩

theorem real_mul {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

theorem real_max {x y : EReal} (hx : ∃ r : ℝ, x = r) (hy : ∃ r : ℝ, y = r) : ∃ r : ℝ, max x y = r := by
  rcases le_total x y with h | h
  · rw [max_eq_right h]; exact hy
  · rw [max_eq_left h]; exact hx

/-- A finite sum of real numbers is a real number. -/
theorem real_sum {ι : Type*} (s : Finset ι) (f : ι → EReal) (hf : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- A real to a real power is a real (Mathlib's real power). -/
theorem real_pow {x y : EReal} (hx : ∃ r : ℝ, x = r) (hy : ∃ r : ℝ, y = r) : ∃ r : ℝ, Ideal.pow x y = r := by
  obtain ⟨a, rfl⟩ := hx; obtain ⟨b, rfl⟩ := hy
  exact ⟨Real.rpow a b, rfl⟩

/-- An f32 word whose exponent field is not all ones denotes a real number. -/
theorem ofBits_f32_real (b : BitVec 32) (h : (b.extractLsb' 23 8).toNat ≠ 255) : ∃ r : ℝ, Ideal.ofBits .f32 b = r := by
  show ∃ r : ℝ, Ideal.ieee 8 23 b = r
  unfold Ideal.ieee
  simp only []
  rw [if_neg (by simpa using h)]
  split_ifs <;> exact ⟨_, rfl⟩

/-! ## The words of a layer -/

theorem word_zero_real : ∃ r : ℝ, Ideal.ofBits .f32 0x00000000#32 = r := ofBits_f32_real _ (by decide)
theorem word_one_real : ∃ r : ℝ, Ideal.ofBits .f32 0x3F800000#32 = r := ofBits_f32_real _ (by decide)
theorem word_neg_half_real : ∃ r : ℝ, Ideal.ofBits .f32 0xBF000000#32 = r := ofBits_f32_real _ (by decide)
theorem word_0_9_real : ∃ r : ℝ, Ideal.ofBits .f32 0x3F666666#32 = r := ofBits_f32_real _ (by decide)
theorem word_0_1_real : ∃ r : ℝ, Ideal.ofBits .f32 0x3DCCCCCD#32 = r := ofBits_f32_real _ (by decide)

/-! ## Arrays of real numbers -/

section Arrays
variable {s : Shape}

theorem allReal_mulf {a b : FVec Ideal s .f32} (ha : AllReal a) (hb : AllReal b) : AllReal (mulf a b) :=
  fun i => real_mul (ha i) (hb i)
theorem allReal_addf {a b : FVec Ideal s .f32} (ha : AllReal a) (hb : AllReal b) : AllReal (addf a b) :=
  fun i => real_add (ha i) (hb i)
theorem allReal_maximumf {a b : FVec Ideal s .f32} (ha : AllReal a) (hb : AllReal b) : AllReal (maximumf a b) :=
  fun i => real_max (ha i) (hb i)

theorem allReal_powf {a b : FVec Ideal s .f32} (ha : AllReal a) (hb : AllReal b) : AllReal (Host.powf a b) :=
  fun i => real_pow (ha i) (hb i)

/-- A scalar word repeated over an array is real wherever the word is. -/
theorem allReal_bcast0 (h : S_.BroadcastsInDim s ![]) (w : BitVec 32) (hw : ∃ r : ℝ, Ideal.ofBits .f32 w = r) :
    AllReal (broadcastInDim s ![] h (constant (F := Ideal) S_ .f32 w)) := fun _ => hw

/-- A gather picks entries of its operand, whatever the indices. -/
theorem allReal_gather {t si : Shape} {w : Nat} (d : GatherDims s si t) {x : FVec Ideal s .f32} (hx : AllReal x)
    (idx : IVec si w) : AllReal (Host.gather d x idx) :=
  fun j => hx (d.operandIdx j idx)

/-- An accumulating scatter adds to each entry the finitely many updates that land on it. -/
theorem allReal_scatterAdd {si u : Shape} {w : Nat} (d : ScatterDims s si u) {x : FVec Ideal s .f32} (hx : AllReal x)
    (idx : IVec si w) {upd : FVec Ideal u .f32} (hu : AllReal upd) : AllReal (Host.scatterAdd d x idx upd) :=
  fun i => real_add (hx i) (real_sum _ _ fun j _ => hu j)

/-- A matrix product's entry is a finite sum of products of entries. -/
theorem allReal_dotGeneral {sl sr so : Shape} (d : DotDims sl sr so) (prec : Option ContractPrecision)
    {l : FVec Ideal sl .f32} (hl : AllReal l) {r : FVec Ideal sr .f32} (hr : AllReal r) :
    AllReal (Host.dotGeneral d prec l r) := by
  intro j
  show ∃ x : ℝ, FloatOps.dotGeneral d prec .single l r j = x
  rw [Ideal.dotGeneral_apply]
  exact real_sum _ _ fun k _ => real_mul (hl _) (hr _)

end Arrays

/-! ## The functions of the specification -/

section Spec
variable [Cert.ReferenceIdeal.Facts]

theorem allReal_splat (w : BitVec 32) (hw : ∃ r : ℝ, Ideal.ofBits .f32 w = r) :
    AllReal (s := S100000x128) (splat (F := Ideal) w) := fun _ => hw

theorem allReal_alongRows {n : FVec Ideal S100000 .f32} (hn : AllReal n) :
    AllReal (s := S100000x128) (alongRows (F := Ideal) n) := by
  intro i
  obtain ⟨r, j, rfl⟩ : ∃ (r : Fin 100000) (j : Fin 128), i = ix2 r j := ⟨i 0, i 1, eq_ix2 i⟩
  rw [alongRows_apply]; exact hn _

theorem allReal_alongCols {b : FVec Ideal S128 .f32} (hb : AllReal b) :
    AllReal (s := S100000x128) (alongCols (F := Ideal) b) := by
  intro i
  obtain ⟨r, j, rfl⟩ : ∃ (r : Fin 100000) (j : Fin 128), i = ix2 r j := ⟨i 0, i 1, eq_ix2 i⟩
  rw [alongCols_apply]; exact hb _

/-- The in-degree scale is a real number at every node: the in-degree is 0 plus a finite sum of ones, its maximum
    with 1 is real, and a real to the power −1/2 is Mathlib's real power. -/
theorem degScale_real (dst : IArr Ideal S1600000) : AllReal (s := S100000) (degScale (F := Ideal) dst) := by
  unfold degScale
  exact allReal_powf
    (allReal_maximumf (allReal_bcast0 _ _ word_one_real)
      (allReal_scatterAdd _ (allReal_bcast0 _ _ word_zero_real) _ (allReal_bcast0 _ _ word_one_real)))
    (allReal_bcast0 _ _ word_neg_half_real)

/-- The sum over the incoming edges of rows of a real array is real. -/
theorem neighbourSum_real (h : FVec Ideal S100000x128 .f32) (hh : AllReal h) (src dst : IArr Ideal S1600000) :
    AllReal (s := S100000x128) (neighbourSum (F := Ideal) h src dst) := by
  unfold neighbourSum
  exact allReal_scatterAdd (s := S100000x128) _ (allReal_splat _ word_zero_real) _ (allReal_gather _ hh _)

theorem residual_real {agg nrows feat0 : FVec Ideal S100000x128 .f32} (ha : AllReal agg) (hn : AllReal nrows)
    (hf : AllReal feat0) : AllReal (s := S100000x128) (residual (F := Ideal) agg nrows feat0) := by
  unfold residual
  exact allReal_addf (allReal_mulf (allReal_splat _ word_0_9_real) (allReal_mulf ha hn))
    (allReal_mulf (allReal_splat _ word_0_1_real) hf)

theorem activate_real (c₁ c₂ : BitVec 32) (hc₁ : ∃ r : ℝ, Ideal.ofBits .f32 c₁ = r) (hc₂ : ∃ r : ℝ, Ideal.ofBits .f32 c₂ = r)
    {W : FVec Ideal S128x128 .f32} (hW : AllReal W) {b : FVec Ideal S128 .f32} (hb : AllReal b)
    {h : FVec Ideal S100000x128 .f32} (hh : AllReal h) :
    AllReal (s := S100000x128) (activate (F := Ideal) c₁ c₂ W b h) := by
  unfold activate
  exact allReal_maximumf
    (allReal_addf (allReal_addf (allReal_mulf (allReal_splat _ hc₁) hh)
        (allReal_mulf (allReal_splat _ hc₂) (allReal_dotGeneral _ _ hh hW)))
      (allReal_alongCols hb))
    (allReal_splat _ word_zero_real)

/-- One layer maps real features to real features. -/
theorem layer_real (c₁ c₂ : BitVec 32) (hc₁ : ∃ r : ℝ, Ideal.ofBits .f32 c₁ = r) (hc₂ : ∃ r : ℝ, Ideal.ofBits .f32 c₂ = r)
    (W : FVec Ideal S128x128 .f32) (b : FVec Ideal S128 .f32) (n : FVec Ideal S100000 .f32)
    (feat0 : FVec Ideal S100000x128 .f32) (src dst : IArr Ideal S1600000) (x : FVec Ideal S100000x128 .f32)
    (hW : AllReal W) (hb : AllReal b) (hn : AllReal n) (hf : AllReal feat0) (hx : AllReal x) :
    AllReal (s := S100000x128) (layer (F := Ideal) c₁ c₂ W b n feat0 src dst x) := by
  unfold layer
  exact activate_real c₁ c₂ hc₁ hc₂ hW hb
    (residual_real (neighbourSum_real _ (allReal_mulf hx (allReal_alongRows hn)) src dst) (allReal_alongRows hn) hf)

end Spec

/-! ## The four layers -/

section Layers
variable [Cert.ReferenceIdeal.Facts]

theorem weight0_real {W : FVec Ideal S4x128x128 .f32} (hW : AllReal W) : AllReal (s := S128x128) (weight0 (F := Ideal) W) := by
  intro i
  obtain ⟨k, j, rfl⟩ : ∃ (k j : Fin 128), i = ix2 k j := ⟨i 0, i 1, eq_ix2 i⟩
  rw [weight0_apply]; exact hW _
theorem bias0_real {B : FVec Ideal S4x128 .f32} (hB : AllReal B) : AllReal (s := S128) (bias0 (F := Ideal) B) := by
  intro i
  obtain ⟨j, rfl⟩ : ∃ (j : Fin 128), i = ix1 j := ⟨i 0, eq_ix1 i⟩
  rw [bias0_apply]; exact hB _

theorem weight1_real {W : FVec Ideal S4x128x128 .f32} (hW : AllReal W) : AllReal (s := S128x128) (weight1 (F := Ideal) W) := by
  intro i
  obtain ⟨k, j, rfl⟩ : ∃ (k j : Fin 128), i = ix2 k j := ⟨i 0, i 1, eq_ix2 i⟩
  rw [weight1_apply]; exact hW _
theorem bias1_real {B : FVec Ideal S4x128 .f32} (hB : AllReal B) : AllReal (s := S128) (bias1 (F := Ideal) B) := by
  intro i
  obtain ⟨j, rfl⟩ : ∃ (j : Fin 128), i = ix1 j := ⟨i 0, eq_ix1 i⟩
  rw [bias1_apply]; exact hB _

theorem weight2_real {W : FVec Ideal S4x128x128 .f32} (hW : AllReal W) : AllReal (s := S128x128) (weight2 (F := Ideal) W) := by
  intro i
  obtain ⟨k, j, rfl⟩ : ∃ (k j : Fin 128), i = ix2 k j := ⟨i 0, i 1, eq_ix2 i⟩
  rw [weight2_apply]; exact hW _
theorem bias2_real {B : FVec Ideal S4x128 .f32} (hB : AllReal B) : AllReal (s := S128) (bias2 (F := Ideal) B) := by
  intro i
  obtain ⟨j, rfl⟩ : ∃ (j : Fin 128), i = ix1 j := ⟨i 0, eq_ix1 i⟩
  rw [bias2_apply]; exact hB _

theorem weight3_real {W : FVec Ideal S4x128x128 .f32} (hW : AllReal W) : AllReal (s := S128x128) (weight3 (F := Ideal) W) := by
  intro i
  obtain ⟨k, j, rfl⟩ : ∃ (k j : Fin 128), i = ix2 k j := ⟨i 0, i 1, eq_ix2 i⟩
  rw [weight3_apply]; exact hW _
theorem bias3_real {B : FVec Ideal S4x128 .f32} (hB : AllReal B) : AllReal (s := S128) (bias3 (F := Ideal) B) := by
  intro i
  obtain ⟨j, rfl⟩ : ∃ (j : Fin 128), i = ix1 j := ⟨i 0, eq_ix1 i⟩
  rw [bias3_apply]; exact hB _

variable (feat : FVec Ideal S100000x128 .f32) (src dst : IArr Ideal S1600000) (W : FVec Ideal S4x128x128 .f32)
  (B : FVec Ideal S4x128 .f32)

/-- The features after the first layer are real numbers when the inputs are. -/
theorem feat1_real (hf : AllReal feat) (hW : AllReal W) (hB : AllReal B) :
    AllReal (s := S100000x128) (feat1 (F := Ideal) feat src dst W B) := by
  unfold feat1
  exact layer_real _ _ (ofBits_f32_real _ (by decide)) (ofBits_f32_real _ (by decide)) _ _ _ _ _ _ _
    (weight0_real hW) (bias0_real hB) (degScale_real dst) hf hf

/-- … after the second … -/
theorem feat2_real (hf : AllReal feat) (hW : AllReal W) (hB : AllReal B) :
    AllReal (s := S100000x128) (feat2 (F := Ideal) feat src dst W B) := by
  unfold feat2
  exact layer_real _ _ (ofBits_f32_real _ (by decide)) (ofBits_f32_real _ (by decide)) _ _ _ _ _ _ _
    (weight1_real hW) (bias1_real hB) (degScale_real dst) hf (feat1_real feat src dst W B hf hW hB)

/-- … after the third … -/
theorem feat3_real (hf : AllReal feat) (hW : AllReal W) (hB : AllReal B) :
    AllReal (s := S100000x128) (feat3 (F := Ideal) feat src dst W B) := by
  unfold feat3
  exact layer_real _ _ (ofBits_f32_real _ (by decide)) (ofBits_f32_real _ (by decide)) _ _ _ _ _ _ _
    (weight2_real hW) (bias2_real hB) (degScale_real dst) hf (feat2_real feat src dst W B hf hW hB)

/-- … and after the fourth: what the standardisation is applied to. -/
theorem feat4_real (hf : AllReal feat) (hW : AllReal W) (hB : AllReal B) :
    AllReal (s := S100000x128) (feat4 (F := Ideal) feat src dst W B) := by
  unfold feat4
  exact layer_real _ _ (ofBits_f32_real _ (by decide)) (ofBits_f32_real _ (by decide)) _ _ _ _ _ _ _
    (weight3_real hW) (bias3_real hB) (degScale_real dst) hf (feat3_real feat src dst W B hf hW hB)

end Layers

end Cert.Gcn

end
-- ==== Proof.KValue.lean ====
/-
  What the idealized kernel's two result arrays hold at the end of its run, for real-valued inputs.

  The last region of each graph writes, entry by entry, (x − mean)·inv of the graph's final features x, its column means
  and its columns' inverse deviations as the host computed them; x is the fourth layer's output for that graph (the
  induction over the layers), a real array when the inputs are real, and for a real array the centred-and-scaled form is
  the standardisation.
-/
import proofs.«158605_j26792005992870_2_alg».proof.Proof.KHost
import proofs.«158605_j26792005992870_2_alg».proof.Proof.KBackbone
import proofs.«158605_j26792005992870_2_alg».proof.Proof.Region4
import proofs.«158605_j26792005992870_2_alg».proof.Proof.Region5
import proofs.«158605_j26792005992870_2_alg».proof.Proof.StdEq
import proofs.«158605_j26792005992870_2_alg».proof.Proof.LayerReal

set_option maxRecDepth 16384

noncomputable section

namespace Cert.KernelIdeal.Hand

open Cert.KernelIdeal Cert.KernelIdeal.Gen Cert.GcnK
open Idealize.ShloMosaic Idealize.ShloMosaic.TcCoe Idealize.ShloMosaic.ValueIdx
open Idealize.SL Idealize.SL.Sem

variable [Cert.ReferenceIdeal.Facts]
variable (m : (ℓ : Loc nD τ sig) → Buf (Elt Ideal) ℓ) (ρ : Dev nD → PrngReg)

/-- The first graph's result: the standardisation of its fourth layer's features. -/
theorem value1 (c : Dev nD) (h0 : Cert.Gcn.AllReal (m ((c.tc : Thread nD τ).loc main_arg0)))
    (h6 : Cert.Gcn.AllReal (m ((c.tc : Thread nD τ).loc main_arg6))) (h7 : Cert.Gcn.AllReal (m ((c.tc : Thread nD τ).loc main_arg7))) :
    W20 m ρ c (Proc.devRef .tc main_v165)
      = Cert.Gcn.out (F := Ideal) (m ((c.tc : Thread nD τ).loc main_arg0)) (m ((c.tc : Thread nD τ).loc main_arg2))
          (m ((c.tc : Thread nD τ).loc main_arg3)) (m ((c.tc : Thread nD τ).loc main_arg6)) (m ((c.tc : Thread nD τ).loc main_arg7)) := by
  rw [W20_v165]
  funext i
  obtain ⟨r, j, rfl⟩ : ∃ (r : Fin 100000) (j : Fin 128), i = ix2 r j := ⟨i 0, i 1, eq_ix2 i⟩
  refine (region4_out (V15 m ρ) c r j).trans ?_
  show normalizedAt (W15 m ρ c (Proc.devRef .tc main_v142)) (W15 m ρ c (Proc.devRef .tc main_v152))
      (W15 m ρ c (Proc.devRef .tc main_v164)) r j = _
  rw [W15_v152, W15_v164, W15_v142, feat4_lo]
  exact standardize_eq _ (Cert.Gcn.feat4_real _ _ _ _ _ h0 h6 h7) r j

/-- The second graph's result. -/
theorem value2 (c : Dev nD) (h1 : Cert.Gcn.AllReal (m ((c.tc : Thread nD τ).loc main_arg1)))
    (h6 : Cert.Gcn.AllReal (m ((c.tc : Thread nD τ).loc main_arg6))) (h7 : Cert.Gcn.AllReal (m ((c.tc : Thread nD τ).loc main_arg7))) :
    W20 m ρ c (Proc.devRef .tc main_v185)
      = Cert.Gcn.out (F := Ideal) (m ((c.tc : Thread nD τ).loc main_arg1)) (m ((c.tc : Thread nD τ).loc main_arg4))
          (m ((c.tc : Thread nD τ).loc main_arg5)) (m ((c.tc : Thread nD τ).loc main_arg6)) (m ((c.tc : Thread nD τ).loc main_arg7)) := by
  rw [W20_v185]
  funext i
  obtain ⟨r, j, rfl⟩ : ∃ (r : Fin 100000) (j : Fin 128), i = ix2 r j := ⟨i 0, i 1, eq_ix2 i⟩
  refine (region5_out (V19 m ρ) c r j).trans ?_
  show normalizedAt (W19 m ρ c (Proc.devRef .tc main_v143)) (W19 m ρ c (Proc.devRef .tc main_v172))
      (W19 m ρ c (Proc.devRef .tc main_v184)) r j = _
  rw [W19_v172, W19_v184, W19_v143, W15_v143, feat4_hi]
  exact standardize_eq _ (Cert.Gcn.feat4_real _ _ _ _ _ h1 h6 h7) r j

end Cert.KernelIdeal.Hand

end
-- ==== Proof.RefOps0.lean ====
/-
  The reference program, statements of window 0 of its main function, as a list of host operations in program
  order with every call replaced by the called function's operations over that call's buffers; the window is that
  list run in order; each operation writes the buffer listed at its place.
-/
import proofs.«158605_j26792005992870_2_alg».proof.Proof.LibHostOnce
import proofs.«158605_j26792005992870_2_alg».proof.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The operations of window 0, in order, calls unfolded. -/
abbrev ops0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg3 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.TRef.unary (.of main_cst_1 : StableHlo.TRef sig ⟨S_, .f32⟩) main_call0.v0 id,
    StableHlo.TRef.unary main_call0.v0 main_call0.v1 (broadcastInDim S100000 ![] bcast_S_S100000),
    StableHlo.TRef.binary main_call0.v1 (.of main_v3 : StableHlo.TRef sig ⟨S100000, .f32⟩) main_call0.v2 maximumf,
    StableHlo.nullary main_cst_2 (constant S_ .f32 0xBF000000#32),
    StableHlo.unary main_cst_2 main_v5 (broadcastInDim S100000 ![] bcast_S_S100000 : (⟨S_, .f32⟩ : BufTy).Contents (Elt F) → (⟨S100000, .f32⟩ : BufTy).Contents (Elt F)),
    StableHlo.binary main_v4 main_v5 main_v6 (Host.powf : (⟨S100000, .f32⟩ : BufTy).Contents (Elt F) → (⟨S100000, .f32⟩ : BufTy).Contents (Elt F) → (⟨S100000, .f32⟩ : BufTy).Contents (Elt F)),
    StableHlo.unary main_v6 main_v7 (broadcastInDim S100000x1 ![0] bcast_S100000_S100000x1_0 : (⟨S100000, .f32⟩ : BufTy).Contents (Elt F) → (⟨S100000x1, .f32⟩ : BufTy).Contents (Elt F)),
    StableHlo.unary main_v7 main_v8 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v8 main_v9 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v10 (broadcastInDim S1600000 ![] bcast_S_S1600000 : (⟨S_, .i32⟩ : BufTy).Contents (Elt F) → (⟨S1600000, .i32⟩ : BufTy).Contents (Elt F)),
    StableHlo.binary main_arg2 main_v10 main_v11 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v12 (broadcastInDim S1600000 ![] bcast_S_S1600000 : (⟨S_, .i32⟩ : BufTy).Contents (Elt F) → (⟨S1600000, .i32⟩ : BufTy).Contents (Elt F)),
    StableHlo.binary main_arg2 main_v12 main_v13 (addi : (⟨S1600000, .i32⟩ : BufTy).Contents (Elt F) → (⟨S1600000, .i32⟩ : BufTy).Contents (Elt F) → (⟨S1600000, .i32⟩ : BufTy).Contents (Elt F)),
    StableHlo.ternary main_v11 main_v13 main_arg2 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v14 main_v15 (broadcastInDim S1600000x1 ![0] bcast_S1600000_S1600000x1_0 : (⟨S1600000, .i32⟩ : BufTy).Contents (Elt F) → (⟨S1600000x1, .i32⟩ : BufTy).Contents (Elt F)),
    StableHlo.binary main_v9 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v17 (broadcastInDim S100000x128 ![] bcast_S_S100000x128 : (⟨S_, .f32⟩ : BufTy).Contents (Elt F) → (⟨S100000x128, .f32⟩ : BufTy).Contents (Elt F)),
    StableHlo.unary main_arg3 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v6 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x128 ![0, 1] bcast_S100000x1_S100000x128_0_1 : (⟨S100000x1, .f32⟩ : BufTy).Contents (Elt F) → (⟨S100000x128, .f32⟩ : BufTy).Contents (Elt F)),
    StableHlo.binary main_v19 main_v21 main_v22 (mulf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3F666666#32),
    StableHlo.unary main_cst_5 main_v23 (broadcastInDim S100000x128 ![] bcast_S_S100000x128 : (⟨S_, .f32⟩ : BufTy).Contents (Elt F) → (⟨S100000x128, .f32⟩ : BufTy).Contents (Elt F)),
    StableHlo.binary main_v23 main_v22 main_v24 (mulf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3DCCCCCD#32),
    StableHlo.unary main_cst_6 main_v25 (broadcastInDim S100000x128 ![] bcast_S_S100000x128 : (⟨S_, .f32⟩ : BufTy).Contents (Elt F) → (⟨S100000x128, .f32⟩ : BufTy).Contents (Elt F)),
    StableHlo.binary main_v25 main_arg0 main_v26 (mulf : (⟨S100000x128, .f32⟩ : BufTy).Contents (Elt F) → (⟨S100000x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3E9D1BD0#32),
    StableHlo.unary main_cst_7 main_v28 (broadcastInDim S100000x128 ![] bcast_S_S100000x128 : (⟨S_, .f32⟩ : BufTy).Contents (Elt F) → (⟨S100000x128, .f32⟩ : BufTy).Contents (Elt F)),
    StableHlo.binary main_v28 main_v27 main_v29 (mulf : (⟨S100000x128, .f32⟩ : BufTy).Contents (Elt F) → (⟨S100000x128, .f32⟩ : BufTy).Contents (Elt F) → (⟨S100000x128, .f32⟩ : BufTy).Contents (Elt F)),
    StableHlo.unary main_arg6 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v30 main_v31 rfl shapeCasts_S1x128x128_S128x128,
    StableHlo.binary main_v27 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_8 (constant S_ .f32 0x3F317218#32),
    StableHlo.unary main_cst_8 main_v33 (broadcastInDim S100000x128 ![] bcast_S_S100000x128 : (⟨S_, .f32⟩ : BufTy).Contents (Elt F) → (⟨S100000x128, .f32⟩ : BufTy).Contents (Elt F)),
    StableHlo.binary main_v33 main_v32 main_v34 (mulf : (⟨S100000x128, .f32⟩ : BufTy).Contents (Elt F) → (⟨S100000x128, .f32⟩ : BufTy).Contents (Elt F) → (⟨S100000x128, .f32⟩ : BufTy).Contents (Elt F)),
    StableHlo.binary main_v29 main_v34 main_v35 (addf : (⟨S100000x128, .f32⟩ : BufTy).Contents (Elt F) → (⟨S100000x128, .f32⟩ : BufTy).Contents (Elt F) → (⟨S100000x128, .f32⟩ : BufTy).Contents (Elt F)),
    StableHlo.unary main_arg7 main_v36 ((extractStridedSlice S1x128 ![0, 0] · slices_S4x128_S1x128_0_0) : (⟨S4x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v39 main_v40 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v40 : StableHlo.TRef sig ⟨S100000x128, .f32⟩) main_call1.v0 main_call1.v1 maximumf,
    StableHlo.unary main_v6 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v41 main_v43 main_v44 (mulf : (⟨S100000x128, .f32⟩ : BufTy).Contents (Elt F) → (⟨S100000x128, .f32⟩ : BufTy).Contents (Elt F) → (⟨S100000x128, .f32⟩ : BufTy).Contents (Elt F)),
    StableHlo.nullary main_c_9 (constantI S_ 32 0#32),
    StableHlo.unary main_c_9 main_v45 (broadcastInDim S1600000 ![] bcast_S_S1600000 : (⟨S_, .i32⟩ : BufTy).Contents (Elt F) → (⟨S1600000, .i32⟩ : BufTy).Contents (Elt F)),
    StableHlo.binary main_arg2 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32) ]

/-- The buffer each of them writes. -/
abbrev ys0 : List (Ref sig .tc) :=
  [ main_cst, main_v0, main_cst_0, main_v1, main_v2, main_v3, main_cst_1, main_call0_v0,
    main_call0_v1, main_v4, main_cst_2, main_v5, main_v6, main_v7, main_v8, main_v9,
    main_c, main_v10, main_v11, main_c_3, main_v12, main_v13, main_v14, main_v15,
    main_v16, main_cst_4, main_v17, main_v18, main_v19, main_v20, main_v21, main_v22,
    main_cst_5, main_v23, main_v24, main_cst_6, main_v25, main_v26, main_v27, main_cst_7,
    main_v28, main_v29, main_v30, main_v31, main_v32, main_cst_8, main_v33, main_v34,
    main_v35, main_v36, main_v37, main_v38, main_v39, main_v40, main_call1_cst, main_call1_v0,
    main_v41, main_v42, main_v43, main_v44, main_c_9, main_v45, main_v46, main_c_10 ]

set_option maxRecDepth 65536 in
set_option maxHeartbeats 4000000 in
/-- The window is that line: the called functions unfold to their operations, and sequencing reassociates. -/
theorem part0_eq (c : Dev nD) : main_part0 (F := F) c = seq ops0 := by
  rfl

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    unary_bufs_sub .., reshape_bufs_sub .., binary_bufs_sub .., nullary_bufs_sub .., unary_bufs_sub .., binary_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

set_option maxRecDepth 65536 in
theorem outs0 : Outs (ops0 : List (HloOp τ sig (Elt F))) ys0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))

end Cert.ReferenceIdeal.Hand

end
-- ==== Proof.RefOps1.lean ====
/-
  The reference program, statements of window 1 of its main function, as a list of host operations in program
  order with every call replaced by the called function's operations over that call's buffers; the window is that
  list run in order; each operation writes the buffer listed at its place.
-/
import proofs.«158605_j26792005992870_2_alg».proof.Proof.LibHostOnce
import proofs.«158605_j26792005992870_2_alg».proof.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The operations of window 1, in order, calls unfolded. -/
abbrev ops1 : List (HloOp τ sig (Elt F)) :=
  [ StableHlo.unary main_c_10 main_v47 (broadcastInDim S1600000 ![] bcast_S_S1600000 : (⟨S_, .i32⟩ : BufTy).Contents (Elt F) → (⟨S1600000, .i32⟩ : BufTy).Contents (Elt F)),
    StableHlo.binary main_arg2 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_arg2 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v52 (broadcastInDim S100000x128 ![] bcast_S_S100000x128 : (⟨S_, .f32⟩ : BufTy).Contents (Elt F) → (⟨S100000x128, .f32⟩ : BufTy).Contents (Elt F)),
    StableHlo.unary main_arg3 main_v53 (broadcastInDim S1600000x1 ![0] bcast_S1600000_S1600000x1_0 : (⟨S1600000, .i32⟩ : BufTy).Contents (Elt F) → (⟨S1600000x1, .i32⟩ : BufTy).Contents (Elt F)),
    StableHlo.ternary main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v6 main_v55 (broadcastInDim S100000x1 ![0] bcast_S100000_S100000x1_0 : (⟨S100000, .f32⟩ : BufTy).Contents (Elt F) → (⟨S100000x1, .f32⟩ : BufTy).Contents (Elt F)),
    StableHlo.unary main_v55 main_v56 (broadcastInDim S100000x128 ![0, 1] bcast_S100000x1_S100000x128_0_1 : (⟨S100000x1, .f32⟩ : BufTy).Contents (Elt F) → (⟨S100000x128, .f32⟩ : BufTy).Contents (Elt F)),
    StableHlo.binary main_v54 main_v56 main_v57 (mulf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3F666666#32),
    StableHlo.unary main_cst_12 main_v58 (broadcastInDim S100000x128 ![] bcast_S_S100000x128 : (⟨S_, .f32⟩ : BufTy).Contents (Elt F) → (⟨S100000x128, .f32⟩ : BufTy).Contents (Elt F)),
    StableHlo.binary main_v58 main_v57 main_v59 (mulf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3DCCCCCD#32),
    StableHlo.unary main_cst_13 main_v60 (broadcastInDim S100000x128 ![] bcast_S_S100000x128 : (⟨S_, .f32⟩ : BufTy).Contents (Elt F) → (⟨S100000x128, .f32⟩ : BufTy).Contents (Elt F)),
    StableHlo.binary main_v60 main_arg0 main_v61 (mulf : (⟨S100000x128, .f32⟩ : BufTy).Contents (Elt F) → (⟨S100000x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3F183370#32),
    StableHlo.unary main_cst_14 main_v63 (broadcastInDim S100000x128 ![] bcast_S_S100000x128 : (⟨S_, .f32⟩ : BufTy).Contents (Elt F) → (⟨S100000x128, .f32⟩ : BufTy).Contents (Elt F)),
    StableHlo.binary main_v63 main_v62 main_v64 (mulf : (⟨S100000x128, .f32⟩ : BufTy).Contents (Elt F) → (⟨S100000x128, .f32⟩ : BufTy).Contents (Elt F) → (⟨S100000x128, .f32⟩ : BufTy).Contents (Elt F)),
    StableHlo.unary main_arg6 main_v65 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v65 main_v66 rfl shapeCasts_S1x128x128_S128x128,
    StableHlo.binary main_v62 main_v66 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_15 (constant S_ .f32 0x3ECF991F#32),
    StableHlo.unary main_cst_15 main_v68 (broadcastInDim S100000x128 ![] bcast_S_S100000x128 : (⟨S_, .f32⟩ : BufTy).Contents (Elt F) → (⟨S100000x128, .f32⟩ : BufTy).Contents (Elt F)),
    StableHlo.binary main_v68 main_v67 main_v69 (mulf : (⟨S100000x128, .f32⟩ : BufTy).Contents (Elt F) → (⟨S100000x128, .f32⟩ : BufTy).Contents (Elt F) → (⟨S100000x128, .f32⟩ : BufTy).Contents (Elt F)),
    StableHlo.binary main_v64 main_v69 main_v70 (addf : (⟨S100000x128, .f32⟩ : BufTy).Contents (Elt F) → (⟨S100000x128, .f32⟩ : BufTy).Contents (Elt F) → (⟨S100000x128, .f32⟩ : BufTy).Contents (Elt F)),
    StableHlo.unary main_arg7 main_v71 ((extractStridedSlice S1x128 ![1, 0] · slices_S4x128_S1x128_1_0) : (⟨S4x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v74 main_v75 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v75 : StableHlo.TRef sig ⟨S100000x128, .f32⟩) main_call2.v0 main_call2.v1 maximumf,
    StableHlo.unary main_v6 main_v77 (broadcastInDim S100000x1 ![0] bcast_S100000_S100000x1_0 : (⟨S100000, .f32⟩ : BufTy).Contents (Elt F) → (⟨S100000x1, .f32⟩ : BufTy).Contents (Elt F)),
    StableHlo.unary main_v77 main_v78 (broadcastInDim S100000x128 ![0, 1] bcast_S100000x1_S100000x128_0_1 : (⟨S100000x1, .f32⟩ : BufTy).Contents (Elt F) → (⟨S100000x128, .f32⟩ : BufTy).Contents (Elt F)),
    StableHlo.binary main_v76 main_v78 main_v79 (mulf : (⟨S100000x128, .f32⟩ : BufTy).Contents (Elt F) → (⟨S100000x128, .f32⟩ : BufTy).Contents (Elt F) → (⟨S100000x128, .f32⟩ : BufTy).Contents (Elt F)),
    StableHlo.nullary main_c_16 (constantI S_ 32 0#32),
    StableHlo.unary main_c_16 main_v80 (broadcastInDim S1600000 ![] bcast_S_S1600000 : (⟨S_, .i32⟩ : BufTy).Contents (Elt F) → (⟨S1600000, .i32⟩ : BufTy).Contents (Elt F)),
    StableHlo.binary main_arg2 main_v80 main_v81 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v82 (broadcastInDim S1600000 ![] bcast_S_S1600000 : (⟨S_, .i32⟩ : BufTy).Contents (Elt F) → (⟨S1600000, .i32⟩ : BufTy).Contents (Elt F)),
    StableHlo.binary main_arg2 main_v82 main_v83 (addi : (⟨S1600000, .i32⟩ : BufTy).Contents (Elt F) → (⟨S1600000, .i32⟩ : BufTy).Contents (Elt F) → (⟨S1600000, .i32⟩ : BufTy).Contents (Elt F)),
    StableHlo.ternary main_v81 main_v83 main_arg2 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v84 main_v85 (broadcastInDim S1600000x1 ![0] bcast_S1600000_S1600000x1_0 : (⟨S1600000, .i32⟩ : BufTy).Contents (Elt F) → (⟨S1600000x1, .i32⟩ : BufTy).Contents (Elt F)),
    StableHlo.binary main_v79 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v87 (broadcastInDim S100000x128 ![] bcast_S_S100000x128 : (⟨S_, .f32⟩ : BufTy).Contents (Elt F) → (⟨S100000x128, .f32⟩ : BufTy).Contents (Elt F)),
    StableHlo.unary main_arg3 main_v88 (broadcastInDim S1600000x1 ![0] bcast_S1600000_S1600000x1_0 : (⟨S1600000, .i32⟩ : BufTy).Contents (Elt F) → (⟨S1600000x1, .i32⟩ : BufTy).Contents (Elt F)),
    StableHlo.ternary main_v87 main_v88 main_v86 main_v89 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v6 main_v90 (broadcastInDim S100000x1 ![0] bcast_S100000_S100000x1_0 : (⟨S100000, .f32⟩ : BufTy).Contents (Elt F) → (⟨S100000x1, .f32⟩ : BufTy).Contents (Elt F)),
    StableHlo.unary main_v90 main_v91 (broadcastInDim S100000x128 ![0, 1] bcast_S100000x1_S100000x128_0_1 : (⟨S100000x1, .f32⟩ : BufTy).Contents (Elt F) → (⟨S100000x128, .f32⟩ : BufTy).Contents (Elt F)),
    StableHlo.binary main_v89 main_v91 main_v92 (mulf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3F666666#32),
    StableHlo.unary main_cst_19 main_v93 (broadcastInDim S100000x128 ![] bcast_S_S100000x128 : (⟨S_, .f32⟩ : BufTy).Contents (Elt F) → (⟨S100000x128, .f32⟩ : BufTy).Contents (Elt F)),
    StableHlo.binary main_v93 main_v92 main_v94 (mulf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x3DCCCCCD#32),
    StableHlo.unary main_cst_20 main_v95 (broadcastInDim S100000x128 ![] bcast_S_S100000x128 : (⟨S_, .f32⟩ : BufTy).Contents (Elt F) → (⟨S100000x128, .f32⟩ : BufTy).Contents (Elt F)),
    StableHlo.binary main_v95 main_arg0 main_v96 (mulf : (⟨S100000x128, .f32⟩ : BufTy).Contents (Elt F) → (⟨S100000x128, .f32⟩ : BufTy).Contents (Elt F) → (⟨S100000x128, .f32⟩ : BufTy).Contents (Elt F)) ]

/-- The buffer each of them writes. -/
abbrev ys1 : List (Ref sig .tc) :=
  [ main_v47, main_v48, main_v49, main_v50, main_v51, main_cst_11, main_v52, main_v53,
    main_v54, main_v55, main_v56, main_v57, main_cst_12, main_v58, main_v59, main_cst_13,
    main_v60, main_v61, main_v62, main_cst_14, main_v63, main_v64, main_v65, main_v66,
    main_v67, main_cst_15, main_v68, main_v69, main_v70, main_v71, main_v72, main_v73,
    main_v74, main_v75, main_call2_cst, main_call2_v0, main_v76, main_v77, main_v78, main_v79,
    main_c_16, main_v80, main_v81, main_c_17, main_v82, main_v83, main_v84, main_v85,
    main_v86, main_cst_18, main_v87, main_v88, main_v89, main_v90, main_v91, main_v92,
    main_cst_19, main_v93, main_v94, main_cst_20, main_v95, main_v96 ]

set_option maxRecDepth 65536 in
set_option maxHeartbeats 4000000 in
/-- The window is that line: the called functions unfold to their operations, and sequencing reassociates. -/
theorem part1_eq (c : Dev nD) : main_part1 (F := F) c = seq ops1 := by
  rfl

theorem ops1_sub : (ops1 : List (HloOp τ sig (Elt F))).Forall fun op => op.bufs ⊆ tcRefs τ sig :=
  ⟨unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., unary_bufs_sub .., reshape_bufs_sub ..,
    binary_bufs_sub .., nullary_bufs_sub .., unary_bufs_sub .., binary_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

set_option maxRecDepth 65536 in
theorem outs1 : Outs (ops1 : List (HloOp τ sig (Elt F))) ys1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))

end Cert.ReferenceIdeal.Hand

end
-- ==== Proof.RefOps2.lean ====
/-
  The reference program, statements of window 2 of its main function, as a list of host operations in program
  order with every call replaced by the called function's operations over that call's buffers; the window is that
  list run in order; each operation writes the buffer listed at its place.
-/
import proofs.«158605_j26792005992870_2_alg».proof.Proof.LibHostOnce
import proofs.«158605_j26792005992870_2_alg».proof.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The operations of window 2, in order, calls unfolded. -/
abbrev ops2 : List (HloOp τ sig (Elt F)) :=
  [ StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3F365A78#32),
    StableHlo.unary main_cst_21 main_v98 (broadcastInDim S100000x128 ![] bcast_S_S100000x128 : (⟨S_, .f32⟩ : BufTy).Contents (Elt F) → (⟨S100000x128, .f32⟩ : BufTy).Contents (Elt F)),
    StableHlo.binary main_v98 main_v97 main_v99 (mulf : (⟨S100000x128, .f32⟩ : BufTy).Contents (Elt F) → (⟨S100000x128, .f32⟩ : BufTy).Contents (Elt F) → (⟨S100000x128, .f32⟩ : BufTy).Contents (Elt F)),
    StableHlo.unary main_arg6 main_v100 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v100 main_v101 rfl shapeCasts_S1x128x128_S128x128,
    StableHlo.binary main_v97 main_v101 main_v102 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_22 (constant S_ .f32 0x3E934B11#32),
    StableHlo.unary main_cst_22 main_v103 (broadcastInDim S100000x128 ![] bcast_S_S100000x128 : (⟨S_, .f32⟩ : BufTy).Contents (Elt F) → (⟨S100000x128, .f32⟩ : BufTy).Contents (Elt F)),
    StableHlo.binary main_v103 main_v102 main_v104 (mulf : (⟨S100000x128, .f32⟩ : BufTy).Contents (Elt F) → (⟨S100000x128, .f32⟩ : BufTy).Contents (Elt F) → (⟨S100000x128, .f32⟩ : BufTy).Contents (Elt F)),
    StableHlo.binary main_v99 main_v104 main_v105 (addf : (⟨S100000x128, .f32⟩ : BufTy).Contents (Elt F) → (⟨S100000x128, .f32⟩ : BufTy).Contents (Elt F) → (⟨S100000x128, .f32⟩ : BufTy).Contents (Elt F)),
    StableHlo.unary main_arg7 main_v106 ((extractStridedSlice S1x128 ![2, 0] · slices_S4x128_S1x128_2_0) : (⟨S4x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v109 main_v110 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v110 : StableHlo.TRef sig ⟨S100000x128, .f32⟩) main_call3.v0 main_call3.v1 maximumf,
    StableHlo.unary main_v6 main_v112 (broadcastInDim S100000x1 ![0] bcast_S100000_S100000x1_0 : (⟨S100000, .f32⟩ : BufTy).Contents (Elt F) → (⟨S100000x1, .f32⟩ : BufTy).Contents (Elt F)),
    StableHlo.unary main_v112 main_v113 (broadcastInDim S100000x128 ![0, 1] bcast_S100000x1_S100000x128_0_1 : (⟨S100000x1, .f32⟩ : BufTy).Contents (Elt F) → (⟨S100000x128, .f32⟩ : BufTy).Contents (Elt F)),
    StableHlo.binary main_v111 main_v113 main_v114 (mulf : (⟨S100000x128, .f32⟩ : BufTy).Contents (Elt F) → (⟨S100000x128, .f32⟩ : BufTy).Contents (Elt F) → (⟨S100000x128, .f32⟩ : BufTy).Contents (Elt F)),
    StableHlo.nullary main_c_23 (constantI S_ 32 0#32),
    StableHlo.unary main_c_23 main_v115 (broadcastInDim S1600000 ![] bcast_S_S1600000 : (⟨S_, .i32⟩ : BufTy).Contents (Elt F) → (⟨S1600000, .i32⟩ : BufTy).Contents (Elt F)),
    StableHlo.binary main_arg2 main_v115 main_v116 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v117 (broadcastInDim S1600000 ![] bcast_S_S1600000 : (⟨S_, .i32⟩ : BufTy).Contents (Elt F) → (⟨S1600000, .i32⟩ : BufTy).Contents (Elt F)),
    StableHlo.binary main_arg2 main_v117 main_v118 (addi : (⟨S1600000, .i32⟩ : BufTy).Contents (Elt F) → (⟨S1600000, .i32⟩ : BufTy).Contents (Elt F) → (⟨S1600000, .i32⟩ : BufTy).Contents (Elt F)),
    StableHlo.ternary main_v116 main_v118 main_arg2 main_v119 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v119 main_v120 (broadcastInDim S1600000x1 ![0] bcast_S1600000_S1600000x1_0 : (⟨S1600000, .i32⟩ : BufTy).Contents (Elt F) → (⟨S1600000x1, .i32⟩ : BufTy).Contents (Elt F)),
    StableHlo.binary main_v114 main_v120 main_v121 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_25 (constant S_ .f32 0x00000000#32),
    StableHlo.unary main_cst_25 main_v122 (broadcastInDim S100000x128 ![] bcast_S_S100000x128 : (⟨S_, .f32⟩ : BufTy).Contents (Elt F) → (⟨S100000x128, .f32⟩ : BufTy).Contents (Elt F)),
    StableHlo.unary main_arg3 main_v123 (broadcastInDim S1600000x1 ![0] bcast_S1600000_S1600000x1_0 : (⟨S1600000, .i32⟩ : BufTy).Contents (Elt F) → (⟨S1600000x1, .i32⟩ : BufTy).Contents (Elt F)),
    StableHlo.ternary main_v122 main_v123 main_v121 main_v124 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v6 main_v125 (broadcastInDim S100000x1 ![0] bcast_S100000_S100000x1_0 : (⟨S100000, .f32⟩ : BufTy).Contents (Elt F) → (⟨S100000x1, .f32⟩ : BufTy).Contents (Elt F)),
    StableHlo.unary main_v125 main_v126 (broadcastInDim S100000x128 ![0, 1] bcast_S100000x1_S100000x128_0_1 : (⟨S100000x1, .f32⟩ : BufTy).Contents (Elt F) → (⟨S100000x128, .f32⟩ : BufTy).Contents (Elt F)),
    StableHlo.binary main_v124 main_v126 main_v127 (mulf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3F666666#32),
    StableHlo.unary main_cst_26 main_v128 (broadcastInDim S100000x128 ![] bcast_S_S100000x128 : (⟨S_, .f32⟩ : BufTy).Contents (Elt F) → (⟨S100000x128, .f32⟩ : BufTy).Contents (Elt F)),
    StableHlo.binary main_v128 main_v127 main_v129 (mulf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3DCCCCCD#32),
    StableHlo.unary main_cst_27 main_v130 (broadcastInDim S100000x128 ![] bcast_S_S100000x128 : (⟨S_, .f32⟩ : BufTy).Contents (Elt F) → (⟨S100000x128, .f32⟩ : BufTy).Contents (Elt F)),
    StableHlo.binary main_v130 main_arg0 main_v131 (mulf : (⟨S100000x128, .f32⟩ : BufTy).Contents (Elt F) → (⟨S100000x128, .f32⟩ : BufTy).Contents (Elt F) → (⟨S100000x128, .f32⟩ : BufTy).Contents (Elt F)),
    StableHlo.binary main_v129 main_v131 main_v132 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3F46E010#32),
    StableHlo.unary main_cst_28 main_v133 (broadcastInDim S100000x128 ![] bcast_S_S100000x128 : (⟨S_, .f32⟩ : BufTy).Contents (Elt F) → (⟨S100000x128, .f32⟩ : BufTy).Contents (Elt F)),
    StableHlo.binary main_v133 main_v132 main_v134 (mulf : (⟨S100000x128, .f32⟩ : BufTy).Contents (Elt F) → (⟨S100000x128, .f32⟩ : BufTy).Contents (Elt F) → (⟨S100000x128, .f32⟩ : BufTy).Contents (Elt F)),
    StableHlo.unary main_arg6 main_v135 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v135 main_v136 rfl shapeCasts_S1x128x128_S128x128,
    StableHlo.binary main_v132 main_v136 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_29 (constant S_ .f32 0x3E647FBE#32),
    StableHlo.unary main_cst_29 main_v138 (broadcastInDim S100000x128 ![] bcast_S_S100000x128 : (⟨S_, .f32⟩ : BufTy).Contents (Elt F) → (⟨S100000x128, .f32⟩ : BufTy).Contents (Elt F)),
    StableHlo.binary main_v138 main_v137 main_v139 (mulf : (⟨S100000x128, .f32⟩ : BufTy).Contents (Elt F) → (⟨S100000x128, .f32⟩ : BufTy).Contents (Elt F) → (⟨S100000x128, .f32⟩ : BufTy).Contents (Elt F)),
    StableHlo.binary main_v134 main_v139 main_v140 (addf : (⟨S100000x128, .f32⟩ : BufTy).Contents (Elt F) → (⟨S100000x128, .f32⟩ : BufTy).Contents (Elt F) → (⟨S100000x128, .f32⟩ : BufTy).Contents (Elt F)),
    StableHlo.unary main_arg7 main_v141 ((extractStridedSlice S1x128 ![3, 0] · slices_S4x128_S1x128_3_0) : (⟨S4x128, .f32⟩ : BufTy).Contents (Elt F) → (⟨S1x128, .f32⟩ : BufTy).Contents (Elt F)),
    StableHlo.reshape main_v141 main_v142 rfl shapeCasts_S1x128_S128,
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v144 main_v145 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v145 : StableHlo.TRef sig ⟨S100000x128, .f32⟩) main_call4.v0 main_call4.v1 maximumf,
    StableHlo.nullary main_cst_30 (constant S_ .f32 0x3F800000#32) ]

/-- The buffer each of them writes. -/
abbrev ys2 : List (Ref sig .tc) :=
  [ main_v97, main_cst_21, main_v98, main_v99, main_v100, main_v101, main_v102, main_cst_22,
    main_v103, main_v104, main_v105, main_v106, main_v107, main_v108, main_v109, main_v110,
    main_call3_cst, main_call3_v0, main_v111, main_v112, main_v113, main_v114, main_c_23, main_v115,
    main_v116, main_c_24, main_v117, main_v118, main_v119, main_v120, main_v121, main_cst_25,
    main_v122, main_v123, main_v124, main_v125, main_v126, main_v127, main_cst_26, main_v128,
    main_v129, main_cst_27, main_v130, main_v131, main_v132, main_cst_28, main_v133, main_v134,
    main_v135, main_v136, main_v137, main_cst_29, main_v138, main_v139, main_v140, main_v141,
    main_v142, main_v143, main_v144, main_v145, main_call4_cst, main_call4_v0, main_v146, main_cst_30 ]

set_option maxRecDepth 65536 in
set_option maxHeartbeats 4000000 in
/-- The window is that line: the called functions unfold to their operations, and sequencing reassociates. -/
theorem part2_eq (c : Dev nD) : main_part2 (F := F) c = seq ops2 := by
  rfl

theorem ops2_sub : (ops2 : List (HloOp τ sig (Elt F))).Forall fun op => op.bufs ⊆ tcRefs τ sig :=
  ⟨binary_bufs_sub .., nullary_bufs_sub .., unary_bufs_sub .., binary_bufs_sub .., unary_bufs_sub .., reshape_bufs_sub ..,
    binary_bufs_sub .., nullary_bufs_sub .., unary_bufs_sub .., binary_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    unary_bufs_sub .., reshape_bufs_sub .., binary_bufs_sub .., nullary_bufs_sub .., unary_bufs_sub .., binary_bufs_sub ..,
    binary_bufs_sub .., unary_bufs_sub .., reshape_bufs_sub .., unary_bufs_sub .., unary_bufs_sub .., binary_bufs_sub ..,
    nullary_bufs_sub .., unary_bufs_sub .., binary_bufs_sub .., nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

set_option maxRecDepth 65536 in
theorem outs2 : Outs (ops2 : List (HloOp τ sig (Elt F))) ys2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))

end Cert.ReferenceIdeal.Hand

end
-- ==== Proof.RefOps3.lean ====
/-
  The reference program, statements of window 3 of its main function, as a list of host operations in program
  order with every call replaced by the called function's operations over that call's buffers; the window is that
  list run in order; each operation writes the buffer listed at its place.
-/
import proofs.«158605_j26792005992870_2_alg».proof.Proof.LibHostOnce
import proofs.«158605_j26792005992870_2_alg».proof.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The operations of window 3, in order, calls unfolded. -/
abbrev ops3 : List (HloOp τ sig (Elt F)) :=
  [ StableHlo.unary main_cst_30 main_v147 (broadcastInDim S1600000 ![] bcast_S_S1600000 : (⟨S_, .f32⟩ : BufTy).Contents (Elt F) → (⟨S1600000, .f32⟩ : BufTy).Contents (Elt F)),
    StableHlo.nullary main_cst_31 (constant S_ .f32 0x00000000#32),
    StableHlo.unary main_cst_31 main_v148 (broadcastInDim S100000 ![] bcast_S_S100000 : (⟨S_, .f32⟩ : BufTy).Contents (Elt F) → (⟨S100000, .f32⟩ : BufTy).Contents (Elt F)),
    StableHlo.unary main_arg5 main_v149 (broadcastInDim S1600000x1 ![0] bcast_S1600000_S1600000x1_0 : (⟨S1600000, .i32⟩ : BufTy).Contents (Elt F) → (⟨S1600000x1, .i32⟩ : BufTy).Contents (Elt F)),
    StableHlo.ternary main_v148 main_v149 main_v147 main_v150 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_32 (constant S_ .f32 0x3F800000#32),
    StableHlo.TRef.unary (.of main_cst_32 : StableHlo.TRef sig ⟨S_, .f32⟩) main_call5.v0 id,
    StableHlo.TRef.unary main_call5.v0 main_call5.v1 (broadcastInDim S100000 ![] bcast_S_S100000),
    StableHlo.TRef.binary main_call5.v1 (.of main_v150 : StableHlo.TRef sig ⟨S100000, .f32⟩) main_call5.v2 maximumf,
    StableHlo.nullary main_cst_33 (constant S_ .f32 0xBF000000#32),
    StableHlo.unary main_cst_33 main_v152 (broadcastInDim S100000 ![] bcast_S_S100000 : (⟨S_, .f32⟩ : BufTy).Contents (Elt F) → (⟨S100000, .f32⟩ : BufTy).Contents (Elt F)),
    StableHlo.binary main_v151 main_v152 main_v153 (Host.powf : (⟨S100000, .f32⟩ : BufTy).Contents (Elt F) → (⟨S100000, .f32⟩ : BufTy).Contents (Elt F) → (⟨S100000, .f32⟩ : BufTy).Contents (Elt F)),
    StableHlo.unary main_v153 main_v154 (broadcastInDim S100000x1 ![0] bcast_S100000_S100000x1_0 : (⟨S100000, .f32⟩ : BufTy).Contents (Elt F) → (⟨S100000x1, .f32⟩ : BufTy).Contents (Elt F)),
    StableHlo.unary main_v154 main_v155 (broadcastInDim S100000x128 ![0, 1] bcast_S100000x1_S100000x128_0_1 : (⟨S100000x1, .f32⟩ : BufTy).Contents (Elt F) → (⟨S100000x128, .f32⟩ : BufTy).Contents (Elt F)),
    StableHlo.binary main_arg1 main_v155 main_v156 (mulf : (⟨S100000x128, .f32⟩ : BufTy).Contents (Elt F) → (⟨S100000x128, .f32⟩ : BufTy).Contents (Elt F) → (⟨S100000x128, .f32⟩ : BufTy).Contents (Elt F)),
    StableHlo.nullary main_c_34 (constantI S_ 32 0#32),
    StableHlo.unary main_c_34 main_v157 (broadcastInDim S1600000 ![] bcast_S_S1600000 : (⟨S_, .i32⟩ : BufTy).Contents (Elt F) → (⟨S1600000, .i32⟩ : BufTy).Contents (Elt F)),
    StableHlo.binary main_arg4 main_v157 main_v158 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v159 (broadcastInDim S1600000 ![] bcast_S_S1600000 : (⟨S_, .i32⟩ : BufTy).Contents (Elt F) → (⟨S1600000, .i32⟩ : BufTy).Contents (Elt F)),
    StableHlo.binary main_arg4 main_v159 main_v160 (addi : (⟨S1600000, .i32⟩ : BufTy).Contents (Elt F) → (⟨S1600000, .i32⟩ : BufTy).Contents (Elt F) → (⟨S1600000, .i32⟩ : BufTy).Contents (Elt F)),
    StableHlo.ternary main_v158 main_v160 main_arg4 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v161 main_v162 (broadcastInDim S1600000x1 ![0] bcast_S1600000_S1600000x1_0 : (⟨S1600000, .i32⟩ : BufTy).Contents (Elt F) → (⟨S1600000x1, .i32⟩ : BufTy).Contents (Elt F)),
    StableHlo.binary main_v156 main_v162 main_v163 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_36 (constant S_ .f32 0x00000000#32),
    StableHlo.unary main_cst_36 main_v164 (broadcastInDim S100000x128 ![] bcast_S_S100000x128 : (⟨S_, .f32⟩ : BufTy).Contents (Elt F) → (⟨S100000x128, .f32⟩ : BufTy).Contents (Elt F)),
    StableHlo.unary main_arg5 main_v165 (broadcastInDim S1600000x1 ![0] bcast_S1600000_S1600000x1_0 : (⟨S1600000, .i32⟩ : BufTy).Contents (Elt F) → (⟨S1600000x1, .i32⟩ : BufTy).Contents (Elt F)),
    StableHlo.ternary main_v164 main_v165 main_v163 main_v166 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v153 main_v167 (broadcastInDim S100000x1 ![0] bcast_S100000_S100000x1_0 : (⟨S100000, .f32⟩ : BufTy).Contents (Elt F) → (⟨S100000x1, .f32⟩ : BufTy).Contents (Elt F)),
    StableHlo.unary main_v167 main_v168 (broadcastInDim S100000x128 ![0, 1] bcast_S100000x1_S100000x128_0_1 : (⟨S100000x1, .f32⟩ : BufTy).Contents (Elt F) → (⟨S100000x128, .f32⟩ : BufTy).Contents (Elt F)),
    StableHlo.binary main_v166 main_v168 main_v169 (mulf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3F666666#32),
    StableHlo.unary main_cst_37 main_v170 (broadcastInDim S100000x128 ![] bcast_S_S100000x128 : (⟨S_, .f32⟩ : BufTy).Contents (Elt F) → (⟨S100000x128, .f32⟩ : BufTy).Contents (Elt F)),
    StableHlo.binary main_v170 main_v169 main_v171 (mulf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x3DCCCCCD#32),
    StableHlo.unary main_cst_38 main_v172 (broadcastInDim S100000x128 ![] bcast_S_S100000x128 : (⟨S_, .f32⟩ : BufTy).Contents (Elt F) → (⟨S100000x128, .f32⟩ : BufTy).Contents (Elt F)),
    StableHlo.binary main_v172 main_arg1 main_v173 (mulf : (⟨S100000x128, .f32⟩ : BufTy).Contents (Elt F) → (⟨S100000x128, .f32⟩ : BufTy).Contents (Elt F) → (⟨S100000x128, .f32⟩ : BufTy).Contents (Elt F)),
    StableHlo.binary main_v171 main_v173 main_v174 (addf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x3E9D1BD0#32),
    StableHlo.unary main_cst_39 main_v175 (broadcastInDim S100000x128 ![] bcast_S_S100000x128 : (⟨S_, .f32⟩ : BufTy).Contents (Elt F) → (⟨S100000x128, .f32⟩ : BufTy).Contents (Elt F)),
    StableHlo.binary main_v175 main_v174 main_v176 (mulf : (⟨S100000x128, .f32⟩ : BufTy).Contents (Elt F) → (⟨S100000x128, .f32⟩ : BufTy).Contents (Elt F) → (⟨S100000x128, .f32⟩ : BufTy).Contents (Elt F)),
    StableHlo.unary main_arg6 main_v177 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v177 main_v178 rfl shapeCasts_S1x128x128_S128x128,
    StableHlo.binary main_v174 main_v178 main_v179 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_40 (constant S_ .f32 0x3F317218#32),
    StableHlo.unary main_cst_40 main_v180 (broadcastInDim S100000x128 ![] bcast_S_S100000x128 : (⟨S_, .f32⟩ : BufTy).Contents (Elt F) → (⟨S100000x128, .f32⟩ : BufTy).Contents (Elt F)),
    StableHlo.binary main_v180 main_v179 main_v181 (mulf : (⟨S100000x128, .f32⟩ : BufTy).Contents (Elt F) → (⟨S100000x128, .f32⟩ : BufTy).Contents (Elt F) → (⟨S100000x128, .f32⟩ : BufTy).Contents (Elt F)),
    StableHlo.binary main_v176 main_v181 main_v182 (addf : (⟨S100000x128, .f32⟩ : BufTy).Contents (Elt F) → (⟨S100000x128, .f32⟩ : BufTy).Contents (Elt F) → (⟨S100000x128, .f32⟩ : BufTy).Contents (Elt F)),
    StableHlo.unary main_arg7 main_v183 ((extractStridedSlice S1x128 ![0, 0] · slices_S4x128_S1x128_0_0) : (⟨S4x128, .f32⟩ : BufTy).Contents (Elt F) → (⟨S1x128, .f32⟩ : BufTy).Contents (Elt F)),
    StableHlo.reshape main_v183 main_v184 rfl shapeCasts_S1x128_S128,
    StableHlo.unary main_v184 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v182 main_v186 main_v187 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v187 : StableHlo.TRef sig ⟨S100000x128, .f32⟩) main_call6.v0 main_call6.v1 maximumf,
    StableHlo.unary main_v153 main_v189 (broadcastInDim S100000x1 ![0] bcast_S100000_S100000x1_0 : (⟨S100000, .f32⟩ : BufTy).Contents (Elt F) → (⟨S100000x1, .f32⟩ : BufTy).Contents (Elt F)),
    StableHlo.unary main_v189 main_v190 (broadcastInDim S100000x128 ![0, 1] bcast_S100000x1_S100000x128_0_1 : (⟨S100000x1, .f32⟩ : BufTy).Contents (Elt F) → (⟨S100000x128, .f32⟩ : BufTy).Contents (Elt F)),
    StableHlo.binary main_v188 main_v190 main_v191 (mulf : (⟨S100000x128, .f32⟩ : BufTy).Contents (Elt F) → (⟨S100000x128, .f32⟩ : BufTy).Contents (Elt F) → (⟨S100000x128, .f32⟩ : BufTy).Contents (Elt F)),
    StableHlo.nullary main_c_41 (constantI S_ 32 0#32),
    StableHlo.unary main_c_41 main_v192 (broadcastInDim S1600000 ![] bcast_S_S1600000 : (⟨S_, .i32⟩ : BufTy).Contents (Elt F) → (⟨S1600000, .i32⟩ : BufTy).Contents (Elt F)),
    StableHlo.binary main_arg4 main_v192 main_v193 (cmpi .slt : (⟨S1600000, .i32⟩ : BufTy).Contents (Elt F) → (⟨S1600000, .i32⟩ : BufTy).Contents (Elt F) → (⟨S1600000, .i1⟩ : BufTy).Contents (Elt F)),
    StableHlo.nullary main_c_42 (constantI S_ 32 100000#32),
    StableHlo.unary main_c_42 main_v194 (broadcastInDim S1600000 ![] bcast_S_S1600000 : (⟨S_, .i32⟩ : BufTy).Contents (Elt F) → (⟨S1600000, .i32⟩ : BufTy).Contents (Elt F)) ]

/-- The buffer each of them writes. -/
abbrev ys3 : List (Ref sig .tc) :=
  [ main_v147, main_cst_31, main_v148, main_v149, main_v150, main_cst_32, main_call5_v0, main_call5_v1,
    main_v151, main_cst_33, main_v152, main_v153, main_v154, main_v155, main_v156, main_c_34,
    main_v157, main_v158, main_c_35, main_v159, main_v160, main_v161, main_v162, main_v163,
    main_cst_36, main_v164, main_v165, main_v166, main_v167, main_v168, main_v169, main_cst_37,
    main_v170, main_v171, main_cst_38, main_v172, main_v173, main_v174, main_cst_39, main_v175,
    main_v176, main_v177, main_v178, main_v179, main_cst_40, main_v180, main_v181, main_v182,
    main_v183, main_v184, main_v185, main_v186, main_v187, main_call6_cst, main_call6_v0, main_v188,
    main_v189, main_v190, main_v191, main_c_41, main_v192, main_v193, main_c_42, main_v194 ]

set_option maxRecDepth 65536 in
set_option maxHeartbeats 4000000 in
/-- The window is that line: the called functions unfold to their operations, and sequencing reassociates. -/
theorem part3_eq (c : Dev nD) : main_part3 (F := F) c = seq ops3 := by
  rfl

theorem ops3_sub : (ops3 : List (HloOp τ sig (Elt F))).Forall fun op => op.bufs ⊆ tcRefs τ sig :=
  ⟨unary_bufs_sub .., nullary_bufs_sub .., unary_bufs_sub .., unary_bufs_sub .., ternary_bufs_sub .., nullary_bufs_sub ..,
    unary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

set_option maxRecDepth 65536 in
theorem outs3 : Outs (ops3 : List (HloOp τ sig (Elt F))) ys3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))

end Cert.ReferenceIdeal.Hand

end
-- ==== Proof.RefOps4.lean ====
/-
  The reference program, statements of window 4 of its main function, as a list of host operations in program
  order with every call replaced by the called function's operations over that call's buffers; the window is that
  list run in order; each operation writes the buffer listed at its place.
-/
import proofs.«158605_j26792005992870_2_alg».proof.Proof.LibHostOnce
import proofs.«158605_j26792005992870_2_alg».proof.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The operations of window 4, in order, calls unfolded. -/
abbrev ops4 : List (HloOp τ sig (Elt F)) :=
  [ StableHlo.binary main_arg4 main_v194 main_v195 (addi : (⟨S1600000, .i32⟩ : BufTy).Contents (Elt F) → (⟨S1600000, .i32⟩ : BufTy).Contents (Elt F) → (⟨S1600000, .i32⟩ : BufTy).Contents (Elt F)),
    StableHlo.ternary main_v193 main_v195 main_arg4 main_v196 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v196 main_v197 (broadcastInDim S1600000x1 ![0] bcast_S1600000_S1600000x1_0 : (⟨S1600000, .i32⟩ : BufTy).Contents (Elt F) → (⟨S1600000x1, .i32⟩ : BufTy).Contents (Elt F)),
    StableHlo.binary main_v191 main_v197 main_v198 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_43 (constant S_ .f32 0x00000000#32),
    StableHlo.unary main_cst_43 main_v199 (broadcastInDim S100000x128 ![] bcast_S_S100000x128 : (⟨S_, .f32⟩ : BufTy).Contents (Elt F) → (⟨S100000x128, .f32⟩ : BufTy).Contents (Elt F)),
    StableHlo.unary main_arg5 main_v200 (broadcastInDim S1600000x1 ![0] bcast_S1600000_S1600000x1_0 : (⟨S1600000, .i32⟩ : BufTy).Contents (Elt F) → (⟨S1600000x1, .i32⟩ : BufTy).Contents (Elt F)),
    StableHlo.ternary main_v199 main_v200 main_v198 main_v201 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v153 main_v202 (broadcastInDim S100000x1 ![0] bcast_S100000_S100000x1_0 : (⟨S100000, .f32⟩ : BufTy).Contents (Elt F) → (⟨S100000x1, .f32⟩ : BufTy).Contents (Elt F)),
    StableHlo.unary main_v202 main_v203 (broadcastInDim S100000x128 ![0, 1] bcast_S100000x1_S100000x128_0_1 : (⟨S100000x1, .f32⟩ : BufTy).Contents (Elt F) → (⟨S100000x128, .f32⟩ : BufTy).Contents (Elt F)),
    StableHlo.binary main_v201 main_v203 main_v204 (mulf : (⟨S100000x128, .f32⟩ : BufTy).Contents (Elt F) → (⟨S100000x128, .f32⟩ : BufTy).Contents (Elt F) → (⟨S100000x128, .f32⟩ : BufTy).Contents (Elt F)),
    StableHlo.nullary main_cst_44 (constant S_ .f32 0x3F666666#32),
    StableHlo.unary main_cst_44 main_v205 (broadcastInDim S100000x128 ![] bcast_S_S100000x128 : (⟨S_, .f32⟩ : BufTy).Contents (Elt F) → (⟨S100000x128, .f32⟩ : BufTy).Contents (Elt F)),
    StableHlo.binary main_v205 main_v204 main_v206 (mulf : (⟨S100000x128, .f32⟩ : BufTy).Contents (Elt F) → (⟨S100000x128, .f32⟩ : BufTy).Contents (Elt F) → (⟨S100000x128, .f32⟩ : BufTy).Contents (Elt F)),
    StableHlo.nullary main_cst_45 (constant S_ .f32 0x3DCCCCCD#32),
    StableHlo.unary main_cst_45 main_v207 (broadcastInDim S100000x128 ![] bcast_S_S100000x128 : (⟨S_, .f32⟩ : BufTy).Contents (Elt F) → (⟨S100000x128, .f32⟩ : BufTy).Contents (Elt F)),
    StableHlo.binary main_v207 main_arg1 main_v208 (mulf : (⟨S100000x128, .f32⟩ : BufTy).Contents (Elt F) → (⟨S100000x128, .f32⟩ : BufTy).Contents (Elt F) → (⟨S100000x128, .f32⟩ : BufTy).Contents (Elt F)),
    StableHlo.binary main_v206 main_v208 main_v209 (addf : (⟨S100000x128, .f32⟩ : BufTy).Contents (Elt F) → (⟨S100000x128, .f32⟩ : BufTy).Contents (Elt F) → (⟨S100000x128, .f32⟩ : BufTy).Contents (Elt F)),
    StableHlo.nullary main_cst_46 (constant S_ .f32 0x3F183370#32),
    StableHlo.unary main_cst_46 main_v210 (broadcastInDim S100000x128 ![] bcast_S_S100000x128 : (⟨S_, .f32⟩ : BufTy).Contents (Elt F) → (⟨S100000x128, .f32⟩ : BufTy).Contents (Elt F)),
    StableHlo.binary main_v210 main_v209 main_v211 (mulf : (⟨S100000x128, .f32⟩ : BufTy).Contents (Elt F) → (⟨S100000x128, .f32⟩ : BufTy).Contents (Elt F) → (⟨S100000x128, .f32⟩ : BufTy).Contents (Elt F)),
    StableHlo.unary main_arg6 main_v212 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v212 main_v213 rfl shapeCasts_S1x128x128_S128x128,
    StableHlo.binary main_v209 main_v213 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_47 (constant S_ .f32 0x3ECF991F#32),
    StableHlo.unary main_cst_47 main_v215 (broadcastInDim S100000x128 ![] bcast_S_S100000x128 : (⟨S_, .f32⟩ : BufTy).Contents (Elt F) → (⟨S100000x128, .f32⟩ : BufTy).Contents (Elt F)),
    StableHlo.binary main_v215 main_v214 main_v216 (mulf : (⟨S100000x128, .f32⟩ : BufTy).Contents (Elt F) → (⟨S100000x128, .f32⟩ : BufTy).Contents (Elt F) → (⟨S100000x128, .f32⟩ : BufTy).Contents (Elt F)),
    StableHlo.binary main_v211 main_v216 main_v217 (addf : (⟨S100000x128, .f32⟩ : BufTy).Contents (Elt F) → (⟨S100000x128, .f32⟩ : BufTy).Contents (Elt F) → (⟨S100000x128, .f32⟩ : BufTy).Contents (Elt F)),
    StableHlo.unary main_arg7 main_v218 ((extractStridedSlice S1x128 ![1, 0] · slices_S4x128_S1x128_1_0) : (⟨S4x128, .f32⟩ : BufTy).Contents (Elt F) → (⟨S1x128, .f32⟩ : BufTy).Contents (Elt F)),
    StableHlo.reshape main_v218 main_v219 rfl shapeCasts_S1x128_S128,
    StableHlo.unary main_v219 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S100000x128 ![0, 1] bcast_S1x128_S100000x128_0_1 : (⟨S1x128, .f32⟩ : BufTy).Contents (Elt F) → (⟨S100000x128, .f32⟩ : BufTy).Contents (Elt F)),
    StableHlo.binary main_v217 main_v221 main_v222 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v222 : StableHlo.TRef sig ⟨S100000x128, .f32⟩) main_call7.v0 main_call7.v1 maximumf,
    StableHlo.unary main_v153 main_v224 (broadcastInDim S100000x1 ![0] bcast_S100000_S100000x1_0 : (⟨S100000, .f32⟩ : BufTy).Contents (Elt F) → (⟨S100000x1, .f32⟩ : BufTy).Contents (Elt F)),
    StableHlo.unary main_v224 main_v225 (broadcastInDim S100000x128 ![0, 1] bcast_S100000x1_S100000x128_0_1 : (⟨S100000x1, .f32⟩ : BufTy).Contents (Elt F) → (⟨S100000x128, .f32⟩ : BufTy).Contents (Elt F)),
    StableHlo.binary main_v223 main_v225 main_v226 (mulf : (⟨S100000x128, .f32⟩ : BufTy).Contents (Elt F) → (⟨S100000x128, .f32⟩ : BufTy).Contents (Elt F) → (⟨S100000x128, .f32⟩ : BufTy).Contents (Elt F)),
    StableHlo.nullary main_c_48 (constantI S_ 32 0#32),
    StableHlo.unary main_c_48 main_v227 (broadcastInDim S1600000 ![] bcast_S_S1600000 : (⟨S_, .i32⟩ : BufTy).Contents (Elt F) → (⟨S1600000, .i32⟩ : BufTy).Contents (Elt F)),
    StableHlo.binary main_arg4 main_v227 main_v228 (cmpi .slt : (⟨S1600000, .i32⟩ : BufTy).Contents (Elt F) → (⟨S1600000, .i32⟩ : BufTy).Contents (Elt F) → (⟨S1600000, .i1⟩ : BufTy).Contents (Elt F)),
    StableHlo.nullary main_c_49 (constantI S_ 32 100000#32),
    StableHlo.unary main_c_49 main_v229 (broadcastInDim S1600000 ![] bcast_S_S1600000 : (⟨S_, .i32⟩ : BufTy).Contents (Elt F) → (⟨S1600000, .i32⟩ : BufTy).Contents (Elt F)),
    StableHlo.binary main_arg4 main_v229 main_v230 (addi : (⟨S1600000, .i32⟩ : BufTy).Contents (Elt F) → (⟨S1600000, .i32⟩ : BufTy).Contents (Elt F) → (⟨S1600000, .i32⟩ : BufTy).Contents (Elt F)),
    StableHlo.ternary main_v228 main_v230 main_arg4 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v231 main_v232 (broadcastInDim S1600000x1 ![0] bcast_S1600000_S1600000x1_0 : (⟨S1600000, .i32⟩ : BufTy).Contents (Elt F) → (⟨S1600000x1, .i32⟩ : BufTy).Contents (Elt F)),
    StableHlo.binary main_v226 main_v232 main_v233 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_50 (constant S_ .f32 0x00000000#32),
    StableHlo.unary main_cst_50 main_v234 (broadcastInDim S100000x128 ![] bcast_S_S100000x128 : (⟨S_, .f32⟩ : BufTy).Contents (Elt F) → (⟨S100000x128, .f32⟩ : BufTy).Contents (Elt F)),
    StableHlo.unary main_arg5 main_v235 (broadcastInDim S1600000x1 ![0] bcast_S1600000_S1600000x1_0 : (⟨S1600000, .i32⟩ : BufTy).Contents (Elt F) → (⟨S1600000x1, .i32⟩ : BufTy).Contents (Elt F)),
    StableHlo.ternary main_v234 main_v235 main_v233 main_v236 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v153 main_v237 (broadcastInDim S100000x1 ![0] bcast_S100000_S100000x1_0 : (⟨S100000, .f32⟩ : BufTy).Contents (Elt F) → (⟨S100000x1, .f32⟩ : BufTy).Contents (Elt F)),
    StableHlo.unary main_v237 main_v238 (broadcastInDim S100000x128 ![0, 1] bcast_S100000x1_S100000x128_0_1 : (⟨S100000x1, .f32⟩ : BufTy).Contents (Elt F) → (⟨S100000x128, .f32⟩ : BufTy).Contents (Elt F)),
    StableHlo.binary main_v236 main_v238 main_v239 (mulf : (⟨S100000x128, .f32⟩ : BufTy).Contents (Elt F) → (⟨S100000x128, .f32⟩ : BufTy).Contents (Elt F) → (⟨S100000x128, .f32⟩ : BufTy).Contents (Elt F)),
    StableHlo.nullary main_cst_51 (constant S_ .f32 0x3F666666#32),
    StableHlo.unary main_cst_51 main_v240 (broadcastInDim S100000x128 ![] bcast_S_S100000x128 : (⟨S_, .f32⟩ : BufTy).Contents (Elt F) → (⟨S100000x128, .f32⟩ : BufTy).Contents (Elt F)),
    StableHlo.binary main_v240 main_v239 main_v241 (mulf : (⟨S100000x128, .f32⟩ : BufTy).Contents (Elt F) → (⟨S100000x128, .f32⟩ : BufTy).Contents (Elt F) → (⟨S100000x128, .f32⟩ : BufTy).Contents (Elt F)),
    StableHlo.nullary main_cst_52 (constant S_ .f32 0x3DCCCCCD#32),
    StableHlo.unary main_cst_52 main_v242 (broadcastInDim S100000x128 ![] bcast_S_S100000x128 : (⟨S_, .f32⟩ : BufTy).Contents (Elt F) → (⟨S100000x128, .f32⟩ : BufTy).Contents (Elt F)),
    StableHlo.binary main_v242 main_arg1 main_v243 (mulf : (⟨S100000x128, .f32⟩ : BufTy).Contents (Elt F) → (⟨S100000x128, .f32⟩ : BufTy).Contents (Elt F) → (⟨S100000x128, .f32⟩ : BufTy).Contents (Elt F)),
    StableHlo.binary main_v241 main_v243 main_v244 (addf : (⟨S100000x128, .f32⟩ : BufTy).Contents (Elt F) → (⟨S100000x128, .f32⟩ : BufTy).Contents (Elt F) → (⟨S100000x128, .f32⟩ : BufTy).Contents (Elt F)) ]

/-- The buffer each of them writes. -/
abbrev ys4 : List (Ref sig .tc) :=
  [ main_v195, main_v196, main_v197, main_v198, main_cst_43, main_v199, main_v200, main_v201,
    main_v202, main_v203, main_v204, main_cst_44, main_v205, main_v206, main_cst_45, main_v207,
    main_v208, main_v209, main_cst_46, main_v210, main_v211, main_v212, main_v213, main_v214,
    main_cst_47, main_v215, main_v216, main_v217, main_v218, main_v219, main_v220, main_v221,
    main_v222, main_call7_cst, main_call7_v0, main_v223, main_v224, main_v225, main_v226, main_c_48,
    main_v227, main_v228, main_c_49, main_v229, main_v230, main_v231, main_v232, main_v233,
    main_cst_50, main_v234, main_v235, main_v236, main_v237, main_v238, main_v239, main_cst_51,
    main_v240, main_v241, main_cst_52, main_v242, main_v243, main_v244 ]

set_option maxRecDepth 65536 in
set_option maxHeartbeats 4000000 in
/-- The window is that line: the called functions unfold to their operations, and sequencing reassociates. -/
theorem part4_eq (c : Dev nD) : main_part4 (F := F) c = seq ops4 := by
  rfl

theorem ops4_sub : (ops4 : List (HloOp τ sig (Elt F))).Forall fun op => op.bufs ⊆ tcRefs τ sig :=
  ⟨binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., unary_bufs_sub .., reshape_bufs_sub .., binary_bufs_sub ..,
    nullary_bufs_sub .., unary_bufs_sub .., binary_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

set_option maxRecDepth 65536 in
theorem outs4 : Outs (ops4 : List (HloOp τ sig (Elt F))) ys4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))

end Cert.ReferenceIdeal.Hand

end
-- ==== Proof.RefOps5.lean ====
/-
  The reference program, statements of window 5 of its main function, as a list of host operations in program
  order with every call replaced by the called function's operations over that call's buffers; the window is that
  list run in order; each operation writes the buffer listed at its place.
-/
import proofs.«158605_j26792005992870_2_alg».proof.Proof.LibHostOnce
import proofs.«158605_j26792005992870_2_alg».proof.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The operations of window 5, in order, calls unfolded. -/
abbrev ops5 : List (HloOp τ sig (Elt F)) :=
  [ StableHlo.nullary main_cst_53 (constant S_ .f32 0x3F365A78#32),
    StableHlo.unary main_cst_53 main_v245 (broadcastInDim S100000x128 ![] bcast_S_S100000x128 : (⟨S_, .f32⟩ : BufTy).Contents (Elt F) → (⟨S100000x128, .f32⟩ : BufTy).Contents (Elt F)),
    StableHlo.binary main_v245 main_v244 main_v246 (mulf : (⟨S100000x128, .f32⟩ : BufTy).Contents (Elt F) → (⟨S100000x128, .f32⟩ : BufTy).Contents (Elt F) → (⟨S100000x128, .f32⟩ : BufTy).Contents (Elt F)),
    StableHlo.unary main_arg6 main_v247 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v247 main_v248 rfl shapeCasts_S1x128x128_S128x128,
    StableHlo.binary main_v244 main_v248 main_v249 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_54 (constant S_ .f32 0x3E934B11#32),
    StableHlo.unary main_cst_54 main_v250 (broadcastInDim S100000x128 ![] bcast_S_S100000x128 : (⟨S_, .f32⟩ : BufTy).Contents (Elt F) → (⟨S100000x128, .f32⟩ : BufTy).Contents (Elt F)),
    StableHlo.binary main_v250 main_v249 main_v251 (mulf : (⟨S100000x128, .f32⟩ : BufTy).Contents (Elt F) → (⟨S100000x128, .f32⟩ : BufTy).Contents (Elt F) → (⟨S100000x128, .f32⟩ : BufTy).Contents (Elt F)),
    StableHlo.binary main_v246 main_v251 main_v252 (addf : (⟨S100000x128, .f32⟩ : BufTy).Contents (Elt F) → (⟨S100000x128, .f32⟩ : BufTy).Contents (Elt F) → (⟨S100000x128, .f32⟩ : BufTy).Contents (Elt F)),
    StableHlo.unary main_arg7 main_v253 ((extractStridedSlice S1x128 ![2, 0] · slices_S4x128_S1x128_2_0) : (⟨S4x128, .f32⟩ : BufTy).Contents (Elt F) → (⟨S1x128, .f32⟩ : BufTy).Contents (Elt F)),
    StableHlo.reshape main_v253 main_v254 rfl shapeCasts_S1x128_S128,
    StableHlo.unary main_v254 main_v255 (broadcastInDim S1x128 ![1] bcast_S128_S1x128_1 : (⟨S128, .f32⟩ : BufTy).Contents (Elt F) → (⟨S1x128, .f32⟩ : BufTy).Contents (Elt F)),
    StableHlo.unary main_v255 main_v256 (broadcastInDim S100000x128 ![0, 1] bcast_S1x128_S100000x128_0_1 : (⟨S1x128, .f32⟩ : BufTy).Contents (Elt F) → (⟨S100000x128, .f32⟩ : BufTy).Contents (Elt F)),
    StableHlo.binary main_v252 main_v256 main_v257 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (.of main_v257 : StableHlo.TRef sig ⟨S100000x128, .f32⟩) main_call8.v0 main_call8.v1 maximumf,
    StableHlo.unary main_v153 main_v259 (broadcastInDim S100000x1 ![0] bcast_S100000_S100000x1_0 : (⟨S100000, .f32⟩ : BufTy).Contents (Elt F) → (⟨S100000x1, .f32⟩ : BufTy).Contents (Elt F)),
    StableHlo.unary main_v259 main_v260 (broadcastInDim S100000x128 ![0, 1] bcast_S100000x1_S100000x128_0_1 : (⟨S100000x1, .f32⟩ : BufTy).Contents (Elt F) → (⟨S100000x128, .f32⟩ : BufTy).Contents (Elt F)),
    StableHlo.binary main_v258 main_v260 main_v261 (mulf : (⟨S100000x128, .f32⟩ : BufTy).Contents (Elt F) → (⟨S100000x128, .f32⟩ : BufTy).Contents (Elt F) → (⟨S100000x128, .f32⟩ : BufTy).Contents (Elt F)),
    StableHlo.nullary main_c_55 (constantI S_ 32 0#32),
    StableHlo.unary main_c_55 main_v262 (broadcastInDim S1600000 ![] bcast_S_S1600000 : (⟨S_, .i32⟩ : BufTy).Contents (Elt F) → (⟨S1600000, .i32⟩ : BufTy).Contents (Elt F)),
    StableHlo.binary main_arg4 main_v262 main_v263 (cmpi .slt : (⟨S1600000, .i32⟩ : BufTy).Contents (Elt F) → (⟨S1600000, .i32⟩ : BufTy).Contents (Elt F) → (⟨S1600000, .i1⟩ : BufTy).Contents (Elt F)),
    StableHlo.nullary main_c_56 (constantI S_ 32 100000#32),
    StableHlo.unary main_c_56 main_v264 (broadcastInDim S1600000 ![] bcast_S_S1600000 : (⟨S_, .i32⟩ : BufTy).Contents (Elt F) → (⟨S1600000, .i32⟩ : BufTy).Contents (Elt F)),
    StableHlo.binary main_arg4 main_v264 main_v265 (addi : (⟨S1600000, .i32⟩ : BufTy).Contents (Elt F) → (⟨S1600000, .i32⟩ : BufTy).Contents (Elt F) → (⟨S1600000, .i32⟩ : BufTy).Contents (Elt F)),
    StableHlo.ternary main_v263 main_v265 main_arg4 main_v266 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v266 main_v267 (broadcastInDim S1600000x1 ![0] bcast_S1600000_S1600000x1_0 : (⟨S1600000, .i32⟩ : BufTy).Contents (Elt F) → (⟨S1600000x1, .i32⟩ : BufTy).Contents (Elt F)),
    StableHlo.binary main_v261 main_v267 main_v268 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_57 (constant S_ .f32 0x00000000#32),
    StableHlo.unary main_cst_57 main_v269 (broadcastInDim S100000x128 ![] bcast_S_S100000x128 : (⟨S_, .f32⟩ : BufTy).Contents (Elt F) → (⟨S100000x128, .f32⟩ : BufTy).Contents (Elt F)),
    StableHlo.unary main_arg5 main_v270 (broadcastInDim S1600000x1 ![0] bcast_S1600000_S1600000x1_0 : (⟨S1600000, .i32⟩ : BufTy).Contents (Elt F) → (⟨S1600000x1, .i32⟩ : BufTy).Contents (Elt F)),
    StableHlo.ternary main_v269 main_v270 main_v268 main_v271 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v153 main_v272 (broadcastInDim S100000x1 ![0] bcast_S100000_S100000x1_0 : (⟨S100000, .f32⟩ : BufTy).Contents (Elt F) → (⟨S100000x1, .f32⟩ : BufTy).Contents (Elt F)),
    StableHlo.unary main_v272 main_v273 (broadcastInDim S100000x128 ![0, 1] bcast_S100000x1_S100000x128_0_1 : (⟨S100000x1, .f32⟩ : BufTy).Contents (Elt F) → (⟨S100000x128, .f32⟩ : BufTy).Contents (Elt F)),
    StableHlo.binary main_v271 main_v273 main_v274 (mulf : (⟨S100000x128, .f32⟩ : BufTy).Contents (Elt F) → (⟨S100000x128, .f32⟩ : BufTy).Contents (Elt F) → (⟨S100000x128, .f32⟩ : BufTy).Contents (Elt F)),
    StableHlo.nullary main_cst_58 (constant S_ .f32 0x3F666666#32),
    StableHlo.unary main_cst_58 main_v275 (broadcastInDim S100000x128 ![] bcast_S_S100000x128 : (⟨S_, .f32⟩ : BufTy).Contents (Elt F) → (⟨S100000x128, .f32⟩ : BufTy).Contents (Elt F)),
    StableHlo.binary main_v275 main_v274 main_v276 (mulf : (⟨S100000x128, .f32⟩ : BufTy).Contents (Elt F) → (⟨S100000x128, .f32⟩ : BufTy).Contents (Elt F) → (⟨S100000x128, .f32⟩ : BufTy).Contents (Elt F)),
    StableHlo.nullary main_cst_59 (constant S_ .f32 0x3DCCCCCD#32),
    StableHlo.unary main_cst_59 main_v277 (broadcastInDim S100000x128 ![] bcast_S_S100000x128 : (⟨S_, .f32⟩ : BufTy).Contents (Elt F) → (⟨S100000x128, .f32⟩ : BufTy).Contents (Elt F)),
    StableHlo.binary main_v277 main_arg1 main_v278 (mulf : (⟨S100000x128, .f32⟩ : BufTy).Contents (Elt F) → (⟨S100000x128, .f32⟩ : BufTy).Contents (Elt F) → (⟨S100000x128, .f32⟩ : BufTy).Contents (Elt F)),
    StableHlo.binary main_v276 main_v278 main_v279 (addf : (⟨S100000x128, .f32⟩ : BufTy).Contents (Elt F) → (⟨S100000x128, .f32⟩ : BufTy).Contents (Elt F) → (⟨S100000x128, .f32⟩ : BufTy).Contents (Elt F)),
    StableHlo.nullary main_cst_60 (constant S_ .f32 0x3F46E010#32),
    StableHlo.unary main_cst_60 main_v280 (broadcastInDim S100000x128 ![] bcast_S_S100000x128 : (⟨S_, .f32⟩ : BufTy).Contents (Elt F) → (⟨S100000x128, .f32⟩ : BufTy).Contents (Elt F)),
    StableHlo.binary main_v280 main_v279 main_v281 (mulf : (⟨S100000x128, .f32⟩ : BufTy).Contents (Elt F) → (⟨S100000x128, .f32⟩ : BufTy).Contents (Elt F) → (⟨S100000x128, .f32⟩ : BufTy).Contents (Elt F)),
    StableHlo.unary main_arg6 main_v282 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v282 main_v283 rfl shapeCasts_S1x128x128_S128x128,
    StableHlo.binary main_v279 main_v283 main_v284 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_61 (constant S_ .f32 0x3E647FBE#32),
    StableHlo.unary main_cst_61 main_v285 (broadcastInDim S100000x128 ![] bcast_S_S100000x128 : (⟨S_, .f32⟩ : BufTy).Contents (Elt F) → (⟨S100000x128, .f32⟩ : BufTy).Contents (Elt F)),
    StableHlo.binary main_v285 main_v284 main_v286 (mulf : (⟨S100000x128, .f32⟩ : BufTy).Contents (Elt F) → (⟨S100000x128, .f32⟩ : BufTy).Contents (Elt F) → (⟨S100000x128, .f32⟩ : BufTy).Contents (Elt F)),
    StableHlo.binary main_v281 main_v286 main_v287 (addf : (⟨S100000x128, .f32⟩ : BufTy).Contents (Elt F) → (⟨S100000x128, .f32⟩ : BufTy).Contents (Elt F) → (⟨S100000x128, .f32⟩ : BufTy).Contents (Elt F)),
    StableHlo.unary main_arg7 main_v288 ((extractStridedSlice S1x128 ![3, 0] · slices_S4x128_S1x128_3_0) : (⟨S4x128, .f32⟩ : BufTy).Contents (Elt F) → (⟨S1x128, .f32⟩ : BufTy).Contents (Elt F)),
    StableHlo.reshape main_v288 main_v289 rfl shapeCasts_S1x128_S128,
    StableHlo.unary main_v289 main_v290 (broadcastInDim S1x128 ![1] bcast_S128_S1x128_1 : (⟨S128, .f32⟩ : BufTy).Contents (Elt F) → (⟨S1x128, .f32⟩ : BufTy).Contents (Elt F)),
    StableHlo.unary main_v290 main_v291 (broadcastInDim S100000x128 ![0, 1] bcast_S1x128_S100000x128_0_1 : (⟨S1x128, .f32⟩ : BufTy).Contents (Elt F) → (⟨S100000x128, .f32⟩ : BufTy).Contents (Elt F)),
    StableHlo.binary main_v287 main_v291 main_v292 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v292 : StableHlo.TRef sig ⟨S100000x128, .f32⟩) main_call9.v0 main_call9.v1 maximumf,
    StableHlo.nullary main_cst_62 (constant S_ .f32 0x00000000#32),
    StableHlo.binary main_v146 main_cst_62 main_v294 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- The buffer each of them writes. -/
abbrev ys5 : List (Ref sig .tc) :=
  [ main_cst_53, main_v245, main_v246, main_v247, main_v248, main_v249, main_cst_54, main_v250,
    main_v251, main_v252, main_v253, main_v254, main_v255, main_v256, main_v257, main_call8_cst,
    main_call8_v0, main_v258, main_v259, main_v260, main_v261, main_c_55, main_v262, main_v263,
    main_c_56, main_v264, main_v265, main_v266, main_v267, main_v268, main_cst_57, main_v269,
    main_v270, main_v271, main_v272, main_v273, main_v274, main_cst_58, main_v275, main_v276,
    main_cst_59, main_v277, main_v278, main_v279, main_cst_60, main_v280, main_v281, main_v282,
    main_v283, main_v284, main_cst_61, main_v285, main_v286, main_v287, main_v288, main_v289,
    main_v290, main_v291, main_v292, main_call9_cst, main_call9_v0, main_v293, main_cst_62, main_v294 ]

set_option maxRecDepth 65536 in
set_option maxHeartbeats 4000000 in
/-- The window is that line: the called functions unfold to their operations, and sequencing reassociates. -/
theorem part5_eq (c : Dev nD) : main_part5 (F := F) c = seq ops5 := by
  rfl

theorem ops5_sub : (ops5 : List (HloOp τ sig (Elt F))).Forall fun op => op.bufs ⊆ tcRefs τ sig :=
  ⟨nullary_bufs_sub .., unary_bufs_sub .., binary_bufs_sub .., unary_bufs_sub .., reshape_bufs_sub .., binary_bufs_sub ..,
    nullary_bufs_sub .., unary_bufs_sub .., binary_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

set_option maxRecDepth 65536 in
theorem outs5 : Outs (ops5 : List (HloOp τ sig (Elt F))) ys5 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))

end Cert.ReferenceIdeal.Hand

end
-- ==== Proof.RefOps6.lean ====
/-
  The reference program, statements of window 6 of its main function, as a list of host operations in program
  order with every call replaced by the called function's operations over that call's buffers; the window is that
  list run in order; each operation writes the buffer listed at its place.
-/
import proofs.«158605_j26792005992870_2_alg».proof.Proof.LibHostOnce
import proofs.«158605_j26792005992870_2_alg».proof.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The operations of window 6, in order, calls unfolded. -/
abbrev ops6 : List (HloOp τ sig (Elt F)) :=
  [ StableHlo.nullary main_cst_63 (constant S_ .f32 0x47C35000#32),
    StableHlo.unary main_cst_63 main_v295 (broadcastInDim S128 ![] bcast_S_S128 : (⟨S_, .f32⟩ : BufTy).Contents (Elt F) → (⟨S128, .f32⟩ : BufTy).Contents (Elt F)),
    StableHlo.binary main_v294 main_v295 main_v296 (Host.divf : (⟨S128, .f32⟩ : BufTy).Contents (Elt F) → (⟨S128, .f32⟩ : BufTy).Contents (Elt F) → (⟨S128, .f32⟩ : BufTy).Contents (Elt F)),
    StableHlo.nullary main_c_64 (constantI S_ 32 1#32),
    StableHlo.TRef.nullary main_call10.call0.cst (constant S_ .f32 0x00000000#32),
    StableHlo.TRef.binary (.of main_v146 : StableHlo.TRef sig ⟨S100000x128, .f32⟩) main_call10.call0.cst main_call10.call0.v0 (fun x v => Host.reduceAdd x v reducesTo_S100000x128_S128_d0 h_S_),
    StableHlo.TRef.unary main_call10.call0.v0 main_call10.call0.v1 (broadcastInDim S1x128 ![1] bcast_S128_S1x128_1),
    StableHlo.TRef.nullary main_call10.call0.cst_0 (constant S_ .f32 0x47C35000#32),
    StableHlo.TRef.unary main_call10.call0.cst_0 main_call10.call0.v2 (broadcastInDim S1x128 ![] bcast_S_S1x128),
    StableHlo.TRef.binary main_call10.call0.v1 main_call10.call0.v2 main_call10.call0.v3 Host.divf,
    StableHlo.TRef.unary main_call10.call0.v3 main_call10.call0.v4 (broadcastInDim S100000x128 ![0, 1] bcast_S1x128_S100000x128_0_1),
    StableHlo.TRef.binary (.of main_v146 : StableHlo.TRef sig ⟨S100000x128, .f32⟩) main_call10.call0.v4 main_call10.call0.v5 subf,
    StableHlo.TRef.binary main_call10.call0.v5 main_call10.call0.v5 main_call10.call0.v6 mulf,
    StableHlo.TRef.unary (.of main_c_64 : StableHlo.TRef sig ⟨S_, .i32⟩) main_call10.call0.v7 (sitofp .f32),
    StableHlo.TRef.nullary main_call10.call0.cst_1 (constant S_ .f32 0x47C35000#32),
    StableHlo.TRef.binary main_call10.call0.cst_1 main_call10.call0.v7 main_call10.call0.v8 subf,
    StableHlo.TRef.nullary main_call10.call0.cst_2 (constant S_ .f32 0x00000000#32),
    StableHlo.TRef.binary main_call10.call0.v6 main_call10.call0.cst_2 main_call10.call0.v9 (fun x v => Host.reduceAdd x v reducesTo_S100000x128_S128_d0 h_S_),
    StableHlo.TRef.unary main_call10.call0.v8 main_call10.call0.v10 (broadcastInDim S128 ![] bcast_S_S128),
    StableHlo.TRef.binary main_call10.call0.v9 main_call10.call0.v10 main_call10.call0.v11 Host.divf,
    StableHlo.TRef.nullary main_call10.call0.cst_3 (constant S_ .f32 0x00000000#32),
    StableHlo.TRef.binary main_call10.call0.v8 main_call10.call0.cst_3 main_call10.call0.v12 (cmpf .ogt),
    StableHlo.TRef.nullary main_call10.call0.cst_4 (constant S_ .f32 0x7FC00000#32),
    StableHlo.TRef.unary main_call10.call0.cst_4 main_call10.call0.call0.v0 id,
    StableHlo.TRef.unary main_call10.call0.call0.v0 main_call10.call0.call0.v1 (broadcastInDim S128 ![] bcast_S_S128),
    StableHlo.TRef.ternary main_call10.call0.v12 main_call10.call0.v11 main_call10.call0.call0.v1 main_call10.call0.call0.v2 (fun p a b => select (broadcastInDim S128 ![] bcast_S_S128 p) a b),
    StableHlo.TRef.unary main_call10.call0.call0.v2 main_call10.v1 Host.sqrt,
    StableHlo.unary main_v296 main_v298 (broadcastInDim S1x128 ![1] bcast_S128_S1x128_1 : (⟨S128, .f32⟩ : BufTy).Contents (Elt F) → (⟨S1x128, .f32⟩ : BufTy).Contents (Elt F)),
    StableHlo.unary main_v298 main_v299 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v299 main_v300 (subf : (⟨S100000x128, .f32⟩ : BufTy).Contents (Elt F) → (⟨S100000x128, .f32⟩ : BufTy).Contents (Elt F) → (⟨S100000x128, .f32⟩ : BufTy).Contents (Elt F)),
    StableHlo.nullary main_cst_65 (constant S_ .f32 0x2B8CBCCC#32),
    StableHlo.TRef.unary (.of main_cst_65 : StableHlo.TRef sig ⟨S_, .f32⟩) main_call11.v0 id,
    StableHlo.TRef.unary main_call11.v0 main_call11.v1 (broadcastInDim S128 ![] bcast_S_S128),
    StableHlo.TRef.binary main_call11.v1 (.of main_v297 : StableHlo.TRef sig ⟨S128, .f32⟩) main_call11.v2 maximumf,
    StableHlo.unary main_v301 main_v302 (broadcastInDim S1x128 ![1] bcast_S128_S1x128_1 : (⟨S128, .f32⟩ : BufTy).Contents (Elt F) → (⟨S1x128, .f32⟩ : BufTy).Contents (Elt F)),
    StableHlo.unary main_v302 main_v303 (broadcastInDim S100000x128 ![0, 1] bcast_S1x128_S100000x128_0_1 : (⟨S1x128, .f32⟩ : BufTy).Contents (Elt F) → (⟨S100000x128, .f32⟩ : BufTy).Contents (Elt F)),
    StableHlo.binary main_v300 main_v303 main_v304 (Host.divf : (⟨S100000x128, .f32⟩ : BufTy).Contents (Elt F) → (⟨S100000x128, .f32⟩ : BufTy).Contents (Elt F) → (⟨S100000x128, .f32⟩ : BufTy).Contents (Elt F)),
    StableHlo.nullary main_cst_66 (constant S_ .f32 0x00000000#32),
    StableHlo.binary main_v293 main_cst_66 main_v305 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_67 (constant S_ .f32 0x47C35000#32),
    StableHlo.unary main_cst_67 main_v306 (broadcastInDim S128 ![] bcast_S_S128 : (⟨S_, .f32⟩ : BufTy).Contents (Elt F) → (⟨S128, .f32⟩ : BufTy).Contents (Elt F)),
    StableHlo.binary main_v305 main_v306 main_v307 (Host.divf : (⟨S128, .f32⟩ : BufTy).Contents (Elt F) → (⟨S128, .f32⟩ : BufTy).Contents (Elt F) → (⟨S128, .f32⟩ : BufTy).Contents (Elt F)),
    StableHlo.nullary main_c_68 (constantI S_ 32 1#32),
    StableHlo.TRef.nullary main_call12.call0.cst (constant S_ .f32 0x00000000#32),
    StableHlo.TRef.binary (.of main_v293 : StableHlo.TRef sig ⟨S100000x128, .f32⟩) main_call12.call0.cst main_call12.call0.v0 (fun x v => Host.reduceAdd x v reducesTo_S100000x128_S128_d0 h_S_),
    StableHlo.TRef.unary main_call12.call0.v0 main_call12.call0.v1 (broadcastInDim S1x128 ![1] bcast_S128_S1x128_1),
    StableHlo.TRef.nullary main_call12.call0.cst_0 (constant S_ .f32 0x47C35000#32),
    StableHlo.TRef.unary main_call12.call0.cst_0 main_call12.call0.v2 (broadcastInDim S1x128 ![] bcast_S_S1x128),
    StableHlo.TRef.binary main_call12.call0.v1 main_call12.call0.v2 main_call12.call0.v3 Host.divf,
    StableHlo.TRef.unary main_call12.call0.v3 main_call12.call0.v4 (broadcastInDim S100000x128 ![0, 1] bcast_S1x128_S100000x128_0_1),
    StableHlo.TRef.binary (.of main_v293 : StableHlo.TRef sig ⟨S100000x128, .f32⟩) main_call12.call0.v4 main_call12.call0.v5 subf,
    StableHlo.TRef.binary main_call12.call0.v5 main_call12.call0.v5 main_call12.call0.v6 mulf,
    StableHlo.TRef.unary (.of main_c_68 : StableHlo.TRef sig ⟨S_, .i32⟩) main_call12.call0.v7 (sitofp .f32),
    StableHlo.TRef.nullary main_call12.call0.cst_1 (constant S_ .f32 0x47C35000#32),
    StableHlo.TRef.binary main_call12.call0.cst_1 main_call12.call0.v7 main_call12.call0.v8 subf,
    StableHlo.TRef.nullary main_call12.call0.cst_2 (constant S_ .f32 0x00000000#32),
    StableHlo.TRef.binary main_call12.call0.v6 main_call12.call0.cst_2 main_call12.call0.v9 (fun x v => Host.reduceAdd x v reducesTo_S100000x128_S128_d0 h_S_),
    StableHlo.TRef.unary main_call12.call0.v8 main_call12.call0.v10 (broadcastInDim S128 ![] bcast_S_S128),
    StableHlo.TRef.binary main_call12.call0.v9 main_call12.call0.v10 main_call12.call0.v11 Host.divf,
    StableHlo.TRef.nullary main_call12.call0.cst_3 (constant S_ .f32 0x00000000#32),
    StableHlo.TRef.binary main_call12.call0.v8 main_call12.call0.cst_3 main_call12.call0.v12 (cmpf .ogt),
    StableHlo.TRef.nullary main_call12.call0.cst_4 (constant S_ .f32 0x7FC00000#32),
    StableHlo.TRef.unary main_call12.call0.cst_4 main_call12.call0.call0.v0 id,
    StableHlo.TRef.unary main_call12.call0.call0.v0 main_call12.call0.call0.v1 (broadcastInDim S128 ![] bcast_S_S128),
    StableHlo.TRef.ternary main_call12.call0.v12 main_call12.call0.v11 main_call12.call0.call0.v1 main_call12.call0.call0.v2 (fun p a b => select (broadcastInDim S128 ![] bcast_S_S128 p) a b),
    StableHlo.TRef.unary main_call12.call0.call0.v2 main_call12.v1 Host.sqrt,
    StableHlo.unary main_v307 main_v309 (broadcastInDim S1x128 ![1] bcast_S128_S1x128_1 : (⟨S128, .f32⟩ : BufTy).Contents (Elt F) → (⟨S1x128, .f32⟩ : BufTy).Contents (Elt F)),
    StableHlo.unary main_v309 main_v310 (broadcastInDim S100000x128 ![0, 1] bcast_S1x128_S100000x128_0_1 : (⟨S1x128, .f32⟩ : BufTy).Contents (Elt F) → (⟨S100000x128, .f32⟩ : BufTy).Contents (Elt F)),
    StableHlo.binary main_v293 main_v310 main_v311 (subf : (⟨S100000x128, .f32⟩ : BufTy).Contents (Elt F) → (⟨S100000x128, .f32⟩ : BufTy).Contents (Elt F) → (⟨S100000x128, .f32⟩ : BufTy).Contents (Elt F)),
    StableHlo.nullary main_cst_69 (constant S_ .f32 0x2B8CBCCC#32),
    StableHlo.TRef.unary (.of main_cst_69 : StableHlo.TRef sig ⟨S_, .f32⟩) main_call13.v0 id,
    StableHlo.TRef.unary main_call13.v0 main_call13.v1 (broadcastInDim S128 ![] bcast_S_S128),
    StableHlo.TRef.binary main_call13.v1 (.of main_v308 : StableHlo.TRef sig ⟨S128, .f32⟩) main_call13.v2 maximumf,
    StableHlo.unary main_v312 main_v313 (broadcastInDim S1x128 ![1] bcast_S128_S1x128_1 : (⟨S128, .f32⟩ : BufTy).Contents (Elt F) → (⟨S1x128, .f32⟩ : BufTy).Contents (Elt F)),
    StableHlo.unary main_v313 main_v314 (broadcastInDim S100000x128 ![0, 1] bcast_S1x128_S100000x128_0_1 : (⟨S1x128, .f32⟩ : BufTy).Contents (Elt F) → (⟨S100000x128, .f32⟩ : BufTy).Contents (Elt F)),
    StableHlo.binary main_v311 main_v314 main_v315 (Host.divf : (⟨S100000x128, .f32⟩ : BufTy).Contents (Elt F) → (⟨S100000x128, .f32⟩ : BufTy).Contents (Elt F) → (⟨S100000x128, .f32⟩ : BufTy).Contents (Elt F)) ]

/-- The buffer each of them writes. -/
abbrev ys6 : List (Ref sig .tc) :=
  [ main_cst_63, main_v295, main_v296, main_c_64, main_call10_call0_cst, main_call10_call0_v0, main_call10_call0_v1, main_call10_call0_cst_0,
    main_call10_call0_v2, main_call10_call0_v3, main_call10_call0_v4, main_call10_call0_v5, main_call10_call0_v6, main_call10_call0_v7, main_call10_call0_cst_1, main_call10_call0_v8,
    main_call10_call0_cst_2, main_call10_call0_v9, main_call10_call0_v10, main_call10_call0_v11, main_call10_call0_cst_3, main_call10_call0_v12, main_call10_call0_cst_4, main_call10_call0_call0_v0,
    main_call10_call0_call0_v1, main_call10_v0, main_v297, main_v298, main_v299, main_v300, main_cst_65, main_call11_v0,
    main_call11_v1, main_v301, main_v302, main_v303, main_v304, main_cst_66, main_v305, main_cst_67,
    main_v306, main_v307, main_c_68, main_call12_call0_cst, main_call12_call0_v0, main_call12_call0_v1, main_call12_call0_cst_0, main_call12_call0_v2,
    main_call12_call0_v3, main_call12_call0_v4, main_call12_call0_v5, main_call12_call0_v6, main_call12_call0_v7, main_call12_call0_cst_1, main_call12_call0_v8, main_call12_call0_cst_2,
    main_call12_call0_v9, main_call12_call0_v10, main_call12_call0_v11, main_call12_call0_cst_3, main_call12_call0_v12, main_call12_call0_cst_4, main_call12_call0_call0_v0, main_call12_call0_call0_v1,
    main_call12_v0, main_v308, main_v309, main_v310, main_v311, main_cst_69, main_call13_v0, main_call13_v1,
    main_v312, main_v313, main_v314, main_v315 ]

set_option maxRecDepth 65536 in
set_option maxHeartbeats 4000000 in
/-- The window is that line: the called functions unfold to their operations, and sequencing reassociates. -/
theorem part6_eq (c : Dev nD) : main_part6 (F := F) c = seq ops6 := by
  rfl

theorem ops6_sub : (ops6 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., unary_bufs_sub .., binary_bufs_sub ..,
    nullary_bufs_sub .., unary_bufs_sub .., unary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., unary_bufs_sub .., binary_bufs_sub .., nullary_bufs_sub .., unary_bufs_sub .., unary_bufs_sub ..,
    binary_bufs_sub .., unary_bufs_sub .., unary_bufs_sub .., binary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

set_option maxRecDepth 65536 in
theorem outs6 : Outs (ops6 : List (HloOp τ sig (Elt F))) ys6 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))

end Cert.ReferenceIdeal.Hand

end
-- ==== Proof.RefOps.lean ====
/-
  The reference program's main function as ONE line of host operations: its seven windows' lists one after the other
  (every call already replaced by the called function's operations). The main function is that line run in order; every
  operation touches TensorCore buffers only and determines its result; each writes the buffer listed at its place, and
  no buffer is written twice. So every weakly fair execution of the reference terminates with each buffer at the fold of
  the operations over the launch contents.
-/
import proofs.«158605_j26792005992870_2_alg».proof.Proof.RefOps0
import proofs.«158605_j26792005992870_2_alg».proof.Proof.RefOps1
import proofs.«158605_j26792005992870_2_alg».proof.Proof.RefOps2
import proofs.«158605_j26792005992870_2_alg».proof.Proof.RefOps3
import proofs.«158605_j26792005992870_2_alg».proof.Proof.RefOps4
import proofs.«158605_j26792005992870_2_alg».proof.Proof.RefOps5
import proofs.«158605_j26792005992870_2_alg».proof.Proof.RefOps6

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- The whole line. -/
abbrev ops : List (HloOp τ sig (Elt F)) := ops0 ++ (ops1 ++ (ops2 ++ (ops3 ++ (ops4 ++ (ops5 ++ ops6)))))

/-- The buffer each operation of the line writes. -/
abbrev ys : List (Ref sig .tc) := ys0 ++ (ys1 ++ (ys2 ++ (ys3 ++ (ys4 ++ (ys5 ++ ys6)))))

/-- The main function is the line: window by window, two lines run in turn being their concatenation run as one. -/
theorem main_eq (c : Dev nD) : main (F := F) c = seq ops := by
  show main (F := F) c = seq (ops0 ++ (ops1 ++ (ops2 ++ (ops3 ++ (ops4 ++ (ops5 ++ ops6))))))
  rw [seq_append, seq_append, seq_append, seq_append, seq_append, seq_append,
    ← part0_eq c, ← part1_eq c, ← part2_eq c, ← part3_eq c, ← part4_eq c, ← part5_eq c, ← part6_eq c]
  rfl

theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, List.forall_append.mpr ⟨ops4_sub, List.forall_append.mpr ⟨ops5_sub, ops6_sub⟩⟩⟩⟩⟩⟩

theorem ops_fresh : ∀ op ∈ (ops : List (HloOp τ sig (Elt F))), op.fresh = ∅ :=
  List.forall_iff_forall_mem.mp (List.forall_append.mpr ⟨ops0_fresh, List.forall_append.mpr ⟨ops1_fresh,
    List.forall_append.mpr ⟨ops2_fresh, List.forall_append.mpr ⟨ops3_fresh, List.forall_append.mpr ⟨ops4_fresh,
    List.forall_append.mpr ⟨ops5_fresh, ops6_fresh⟩⟩⟩⟩⟩⟩)

/-- Each operation of the line writes the buffer listed at its place. -/
theorem outs : Outs (ops : List (HloOp τ sig (Elt F))) ys :=
  outs_append outs0 (outs_append outs1 (outs_append outs2 (outs_append outs3 (outs_append outs4 (outs_append outs5 outs6)))))

/-- No buffer is written twice. -/
theorem ys_nodup : (ys : List (Ref sig .tc)).Nodup := by decide +kernel

/-- The arguments are never written. -/
theorem arg0_nw : main_arg0 ∉ (ys : List (Ref sig .tc)) := by decide +kernel
theorem arg1_nw : main_arg1 ∉ (ys : List (Ref sig .tc)) := by decide +kernel
theorem arg2_nw : main_arg2 ∉ (ys : List (Ref sig .tc)) := by decide +kernel
theorem arg3_nw : main_arg3 ∉ (ys : List (Ref sig .tc)) := by decide +kernel
theorem arg4_nw : main_arg4 ∉ (ys : List (Ref sig .tc)) := by decide +kernel
theorem arg5_nw : main_arg5 ∉ (ys : List (Ref sig .tc)) := by decide +kernel
theorem arg6_nw : main_arg6 ∉ (ys : List (Ref sig .tc)) := by decide +kernel
theorem arg7_nw : main_arg7 ∉ (ys : List (Ref sig .tc)) := by decide +kernel

/-- A buffer written at place j is not written from a later place k on. -/
theorem wr {j k : Nat} {x : Ref sig .tc} (hj : (ys : List (Ref sig .tc))[j]? = some x) (hjk : j < k) :
    x ∉ (ys : List (Ref sig .tc)).drop k := not_mem_drop_of_lt ys_nodup hj hjk

/-- A buffer never written is not written from any place on. -/
theorem nw {x : Ref sig .tc} (h : x ∉ (ys : List (Ref sig .tc))) (k : Nat) : x ∉ (ys : List (Ref sig .tc)).drop k :=
  fun hx => h (List.mem_of_mem_drop hx)

theorem scopedRefs_eq : (Finset.univ.filter fun b : Ref sig .tc => b.isScoped) = ∅ := by decide +kernel
theorem scopedSems_eq : (Finset.univ.filter fun sm : SemLoc sig => sm.isScoped .tc) = ∅ := by decide +kernel

/-- At the compiled mesh, for any float values, from any memory with zero counters: every weakly fair execution of the
    main function on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefEq0.lean ====
/-
  The reference program read one operation at a time, window 0: after the whole line each buffer written by an
  operation of this window holds that operation's function of what its operand buffers hold after the whole line
  (every buffer is written once, and an operand is written, if at all, before the operation that reads it).
-/
import proofs.«158605_j26792005992870_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

theorem e_main_cst (V : Valuation τ sig (Elt F)) :
    after ops V (main_cst : DevRef τ sig) = ((constant S_ .f32 0x3F800000#32) : (⟨S_, .f32⟩ : BufTy).Contents (Elt F)) :=
  nullary_at outs V 0 main_cst ((constant S_ .f32 0x3F800000#32) : (⟨S_, .f32⟩ : BufTy).Contents (Elt F)) _ rfl (wr (j := 0) rfl (by decide))

theorem e_main_v0 (V : Valuation τ sig (Elt F)) :
    after ops V (main_v0 : DevRef τ sig) = (broadcastInDim S1600000 ![] bcast_S_S1600000 : (⟨S_, .f32⟩ : BufTy).Contents (Elt F) → (⟨S1600000, .f32⟩ : BufTy).Contents (Elt F)) (after ops V (main_cst : DevRef τ sig)) :=
  unary_at outs V 1 main_cst main_v0 (broadcastInDim S1600000 ![] bcast_S_S1600000 : (⟨S_, .f32⟩ : BufTy).Contents (Elt F) → (⟨S1600000, .f32⟩ : BufTy).Contents (Elt F)) _ _ rfl (wr (j := 1) rfl (by decide)) (wr (j := 0) rfl (by decide))

theorem e_main_cst_0 (V : Valuation τ sig (Elt F)) :
    after ops V (main_cst_0 : DevRef τ sig) = ((constant S_ .f32 0x00000000#32) : (⟨S_, .f32⟩ : BufTy).Contents (Elt F)) :=
  nullary_at outs V 2 main_cst_0 ((constant S_ .f32 0x00000000#32) : (⟨S_, .f32⟩ : BufTy).Contents (Elt F)) _ rfl (wr (j := 2) rfl (by decide))

theorem e_main_v1 (V : Valuation τ sig (Elt F)) :
    after ops V (main_v1 : DevRef τ sig) = (broadcastInDim S100000 ![] bcast_S_S100000 : (⟨S_, .f32⟩ : BufTy).Contents (Elt F) → (⟨S100000, .f32⟩ : BufTy).Contents (Elt F)) (after ops V (main_cst_0 : DevRef τ sig)) :=
  unary_at outs V 3 main_cst_0 main_v1 (broadcastInDim S100000 ![] bcast_S_S100000 : (⟨S_, .f32⟩ : BufTy).Contents (Elt F) → (⟨S100000, .f32⟩ : BufTy).Contents (Elt F)) _ _ rfl (wr (j := 3) rfl (by decide)) (wr (j := 2) rfl (by decide))

theorem e_main_v2 (V : Valuation τ sig (Elt F)) :
    after ops V (main_v2 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg3 : DevRef τ sig)) :=
  unary_at outs V 4 main_arg3 main_v2 (broadcastInDim S1600000x1 ![0] bcast_S1600000_S1600000x1_0 : (⟨S1600000, .i32⟩ : BufTy).Contents (Elt F) → (⟨S1600000x1, .i32⟩ : BufTy).Contents (Elt F)) _ _ rfl (wr (j := 4) rfl (by decide)) (nw arg3_nw 4)

theorem e_main_v3 (V : Valuation τ sig (Elt F)) :
    after ops V (main_v3 : DevRef τ sig) = ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (after ops V (main_v1 : DevRef τ sig)) (after ops V (main_v2 : DevRef τ sig)) (after ops V (main_v0 : DevRef τ sig)) :=
  ternary_at outs V 5 main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) _ _ _ _ rfl (wr (j := 5) rfl (by decide)) (wr (j := 3) rfl (by decide)) (wr (j := 4) rfl (by decide)) (wr (j := 1) rfl (by decide))

theorem e_main_cst_1 (V : Valuation τ sig (Elt F)) :
    after ops V (main_cst_1 : DevRef τ sig) = ((constant S_ .f32 0x3F800000#32) : (⟨S_, .f32⟩ : BufTy).Contents (Elt F)) :=
  nullary_at outs V 6 main_cst_1 ((constant S_ .f32 0x3F800000#32) : (⟨S_, .f32⟩ : BufTy).Contents (Elt F)) _ rfl (wr (j := 6) rfl (by decide))

theorem e_main_call0_v0 (V : Valuation τ sig (Elt F)) :
    after ops V (main_call0_v0 : DevRef τ sig) = (id : (⟨S_, .f32⟩ : BufTy).Contents (Elt F) → (⟨S_, .f32⟩ : BufTy).Contents (Elt F)) (after ops V (main_cst_1 : DevRef τ sig)) :=
  unary_at outs V 7 main_cst_1 main_call0_v0 (id : (⟨S_, .f32⟩ : BufTy).Contents (Elt F) → (⟨S_, .f32⟩ : BufTy).Contents (Elt F)) _ _ rfl (wr (j := 7) rfl (by decide)) (wr (j := 6) rfl (by decide))

theorem e_main_call0_v1 (V : Valuation τ sig (Elt F)) :
    after ops V (main_call0_v1 : DevRef τ sig) = ((broadcastInDim S100000 ![] bcast_S_S100000) : (⟨S_, .f32⟩ : BufTy).Contents (Elt F) → (⟨S100000, .f32⟩ : BufTy).Contents (Elt F)) (after ops V (main_call0_v0 : DevRef τ sig)) :=
  unary_at outs V 8 main_call0_v0 main_call0_v1 ((broadcastInDim S100000 ![] bcast_S_S100000) : (⟨S_, .f32⟩ : BufTy).Contents (Elt F) → (⟨S100000, .f32⟩ : BufTy).Contents (Elt F)) _ _ rfl (wr (j := 8) rfl (by decide)) (wr (j := 7) rfl (by decide))

theorem e_main_v4 (V : Valuation τ sig (Elt F)) :
    after ops V (main_v4 : DevRef τ sig) = (maximumf : (⟨S100000, .f32⟩ : BufTy).Contents (Elt F) → (⟨S100000, .f32⟩ : BufTy).Contents (Elt F) → (⟨S100000, .f32⟩ : BufTy).Contents (Elt F)) (after ops V (main_call0_v1 : DevRef τ sig)) (after ops V (main_v3 : DevRef τ sig)) :=
  binary_at outs V 9 main_call0_v1 main_v3 main_v4 (maximumf : (⟨S100000, .f32⟩ : BufTy).Contents (Elt F) → (⟨S100000, .f32⟩ : BufTy).Contents (Elt F) → (⟨S100000, .f32⟩ : BufTy).Contents (Elt F)) _ _ _ rfl (wr (j := 9) rfl (by decide)) (wr (j := 8) rfl (by decide)) (wr (j := 5) rfl (by decide))

theorem e_main_cst_2 (V : Valuation τ sig (Elt F)) :
    after ops V (main_cst_2 : DevRef τ sig) = ((constant S_ .f32 0xBF000000#32) : (⟨S_, .f32⟩ : BufTy).Contents (Elt F)) :=
  nullary_at outs V 10 main_cst_2 ((constant S_ .f32 0xBF000000#32) : (⟨S_, .f32⟩ : BufTy).Contents (Elt F)) _ rfl (wr (j := 10) rfl (by decide))

theorem e_main_v5 (V : Valuation τ sig (Elt F)) :
    after ops V (main_v5 : DevRef τ sig) = (broadcastInDim S100000 ![] bcast_S_S100000 : (⟨S_, .f32⟩ : BufTy).Contents (Elt F) → (⟨S100000, .f32⟩ : BufTy).Contents (Elt F)) (after ops V (main_cst_2 : DevRef τ sig)) :=
  unary_at outs V 11 main_cst_2 main_v5 (broadcastInDim S100000 ![] bcast_S_S100000 : (⟨S_, .f32⟩ : BufTy).Contents (Elt F) → (⟨S100000, .f32⟩ : BufTy).Contents (Elt F)) _ _ rfl (wr (j := 11) rfl (by decide)) (wr (j := 10) rfl (by decide))

theorem e_main_v6 (V : Valuation τ sig (Elt F)) :
    after ops V (main_v6 : DevRef τ sig) = (Host.powf : (⟨S100000, .f32⟩ : BufTy).Contents (Elt F) → (⟨S100000, .f32⟩ : BufTy).Contents (Elt F) → (⟨S100000, .f32⟩ : BufTy).Contents (Elt F)) (after ops V (main_v4 : DevRef τ sig)) (after ops V (main_v5 : DevRef τ sig)) :=
  binary_at outs V 12 main_v4 main_v5 main_v6 (Host.powf : (⟨S100000, .f32⟩ : BufTy).Contents (Elt F) → (⟨S100000, .f32⟩ : BufTy).Contents (Elt F) → (⟨S100000, .f32⟩ : BufTy).Contents (Elt F)) _ _ _ rfl (wr (j := 12) rfl (by decide)) (wr (j := 9) rfl (by decide)) (wr (j := 11) rfl (by decide))

theorem e_main_v7 (V : Valuation τ sig (Elt F)) :
    after ops V (main_v7 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 13 main_v6 main_v7 (broadcastInDim S100000x1 ![0] bcast_S100000_S100000x1_0 : (⟨S100000, .f32⟩ : BufTy).Contents (Elt F) → (⟨S100000x1, .f32⟩ : BufTy).Contents (Elt F)) _ _ rfl (wr (j := 13) rfl (by decide)) (wr (j := 12) rfl (by decide))

theorem e_main_v8 (V : Valuation τ sig (Elt F)) :
    after ops V (main_v8 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v7 : DevRef τ sig)) :=
  unary_at outs V 14 main_v7 main_v8 (broadcastInDim S100000x128 ![0, 1] bcast_S100000x1_S100000x128_0_1 : (⟨S100000x1, .f32⟩ : BufTy).Contents (Elt F) → (⟨S100000x128, .f32⟩ : BufTy).Contents (Elt F)) _ _ rfl (wr (j := 14) rfl (by decide)) (wr (j := 13) rfl (by decide))

theorem e_main_v9 (V : Valuation τ sig (Elt F)) :
    after ops V (main_v9 : DevRef τ sig) = (mulf : (⟨S100000x128, .f32⟩ : BufTy).Contents (Elt F) → (⟨S100000x128, .f32⟩ : BufTy).Contents (Elt F) → (⟨S100000x128, .f32⟩ : BufTy).Contents (Elt F)) (after ops V (main_arg0 : DevRef τ sig)) (after ops V (main_v8 : DevRef τ sig)) :=
  binary_at outs V 15 main_arg0 main_v8 main_v9 (mulf : (⟨S100000x128, .f32⟩ : BufTy).Contents (Elt F) → (⟨S100000x128, .f32⟩ : BufTy).Contents (Elt F) → (⟨S100000x128, .f32⟩ : BufTy).Contents (Elt F)) _ _ _ rfl (wr (j := 15) rfl (by decide)) (nw arg0_nw 15) (wr (j := 14) rfl (by decide))

theorem e_main_c (V : Valuation τ sig (Elt F)) :
    after ops V (main_c : DevRef τ sig) = ((constantI S_ 32 0#32) : (⟨S_, .i32⟩ : BufTy).Contents (Elt F)) :=
  nullary_at outs V 16 main_c ((constantI S_ 32 0#32) : (⟨S_, .i32⟩ : BufTy).Contents (Elt F)) _ rfl (wr (j := 16) rfl (by decide))

theorem e_main_v10 (V : Valuation τ sig (Elt F)) :
    after ops V (main_v10 : DevRef τ sig) = (broadcastInDim S1600000 ![] bcast_S_S1600000 : (⟨S_, .i32⟩ : BufTy).Contents (Elt F) → (⟨S1600000, .i32⟩ : BufTy).Contents (Elt F)) (after ops V (main_c : DevRef τ sig)) :=
  unary_at outs V 17 main_c main_v10 (broadcastInDim S1600000 ![] bcast_S_S1600000 : (⟨S_, .i32⟩ : BufTy).Contents (Elt F) → (⟨S1600000, .i32⟩ : BufTy).Contents (Elt F)) _ _ rfl (wr (j := 17) rfl (by decide)) (wr (j := 16) rfl (by decide))

theorem e_main_v11 (V : Valuation τ sig (Elt F)) :
    after ops V (main_v11 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg2 : DevRef τ sig)) (after ops V (main_v10 : DevRef τ sig)) :=
  binary_at outs V 18 main_arg2 main_v10 main_v11 (cmpi .slt : (⟨S1600000, .i32⟩ : BufTy).Contents (Elt F) → (⟨S1600000, .i32⟩ : BufTy).Contents (Elt F) → (⟨S1600000, .i1⟩ : BufTy).Contents (Elt F)) _ _ _ rfl (wr (j := 18) rfl (by decide)) (nw arg2_nw 18) (wr (j := 17) rfl (by decide))

theorem e_main_c_3 (V : Valuation τ sig (Elt F)) :
    after ops V (main_c_3 : DevRef τ sig) = ((constantI S_ 32 100000#32) : (⟨S_, .i32⟩ : BufTy).Contents (Elt F)) :=
  nullary_at outs V 19 main_c_3 ((constantI S_ 32 100000#32) : (⟨S_, .i32⟩ : BufTy).Contents (Elt F)) _ rfl (wr (j := 19) rfl (by decide))

theorem e_main_v12 (V : Valuation τ sig (Elt F)) :
    after ops V (main_v12 : DevRef τ sig) = (broadcastInDim S1600000 ![] bcast_S_S1600000 : (⟨S_, .i32⟩ : BufTy).Contents (Elt F) → (⟨S1600000, .i32⟩ : BufTy).Contents (Elt F)) (after ops V (main_c_3 : DevRef τ sig)) :=
  unary_at outs V 20 main_c_3 main_v12 (broadcastInDim S1600000 ![] bcast_S_S1600000 : (⟨S_, .i32⟩ : BufTy).Contents (Elt F) → (⟨S1600000, .i32⟩ : BufTy).Contents (Elt F)) _ _ rfl (wr (j := 20) rfl (by decide)) (wr (j := 19) rfl (by decide))

theorem e_main_v13 (V : Valuation τ sig (Elt F)) :
    after ops V (main_v13 : DevRef τ sig) = (addi : (⟨S1600000, .i32⟩ : BufTy).Contents (Elt F) → (⟨S1600000, .i32⟩ : BufTy).Contents (Elt F) → (⟨S1600000, .i32⟩ : BufTy).Contents (Elt F)) (after ops V (main_arg2 : DevRef τ sig)) (after ops V (main_v12 : DevRef τ sig)) :=
  binary_at outs V 21 main_arg2 main_v12 main_v13 (addi : (⟨S1600000, .i32⟩ : BufTy).Contents (Elt F) → (⟨S1600000, .i32⟩ : BufTy).Contents (Elt F) → (⟨S1600000, .i32⟩ : BufTy).Contents (Elt F)) _ _ _ rfl (wr (j := 21) rfl (by decide)) (nw arg2_nw 21) (wr (j := 20) rfl (by decide))

theorem e_main_v14 (V : Valuation τ sig (Elt F)) :
    after ops V (main_v14 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v11 : DevRef τ sig)) (after ops V (main_v13 : DevRef τ sig)) (after ops V (main_arg2 : DevRef τ sig)) :=
  ternary_at outs V 22 main_v11 main_v13 main_arg2 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 22) rfl (by decide)) (wr (j := 18) rfl (by decide)) (wr (j := 21) rfl (by decide)) (nw arg2_nw 22)

theorem e_main_v15 (V : Valuation τ sig (Elt F)) :
    after ops V (main_v15 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v14 : DevRef τ sig)) :=
  unary_at outs V 23 main_v14 main_v15 (broadcastInDim S1600000x1 ![0] bcast_S1600000_S1600000x1_0 : (⟨S1600000, .i32⟩ : BufTy).Contents (Elt F) → (⟨S1600000x1, .i32⟩ : BufTy).Contents (Elt F)) _ _ rfl (wr (j := 23) rfl (by decide)) (wr (j := 22) rfl (by decide))

theorem e_main_v16 (V : Valuation τ sig (Elt F)) :
    after ops V (main_v16 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v9 : DevRef τ sig)) (after ops V (main_v15 : DevRef τ sig)) :=
  binary_at outs V 24 main_v9 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 24) rfl (by decide)) (wr (j := 15) rfl (by decide)) (wr (j := 23) rfl (by decide))

theorem e_main_cst_4 (V : Valuation τ sig (Elt F)) :
    after ops V (main_cst_4 : DevRef τ sig) = ((constant S_ .f32 0x00000000#32) : (⟨S_, .f32⟩ : BufTy).Contents (Elt F)) :=
  nullary_at outs V 25 main_cst_4 ((constant S_ .f32 0x00000000#32) : (⟨S_, .f32⟩ : BufTy).Contents (Elt F)) _ rfl (wr (j := 25) rfl (by decide))

theorem e_main_v17 (V : Valuation τ sig (Elt F)) :
    after ops V (main_v17 : DevRef τ sig) = (broadcastInDim S100000x128 ![] bcast_S_S100000x128 : (⟨S_, .f32⟩ : BufTy).Contents (Elt F) → (⟨S100000x128, .f32⟩ : BufTy).Contents (Elt F)) (after ops V (main_cst_4 : DevRef τ sig)) :=
  unary_at outs V 26 main_cst_4 main_v17 (broadcastInDim S100000x128 ![] bcast_S_S100000x128 : (⟨S_, .f32⟩ : BufTy).Contents (Elt F) → (⟨S100000x128, .f32⟩ : BufTy).Contents (Elt F)) _ _ rfl (wr (j := 26) rfl (by decide)) (wr (j := 25) rfl (by decide))

theorem e_main_v18 (V : Valuation τ sig (Elt F)) :
    after ops V (main_v18 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg3 : DevRef τ sig)) :=
  unary_at outs V 27 main_arg3 main_v18 (broadcastInDim S1600000x1 ![0] bcast_S1600000_S1600000x1_0 : (⟨S1600000, .i32⟩ : BufTy).Contents (Elt F) → (⟨S1600000x1, .i32⟩ : BufTy).Contents (Elt F)) _ _ rfl (wr (j := 27) rfl (by decide)) (nw arg3_nw 27)

theorem e_main_v19 (V : Valuation τ sig (Elt F)) :
    after ops V (main_v19 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v17 : DevRef τ sig)) (after ops V (main_v18 : DevRef τ sig)) (after ops V (main_v16 : DevRef τ sig)) :=
  ternary_at outs V 28 main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 28) rfl (by decide)) (wr (j := 26) rfl (by decide)) (wr (j := 27) rfl (by decide)) (wr (j := 24) rfl (by decide))

theorem e_main_v20 (V : Valuation τ sig (Elt F)) :
    after ops V (main_v20 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 29 main_v6 main_v20 (broadcastInDim S100000x1 ![0] bcast_S100000_S100000x1_0 : (⟨S100000, .f32⟩ : BufTy).Contents (Elt F) → (⟨S100000x1, .f32⟩ : BufTy).Contents (Elt F)) _ _ rfl (wr (j := 29) rfl (by decide)) (wr (j := 12) rfl (by decide))

theorem e_main_v21 (V : Valuation τ sig (Elt F)) :
    after ops V (main_v21 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v20 : DevRef τ sig)) :=
  unary_at outs V 30 main_v20 main_v21 (broadcastInDim S100000x128 ![0, 1] bcast_S100000x1_S100000x128_0_1 : (⟨S100000x1, .f32⟩ : BufTy).Contents (Elt F) → (⟨S100000x128, .f32⟩ : BufTy).Contents (Elt F)) _ _ rfl (wr (j := 30) rfl (by decide)) (wr (j := 29) rfl (by decide))

theorem e_main_v22 (V : Valuation τ sig (Elt F)) :
    after ops V (main_v22 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v19 : DevRef τ sig)) (after ops V (main_v21 : DevRef τ sig)) :=
  binary_at outs V 31 main_v19 main_v21 main_v22 (mulf : (⟨S100000x128, .f32⟩ : BufTy).Contents (Elt F) → (⟨S100000x128, .f32⟩ : BufTy).Contents (Elt F) → (⟨S100000x128, .f32⟩ : BufTy).Contents (Elt F)) _ _ _ rfl (wr (j := 31) rfl (by decide)) (wr (j := 28) rfl (by decide)) (wr (j := 30) rfl (by decide))

theorem e_main_cst_5 (V : Valuation τ sig (Elt F)) :
    after ops V (main_cst_5 : DevRef τ sig) = ((constant S_ .f32 0x3F666666#32) : (⟨S_, .f32⟩ : BufTy).Contents (Elt F)) :=
  nullary_at outs V 32 main_cst_5 ((constant S_ .f32 0x3F666666#32) : (⟨S_, .f32⟩ : BufTy).Contents (Elt F)) _ rfl (wr (j := 32) rfl (by decide))

theorem e_main_v23 (V : Valuation τ sig (Elt F)) :
    after ops V (main_v23 : DevRef τ sig) = (broadcastInDim S100000x128 ![] bcast_S_S100000x128 : (⟨S_, .f32⟩ : BufTy).Contents (Elt F) → (⟨S100000x128, .f32⟩ : BufTy).Contents (Elt F)) (after ops V (main_cst_5 : DevRef τ sig)) :=
  unary_at outs V 33 main_cst_5 main_v23 (broadcastInDim S100000x128 ![] bcast_S_S100000x128 : (⟨S_, .f32⟩ : BufTy).Contents (Elt F) → (⟨S100000x128, .f32⟩ : BufTy).Contents (Elt F)) _ _ rfl (wr (j := 33) rfl (by decide)) (wr (j := 32) rfl (by decide))

theorem e_main_v24 (V : Valuation τ sig (Elt F)) :
    after ops V (main_v24 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v23 : DevRef τ sig)) (after ops V (main_v22 : DevRef τ sig)) :=
  binary_at outs V 34 main_v23 main_v22 main_v24 (mulf : (⟨S100000x128, .f32⟩ : BufTy).Contents (Elt F) → (⟨S100000x128, .f32⟩ : BufTy).Contents (Elt F) → (⟨S100000x128, .f32⟩ : BufTy).Contents (Elt F)) _ _ _ rfl (wr (j := 34) rfl (by decide)) (wr (j := 33) rfl (by decide)) (wr (j := 31) rfl (by decide))

theorem e_main_cst_6 (V : Valuation τ sig (Elt F)) :
    after ops V (main_cst_6 : DevRef τ sig) = ((constant S_ .f32 0x3DCCCCCD#32) : (⟨S_, .f32⟩ : BufTy).Contents (Elt F)) :=
  nullary_at outs V 35 main_cst_6 ((constant S_ .f32 0x3DCCCCCD#32) : (⟨S_, .f32⟩ : BufTy).Contents (Elt F)) _ rfl (wr (j := 35) rfl (by decide))

theorem e_main_v25 (V : Valuation τ sig (Elt F)) :
    after ops V (main_v25 : DevRef τ sig) = (broadcastInDim S100000x128 ![] bcast_S_S100000x128 : (⟨S_, .f32⟩ : BufTy).Contents (Elt F) → (⟨S100000x128, .f32⟩ : BufTy).Contents (Elt F)) (after ops V (main_cst_6 : DevRef τ sig)) :=
  unary_at outs V 36 main_cst_6 main_v25 (broadcastInDim S100000x128 ![] bcast_S_S100000x128 : (⟨S_, .f32⟩ : BufTy).Contents (Elt F) → (⟨S100000x128, .f32⟩ : BufTy).Contents (Elt F)) _ _ rfl (wr (j := 36) rfl (by decide)) (wr (j := 35) rfl (by decide))

theorem e_main_v26 (V : Valuation τ sig (Elt F)) :
    after ops V (main_v26 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v25 : DevRef τ sig)) (after ops V (main_arg0 : DevRef τ sig)) :=
  binary_at outs V 37 main_v25 main_arg0 main_v26 (mulf : (⟨S100000x128, .f32⟩ : BufTy).Contents (Elt F) → (⟨S100000x128, .f32⟩ : BufTy).Contents (Elt F) → (⟨S100000x128, .f32⟩ : BufTy).Contents (Elt F)) _ _ _ rfl (wr (j := 37) rfl (by decide)) (wr (j := 36) rfl (by decide)) (nw arg0_nw 37)

theorem e_main_v27 (V : Valuation τ sig (Elt F)) :
    after ops V (main_v27 : DevRef τ sig) = (addf : (⟨S100000x128, .f32⟩ : BufTy).Contents (Elt F) → (⟨S100000x128, .f32⟩ : BufTy).Contents (Elt F) → (⟨S100000x128, .f32⟩ : BufTy).Contents (Elt F)) (after ops V (main_v24 : DevRef τ sig)) (after ops V (main_v26 : DevRef τ sig)) :=
  binary_at outs V 38 main_v24 main_v26 main_v27 (addf : (⟨S100000x128, .f32⟩ : BufTy).Contents (Elt F) → (⟨S100000x128, .f32⟩ : BufTy).Contents (Elt F) → (⟨S100000x128, .f32⟩ : BufTy).Contents (Elt F)) _ _ _ rfl (wr (j := 38) rfl (by decide)) (wr (j := 34) rfl (by decide)) (wr (j := 37) rfl (by decide))

theorem e_main_cst_7 (V : Valuation τ sig (Elt F)) :
    after ops V (main_cst_7 : DevRef τ sig) = ((constant S_ .f32 0x3E9D1BD0#32) : (⟨S_, .f32⟩ : BufTy).Contents (Elt F)) :=
  nullary_at outs V 39 main_cst_7 ((constant S_ .f32 0x3E9D1BD0#32) : (⟨S_, .f32⟩ : BufTy).Contents (Elt F)) _ rfl (wr (j := 39) rfl (by decide))

theorem e_main_v28 (V : Valuation τ sig (Elt F)) :
    after ops V (main_v28 : DevRef τ sig) = (broadcastInDim S100000x128 ![] bcast_S_S100000x128 : (⟨S_, .f32⟩ : BufTy).Contents (Elt F) → (⟨S100000x128, .f32⟩ : BufTy).Contents (Elt F)) (after ops V (main_cst_7 : DevRef τ sig)) :=
  unary_at outs V 40 main_cst_7 main_v28 (broadcastInDim S100000x128 ![] bcast_S_S100000x128 : (⟨S_, .f32⟩ : BufTy).Contents (Elt F) → (⟨S100000x128, .f32⟩ : BufTy).Contents (Elt F)) _ _ rfl (wr (j := 40) rfl (by decide)) (wr (j := 39) rfl (by decide))

theorem e_main_v29 (V : Valuation τ sig (Elt F)) :
    after ops V (main_v29 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v28 : DevRef τ sig)) (after ops V (main_v27 : DevRef τ sig)) :=
  binary_at outs V 41 main_v28 main_v27 main_v29 (mulf : (⟨S100000x128, .f32⟩ : BufTy).Contents (Elt F) → (⟨S100000x128, .f32⟩ : BufTy).Contents (Elt F) → (⟨S100000x128, .f32⟩ : BufTy).Contents (Elt F)) _ _ _ rfl (wr (j := 41) rfl (by decide)) (wr (j := 40) rfl (by decide)) (wr (j := 38) rfl (by decide))

theorem e_main_v30 (V : Valuation τ sig (Elt F)) :
    after ops V (main_v30 : DevRef τ sig) = ((extractStridedSlice S1x128x128 ![0, 0, 0] · slices_S4x128x128_S1x128x128_0_0_0) : (⟨S4x128x128, .f32⟩ : BufTy).Contents (Elt F) → (⟨S1x128x128, .f32⟩ : BufTy).Contents (Elt F)) (after ops V (main_arg6 : DevRef τ sig)) :=
  unary_at outs V 42 main_arg6 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)) _ _ rfl (wr (j := 42) rfl (by decide)) (nw arg6_nw 42)

theorem e_main_v31 (V : Valuation τ sig (Elt F)) :
    after ops V (main_v31 : DevRef τ sig) = shapeCast S128x128 (after ops V (main_v30 : DevRef τ sig)) shapeCasts_S1x128x128_S128x128 :=
  reshape_at outs V 43 main_v30 main_v31 _ _ _ _ rfl (wr (j := 43) rfl (by decide)) (wr (j := 42) rfl (by decide))

theorem e_main_v32 (V : Valuation τ sig (Elt F)) :
    after ops V (main_v32 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v27 : DevRef τ sig)) (after ops V (main_v31 : DevRef τ sig)) :=
  binary_at outs V 44 main_v27 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 44) rfl (by decide)) (wr (j := 38) rfl (by decide)) (wr (j := 43) rfl (by decide))

theorem e_main_cst_8 (V : Valuation τ sig (Elt F)) :
    after ops V (main_cst_8 : DevRef τ sig) = ((constant S_ .f32 0x3F317218#32) : (⟨S_, .f32⟩ : BufTy).Contents (Elt F)) :=
  nullary_at outs V 45 main_cst_8 ((constant S_ .f32 0x3F317218#32) : (⟨S_, .f32⟩ : BufTy).Contents (Elt F)) _ rfl (wr (j := 45) rfl (by decide))

theorem e_main_v33 (V : Valuation τ sig (Elt F)) :
    after ops V (main_v33 : DevRef τ sig) = (broadcastInDim S100000x128 ![] bcast_S_S100000x128 : (⟨S_, .f32⟩ : BufTy).Contents (Elt F) → (⟨S100000x128, .f32⟩ : BufTy).Contents (Elt F)) (after ops V (main_cst_8 : DevRef τ sig)) :=
  unary_at outs V 46 main_cst_8 main_v33 (broadcastInDim S100000x128 ![] bcast_S_S100000x128 : (⟨S_, .f32⟩ : BufTy).Contents (Elt F) → (⟨S100000x128, .f32⟩ : BufTy).Contents (Elt F)) _ _ rfl (wr (j := 46) rfl (by decide)) (wr (j := 45) rfl (by decide))

theorem e_main_v34 (V : Valuation τ sig (Elt F)) :
    after ops V (main_v34 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v33 : DevRef τ sig)) (after ops V (main_v32 : DevRef τ sig)) :=
  binary_at outs V 47 main_v33 main_v32 main_v34 (mulf : (⟨S100000x128, .f32⟩ : BufTy).Contents (Elt F) → (⟨S100000x128, .f32⟩ : BufTy).Contents (Elt F) → (⟨S100000x128, .f32⟩ : BufTy).Contents (Elt F)) _ _ _ rfl (wr (j := 47) rfl (by decide)) (wr (j := 46) rfl (by decide)) (wr (j := 44) rfl (by decide))

theorem e_main_v35 (V : Valuation τ sig (Elt F)) :
    after ops V (main_v35 : DevRef τ sig) = (addf : (⟨S100000x128, .f32⟩ : BufTy).Contents (Elt F) → (⟨S100000x128, .f32⟩ : BufTy).Contents (Elt F) → (⟨S100000x128, .f32⟩ : BufTy).Contents (Elt F)) (after ops V (main_v29 : DevRef τ sig)) (after ops V (main_v34 : DevRef τ sig)) :=
  binary_at outs V 48 main_v29 main_v34 main_v35 (addf : (⟨S100000x128, .f32⟩ : BufTy).Contents (Elt F) → (⟨S100000x128, .f32⟩ : BufTy).Contents (Elt F) → (⟨S100000x128, .f32⟩ : BufTy).Contents (Elt F)) _ _ _ rfl (wr (j := 48) rfl (by decide)) (wr (j := 41) rfl (by decide)) (wr (j := 47) rfl (by decide))

theorem e_main_v36 (V : Valuation τ sig (Elt F)) :
    after ops V (main_v36 : DevRef τ sig) = ((extractStridedSlice S1x128 ![0, 0] · slices_S4x128_S1x128_0_0) : (⟨S4x128, .f32⟩ : BufTy).Contents (Elt F) → (⟨S1x128, .f32⟩ : BufTy).Contents (Elt F)) (after ops V (main_arg7 : DevRef τ sig)) :=
  unary_at outs V 49 main_arg7 main_v36 ((extractStridedSlice S1x128 ![0, 0] · slices_S4x128_S1x128_0_0) : (⟨S4x128, .f32⟩ : BufTy).Contents (Elt F) → (⟨S1x128, .f32⟩ : BufTy).Contents (Elt F)) _ _ rfl (wr (j := 49) rfl (by decide)) (nw arg7_nw 49)

theorem e_main_v37 (V : Valuation τ sig (Elt F)) :
    after ops V (main_v37 : DevRef τ sig) = shapeCast S128 (after ops V (main_v36 : DevRef τ sig)) shapeCasts_S1x128_S128 :=
  reshape_at outs V 50 main_v36 main_v37 _ _ _ _ rfl (wr (j := 50) rfl (by decide)) (wr (j := 49) rfl (by decide))

theorem e_main_v38 (V : Valuation τ sig (Elt F)) :
    after ops V (main_v38 : DevRef τ sig) = (broadcastInDim S1x128 ![1] bcast_S128_S1x128_1 : (⟨S128, .f32⟩ : BufTy).Contents (Elt F) → (⟨S1x128, .f32⟩ : BufTy).Contents (Elt F)) (after ops V (main_v37 : DevRef τ sig)) :=
  unary_at outs V 51 main_v37 main_v38 (broadcastInDim S1x128 ![1] bcast_S128_S1x128_1 : (⟨S128, .f32⟩ : BufTy).Contents (Elt F) → (⟨S1x128, .f32⟩ : BufTy).Contents (Elt F)) _ _ rfl (wr (j := 51) rfl (by decide)) (wr (j := 50) rfl (by decide))

theorem e_main_v39 (V : Valuation τ sig (Elt F)) :
    after ops V (main_v39 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v38 : DevRef τ sig)) :=
  unary_at outs V 52 main_v38 main_v39 (broadcastInDim S100000x128 ![0, 1] bcast_S1x128_S100000x128_0_1 : (⟨S1x128, .f32⟩ : BufTy).Contents (Elt F) → (⟨S100000x128, .f32⟩ : BufTy).Contents (Elt F)) _ _ rfl (wr (j := 52) rfl (by decide)) (wr (j := 51) rfl (by decide))

theorem e_main_v40 (V : Valuation τ sig (Elt F)) :
    after ops V (main_v40 : DevRef τ sig) = (addf : (⟨S100000x128, .f32⟩ : BufTy).Contents (Elt F) → (⟨S100000x128, .f32⟩ : BufTy).Contents (Elt F) → (⟨S100000x128, .f32⟩ : BufTy).Contents (Elt F)) (after ops V (main_v35 : DevRef τ sig)) (after ops V (main_v39 : DevRef τ sig)) :=
  binary_at outs V 53 main_v35 main_v39 main_v40 (addf : (⟨S100000x128, .f32⟩ : BufTy).Contents (Elt F) → (⟨S100000x128, .f32⟩ : BufTy).Contents (Elt F) → (⟨S100000x128, .f32⟩ : BufTy).Contents (Elt F)) _ _ _ rfl (wr (j := 53) rfl (by decide)) (wr (j := 48) rfl (by decide)) (wr (j := 52) rfl (by decide))

theorem e_main_call1_cst (V : Valuation τ sig (Elt F)) :
    after ops V (main_call1_cst : DevRef τ sig) = ((constant S_ .f32 0x00000000#32) : (⟨S_, .f32⟩ : BufTy).Contents (Elt F)) :=
  nullary_at outs V 54 main_call1_cst ((constant S_ .f32 0x00000000#32) : (⟨S_, .f32⟩ : BufTy).Contents (Elt F)) _ rfl (wr (j := 54) rfl (by decide))

theorem e_main_call1_v0 (V : Valuation τ sig (Elt F)) :
    after ops V (main_call1_v0 : DevRef τ sig) = ((broadcastInDim S100000x128 ![] bcast_S_S100000x128) : (⟨S_, .f32⟩ : BufTy).Contents (Elt F) → (⟨S100000x128, .f32⟩ : BufTy).Contents (Elt F)) (after ops V (main_call1_cst : DevRef τ sig)) :=
  unary_at outs V 55 main_call1_cst main_call1_v0 ((broadcastInDim S100000x128 ![] bcast_S_S100000x128) : (⟨S_, .f32⟩ : BufTy).Contents (Elt F) → (⟨S100000x128, .f32⟩ : BufTy).Contents (Elt F)) _ _ rfl (wr (j := 55) rfl (by decide)) (wr (j := 54) rfl (by decide))

theorem e_main_v41 (V : Valuation τ sig (Elt F)) :
    after ops V (main_v41 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v40 : DevRef τ sig)) (after ops V (main_call1_v0 : DevRef τ sig)) :=
  binary_at outs V 56 main_v40 main_call1_v0 main_v41 (maximumf : (⟨S100000x128, .f32⟩ : BufTy).Contents (Elt F) → (⟨S100000x128, .f32⟩ : BufTy).Contents (Elt F) → (⟨S100000x128, .f32⟩ : BufTy).Contents (Elt F)) _ _ _ rfl (wr (j := 56) rfl (by decide)) (wr (j := 53) rfl (by decide)) (wr (j := 55) rfl (by decide))

theorem e_main_v42 (V : Valuation τ sig (Elt F)) :
    after ops V (main_v42 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 57 main_v6 main_v42 (broadcastInDim S100000x1 ![0] bcast_S100000_S100000x1_0 : (⟨S100000, .f32⟩ : BufTy).Contents (Elt F) → (⟨S100000x1, .f32⟩ : BufTy).Contents (Elt F)) _ _ rfl (wr (j := 57) rfl (by decide)) (wr (j := 12) rfl (by decide))

theorem e_main_v43 (V : Valuation τ sig (Elt F)) :
    after ops V (main_v43 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v42 : DevRef τ sig)) :=
  unary_at outs V 58 main_v42 main_v43 (broadcastInDim S100000x128 ![0, 1] bcast_S100000x1_S100000x128_0_1 : (⟨S100000x1, .f32⟩ : BufTy).Contents (Elt F) → (⟨S100000x128, .f32⟩ : BufTy).Contents (Elt F)) _ _ rfl (wr (j := 58) rfl (by decide)) (wr (j := 57) rfl (by decide))

theorem e_main_v44 (V : Valuation τ sig (Elt F)) :
    after ops V (main_v44 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v41 : DevRef τ sig)) (after ops V (main_v43 : DevRef τ sig)) :=
  binary_at outs V 59 main_v41 main_v43 main_v44 (mulf : (⟨S100000x128, .f32⟩ : BufTy).Contents (Elt F) → (⟨S100000x128, .f32⟩ : BufTy).Contents (Elt F) → (⟨S100000x128, .f32⟩ : BufTy).Contents (Elt F)) _ _ _ rfl (wr (j := 59) rfl (by decide)) (wr (j := 56) rfl (by decide)) (wr (j := 58) rfl (by decide))

theorem e_main_c_9 (V : Valuation τ sig (Elt F)) :
    after ops V (main_c_9 : DevRef τ sig) = ((constantI S_ 32 0#32) : (⟨S_, .i32⟩ : BufTy).Contents (Elt F)) :=
  nullary_at outs V 60 main_c_9 ((constantI S_ 32 0#32) : (⟨S_, .i32⟩ : BufTy).Contents (Elt F)) _ rfl (wr (j := 60) rfl (by decide))

theorem e_main_v45 (V : Valuation τ sig (Elt F)) :
    after ops V (main_v45 : DevRef τ sig) = (broadcastInDim S1600000 ![] bcast_S_S1600000 : (⟨S_, .i32⟩ : BufTy).Contents (Elt F) → (⟨S1600000, .i32⟩ : BufTy).Contents (Elt F)) (after ops V (main_c_9 : DevRef τ sig)) :=
  unary_at outs V 61 main_c_9 main_v45 (broadcastInDim S1600000 ![] bcast_S_S1600000 : (⟨S_, .i32⟩ : BufTy).Contents (Elt F) → (⟨S1600000, .i32⟩ : BufTy).Contents (Elt F)) _ _ rfl (wr (j := 61) rfl (by decide)) (wr (j := 60) rfl (by decide))

theorem e_main_v46 (V : Valuation τ sig (Elt F)) :
    after ops V (main_v46 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg2 : DevRef τ sig)) (after ops V (main_v45 : DevRef τ sig)) :=
  binary_at outs V 62 main_arg2 main_v45 main_v46 (cmpi .slt : (⟨S1600000, .i32⟩ : BufTy).Contents (Elt F) → (⟨S1600000, .i32⟩ : BufTy).Contents (Elt F) → (⟨S1600000, .i1⟩ : BufTy).Contents (Elt F)) _ _ _ rfl (wr (j := 62) rfl (by decide)) (nw arg2_nw 62) (wr (j := 61) rfl (by decide))

theorem e_main_c_10 (V : Valuation τ sig (Elt F)) :
    after ops V (main_c_10 : DevRef τ sig) = ((constantI S_ 32 100000#32) : (⟨S_, .i32⟩ : BufTy).Contents (Elt F)) :=
  nullary_at outs V 63 main_c_10 ((constantI S_ 32 100000#32) : (⟨S_, .i32⟩ : BufTy).Contents (Elt F)) _ rfl (wr (j := 63) rfl (by decide))

end Cert.ReferenceIdeal.Hand

end
-- ==== Proof.RefEq1.lean ====
/-
  The reference program read one operation at a time, window 1: after the whole line each buffer written by an
  operation of this window holds that operation's function of what its operand buffers hold after the whole line
  (every buffer is written once, and an operand is written, if at all, before the operation that reads it).
-/
import proofs.«158605_j26792005992870_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

theorem e_main_v47 (V : Valuation τ sig (Elt F)) :
    after ops V (main_v47 : DevRef τ sig) = (broadcastInDim S1600000 ![] bcast_S_S1600000 : (⟨S_, .i32⟩ : BufTy).Contents (Elt F) → (⟨S1600000, .i32⟩ : BufTy).Contents (Elt F)) (after ops V (main_c_10 : DevRef τ sig)) :=
  unary_at outs V 64 main_c_10 main_v47 (broadcastInDim S1600000 ![] bcast_S_S1600000 : (⟨S_, .i32⟩ : BufTy).Contents (Elt F) → (⟨S1600000, .i32⟩ : BufTy).Contents (Elt F)) _ _ rfl (wr (j := 64) rfl (by decide)) (wr (j := 63) rfl (by decide))

theorem e_main_v48 (V : Valuation τ sig (Elt F)) :
    after ops V (main_v48 : DevRef τ sig) = (addi : (⟨S1600000, .i32⟩ : BufTy).Contents (Elt F) → (⟨S1600000, .i32⟩ : BufTy).Contents (Elt F) → (⟨S1600000, .i32⟩ : BufTy).Contents (Elt F)) (after ops V (main_arg2 : DevRef τ sig)) (after ops V (main_v47 : DevRef τ sig)) :=
  binary_at outs V 65 main_arg2 main_v47 main_v48 (addi : (⟨S1600000, .i32⟩ : BufTy).Contents (Elt F) → (⟨S1600000, .i32⟩ : BufTy).Contents (Elt F) → (⟨S1600000, .i32⟩ : BufTy).Contents (Elt F)) _ _ _ rfl (wr (j := 65) rfl (by decide)) (nw arg2_nw 65) (wr (j := 64) rfl (by decide))

theorem e_main_v49 (V : Valuation τ sig (Elt F)) :
    after ops V (main_v49 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v46 : DevRef τ sig)) (after ops V (main_v48 : DevRef τ sig)) (after ops V (main_arg2 : DevRef τ sig)) :=
  ternary_at outs V 66 main_v46 main_v48 main_arg2 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 66) rfl (by decide)) (wr (j := 62) rfl (by decide)) (wr (j := 65) rfl (by decide)) (nw arg2_nw 66)

theorem e_main_v50 (V : Valuation τ sig (Elt F)) :
    after ops V (main_v50 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v49 : DevRef τ sig)) :=
  unary_at outs V 67 main_v49 main_v50 (broadcastInDim S1600000x1 ![0] bcast_S1600000_S1600000x1_0 : (⟨S1600000, .i32⟩ : BufTy).Contents (Elt F) → (⟨S1600000x1, .i32⟩ : BufTy).Contents (Elt F)) _ _ rfl (wr (j := 67) rfl (by decide)) (wr (j := 66) rfl (by decide))

theorem e_main_v51 (V : Valuation τ sig (Elt F)) :
    after ops V (main_v51 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v44 : DevRef τ sig)) (after ops V (main_v50 : DevRef τ sig)) :=
  binary_at outs V 68 main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 68) rfl (by decide)) (wr (j := 59) rfl (by decide)) (wr (j := 67) rfl (by decide))

theorem e_main_cst_11 (V : Valuation τ sig (Elt F)) :
    after ops V (main_cst_11 : DevRef τ sig) = ((constant S_ .f32 0x00000000#32) : (⟨S_, .f32⟩ : BufTy).Contents (Elt F)) :=
  nullary_at outs V 69 main_cst_11 ((constant S_ .f32 0x00000000#32) : (⟨S_, .f32⟩ : BufTy).Contents (Elt F)) _ rfl (wr (j := 69) rfl (by decide))

theorem e_main_v52 (V : Valuation τ sig (Elt F)) :
    after ops V (main_v52 : DevRef τ sig) = (broadcastInDim S100000x128 ![] bcast_S_S100000x128 : (⟨S_, .f32⟩ : BufTy).Contents (Elt F) → (⟨S100000x128, .f32⟩ : BufTy).Contents (Elt F)) (after ops V (main_cst_11 : DevRef τ sig)) :=
  unary_at outs V 70 main_cst_11 main_v52 (broadcastInDim S100000x128 ![] bcast_S_S100000x128 : (⟨S_, .f32⟩ : BufTy).Contents (Elt F) → (⟨S100000x128, .f32⟩ : BufTy).Contents (Elt F)) _ _ rfl (wr (j := 70) rfl (by decide)) (wr (j := 69) rfl (by decide))

theorem e_main_v53 (V : Valuation τ sig (Elt F)) :
    after ops V (main_v53 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg3 : DevRef τ sig)) :=
  unary_at outs V 71 main_arg3 main_v53 (broadcastInDim S1600000x1 ![0] bcast_S1600000_S1600000x1_0 : (⟨S1600000, .i32⟩ : BufTy).Contents (Elt F) → (⟨S1600000x1, .i32⟩ : BufTy).Contents (Elt F)) _ _ rfl (wr (j := 71) rfl (by decide)) (nw arg3_nw 71)

theorem e_main_v54 (V : Valuation τ sig (Elt F)) :
    after ops V (main_v54 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v52 : DevRef τ sig)) (after ops V (main_v53 : DevRef τ sig)) (after ops V (main_v51 : DevRef τ sig)) :=
  ternary_at outs V 72 main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 72) rfl (by decide)) (wr (j := 70) rfl (by decide)) (wr (j := 71) rfl (by decide)) (wr (j := 68) rfl (by decide))

theorem e_main_v55 (V : Valuation τ sig (Elt F)) :
    after ops V (main_v55 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 73 main_v6 main_v55 (broadcastInDim S100000x1 ![0] bcast_S100000_S100000x1_0 : (⟨S100000, .f32⟩ : BufTy).Contents (Elt F) → (⟨S100000x1, .f32⟩ : BufTy).Contents (Elt F)) _ _ rfl (wr (j := 73) rfl (by decide)) (wr (j := 12) rfl (by decide))

theorem e_main_v56 (V : Valuation τ sig (Elt F)) :
    after ops V (main_v56 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v55 : DevRef τ sig)) :=
  unary_at outs V 74 main_v55 main_v56 (broadcastInDim S100000x128 ![0, 1] bcast_S100000x1_S100000x128_0_1 : (⟨S100000x1, .f32⟩ : BufTy).Contents (Elt F) → (⟨S100000x128, .f32⟩ : BufTy).Contents (Elt F)) _ _ rfl (wr (j := 74) rfl (by decide)) (wr (j := 73) rfl (by decide))

theorem e_main_v57 (V : Valuation τ sig (Elt F)) :
    after ops V (main_v57 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v54 : DevRef τ sig)) (after ops V (main_v56 : DevRef τ sig)) :=
  binary_at outs V 75 main_v54 main_v56 main_v57 (mulf : (⟨S100000x128, .f32⟩ : BufTy).Contents (Elt F) → (⟨S100000x128, .f32⟩ : BufTy).Contents (Elt F) → (⟨S100000x128, .f32⟩ : BufTy).Contents (Elt F)) _ _ _ rfl (wr (j := 75) rfl (by decide)) (wr (j := 72) rfl (by decide)) (wr (j := 74) rfl (by decide))

theorem e_main_cst_12 (V : Valuation τ sig (Elt F)) :
    after ops V (main_cst_12 : DevRef τ sig) = ((constant S_ .f32 0x3F666666#32) : (⟨S_, .f32⟩ : BufTy).Contents (Elt F)) :=
  nullary_at outs V 76 main_cst_12 ((constant S_ .f32 0x3F666666#32) : (⟨S_, .f32⟩ : BufTy).Contents (Elt F)) _ rfl (wr (j := 76) rfl (by decide))

theorem e_main_v58 (V : Valuation τ sig (Elt F)) :
    after ops V (main_v58 : DevRef τ sig) = (broadcastInDim S100000x128 ![] bcast_S_S100000x128 : (⟨S_, .f32⟩ : BufTy).Contents (Elt F) → (⟨S100000x128, .f32⟩ : BufTy).Contents (Elt F)) (after ops V (main_cst_12 : DevRef τ sig)) :=
  unary_at outs V 77 main_cst_12 main_v58 (broadcastInDim S100000x128 ![] bcast_S_S100000x128 : (⟨S_, .f32⟩ : BufTy).Contents (Elt F) → (⟨S100000x128, .f32⟩ : BufTy).Contents (Elt F)) _ _ rfl (wr (j := 77) rfl (by decide)) (wr (j := 76) rfl (by decide))

theorem e_main_v59 (V : Valuation τ sig (Elt F)) :
    after ops V (main_v59 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v58 : DevRef τ sig)) (after ops V (main_v57 : DevRef τ sig)) :=
  binary_at outs V 78 main_v58 main_v57 main_v59 (mulf : (⟨S100000x128, .f32⟩ : BufTy).Contents (Elt F) → (⟨S100000x128, .f32⟩ : BufTy).Contents (Elt F) → (⟨S100000x128, .f32⟩ : BufTy).Contents (Elt F)) _ _ _ rfl (wr (j := 78) rfl (by decide)) (wr (j := 77) rfl (by decide)) (wr (j := 75) rfl (by decide))

theorem e_main_cst_13 (V : Valuation τ sig (Elt F)) :
    after ops V (main_cst_13 : DevRef τ sig) = ((constant S_ .f32 0x3DCCCCCD#32) : (⟨S_, .f32⟩ : BufTy).Contents (Elt F)) :=
  nullary_at outs V 79 main_cst_13 ((constant S_ .f32 0x3DCCCCCD#32) : (⟨S_, .f32⟩ : BufTy).Contents (Elt F)) _ rfl (wr (j := 79) rfl (by decide))

theorem e_main_v60 (V : Valuation τ sig (Elt F)) :
    after ops V (main_v60 : DevRef τ sig) = (broadcastInDim S100000x128 ![] bcast_S_S100000x128 : (⟨S_, .f32⟩ : BufTy).Contents (Elt F) → (⟨S100000x128, .f32⟩ : BufTy).Contents (Elt F)) (after ops V (main_cst_13 : DevRef τ sig)) :=
  unary_at outs V 80 main_cst_13 main_v60 (broadcastInDim S100000x128 ![] bcast_S_S100000x128 : (⟨S_, .f32⟩ : BufTy).Contents (Elt F) → (⟨S100000x128, .f32⟩ : BufTy).Contents (Elt F)) _ _ rfl (wr (j := 80) rfl (by decide)) (wr (j := 79) rfl (by decide))

theorem e_main_v61 (V : Valuation τ sig (Elt F)) :
    after ops V (main_v61 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v60 : DevRef τ sig)) (after ops V (main_arg0 : DevRef τ sig)) :=
  binary_at outs V 81 main_v60 main_arg0 main_v61 (mulf : (⟨S100000x128, .f32⟩ : BufTy).Contents (Elt F) → (⟨S100000x128, .f32⟩ : BufTy).Contents (Elt F) → (⟨S100000x128, .f32⟩ : BufTy).Contents (Elt F)) _ _ _ rfl (wr (j := 81) rfl (by decide)) (wr (j := 80) rfl (by decide)) (nw arg0_nw 81)

theorem e_main_v62 (V : Valuation τ sig (Elt F)) :
    after ops V (main_v62 : DevRef τ sig) = (addf : (⟨S100000x128, .f32⟩ : BufTy).Contents (Elt F) → (⟨S100000x128, .f32⟩ : BufTy).Contents (Elt F) → (⟨S100000x128, .f32⟩ : BufTy).Contents (Elt F)) (after ops V (main_v59 : DevRef τ sig)) (after ops V (main_v61 : DevRef τ sig)) :=
  binary_at outs V 82 main_v59 main_v61 main_v62 (addf : (⟨S100000x128, .f32⟩ : BufTy).Contents (Elt F) → (⟨S100000x128, .f32⟩ : BufTy).Contents (Elt F) → (⟨S100000x128, .f32⟩ : BufTy).Contents (Elt F)) _ _ _ rfl (wr (j := 82) rfl (by decide)) (wr (j := 78) rfl (by decide)) (wr (j := 81) rfl (by decide))

theorem e_main_cst_14 (V : Valuation τ sig (Elt F)) :
    after ops V (main_cst_14 : DevRef τ sig) = ((constant S_ .f32 0x3F183370#32) : (⟨S_, .f32⟩ : BufTy).Contents (Elt F)) :=
  nullary_at outs V 83 main_cst_14 ((constant S_ .f32 0x3F183370#32) : (⟨S_, .f32⟩ : BufTy).Contents (Elt F)) _ rfl (wr (j := 83) rfl (by decide))

theorem e_main_v63 (V : Valuation τ sig (Elt F)) :
    after ops V (main_v63 : DevRef τ sig) = (broadcastInDim S100000x128 ![] bcast_S_S100000x128 : (⟨S_, .f32⟩ : BufTy).Contents (Elt F) → (⟨S100000x128, .f32⟩ : BufTy).Contents (Elt F)) (after ops V (main_cst_14 : DevRef τ sig)) :=
  unary_at outs V 84 main_cst_14 main_v63 (broadcastInDim S100000x128 ![] bcast_S_S100000x128 : (⟨S_, .f32⟩ : BufTy).Contents (Elt F) → (⟨S100000x128, .f32⟩ : BufTy).Contents (Elt F)) _ _ rfl (wr (j := 84) rfl (by decide)) (wr (j := 83) rfl (by decide))

theorem e_main_v64 (V : Valuation τ sig (Elt F)) :
    after ops V (main_v64 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v63 : DevRef τ sig)) (after ops V (main_v62 : DevRef τ sig)) :=
  binary_at outs V 85 main_v63 main_v62 main_v64 (mulf : (⟨S100000x128, .f32⟩ : BufTy).Contents (Elt F) → (⟨S100000x128, .f32⟩ : BufTy).Contents (Elt F) → (⟨S100000x128, .f32⟩ : BufTy).Contents (Elt F)) _ _ _ rfl (wr (j := 85) rfl (by decide)) (wr (j := 84) rfl (by decide)) (wr (j := 82) rfl (by decide))

theorem e_main_v65 (V : Valuation τ sig (Elt F)) :
    after ops V (main_v65 : DevRef τ sig) = ((extractStridedSlice S1x128x128 ![1, 0, 0] · slices_S4x128x128_S1x128x128_1_0_0) : (⟨S4x128x128, .f32⟩ : BufTy).Contents (Elt F) → (⟨S1x128x128, .f32⟩ : BufTy).Contents (Elt F)) (after ops V (main_arg6 : DevRef τ sig)) :=
  unary_at outs V 86 main_arg6 main_v65 ((extractStridedSlice S1x128x128 ![1, 0, 0] · slices_S4x128x128_S1x128x128_1_0_0) : (⟨S4x128x128, .f32⟩ : BufTy).Contents (Elt F) → (⟨S1x128x128, .f32⟩ : BufTy).Contents (Elt F)) _ _ rfl (wr (j := 86) rfl (by decide)) (nw arg6_nw 86)

theorem e_main_v66 (V : Valuation τ sig (Elt F)) :
    after ops V (main_v66 : DevRef τ sig) = shapeCast S128x128 (after ops V (main_v65 : DevRef τ sig)) shapeCasts_S1x128x128_S128x128 :=
  reshape_at outs V 87 main_v65 main_v66 _ _ _ _ rfl (wr (j := 87) rfl (by decide)) (wr (j := 86) rfl (by decide))

theorem e_main_v67 (V : Valuation τ sig (Elt F)) :
    after ops V (main_v67 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v62 : DevRef τ sig)) (after ops V (main_v66 : DevRef τ sig)) :=
  binary_at outs V 88 main_v62 main_v66 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 88) rfl (by decide)) (wr (j := 82) rfl (by decide)) (wr (j := 87) rfl (by decide))

theorem e_main_cst_15 (V : Valuation τ sig (Elt F)) :
    after ops V (main_cst_15 : DevRef τ sig) = ((constant S_ .f32 0x3ECF991F#32) : (⟨S_, .f32⟩ : BufTy).Contents (Elt F)) :=
  nullary_at outs V 89 main_cst_15 ((constant S_ .f32 0x3ECF991F#32) : (⟨S_, .f32⟩ : BufTy).Contents (Elt F)) _ rfl (wr (j := 89) rfl (by decide))

theorem e_main_v68 (V : Valuation τ sig (Elt F)) :
    after ops V (main_v68 : DevRef τ sig) = (broadcastInDim S100000x128 ![] bcast_S_S100000x128 : (⟨S_, .f32⟩ : BufTy).Contents (Elt F) → (⟨S100000x128, .f32⟩ : BufTy).Contents (Elt F)) (after ops V (main_cst_15 : DevRef τ sig)) :=
  unary_at outs V 90 main_cst_15 main_v68 (broadcastInDim S100000x128 ![] bcast_S_S100000x128 : (⟨S_, .f32⟩ : BufTy).Contents (Elt F) → (⟨S100000x128, .f32⟩ : BufTy).Contents (Elt F)) _ _ rfl (wr (j := 90) rfl (by decide)) (wr (j := 89) rfl (by decide))

theorem e_main_v69 (V : Valuation τ sig (Elt F)) :
    after ops V (main_v69 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v68 : DevRef τ sig)) (after ops V (main_v67 : DevRef τ sig)) :=
  binary_at outs V 91 main_v68 main_v67 main_v69 (mulf : (⟨S100000x128, .f32⟩ : BufTy).Contents (Elt F) → (⟨S100000x128, .f32⟩ : BufTy).Contents (Elt F) → (⟨S100000x128, .f32⟩ : BufTy).Contents (Elt F)) _ _ _ rfl (wr (j := 91) rfl (by decide)) (wr (j := 90) rfl (by decide)) (wr (j := 88) rfl (by decide))

theorem e_main_v70 (V : Valuation τ sig (Elt F)) :
    after ops V (main_v70 : DevRef τ sig) = (addf : (⟨S100000x128, .f32⟩ : BufTy).Contents (Elt F) → (⟨S100000x128, .f32⟩ : BufTy).Contents (Elt F) → (⟨S100000x128, .f32⟩ : BufTy).Contents (Elt F)) (after ops V (main_v64 : DevRef τ sig)) (after ops V (main_v69 : DevRef τ sig)) :=
  binary_at outs V 92 main_v64 main_v69 main_v70 (addf : (⟨S100000x128, .f32⟩ : BufTy).Contents (Elt F) → (⟨S100000x128, .f32⟩ : BufTy).Contents (Elt F) → (⟨S100000x128, .f32⟩ : BufTy).Contents (Elt F)) _ _ _ rfl (wr (j := 92) rfl (by decide)) (wr (j := 85) rfl (by decide)) (wr (j := 91) rfl (by decide))

theorem e_main_v71 (V : Valuation τ sig (Elt F)) :
    after ops V (main_v71 : DevRef τ sig) = ((extractStridedSlice S1x128 ![1, 0] · slices_S4x128_S1x128_1_0) : (⟨S4x128, .f32⟩ : BufTy).Contents (Elt F) → (⟨S1x128, .f32⟩ : BufTy).Contents (Elt F)) (after ops V (main_arg7 : DevRef τ sig)) :=
  unary_at outs V 93 main_arg7 main_v71 ((extractStridedSlice S1x128 ![1, 0] · slices_S4x128_S1x128_1_0) : (⟨S4x128, .f32⟩ : BufTy).Contents (Elt F) → (⟨S1x128, .f32⟩ : BufTy).Contents (Elt F)) _ _ rfl (wr (j := 93) rfl (by decide)) (nw arg7_nw 93)

theorem e_main_v72 (V : Valuation τ sig (Elt F)) :
    after ops V (main_v72 : DevRef τ sig) = shapeCast S128 (after ops V (main_v71 : DevRef τ sig)) shapeCasts_S1x128_S128 :=
  reshape_at outs V 94 main_v71 main_v72 _ _ _ _ rfl (wr (j := 94) rfl (by decide)) (wr (j := 93) rfl (by decide))

theorem e_main_v73 (V : Valuation τ sig (Elt F)) :
    after ops V (main_v73 : DevRef τ sig) = (broadcastInDim S1x128 ![1] bcast_S128_S1x128_1 : (⟨S128, .f32⟩ : BufTy).Contents (Elt F) → (⟨S1x128, .f32⟩ : BufTy).Contents (Elt F)) (after ops V (main_v72 : DevRef τ sig)) :=
  unary_at outs V 95 main_v72 main_v73 (broadcastInDim S1x128 ![1] bcast_S128_S1x128_1 : (⟨S128, .f32⟩ : BufTy).Contents (Elt F) → (⟨S1x128, .f32⟩ : BufTy).Contents (Elt F)) _ _ rfl (wr (j := 95) rfl (by decide)) (wr (j := 94) rfl (by decide))

theorem e_main_v74 (V : Valuation τ sig (Elt F)) :
    after ops V (main_v74 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v73 : DevRef τ sig)) :=
  unary_at outs V 96 main_v73 main_v74 (broadcastInDim S100000x128 ![0, 1] bcast_S1x128_S100000x128_0_1 : (⟨S1x128, .f32⟩ : BufTy).Contents (Elt F) → (⟨S100000x128, .f32⟩ : BufTy).Contents (Elt F)) _ _ rfl (wr (j := 96) rfl (by decide)) (wr (j := 95) rfl (by decide))

theorem e_main_v75 (V : Valuation τ sig (Elt F)) :
    after ops V (main_v75 : DevRef τ sig) = (addf : (⟨S100000x128, .f32⟩ : BufTy).Contents (Elt F) → (⟨S100000x128, .f32⟩ : BufTy).Contents (Elt F) → (⟨S100000x128, .f32⟩ : BufTy).Contents (Elt F)) (after ops V (main_v70 : DevRef τ sig)) (after ops V (main_v74 : DevRef τ sig)) :=
  binary_at outs V 97 main_v70 main_v74 main_v75 (addf : (⟨S100000x128, .f32⟩ : BufTy).Contents (Elt F) → (⟨S100000x128, .f32⟩ : BufTy).Contents (Elt F) → (⟨S100000x128, .f32⟩ : BufTy).Contents (Elt F)) _ _ _ rfl (wr (j := 97) rfl (by decide)) (wr (j := 92) rfl (by decide)) (wr (j := 96) rfl (by decide))

theorem e_main_call2_cst (V : Valuation τ sig (Elt F)) :
    after ops V (main_call2_cst : DevRef τ sig) = ((constant S_ .f32 0x00000000#32) : (⟨S_, .f32⟩ : BufTy).Contents (Elt F)) :=
  nullary_at outs V 98 main_call2_cst ((constant S_ .f32 0x00000000#32) : (⟨S_, .f32⟩ : BufTy).Contents (Elt F)) _ rfl (wr (j := 98) rfl (by decide))

theorem e_main_call2_v0 (V : Valuation τ sig (Elt F)) :
    after ops V (main_call2_v0 : DevRef τ sig) = ((broadcastInDim S100000x128 ![] bcast_S_S100000x128) : (⟨S_, .f32⟩ : BufTy).Contents (Elt F) → (⟨S100000x128, .f32⟩ : BufTy).Contents (Elt F)) (after ops V (main_call2_cst : DevRef τ sig)) :=
  unary_at outs V 99 main_call2_cst main_call2_v0 ((broadcastInDim S100000x128 ![] bcast_S_S100000x128) : (⟨S_, .f32⟩ : BufTy).Contents (Elt F) → (⟨S100000x128, .f32⟩ : BufTy).Contents (Elt F)) _ _ rfl (wr (j := 99) rfl (by decide)) (wr (j := 98) rfl (by decide))

theorem e_main_v76 (V : Valuation τ sig (Elt F)) :
    after ops V (main_v76 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v75 : DevRef τ sig)) (after ops V (main_call2_v0 : DevRef τ sig)) :=
  binary_at outs V 100 main_v75 main_call2_v0 main_v76 (maximumf : (⟨S100000x128, .f32⟩ : BufTy).Contents (Elt F) → (⟨S100000x128, .f32⟩ : BufTy).Contents (Elt F) → (⟨S100000x128, .f32⟩ : BufTy).Contents (Elt F)) _ _ _ rfl (wr (j := 100) rfl (by decide)) (wr (j := 97) rfl (by decide)) (wr (j := 99) rfl (by decide))

theorem e_main_v77 (V : Valuation τ sig (Elt F)) :
    after ops V (main_v77 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 101 main_v6 main_v77 (broadcastInDim S100000x1 ![0] bcast_S100000_S100000x1_0 : (⟨S100000, .f32⟩ : BufTy).Contents (Elt F) → (⟨S100000x1, .f32⟩ : BufTy).Contents (Elt F)) _ _ rfl (wr (j := 101) rfl (by decide)) (wr (j := 12) rfl (by decide))

theorem e_main_v78 (V : Valuation τ sig (Elt F)) :
    after ops V (main_v78 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v77 : DevRef τ sig)) :=
  unary_at outs V 102 main_v77 main_v78 (broadcastInDim S100000x128 ![0, 1] bcast_S100000x1_S100000x128_0_1 : (⟨S100000x1, .f32⟩ : BufTy).Contents (Elt F) → (⟨S100000x128, .f32⟩ : BufTy).Contents (Elt F)) _ _ rfl (wr (j := 102) rfl (by decide)) (wr (j := 101) rfl (by decide))

theorem e_main_v79 (V : Valuation τ sig (Elt F)) :
    after ops V (main_v79 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v76 : DevRef τ sig)) (after ops V (main_v78 : DevRef τ sig)) :=
  binary_at outs V 103 main_v76 main_v78 main_v79 (mulf : (⟨S100000x128, .f32⟩ : BufTy).Contents (Elt F) → (⟨S100000x128, .f32⟩ : BufTy).Contents (Elt F) → (⟨S100000x128, .f32⟩ : BufTy).Contents (Elt F)) _ _ _ rfl (wr (j := 103) rfl (by decide)) (wr (j := 100) rfl (by decide)) (wr (j := 102) rfl (by decide))

theorem e_main_c_16 (V : Valuation τ sig (Elt F)) :
    after ops V (main_c_16 : DevRef τ sig) = ((constantI S_ 32 0#32) : (⟨S_, .i32⟩ : BufTy).Contents (Elt F)) :=
  nullary_at outs V 104 main_c_16 ((constantI S_ 32 0#32) : (⟨S_, .i32⟩ : BufTy).Contents (Elt F)) _ rfl (wr (j := 104) rfl (by decide))

theorem e_main_v80 (V : Valuation τ sig (Elt F)) :
    after ops V (main_v80 : DevRef τ sig) = (broadcastInDim S1600000 ![] bcast_S_S1600000 : (⟨S_, .i32⟩ : BufTy).Contents (Elt F) → (⟨S1600000, .i32⟩ : BufTy).Contents (Elt F)) (after ops V (main_c_16 : DevRef τ sig)) :=
  unary_at outs V 105 main_c_16 main_v80 (broadcastInDim S1600000 ![] bcast_S_S1600000 : (⟨S_, .i32⟩ : BufTy).Contents (Elt F) → (⟨S1600000, .i32⟩ : BufTy).Contents (Elt F)) _ _ rfl (wr (j := 105) rfl (by decide)) (wr (j := 104) rfl (by decide))

theorem e_main_v81 (V : Valuation τ sig (Elt F)) :
    after ops V (main_v81 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg2 : DevRef τ sig)) (after ops V (main_v80 : DevRef τ sig)) :=
  binary_at outs V 106 main_arg2 main_v80 main_v81 (cmpi .slt : (⟨S1600000, .i32⟩ : BufTy).Contents (Elt F) → (⟨S1600000, .i32⟩ : BufTy).Contents (Elt F) → (⟨S1600000, .i1⟩ : BufTy).Contents (Elt F)) _ _ _ rfl (wr (j := 106) rfl (by decide)) (nw arg2_nw 106) (wr (j := 105) rfl (by decide))

theorem e_main_c_17 (V : Valuation τ sig (Elt F)) :
    after ops V (main_c_17 : DevRef τ sig) = ((constantI S_ 32 100000#32) : (⟨S_, .i32⟩ : BufTy).Contents (Elt F)) :=
  nullary_at outs V 107 main_c_17 ((constantI S_ 32 100000#32) : (⟨S_, .i32⟩ : BufTy).Contents (Elt F)) _ rfl (wr (j := 107) rfl (by decide))

theorem e_main_v82 (V : Valuation τ sig (Elt F)) :
    after ops V (main_v82 : DevRef τ sig) = (broadcastInDim S1600000 ![] bcast_S_S1600000 : (⟨S_, .i32⟩ : BufTy).Contents (Elt F) → (⟨S1600000, .i32⟩ : BufTy).Contents (Elt F)) (after ops V (main_c_17 : DevRef τ sig)) :=
  unary_at outs V 108 main_c_17 main_v82 (broadcastInDim S1600000 ![] bcast_S_S1600000 : (⟨S_, .i32⟩ : BufTy).Contents (Elt F) → (⟨S1600000, .i32⟩ : BufTy).Contents (Elt F)) _ _ rfl (wr (j := 108) rfl (by decide)) (wr (j := 107) rfl (by decide))

theorem e_main_v83 (V : Valuation τ sig (Elt F)) :
    after ops V (main_v83 : DevRef τ sig) = (addi : (⟨S1600000, .i32⟩ : BufTy).Contents (Elt F) → (⟨S1600000, .i32⟩ : BufTy).Contents (Elt F) → (⟨S1600000, .i32⟩ : BufTy).Contents (Elt F)) (after ops V (main_arg2 : DevRef τ sig)) (after ops V (main_v82 : DevRef τ sig)) :=
  binary_at outs V 109 main_arg2 main_v82 main_v83 (addi : (⟨S1600000, .i32⟩ : BufTy).Contents (Elt F) → (⟨S1600000, .i32⟩ : BufTy).Contents (Elt F) → (⟨S1600000, .i32⟩ : BufTy).Contents (Elt F)) _ _ _ rfl (wr (j := 109) rfl (by decide)) (nw arg2_nw 109) (wr (j := 108) rfl (by decide))

theorem e_main_v84 (V : Valuation τ sig (Elt F)) :
    after ops V (main_v84 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v81 : DevRef τ sig)) (after ops V (main_v83 : DevRef τ sig)) (after ops V (main_arg2 : DevRef τ sig)) :=
  ternary_at outs V 110 main_v81 main_v83 main_arg2 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 110) rfl (by decide)) (wr (j := 106) rfl (by decide)) (wr (j := 109) rfl (by decide)) (nw arg2_nw 110)

theorem e_main_v85 (V : Valuation τ sig (Elt F)) :
    after ops V (main_v85 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v84 : DevRef τ sig)) :=
  unary_at outs V 111 main_v84 main_v85 (broadcastInDim S1600000x1 ![0] bcast_S1600000_S1600000x1_0 : (⟨S1600000, .i32⟩ : BufTy).Contents (Elt F) → (⟨S1600000x1, .i32⟩ : BufTy).Contents (Elt F)) _ _ rfl (wr (j := 111) rfl (by decide)) (wr (j := 110) rfl (by decide))

theorem e_main_v86 (V : Valuation τ sig (Elt F)) :
    after ops V (main_v86 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v79 : DevRef τ sig)) (after ops V (main_v85 : DevRef τ sig)) :=
  binary_at outs V 112 main_v79 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 112) rfl (by decide)) (wr (j := 103) rfl (by decide)) (wr (j := 111) rfl (by decide))

theorem e_main_cst_18 (V : Valuation τ sig (Elt F)) :
    after ops V (main_cst_18 : DevRef τ sig) = ((constant S_ .f32 0x00000000#32) : (⟨S_, .f32⟩ : BufTy).Contents (Elt F)) :=
  nullary_at outs V 113 main_cst_18 ((constant S_ .f32 0x00000000#32) : (⟨S_, .f32⟩ : BufTy).Contents (Elt F)) _ rfl (wr (j := 113) rfl (by decide))

theorem e_main_v87 (V : Valuation τ sig (Elt F)) :
    after ops V (main_v87 : DevRef τ sig) = (broadcastInDim S100000x128 ![] bcast_S_S100000x128 : (⟨S_, .f32⟩ : BufTy).Contents (Elt F) → (⟨S100000x128, .f32⟩ : BufTy).Contents (Elt F)) (after ops V (main_cst_18 : DevRef τ sig)) :=
  unary_at outs V 114 main_cst_18 main_v87 (broadcastInDim S100000x128 ![] bcast_S_S100000x128 : (⟨S_, .f32⟩ : BufTy).Contents (Elt F) → (⟨S100000x128, .f32⟩ : BufTy).Contents (Elt F)) _ _ rfl (wr (j := 114) rfl (by decide)) (wr (j := 113) rfl (by decide))

theorem e_main_v88 (V : Valuation τ sig (Elt F)) :
    after ops V (main_v88 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg3 : DevRef τ sig)) :=
  unary_at outs V 115 main_arg3 main_v88 (broadcastInDim S1600000x1 ![0] bcast_S1600000_S1600000x1_0 : (⟨S1600000, .i32⟩ : BufTy).Contents (Elt F) → (⟨S1600000x1, .i32⟩ : BufTy).Contents (Elt F)) _ _ rfl (wr (j := 115) rfl (by decide)) (nw arg3_nw 115)

theorem e_main_v89 (V : Valuation τ sig (Elt F)) :
    after ops V (main_v89 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v87 : DevRef τ sig)) (after ops V (main_v88 : DevRef τ sig)) (after ops V (main_v86 : DevRef τ sig)) :=
  ternary_at outs V 116 main_v87 main_v88 main_v86 main_v89 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 116) rfl (by decide)) (wr (j := 114) rfl (by decide)) (wr (j := 115) rfl (by decide)) (wr (j := 112) rfl (by decide))

theorem e_main_v90 (V : Valuation τ sig (Elt F)) :
    after ops V (main_v90 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 117 main_v6 main_v90 (broadcastInDim S100000x1 ![0] bcast_S100000_S100000x1_0 : (⟨S100000, .f32⟩ : BufTy).Contents (Elt F) → (⟨S100000x1, .f32⟩ : BufTy).Contents (Elt F)) _ _ rfl (wr (j := 117) rfl (by decide)) (wr (j := 12) rfl (by decide))

theorem e_main_v91 (V : Valuation τ sig (Elt F)) :
    after ops V (main_v91 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v90 : DevRef τ sig)) :=
  unary_at outs V 118 main_v90 main_v91 (broadcastInDim S100000x128 ![0, 1] bcast_S100000x1_S100000x128_0_1 : (⟨S100000x1, .f32⟩ : BufTy).Contents (Elt F) → (⟨S100000x128, .f32⟩ : BufTy).Contents (Elt F)) _ _ rfl (wr (j := 118) rfl (by decide)) (wr (j := 117) rfl (by decide))

theorem e_main_v92 (V : Valuation τ sig (Elt F)) :
    after ops V (main_v92 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v89 : DevRef τ sig)) (after ops V (main_v91 : DevRef τ sig)) :=
  binary_at outs V 119 main_v89 main_v91 main_v92 (mulf : (⟨S100000x128, .f32⟩ : BufTy).Contents (Elt F) → (⟨S100000x128, .f32⟩ : BufTy).Contents (Elt F) → (⟨S100000x128, .f32⟩ : BufTy).Contents (Elt F)) _ _ _ rfl (wr (j := 119) rfl (by decide)) (wr (j := 116) rfl (by decide)) (wr (j := 118) rfl (by decide))

theorem e_main_cst_19 (V : Valuation τ sig (Elt F)) :
    after ops V (main_cst_19 : DevRef τ sig) = ((constant S_ .f32 0x3F666666#32) : (⟨S_, .f32⟩ : BufTy).Contents (Elt F)) :=
  nullary_at outs V 120 main_cst_19 ((constant S_ .f32 0x3F666666#32) : (⟨S_, .f32⟩ : BufTy).Contents (Elt F)) _ rfl (wr (j := 120) rfl (by decide))

theorem e_main_v93 (V : Valuation τ sig (Elt F)) :
    after ops V (main_v93 : DevRef τ sig) = (broadcastInDim S100000x128 ![] bcast_S_S100000x128 : (⟨S_, .f32⟩ : BufTy).Contents (Elt F) → (⟨S100000x128, .f32⟩ : BufTy).Contents (Elt F)) (after ops V (main_cst_19 : DevRef τ sig)) :=
  unary_at outs V 121 main_cst_19 main_v93 (broadcastInDim S100000x128 ![] bcast_S_S100000x128 : (⟨S_, .f32⟩ : BufTy).Contents (Elt F) → (⟨S100000x128, .f32⟩ : BufTy).Contents (Elt F)) _ _ rfl (wr (j := 121) rfl (by decide)) (wr (j := 120) rfl (by decide))

theorem e_main_v94 (V : Valuation τ sig (Elt F)) :
    after ops V (main_v94 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v93 : DevRef τ sig)) (after ops V (main_v92 : DevRef τ sig)) :=
  binary_at outs V 122 main_v93 main_v92 main_v94 (mulf : (⟨S100000x128, .f32⟩ : BufTy).Contents (Elt F) → (⟨S100000x128, .f32⟩ : BufTy).Contents (Elt F) → (⟨S100000x128, .f32⟩ : BufTy).Contents (Elt F)) _ _ _ rfl (wr (j := 122) rfl (by decide)) (wr (j := 121) rfl (by decide)) (wr (j := 119) rfl (by decide))

theorem e_main_cst_20 (V : Valuation τ sig (Elt F)) :
    after ops V (main_cst_20 : DevRef τ sig) = ((constant S_ .f32 0x3DCCCCCD#32) : (⟨S_, .f32⟩ : BufTy).Contents (Elt F)) :=
  nullary_at outs V 123 main_cst_20 ((constant S_ .f32 0x3DCCCCCD#32) : (⟨S_, .f32⟩ : BufTy).Contents (Elt F)) _ rfl (wr (j := 123) rfl (by decide))

theorem e_main_v95 (V : Valuation τ sig (Elt F)) :
    after ops V (main_v95 : DevRef τ sig) = (broadcastInDim S100000x128 ![] bcast_S_S100000x128 : (⟨S_, .f32⟩ : BufTy).Contents (Elt F) → (⟨S100000x128, .f32⟩ : BufTy).Contents (Elt F)) (after ops V (main_cst_20 : DevRef τ sig)) :=
  unary_at outs V 124 main_cst_20 main_v95 (broadcastInDim S100000x128 ![] bcast_S_S100000x128 : (⟨S_, .f32⟩ : BufTy).Contents (Elt F) → (⟨S100000x128, .f32⟩ : BufTy).Contents (Elt F)) _ _ rfl (wr (j := 124) rfl (by decide)) (wr (j := 123) rfl (by decide))

theorem e_main_v96 (V : Valuation τ sig (Elt F)) :
    after ops V (main_v96 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v95 : DevRef τ sig)) (after ops V (main_arg0 : DevRef τ sig)) :=
  binary_at outs V 125 main_v95 main_arg0 main_v96 (mulf : (⟨S100000x128, .f32⟩ : BufTy).Contents (Elt F) → (⟨S100000x128, .f32⟩ : BufTy).Contents (Elt F) → (⟨S100000x128, .f32⟩ : BufTy).Contents (Elt F)) _ _ _ rfl (wr (j := 125) rfl (by decide)) (wr (j := 124) rfl (by decide)) (nw arg0_nw 125)

end Cert.ReferenceIdeal.Hand

end
-- ==== Proof.RefEq2.lean ====
/-
  The reference program read one operation at a time, window 2: after the whole line each buffer written by an
  operation of this window holds that operation's function of what its operand buffers hold after the whole line
  (every buffer is written once, and an operand is written, if at all, before the operation that reads it).
-/
import proofs.«158605_j26792005992870_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

theorem e_main_v97 (V : Valuation τ sig (Elt F)) :
    after ops V (main_v97 : DevRef τ sig) = (addf : (⟨S100000x128, .f32⟩ : BufTy).Contents (Elt F) → (⟨S100000x128, .f32⟩ : BufTy).Contents (Elt F) → (⟨S100000x128, .f32⟩ : BufTy).Contents (Elt F)) (after ops V (main_v94 : DevRef τ sig)) (after ops V (main_v96 : DevRef τ sig)) :=
  binary_at outs V 126 main_v94 main_v96 main_v97 (addf : (⟨S100000x128, .f32⟩ : BufTy).Contents (Elt F) → (⟨S100000x128, .f32⟩ : BufTy).Contents (Elt F) → (⟨S100000x128, .f32⟩ : BufTy).Contents (Elt F)) _ _ _ rfl (wr (j := 126) rfl (by decide)) (wr (j := 122) rfl (by decide)) (wr (j := 125) rfl (by decide))

theorem e_main_cst_21 (V : Valuation τ sig (Elt F)) :
    after ops V (main_cst_21 : DevRef τ sig) = ((constant S_ .f32 0x3F365A78#32) : (⟨S_, .f32⟩ : BufTy).Contents (Elt F)) :=
  nullary_at outs V 127 main_cst_21 ((constant S_ .f32 0x3F365A78#32) : (⟨S_, .f32⟩ : BufTy).Contents (Elt F)) _ rfl (wr (j := 127) rfl (by decide))

theorem e_main_v98 (V : Valuation τ sig (Elt F)) :
    after ops V (main_v98 : DevRef τ sig) = (broadcastInDim S100000x128 ![] bcast_S_S100000x128 : (⟨S_, .f32⟩ : BufTy).Contents (Elt F) → (⟨S100000x128, .f32⟩ : BufTy).Contents (Elt F)) (after ops V (main_cst_21 : DevRef τ sig)) :=
  unary_at outs V 128 main_cst_21 main_v98 (broadcastInDim S100000x128 ![] bcast_S_S100000x128 : (⟨S_, .f32⟩ : BufTy).Contents (Elt F) → (⟨S100000x128, .f32⟩ : BufTy).Contents (Elt F)) _ _ rfl (wr (j := 128) rfl (by decide)) (wr (j := 127) rfl (by decide))

theorem e_main_v99 (V : Valuation τ sig (Elt F)) :
    after ops V (main_v99 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v98 : DevRef τ sig)) (after ops V (main_v97 : DevRef τ sig)) :=
  binary_at outs V 129 main_v98 main_v97 main_v99 (mulf : (⟨S100000x128, .f32⟩ : BufTy).Contents (Elt F) → (⟨S100000x128, .f32⟩ : BufTy).Contents (Elt F) → (⟨S100000x128, .f32⟩ : BufTy).Contents (Elt F)) _ _ _ rfl (wr (j := 129) rfl (by decide)) (wr (j := 128) rfl (by decide)) (wr (j := 126) rfl (by decide))

theorem e_main_v100 (V : Valuation τ sig (Elt F)) :
    after ops V (main_v100 : DevRef τ sig) = ((extractStridedSlice S1x128x128 ![2, 0, 0] · slices_S4x128x128_S1x128x128_2_0_0) : (⟨S4x128x128, .f32⟩ : BufTy).Contents (Elt F) → (⟨S1x128x128, .f32⟩ : BufTy).Contents (Elt F)) (after ops V (main_arg6 : DevRef τ sig)) :=
  unary_at outs V 130 main_arg6 main_v100 ((extractStridedSlice S1x128x128 ![2, 0, 0] · slices_S4x128x128_S1x128x128_2_0_0) : (⟨S4x128x128, .f32⟩ : BufTy).Contents (Elt F) → (⟨S1x128x128, .f32⟩ : BufTy).Contents (Elt F)) _ _ rfl (wr (j := 130) rfl (by decide)) (nw arg6_nw 130)

theorem e_main_v101 (V : Valuation τ sig (Elt F)) :
    after ops V (main_v101 : DevRef τ sig) = shapeCast S128x128 (after ops V (main_v100 : DevRef τ sig)) shapeCasts_S1x128x128_S128x128 :=
  reshape_at outs V 131 main_v100 main_v101 _ _ _ _ rfl (wr (j := 131) rfl (by decide)) (wr (j := 130) rfl (by decide))

theorem e_main_v102 (V : Valuation τ sig (Elt F)) :
    after ops V (main_v102 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v97 : DevRef τ sig)) (after ops V (main_v101 : DevRef τ sig)) :=
  binary_at outs V 132 main_v97 main_v101 main_v102 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 132) rfl (by decide)) (wr (j := 126) rfl (by decide)) (wr (j := 131) rfl (by decide))

theorem e_main_cst_22 (V : Valuation τ sig (Elt F)) :
    after ops V (main_cst_22 : DevRef τ sig) = ((constant S_ .f32 0x3E934B11#32) : (⟨S_, .f32⟩ : BufTy).Contents (Elt F)) :=
  nullary_at outs V 133 main_cst_22 ((constant S_ .f32 0x3E934B11#32) : (⟨S_, .f32⟩ : BufTy).Contents (Elt F)) _ rfl (wr (j := 133) rfl (by decide))

theorem e_main_v103 (V : Valuation τ sig (Elt F)) :
    after ops V (main_v103 : DevRef τ sig) = (broadcastInDim S100000x128 ![] bcast_S_S100000x128 : (⟨S_, .f32⟩ : BufTy).Contents (Elt F) → (⟨S100000x128, .f32⟩ : BufTy).Contents (Elt F)) (after ops V (main_cst_22 : DevRef τ sig)) :=
  unary_at outs V 134 main_cst_22 main_v103 (broadcastInDim S100000x128 ![] bcast_S_S100000x128 : (⟨S_, .f32⟩ : BufTy).Contents (Elt F) → (⟨S100000x128, .f32⟩ : BufTy).Contents (Elt F)) _ _ rfl (wr (j := 134) rfl (by decide)) (wr (j := 133) rfl (by decide))

theorem e_main_v104 (V : Valuation τ sig (Elt F)) :
    after ops V (main_v104 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v103 : DevRef τ sig)) (after ops V (main_v102 : DevRef τ sig)) :=
  binary_at outs V 135 main_v103 main_v102 main_v104 (mulf : (⟨S100000x128, .f32⟩ : BufTy).Contents (Elt F) → (⟨S100000x128, .f32⟩ : BufTy).Contents (Elt F) → (⟨S100000x128, .f32⟩ : BufTy).Contents (Elt F)) _ _ _ rfl (wr (j := 135) rfl (by decide)) (wr (j := 134) rfl (by decide)) (wr (j := 132) rfl (by decide))

theorem e_main_v105 (V : Valuation τ sig (Elt F)) :
    after ops V (main_v105 : DevRef τ sig) = (addf : (⟨S100000x128, .f32⟩ : BufTy).Contents (Elt F) → (⟨S100000x128, .f32⟩ : BufTy).Contents (Elt F) → (⟨S100000x128, .f32⟩ : BufTy).Contents (Elt F)) (after ops V (main_v99 : DevRef τ sig)) (after ops V (main_v104 : DevRef τ sig)) :=
  binary_at outs V 136 main_v99 main_v104 main_v105 (addf : (⟨S100000x128, .f32⟩ : BufTy).Contents (Elt F) → (⟨S100000x128, .f32⟩ : BufTy).Contents (Elt F) → (⟨S100000x128, .f32⟩ : BufTy).Contents (Elt F)) _ _ _ rfl (wr (j := 136) rfl (by decide)) (wr (j := 129) rfl (by decide)) (wr (j := 135) rfl (by decide))

theorem e_main_v106 (V : Valuation τ sig (Elt F)) :
    after ops V (main_v106 : DevRef τ sig) = ((extractStridedSlice S1x128 ![2, 0] · slices_S4x128_S1x128_2_0) : (⟨S4x128, .f32⟩ : BufTy).Contents (Elt F) → (⟨S1x128, .f32⟩ : BufTy).Contents (Elt F)) (after ops V (main_arg7 : DevRef τ sig)) :=
  unary_at outs V 137 main_arg7 main_v106 ((extractStridedSlice S1x128 ![2, 0] · slices_S4x128_S1x128_2_0) : (⟨S4x128, .f32⟩ : BufTy).Contents (Elt F) → (⟨S1x128, .f32⟩ : BufTy).Contents (Elt F)) _ _ rfl (wr (j := 137) rfl (by decide)) (nw arg7_nw 137)

theorem e_main_v107 (V : Valuation τ sig (Elt F)) :
    after ops V (main_v107 : DevRef τ sig) = shapeCast S128 (after ops V (main_v106 : DevRef τ sig)) shapeCasts_S1x128_S128 :=
  reshape_at outs V 138 main_v106 main_v107 _ _ _ _ rfl (wr (j := 138) rfl (by decide)) (wr (j := 137) rfl (by decide))

theorem e_main_v108 (V : Valuation τ sig (Elt F)) :
    after ops V (main_v108 : DevRef τ sig) = (broadcastInDim S1x128 ![1] bcast_S128_S1x128_1 : (⟨S128, .f32⟩ : BufTy).Contents (Elt F) → (⟨S1x128, .f32⟩ : BufTy).Contents (Elt F)) (after ops V (main_v107 : DevRef τ sig)) :=
  unary_at outs V 139 main_v107 main_v108 (broadcastInDim S1x128 ![1] bcast_S128_S1x128_1 : (⟨S128, .f32⟩ : BufTy).Contents (Elt F) → (⟨S1x128, .f32⟩ : BufTy).Contents (Elt F)) _ _ rfl (wr (j := 139) rfl (by decide)) (wr (j := 138) rfl (by decide))

theorem e_main_v109 (V : Valuation τ sig (Elt F)) :
    after ops V (main_v109 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v108 : DevRef τ sig)) :=
  unary_at outs V 140 main_v108 main_v109 (broadcastInDim S100000x128 ![0, 1] bcast_S1x128_S100000x128_0_1 : (⟨S1x128, .f32⟩ : BufTy).Contents (Elt F) → (⟨S100000x128, .f32⟩ : BufTy).Contents (Elt F)) _ _ rfl (wr (j := 140) rfl (by decide)) (wr (j := 139) rfl (by decide))

theorem e_main_v110 (V : Valuation τ sig (Elt F)) :
    after ops V (main_v110 : DevRef τ sig) = (addf : (⟨S100000x128, .f32⟩ : BufTy).Contents (Elt F) → (⟨S100000x128, .f32⟩ : BufTy).Contents (Elt F) → (⟨S100000x128, .f32⟩ : BufTy).Contents (Elt F)) (after ops V (main_v105 : DevRef τ sig)) (after ops V (main_v109 : DevRef τ sig)) :=
  binary_at outs V 141 main_v105 main_v109 main_v110 (addf : (⟨S100000x128, .f32⟩ : BufTy).Contents (Elt F) → (⟨S100000x128, .f32⟩ : BufTy).Contents (Elt F) → (⟨S100000x128, .f32⟩ : BufTy).Contents (Elt F)) _ _ _ rfl (wr (j := 141) rfl (by decide)) (wr (j := 136) rfl (by decide)) (wr (j := 140) rfl (by decide))

theorem e_main_call3_cst (V : Valuation τ sig (Elt F)) :
    after ops V (main_call3_cst : DevRef τ sig) = ((constant S_ .f32 0x00000000#32) : (⟨S_, .f32⟩ : BufTy).Contents (Elt F)) :=
  nullary_at outs V 142 main_call3_cst ((constant S_ .f32 0x00000000#32) : (⟨S_, .f32⟩ : BufTy).Contents (Elt F)) _ rfl (wr (j := 142) rfl (by decide))

theorem e_main_call3_v0 (V : Valuation τ sig (Elt F)) :
    after ops V (main_call3_v0 : DevRef τ sig) = ((broadcastInDim S100000x128 ![] bcast_S_S100000x128) : (⟨S_, .f32⟩ : BufTy).Contents (Elt F) → (⟨S100000x128, .f32⟩ : BufTy).Contents (Elt F)) (after ops V (main_call3_cst : DevRef τ sig)) :=
  unary_at outs V 143 main_call3_cst main_call3_v0 ((broadcastInDim S100000x128 ![] bcast_S_S100000x128) : (⟨S_, .f32⟩ : BufTy).Contents (Elt F) → (⟨S100000x128, .f32⟩ : BufTy).Contents (Elt F)) _ _ rfl (wr (j := 143) rfl (by decide)) (wr (j := 142) rfl (by decide))

theorem e_main_v111 (V : Valuation τ sig (Elt F)) :
    after ops V (main_v111 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v110 : DevRef τ sig)) (after ops V (main_call3_v0 : DevRef τ sig)) :=
  binary_at outs V 144 main_v110 main_call3_v0 main_v111 (maximumf : (⟨S100000x128, .f32⟩ : BufTy).Contents (Elt F) → (⟨S100000x128, .f32⟩ : BufTy).Contents (Elt F) → (⟨S100000x128, .f32⟩ : BufTy).Contents (Elt F)) _ _ _ rfl (wr (j := 144) rfl (by decide)) (wr (j := 141) rfl (by decide)) (wr (j := 143) rfl (by decide))

theorem e_main_v112 (V : Valuation τ sig (Elt F)) :
    after ops V (main_v112 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 145 main_v6 main_v112 (broadcastInDim S100000x1 ![0] bcast_S100000_S100000x1_0 : (⟨S100000, .f32⟩ : BufTy).Contents (Elt F) → (⟨S100000x1, .f32⟩ : BufTy).Contents (Elt F)) _ _ rfl (wr (j := 145) rfl (by decide)) (wr (j := 12) rfl (by decide))

theorem e_main_v113 (V : Valuation τ sig (Elt F)) :
    after ops V (main_v113 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v112 : DevRef τ sig)) :=
  unary_at outs V 146 main_v112 main_v113 (broadcastInDim S100000x128 ![0, 1] bcast_S100000x1_S100000x128_0_1 : (⟨S100000x1, .f32⟩ : BufTy).Contents (Elt F) → (⟨S100000x128, .f32⟩ : BufTy).Contents (Elt F)) _ _ rfl (wr (j := 146) rfl (by decide)) (wr (j := 145) rfl (by decide))

theorem e_main_v114 (V : Valuation τ sig (Elt F)) :
    after ops V (main_v114 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v111 : DevRef τ sig)) (after ops V (main_v113 : DevRef τ sig)) :=
  binary_at outs V 147 main_v111 main_v113 main_v114 (mulf : (⟨S100000x128, .f32⟩ : BufTy).Contents (Elt F) → (⟨S100000x128, .f32⟩ : BufTy).Contents (Elt F) → (⟨S100000x128, .f32⟩ : BufTy).Contents (Elt F)) _ _ _ rfl (wr (j := 147) rfl (by decide)) (wr (j := 144) rfl (by decide)) (wr (j := 146) rfl (by decide))

theorem e_main_c_23 (V : Valuation τ sig (Elt F)) :
    after ops V (main_c_23 : DevRef τ sig) = ((constantI S_ 32 0#32) : (⟨S_, .i32⟩ : BufTy).Contents (Elt F)) :=
  nullary_at outs V 148 main_c_23 ((constantI S_ 32 0#32) : (⟨S_, .i32⟩ : BufTy).Contents (Elt F)) _ rfl (wr (j := 148) rfl (by decide))

theorem e_main_v115 (V : Valuation τ sig (Elt F)) :
    after ops V (main_v115 : DevRef τ sig) = (broadcastInDim S1600000 ![] bcast_S_S1600000 : (⟨S_, .i32⟩ : BufTy).Contents (Elt F) → (⟨S1600000, .i32⟩ : BufTy).Contents (Elt F)) (after ops V (main_c_23 : DevRef τ sig)) :=
  unary_at outs V 149 main_c_23 main_v115 (broadcastInDim S1600000 ![] bcast_S_S1600000 : (⟨S_, .i32⟩ : BufTy).Contents (Elt F) → (⟨S1600000, .i32⟩ : BufTy).Contents (Elt F)) _ _ rfl (wr (j := 149) rfl (by decide)) (wr (j := 148) rfl (by decide))

theorem e_main_v116 (V : Valuation τ sig (Elt F)) :
    after ops V (main_v116 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg2 : DevRef τ sig)) (after ops V (main_v115 : DevRef τ sig)) :=
  binary_at outs V 150 main_arg2 main_v115 main_v116 (cmpi .slt : (⟨S1600000, .i32⟩ : BufTy).Contents (Elt F) → (⟨S1600000, .i32⟩ : BufTy).Contents (Elt F) → (⟨S1600000, .i1⟩ : BufTy).Contents (Elt F)) _ _ _ rfl (wr (j := 150) rfl (by decide)) (nw arg2_nw 150) (wr (j := 149) rfl (by decide))

theorem e_main_c_24 (V : Valuation τ sig (Elt F)) :
    after ops V (main_c_24 : DevRef τ sig) = ((constantI S_ 32 100000#32) : (⟨S_, .i32⟩ : BufTy).Contents (Elt F)) :=
  nullary_at outs V 151 main_c_24 ((constantI S_ 32 100000#32) : (⟨S_, .i32⟩ : BufTy).Contents (Elt F)) _ rfl (wr (j := 151) rfl (by decide))

theorem e_main_v117 (V : Valuation τ sig (Elt F)) :
    after ops V (main_v117 : DevRef τ sig) = (broadcastInDim S1600000 ![] bcast_S_S1600000 : (⟨S_, .i32⟩ : BufTy).Contents (Elt F) → (⟨S1600000, .i32⟩ : BufTy).Contents (Elt F)) (after ops V (main_c_24 : DevRef τ sig)) :=
  unary_at outs V 152 main_c_24 main_v117 (broadcastInDim S1600000 ![] bcast_S_S1600000 : (⟨S_, .i32⟩ : BufTy).Contents (Elt F) → (⟨S1600000, .i32⟩ : BufTy).Contents (Elt F)) _ _ rfl (wr (j := 152) rfl (by decide)) (wr (j := 151) rfl (by decide))

theorem e_main_v118 (V : Valuation τ sig (Elt F)) :
    after ops V (main_v118 : DevRef τ sig) = (addi : (⟨S1600000, .i32⟩ : BufTy).Contents (Elt F) → (⟨S1600000, .i32⟩ : BufTy).Contents (Elt F) → (⟨S1600000, .i32⟩ : BufTy).Contents (Elt F)) (after ops V (main_arg2 : DevRef τ sig)) (after ops V (main_v117 : DevRef τ sig)) :=
  binary_at outs V 153 main_arg2 main_v117 main_v118 (addi : (⟨S1600000, .i32⟩ : BufTy).Contents (Elt F) → (⟨S1600000, .i32⟩ : BufTy).Contents (Elt F) → (⟨S1600000, .i32⟩ : BufTy).Contents (Elt F)) _ _ _ rfl (wr (j := 153) rfl (by decide)) (nw arg2_nw 153) (wr (j := 152) rfl (by decide))

theorem e_main_v119 (V : Valuation τ sig (Elt F)) :
    after ops V (main_v119 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v116 : DevRef τ sig)) (after ops V (main_v118 : DevRef τ sig)) (after ops V (main_arg2 : DevRef τ sig)) :=
  ternary_at outs V 154 main_v116 main_v118 main_arg2 main_v119 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 154) rfl (by decide)) (wr (j := 150) rfl (by decide)) (wr (j := 153) rfl (by decide)) (nw arg2_nw 154)

theorem e_main_v120 (V : Valuation τ sig (Elt F)) :
    after ops V (main_v120 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v119 : DevRef τ sig)) :=
  unary_at outs V 155 main_v119 main_v120 (broadcastInDim S1600000x1 ![0] bcast_S1600000_S1600000x1_0 : (⟨S1600000, .i32⟩ : BufTy).Contents (Elt F) → (⟨S1600000x1, .i32⟩ : BufTy).Contents (Elt F)) _ _ rfl (wr (j := 155) rfl (by decide)) (wr (j := 154) rfl (by decide))

theorem e_main_v121 (V : Valuation τ sig (Elt F)) :
    after ops V (main_v121 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v114 : DevRef τ sig)) (after ops V (main_v120 : DevRef τ sig)) :=
  binary_at outs V 156 main_v114 main_v120 main_v121 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 156) rfl (by decide)) (wr (j := 147) rfl (by decide)) (wr (j := 155) rfl (by decide))

theorem e_main_cst_25 (V : Valuation τ sig (Elt F)) :
    after ops V (main_cst_25 : DevRef τ sig) = ((constant S_ .f32 0x00000000#32) : (⟨S_, .f32⟩ : BufTy).Contents (Elt F)) :=
  nullary_at outs V 157 main_cst_25 ((constant S_ .f32 0x00000000#32) : (⟨S_, .f32⟩ : BufTy).Contents (Elt F)) _ rfl (wr (j := 157) rfl (by decide))

theorem e_main_v122 (V : Valuation τ sig (Elt F)) :
    after ops V (main_v122 : DevRef τ sig) = (broadcastInDim S100000x128 ![] bcast_S_S100000x128 : (⟨S_, .f32⟩ : BufTy).Contents (Elt F) → (⟨S100000x128, .f32⟩ : BufTy).Contents (Elt F)) (after ops V (main_cst_25 : DevRef τ sig)) :=
  unary_at outs V 158 main_cst_25 main_v122 (broadcastInDim S100000x128 ![] bcast_S_S100000x128 : (⟨S_, .f32⟩ : BufTy).Contents (Elt F) → (⟨S100000x128, .f32⟩ : BufTy).Contents (Elt F)) _ _ rfl (wr (j := 158) rfl (by decide)) (wr (j := 157) rfl (by decide))

theorem e_main_v123 (V : Valuation τ sig (Elt F)) :
    after ops V (main_v123 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg3 : DevRef τ sig)) :=
  unary_at outs V 159 main_arg3 main_v123 (broadcastInDim S1600000x1 ![0] bcast_S1600000_S1600000x1_0 : (⟨S1600000, .i32⟩ : BufTy).Contents (Elt F) → (⟨S1600000x1, .i32⟩ : BufTy).Contents (Elt F)) _ _ rfl (wr (j := 159) rfl (by decide)) (nw arg3_nw 159)

theorem e_main_v124 (V : Valuation τ sig (Elt F)) :
    after ops V (main_v124 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v122 : DevRef τ sig)) (after ops V (main_v123 : DevRef τ sig)) (after ops V (main_v121 : DevRef τ sig)) :=
  ternary_at outs V 160 main_v122 main_v123 main_v121 main_v124 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 160) rfl (by decide)) (wr (j := 158) rfl (by decide)) (wr (j := 159) rfl (by decide)) (wr (j := 156) rfl (by decide))

theorem e_main_v125 (V : Valuation τ sig (Elt F)) :
    after ops V (main_v125 : DevRef τ sig) = (broadcastInDim S100000x1 ![0] bcast_S100000_S100000x1_0 : (⟨S100000, .f32⟩ : BufTy).Contents (Elt F) → (⟨S100000x1, .f32⟩ : BufTy).Contents (Elt F)) (after ops V (main_v6 : DevRef τ sig)) :=
  unary_at outs V 161 main_v6 main_v125 (broadcastInDim S100000x1 ![0] bcast_S100000_S100000x1_0 : (⟨S100000, .f32⟩ : BufTy).Contents (Elt F) → (⟨S100000x1, .f32⟩ : BufTy).Contents (Elt F)) _ _ rfl (wr (j := 161) rfl (by decide)) (wr (j := 12) rfl (by decide))

theorem e_main_v126 (V : Valuation τ sig (Elt F)) :
    after ops V (main_v126 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v125 : DevRef τ sig)) :=
  unary_at outs V 162 main_v125 main_v126 (broadcastInDim S100000x128 ![0, 1] bcast_S100000x1_S100000x128_0_1 : (⟨S100000x1, .f32⟩ : BufTy).Contents (Elt F) → (⟨S100000x128, .f32⟩ : BufTy).Contents (Elt F)) _ _ rfl (wr (j := 162) rfl (by decide)) (wr (j := 161) rfl (by decide))

theorem e_main_v127 (V : Valuation τ sig (Elt F)) :
    after ops V (main_v127 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v124 : DevRef τ sig)) (after ops V (main_v126 : DevRef τ sig)) :=
  binary_at outs V 163 main_v124 main_v126 main_v127 (mulf : (⟨S100000x128, .f32⟩ : BufTy).Contents (Elt F) → (⟨S100000x128, .f32⟩ : BufTy).Contents (Elt F) → (⟨S100000x128, .f32⟩ : BufTy).Contents (Elt F)) _ _ _ rfl (wr (j := 163) rfl (by decide)) (wr (j := 160) rfl (by decide)) (wr (j := 162) rfl (by decide))

theorem e_main_cst_26 (V : Valuation τ sig (Elt F)) :
    after ops V (main_cst_26 : DevRef τ sig) = ((constant S_ .f32 0x3F666666#32) : (⟨S_, .f32⟩ : BufTy).Contents (Elt F)) :=
  nullary_at outs V 164 main_cst_26 ((constant S_ .f32 0x3F666666#32) : (⟨S_, .f32⟩ : BufTy).Contents (Elt F)) _ rfl (wr (j := 164) rfl (by decide))

theorem e_main_v128 (V : Valuation τ sig (Elt F)) :
    after ops V (main_v128 : DevRef τ sig) = (broadcastInDim S100000x128 ![] bcast_S_S100000x128 : (⟨S_, .f32⟩ : BufTy).Contents (Elt F) → (⟨S100000x128, .f32⟩ : BufTy).Contents (Elt F)) (after ops V (main_cst_26 : DevRef τ sig)) :=
  unary_at outs V 165 main_cst_26 main_v128 (broadcastInDim S100000x128 ![] bcast_S_S100000x128 : (⟨S_, .f32⟩ : BufTy).Contents (Elt F) → (⟨S100000x128, .f32⟩ : BufTy).Contents (Elt F)) _ _ rfl (wr (j := 165) rfl (by decide)) (wr (j := 164) rfl (by decide))

theorem e_main_v129 (V : Valuation τ sig (Elt F)) :
    after ops V (main_v129 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v128 : DevRef τ sig)) (after ops V (main_v127 : DevRef τ sig)) :=
  binary_at outs V 166 main_v128 main_v127 main_v129 (mulf : (⟨S100000x128, .f32⟩ : BufTy).Contents (Elt F) → (⟨S100000x128, .f32⟩ : BufTy).Contents (Elt F) → (⟨S100000x128, .f32⟩ : BufTy).Contents (Elt F)) _ _ _ rfl (wr (j := 166) rfl (by decide)) (wr (j := 165) rfl (by decide)) (wr (j := 163) rfl (by decide))

theorem e_main_cst_27 (V : Valuation τ sig (Elt F)) :
    after ops V (main_cst_27 : DevRef τ sig) = ((constant S_ .f32 0x3DCCCCCD#32) : (⟨S_, .f32⟩ : BufTy).Contents (Elt F)) :=
  nullary_at outs V 167 main_cst_27 ((constant S_ .f32 0x3DCCCCCD#32) : (⟨S_, .f32⟩ : BufTy).Contents (Elt F)) _ rfl (wr (j := 167) rfl (by decide))

theorem e_main_v130 (V : Valuation τ sig (Elt F)) :
    after ops V (main_v130 : DevRef τ sig) = (broadcastInDim S100000x128 ![] bcast_S_S100000x128 : (⟨S_, .f32⟩ : BufTy).Contents (Elt F) → (⟨S100000x128, .f32⟩ : BufTy).Contents (Elt F)) (after ops V (main_cst_27 : DevRef τ sig)) :=
  unary_at outs V 168 main_cst_27 main_v130 (broadcastInDim S100000x128 ![] bcast_S_S100000x128 : (⟨S_, .f32⟩ : BufTy).Contents (Elt F) → (⟨S100000x128, .f32⟩ : BufTy).Contents (Elt F)) _ _ rfl (wr (j := 168) rfl (by decide)) (wr (j := 167) rfl (by decide))

theorem e_main_v131 (V : Valuation τ sig (Elt F)) :
    after ops V (main_v131 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v130 : DevRef τ sig)) (after ops V (main_arg0 : DevRef τ sig)) :=
  binary_at outs V 169 main_v130 main_arg0 main_v131 (mulf : (⟨S100000x128, .f32⟩ : BufTy).Contents (Elt F) → (⟨S100000x128, .f32⟩ : BufTy).Contents (Elt F) → (⟨S100000x128, .f32⟩ : BufTy).Contents (Elt F)) _ _ _ rfl (wr (j := 169) rfl (by decide)) (wr (j := 168) rfl (by decide)) (nw arg0_nw 169)

theorem e_main_v132 (V : Valuation τ sig (Elt F)) :
    after ops V (main_v132 : DevRef τ sig) = (addf : (⟨S100000x128, .f32⟩ : BufTy).Contents (Elt F) → (⟨S100000x128, .f32⟩ : BufTy).Contents (Elt F) → (⟨S100000x128, .f32⟩ : BufTy).Contents (Elt F)) (after ops V (main_v129 : DevRef τ sig)) (after ops V (main_v131 : DevRef τ sig)) :=
  binary_at outs V 170 main_v129 main_v131 main_v132 (addf : (⟨S100000x128, .f32⟩ : BufTy).Contents (Elt F) → (⟨S100000x128, .f32⟩ : BufTy).Contents (Elt F) → (⟨S100000x128, .f32⟩ : BufTy).Contents (Elt F)) _ _ _ rfl (wr (j := 170) rfl (by decide)) (wr (j := 166) rfl (by decide)) (wr (j := 169) rfl (by decide))

theorem e_main_cst_28 (V : Valuation τ sig (Elt F)) :
    after ops V (main_cst_28 : DevRef τ sig) = ((constant S_ .f32 0x3F46E010#32) : (⟨S_, .f32⟩ : BufTy).Contents (Elt F)) :=
  nullary_at outs V 171 main_cst_28 ((constant S_ .f32 0x3F46E010#32) : (⟨S_, .f32⟩ : BufTy).Contents (Elt F)) _ rfl (wr (j := 171) rfl (by decide))

theorem e_main_v133 (V : Valuation τ sig (Elt F)) :
    after ops V (main_v133 : DevRef τ sig) = (broadcastInDim S100000x128 ![] bcast_S_S100000x128 : (⟨S_, .f32⟩ : BufTy).Contents (Elt F) → (⟨S100000x128, .f32⟩ : BufTy).Contents (Elt F)) (after ops V (main_cst_28 : DevRef τ sig)) :=
  unary_at outs V 172 main_cst_28 main_v133 (broadcastInDim S100000x128 ![] bcast_S_S100000x128 : (⟨S_, .f32⟩ : BufTy).Contents (Elt F) → (⟨S100000x128, .f32⟩ : BufTy).Contents (Elt F)) _ _ rfl (wr (j := 172) rfl (by decide)) (wr (j := 171) rfl (by decide))

theorem e_main_v134 (V : Valuation τ sig (Elt F)) :
    after ops V (main_v134 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v133 : DevRef τ sig)) (after ops V (main_v132 : DevRef τ sig)) :=
  binary_at outs V 173 main_v133 main_v132 main_v134 (mulf : (⟨S100000x128, .f32⟩ : BufTy).Contents (Elt F) → (⟨S100000x128, .f32⟩ : BufTy).Contents (Elt F) → (⟨S100000x128, .f32⟩ : BufTy).Contents (Elt F)) _ _ _ rfl (wr (j := 173) rfl (by decide)) (wr (j := 172) rfl (by decide)) (wr (j := 170) rfl (by decide))

theorem e_main_v135 (V : Valuation τ sig (Elt F)) :
    after ops V (main_v135 : DevRef τ sig) = ((extractStridedSlice S1x128x128 ![3, 0, 0] · slices_S4x128x128_S1x128x128_3_0_0) : (⟨S4x128x128, .f32⟩ : BufTy).Contents (Elt F) → (⟨S1x128x128, .f32⟩ : BufTy).Contents (Elt F)) (after ops V (main_arg6 : DevRef τ sig)) :=
  unary_at outs V 174 main_arg6 main_v135 ((extractStridedSlice S1x128x128 ![3, 0, 0] · slices_S4x128x128_S1x128x128_3_0_0) : (⟨S4x128x128, .f32⟩ : BufTy).Contents (Elt F) → (⟨S1x128x128, .f32⟩ : BufTy).Contents (Elt F)) _ _ rfl (wr (j := 174) rfl (by decide)) (nw arg6_nw 174)

theorem e_main_v136 (V : Valuation τ sig (Elt F)) :
    after ops V (main_v136 : DevRef τ sig) = shapeCast S128x128 (after ops V (main_v135 : DevRef τ sig)) shapeCasts_S1x128x128_S128x128 :=
  reshape_at outs V 175 main_v135 main_v136 _ _ _ _ rfl (wr (j := 175) rfl (by decide)) (wr (j := 174) rfl (by decide))

theorem e_main_v137 (V : Valuation τ sig (Elt F)) :
    after ops V (main_v137 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v132 : DevRef τ sig)) (after ops V (main_v136 : DevRef τ sig)) :=
  binary_at outs V 176 main_v132 main_v136 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 176) rfl (by decide)) (wr (j := 170) rfl (by decide)) (wr (j := 175) rfl (by decide))

theorem e_main_cst_29 (V : Valuation τ sig (Elt F)) :
    after ops V (main_cst_29 : DevRef τ sig) = ((constant S_ .f32 0x3E647FBE#32) : (⟨S_, .f32⟩ : BufTy).Contents (Elt F)) :=
  nullary_at outs V 177 main_cst_29 ((constant S_ .f32 0x3E647FBE#32) : (⟨S_, .f32⟩ : BufTy).Contents (Elt F)) _ rfl (wr (j := 177) rfl (by decide))

theorem e_main_v138 (V : Valuation τ sig (Elt F)) :
    after ops V (main_v138 : DevRef τ sig) = (broadcastInDim S100000x128 ![] bcast_S_S100000x128 : (⟨S_, .f32⟩ : BufTy).Contents (Elt F) → (⟨S100000x128, .f32⟩ : BufTy).Contents (Elt F)) (after ops V (main_cst_29 : DevRef τ sig)) :=
  unary_at outs V 178 main_cst_29 main_v138 (broadcastInDim S100000x128 ![] bcast_S_S100000x128 : (⟨S_, .f32⟩ : BufTy).Contents (Elt F) → (⟨S100000x128, .f32⟩ : BufTy).Contents (Elt F)) _ _ rfl (wr (j := 178) rfl (by decide)) (wr (j := 177) rfl (by decide))

theorem e_main_v139 (V : Valuation τ sig (Elt F)) :
    after ops V (main_v139 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v138 : DevRef τ sig)) (after ops V (main_v137 : DevRef τ sig)) :=
  binary_at outs V 179 main_v138 main_v137 main_v139 (mulf : (⟨S100000x128, .f32⟩ : BufTy).Contents (Elt F) → (⟨S100000x128, .f32⟩ : BufTy).Contents (Elt F) → (⟨S100000x128, .f32⟩ : BufTy).Contents (Elt F)) _ _ _ rfl (wr (j := 179) rfl (by decide)) (wr (j := 178) rfl (by decide)) (wr (j := 176) rfl (by decide))

theorem e_main_v140 (V : Valuation τ sig (Elt F)) :
    after ops V (main_v140 : DevRef τ sig) = (addf : (⟨S100000x128, .f32⟩ : BufTy).Contents (Elt F) → (⟨S100000x128, .f32⟩ : BufTy).Contents (Elt F) → (⟨S100000x128, .f32⟩ : BufTy).Contents (Elt F)) (after ops V (main_v134 : DevRef τ sig)) (after ops V (main_v139 : DevRef τ sig)) :=
  binary_at outs V 180 main_v134 main_v139 main_v140 (addf : (⟨S100000x128, .f32⟩ : BufTy).Contents (Elt F) → (⟨S100000x128, .f32⟩ : BufTy).Contents (Elt F) → (⟨S100000x128, .f32⟩ : BufTy).Contents (Elt F)) _ _ _ rfl (wr (j := 180) rfl (by decide)) (wr (j := 173) rfl (by decide)) (wr (j := 179) rfl (by decide))

theorem e_main_v141 (V : Valuation τ sig (Elt F)) :
    after ops V (main_v141 : DevRef τ sig) = ((extractStridedSlice S1x128 ![3, 0] · slices_S4x128_S1x128_3_0) : (⟨S4x128, .f32⟩ : BufTy).Contents (Elt F) → (⟨S1x128, .f32⟩ : BufTy).Contents (Elt F)) (after ops V (main_arg7 : DevRef τ sig)) :=
  unary_at outs V 181 main_arg7 main_v141 ((extractStridedSlice S1x128 ![3, 0] · slices_S4x128_S1x128_3_0) : (⟨S4x128, .f32⟩ : BufTy).Contents (Elt F) → (⟨S1x128, .f32⟩ : BufTy).Contents (Elt F)) _ _ rfl (wr (j := 181) rfl (by decide)) (nw arg7_nw 181)

theorem e_main_v142 (V : Valuation τ sig (Elt F)) :
    after ops V (main_v142 : DevRef τ sig) = shapeCast S128 (after ops V (main_v141 : DevRef τ sig)) shapeCasts_S1x128_S128 :=
  reshape_at outs V 182 main_v141 main_v142 _ _ _ _ rfl (wr (j := 182) rfl (by decide)) (wr (j := 181) rfl (by decide))

theorem e_main_v143 (V : Valuation τ sig (Elt F)) :
    after ops V (main_v143 : DevRef τ sig) = (broadcastInDim S1x128 ![1] bcast_S128_S1x128_1 : (⟨S128, .f32⟩ : BufTy).Contents (Elt F) → (⟨S1x128, .f32⟩ : BufTy).Contents (Elt F)) (after ops V (main_v142 : DevRef τ sig)) :=
  unary_at outs V 183 main_v142 main_v143 (broadcastInDim S1x128 ![1] bcast_S128_S1x128_1 : (⟨S128, .f32⟩ : BufTy).Contents (Elt F) → (⟨S1x128, .f32⟩ : BufTy).Contents (Elt F)) _ _ rfl (wr (j := 183) rfl (by decide)) (wr (j := 182) rfl (by decide))

theorem e_main_v144 (V : Valuation τ sig (Elt F)) :
    after ops V (main_v144 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v143 : DevRef τ sig)) :=
  unary_at outs V 184 main_v143 main_v144 (broadcastInDim S100000x128 ![0, 1] bcast_S1x128_S100000x128_0_1 : (⟨S1x128, .f32⟩ : BufTy).Contents (Elt F) → (⟨S100000x128, .f32⟩ : BufTy).Contents (Elt F)) _ _ rfl (wr (j := 184) rfl (by decide)) (wr (j := 183) rfl (by decide))

theorem e_main_v145 (V : Valuation τ sig (Elt F)) :
    after ops V (main_v145 : DevRef τ sig) = (addf : (⟨S100000x128, .f32⟩ : BufTy).Contents (Elt F) → (⟨S100000x128, .f32⟩ : BufTy).Contents (Elt F) → (⟨S100000x128, .f32⟩ : BufTy).Contents (Elt F)) (after ops V (main_v140 : DevRef τ sig)) (after ops V (main_v144 : DevRef τ sig)) :=
  binary_at outs V 185 main_v140 main_v144 main_v145 (addf : (⟨S100000x128, .f32⟩ : BufTy).Contents (Elt F) → (⟨S100000x128, .f32⟩ : BufTy).Contents (Elt F) → (⟨S100000x128, .f32⟩ : BufTy).Contents (Elt F)) _ _ _ rfl (wr (j := 185) rfl (by decide)) (wr (j := 180) rfl (by decide)) (wr (j := 184) rfl (by decide))

theorem e_main_call4_cst (V : Valuation τ sig (Elt F)) :
    after ops V (main_call4_cst : DevRef τ sig) = ((constant S_ .f32 0x00000000#32) : (⟨S_, .f32⟩ : BufTy).Contents (Elt F)) :=
  nullary_at outs V 186 main_call4_cst ((constant S_ .f32 0x00000000#32) : (⟨S_, .f32⟩ : BufTy).Contents (Elt F)) _ rfl (wr (j := 186) rfl (by decide))

theorem e_main_call4_v0 (V : Valuation τ sig (Elt F)) :
    after ops V (main_call4_v0 : DevRef τ sig) = ((broadcastInDim S100000x128 ![] bcast_S_S100000x128) : (⟨S_, .f32⟩ : BufTy).Contents (Elt F) → (⟨S100000x128, .f32⟩ : BufTy).Contents (Elt F)) (after ops V (main_call4_cst : DevRef τ sig)) :=
  unary_at outs V 187 main_call4_cst main_call4_v0 ((broadcastInDim S100000x128 ![] bcast_S_S100000x128) : (⟨S_, .f32⟩ : BufTy).Contents (Elt F) → (⟨S100000x128, .f32⟩ : BufTy).Contents (Elt F)) _ _ rfl (wr (j := 187) rfl (by decide)) (wr (j := 186) rfl (by decide))

theorem e_main_v146 (V : Valuation τ sig (Elt F)) :
    after ops V (main_v146 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v145 : DevRef τ sig)) (after ops V (main_call4_v0 : DevRef τ sig)) :=
  binary_at outs V 188 main_v145 main_call4_v0 main_v146 (maximumf : (⟨S100000x128, .f32⟩ : BufTy).Contents (Elt F) → (⟨S100000x128, .f32⟩ : BufTy).Contents (Elt F) → (⟨S100000x128, .f32⟩ : BufTy).Contents (Elt F)) _ _ _ rfl (wr (j := 188) rfl (by decide)) (wr (j := 185) rfl (by decide)) (wr (j := 187) rfl (by decide))

theorem e_main_cst_30 (V : Valuation τ sig (Elt F)) :
    after ops V (main_cst_30 : DevRef τ sig) = ((constant S_ .f32 0x3F800000#32) : (⟨S_, .f32⟩ : BufTy).Contents (Elt F)) :=
  nullary_at outs V 189 main_cst_30 ((constant S_ .f32 0x3F800000#32) : (⟨S_, .f32⟩ : BufTy).Contents (Elt F)) _ rfl (wr (j := 189) rfl (by decide))

end Cert.ReferenceIdeal.Hand

end
-- ==== Proof.RefEq3.lean ====
/-
  The reference program read one operation at a time, window 3: after the whole line each buffer written by an
  operation of this window holds that operation's function of what its operand buffers hold after the whole line
  (every buffer is written once, and an operand is written, if at all, before the operation that reads it).
-/
import proofs.«158605_j26792005992870_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

theorem e_main_v147 (V : Valuation τ sig (Elt F)) :
    after ops V (main_v147 : DevRef τ sig) = (broadcastInDim S1600000 ![] bcast_S_S1600000 : (⟨S_, .f32⟩ : BufTy).Contents (Elt F) → (⟨S1600000, .f32⟩ : BufTy).Contents (Elt F)) (after ops V (main_cst_30 : DevRef τ sig)) :=
  unary_at outs V 190 main_cst_30 main_v147 (broadcastInDim S1600000 ![] bcast_S_S1600000 : (⟨S_, .f32⟩ : BufTy).Contents (Elt F) → (⟨S1600000, .f32⟩ : BufTy).Contents (Elt F)) _ _ rfl (wr (j := 190) rfl (by decide)) (wr (j := 189) rfl (by decide))

theorem e_main_cst_31 (V : Valuation τ sig (Elt F)) :
    after ops V (main_cst_31 : DevRef τ sig) = ((constant S_ .f32 0x00000000#32) : (⟨S_, .f32⟩ : BufTy).Contents (Elt F)) :=
  nullary_at outs V 191 main_cst_31 ((constant S_ .f32 0x00000000#32) : (⟨S_, .f32⟩ : BufTy).Contents (Elt F)) _ rfl (wr (j := 191) rfl (by decide))

theorem e_main_v148 (V : Valuation τ sig (Elt F)) :
    after ops V (main_v148 : DevRef τ sig) = (broadcastInDim S100000 ![] bcast_S_S100000 : (⟨S_, .f32⟩ : BufTy).Contents (Elt F) → (⟨S100000, .f32⟩ : BufTy).Contents (Elt F)) (after ops V (main_cst_31 : DevRef τ sig)) :=
  unary_at outs V 192 main_cst_31 main_v148 (broadcastInDim S100000 ![] bcast_S_S100000 : (⟨S_, .f32⟩ : BufTy).Contents (Elt F) → (⟨S100000, .f32⟩ : BufTy).Contents (Elt F)) _ _ rfl (wr (j := 192) rfl (by decide)) (wr (j := 191) rfl (by decide))

theorem e_main_v149 (V : Valuation τ sig (Elt F)) :
    after ops V (main_v149 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg5 : DevRef τ sig)) :=
  unary_at outs V 193 main_arg5 main_v149 (broadcastInDim S1600000x1 ![0] bcast_S1600000_S1600000x1_0 : (⟨S1600000, .i32⟩ : BufTy).Contents (Elt F) → (⟨S1600000x1, .i32⟩ : BufTy).Contents (Elt F)) _ _ rfl (wr (j := 193) rfl (by decide)) (nw arg5_nw 193)

theorem e_main_v150 (V : Valuation τ sig (Elt F)) :
    after ops V (main_v150 : DevRef τ sig) = ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (after ops V (main_v148 : DevRef τ sig)) (after ops V (main_v149 : DevRef τ sig)) (after ops V (main_v147 : DevRef τ sig)) :=
  ternary_at outs V 194 main_v148 main_v149 main_v147 main_v150 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) _ _ _ _ rfl (wr (j := 194) rfl (by decide)) (wr (j := 192) rfl (by decide)) (wr (j := 193) rfl (by decide)) (wr (j := 190) rfl (by decide))

theorem e_main_cst_32 (V : Valuation τ sig (Elt F)) :
    after ops V (main_cst_32 : DevRef τ sig) = ((constant S_ .f32 0x3F800000#32) : (⟨S_, .f32⟩ : BufTy).Contents (Elt F)) :=
  nullary_at outs V 195 main_cst_32 ((constant S_ .f32 0x3F800000#32) : (⟨S_, .f32⟩ : BufTy).Contents (Elt F)) _ rfl (wr (j := 195) rfl (by decide))

theorem e_main_call5_v0 (V : Valuation τ sig (Elt F)) :
    after ops V (main_call5_v0 : DevRef τ sig) = (id : (⟨S_, .f32⟩ : BufTy).Contents (Elt F) → (⟨S_, .f32⟩ : BufTy).Contents (Elt F)) (after ops V (main_cst_32 : DevRef τ sig)) :=
  unary_at outs V 196 main_cst_32 main_call5_v0 (id : (⟨S_, .f32⟩ : BufTy).Contents (Elt F) → (⟨S_, .f32⟩ : BufTy).Contents (Elt F)) _ _ rfl (wr (j := 196) rfl (by decide)) (wr (j := 195) rfl (by decide))

theorem e_main_call5_v1 (V : Valuation τ sig (Elt F)) :
    after ops V (main_call5_v1 : DevRef τ sig) = ((broadcastInDim S100000 ![] bcast_S_S100000) : (⟨S_, .f32⟩ : BufTy).Contents (Elt F) → (⟨S100000, .f32⟩ : BufTy).Contents (Elt F)) (after ops V (main_call5_v0 : DevRef τ sig)) :=
  unary_at outs V 197 main_call5_v0 main_call5_v1 ((broadcastInDim S100000 ![] bcast_S_S100000) : (⟨S_, .f32⟩ : BufTy).Contents (Elt F) → (⟨S100000, .f32⟩ : BufTy).Contents (Elt F)) _ _ rfl (wr (j := 197) rfl (by decide)) (wr (j := 196) rfl (by decide))

theorem e_main_v151 (V : Valuation τ sig (Elt F)) :
    after ops V (main_v151 : DevRef τ sig) = (maximumf : (⟨S100000, .f32⟩ : BufTy).Contents (Elt F) → (⟨S100000, .f32⟩ : BufTy).Contents (Elt F) → (⟨S100000, .f32⟩ : BufTy).Contents (Elt F)) (after ops V (main_call5_v1 : DevRef τ sig)) (after ops V (main_v150 : DevRef τ sig)) :=
  binary_at outs V 198 main_call5_v1 main_v150 main_v151 (maximumf : (⟨S100000, .f32⟩ : BufTy).Contents (Elt F) → (⟨S100000, .f32⟩ : BufTy).Contents (Elt F) → (⟨S100000, .f32⟩ : BufTy).Contents (Elt F)) _ _ _ rfl (wr (j := 198) rfl (by decide)) (wr (j := 197) rfl (by decide)) (wr (j := 194) rfl (by decide))

theorem e_main_cst_33 (V : Valuation τ sig (Elt F)) :
    after ops V (main_cst_33 : DevRef τ sig) = ((constant S_ .f32 0xBF000000#32) : (⟨S_, .f32⟩ : BufTy).Contents (Elt F)) :=
  nullary_at outs V 199 main_cst_33 ((constant S_ .f32 0xBF000000#32) : (⟨S_, .f32⟩ : BufTy).Contents (Elt F)) _ rfl (wr (j := 199) rfl (by decide))

theorem e_main_v152 (V : Valuation τ sig (Elt F)) :
    after ops V (main_v152 : DevRef τ sig) = (broadcastInDim S100000 ![] bcast_S_S100000 : (⟨S_, .f32⟩ : BufTy).Contents (Elt F) → (⟨S100000, .f32⟩ : BufTy).Contents (Elt F)) (after ops V (main_cst_33 : DevRef τ sig)) :=
  unary_at outs V 200 main_cst_33 main_v152 (broadcastInDim S100000 ![] bcast_S_S100000 : (⟨S_, .f32⟩ : BufTy).Contents (Elt F) → (⟨S100000, .f32⟩ : BufTy).Contents (Elt F)) _ _ rfl (wr (j := 200) rfl (by decide)) (wr (j := 199) rfl (by decide))

theorem e_main_v153 (V : Valuation τ sig (Elt F)) :
    after ops V (main_v153 : DevRef τ sig) = (Host.powf : (⟨S100000, .f32⟩ : BufTy).Contents (Elt F) → (⟨S100000, .f32⟩ : BufTy).Contents (Elt F) → (⟨S100000, .f32⟩ : BufTy).Contents (Elt F)) (after ops V (main_v151 : DevRef τ sig)) (after ops V (main_v152 : DevRef τ sig)) :=
  binary_at outs V 201 main_v151 main_v152 main_v153 (Host.powf : (⟨S100000, .f32⟩ : BufTy).Contents (Elt F) → (⟨S100000, .f32⟩ : BufTy).Contents (Elt F) → (⟨S100000, .f32⟩ : BufTy).Contents (Elt F)) _ _ _ rfl (wr (j := 201) rfl (by decide)) (wr (j := 198) rfl (by decide)) (wr (j := 200) rfl (by decide))

theorem e_main_v154 (V : Valuation τ sig (Elt F)) :
    after ops V (main_v154 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 202 main_v153 main_v154 (broadcastInDim S100000x1 ![0] bcast_S100000_S100000x1_0 : (⟨S100000, .f32⟩ : BufTy).Contents (Elt F) → (⟨S100000x1, .f32⟩ : BufTy).Contents (Elt F)) _ _ rfl (wr (j := 202) rfl (by decide)) (wr (j := 201) rfl (by decide))

theorem e_main_v155 (V : Valuation τ sig (Elt F)) :
    after ops V (main_v155 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v154 : DevRef τ sig)) :=
  unary_at outs V 203 main_v154 main_v155 (broadcastInDim S100000x128 ![0, 1] bcast_S100000x1_S100000x128_0_1 : (⟨S100000x1, .f32⟩ : BufTy).Contents (Elt F) → (⟨S100000x128, .f32⟩ : BufTy).Contents (Elt F)) _ _ rfl (wr (j := 203) rfl (by decide)) (wr (j := 202) rfl (by decide))

theorem e_main_v156 (V : Valuation τ sig (Elt F)) :
    after ops V (main_v156 : DevRef τ sig) = (mulf : (⟨S100000x128, .f32⟩ : BufTy).Contents (Elt F) → (⟨S100000x128, .f32⟩ : BufTy).Contents (Elt F) → (⟨S100000x128, .f32⟩ : BufTy).Contents (Elt F)) (after ops V (main_arg1 : DevRef τ sig)) (after ops V (main_v155 : DevRef τ sig)) :=
  binary_at outs V 204 main_arg1 main_v155 main_v156 (mulf : (⟨S100000x128, .f32⟩ : BufTy).Contents (Elt F) → (⟨S100000x128, .f32⟩ : BufTy).Contents (Elt F) → (⟨S100000x128, .f32⟩ : BufTy).Contents (Elt F)) _ _ _ rfl (wr (j := 204) rfl (by decide)) (nw arg1_nw 204) (wr (j := 203) rfl (by decide))

theorem e_main_c_34 (V : Valuation τ sig (Elt F)) :
    after ops V (main_c_34 : DevRef τ sig) = ((constantI S_ 32 0#32) : (⟨S_, .i32⟩ : BufTy).Contents (Elt F)) :=
  nullary_at outs V 205 main_c_34 ((constantI S_ 32 0#32) : (⟨S_, .i32⟩ : BufTy).Contents (Elt F)) _ rfl (wr (j := 205) rfl (by decide))

theorem e_main_v157 (V : Valuation τ sig (Elt F)) :
    after ops V (main_v157 : DevRef τ sig) = (broadcastInDim S1600000 ![] bcast_S_S1600000 : (⟨S_, .i32⟩ : BufTy).Contents (Elt F) → (⟨S1600000, .i32⟩ : BufTy).Contents (Elt F)) (after ops V (main_c_34 : DevRef τ sig)) :=
  unary_at outs V 206 main_c_34 main_v157 (broadcastInDim S1600000 ![] bcast_S_S1600000 : (⟨S_, .i32⟩ : BufTy).Contents (Elt F) → (⟨S1600000, .i32⟩ : BufTy).Contents (Elt F)) _ _ rfl (wr (j := 206) rfl (by decide)) (wr (j := 205) rfl (by decide))

theorem e_main_v158 (V : Valuation τ sig (Elt F)) :
    after ops V (main_v158 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg4 : DevRef τ sig)) (after ops V (main_v157 : DevRef τ sig)) :=
  binary_at outs V 207 main_arg4 main_v157 main_v158 (cmpi .slt : (⟨S1600000, .i32⟩ : BufTy).Contents (Elt F) → (⟨S1600000, .i32⟩ : BufTy).Contents (Elt F) → (⟨S1600000, .i1⟩ : BufTy).Contents (Elt F)) _ _ _ rfl (wr (j := 207) rfl (by decide)) (nw arg4_nw 207) (wr (j := 206) rfl (by decide))

theorem e_main_c_35 (V : Valuation τ sig (Elt F)) :
    after ops V (main_c_35 : DevRef τ sig) = ((constantI S_ 32 100000#32) : (⟨S_, .i32⟩ : BufTy).Contents (Elt F)) :=
  nullary_at outs V 208 main_c_35 ((constantI S_ 32 100000#32) : (⟨S_, .i32⟩ : BufTy).Contents (Elt F)) _ rfl (wr (j := 208) rfl (by decide))

theorem e_main_v159 (V : Valuation τ sig (Elt F)) :
    after ops V (main_v159 : DevRef τ sig) = (broadcastInDim S1600000 ![] bcast_S_S1600000 : (⟨S_, .i32⟩ : BufTy).Contents (Elt F) → (⟨S1600000, .i32⟩ : BufTy).Contents (Elt F)) (after ops V (main_c_35 : DevRef τ sig)) :=
  unary_at outs V 209 main_c_35 main_v159 (broadcastInDim S1600000 ![] bcast_S_S1600000 : (⟨S_, .i32⟩ : BufTy).Contents (Elt F) → (⟨S1600000, .i32⟩ : BufTy).Contents (Elt F)) _ _ rfl (wr (j := 209) rfl (by decide)) (wr (j := 208) rfl (by decide))

theorem e_main_v160 (V : Valuation τ sig (Elt F)) :
    after ops V (main_v160 : DevRef τ sig) = (addi : (⟨S1600000, .i32⟩ : BufTy).Contents (Elt F) → (⟨S1600000, .i32⟩ : BufTy).Contents (Elt F) → (⟨S1600000, .i32⟩ : BufTy).Contents (Elt F)) (after ops V (main_arg4 : DevRef τ sig)) (after ops V (main_v159 : DevRef τ sig)) :=
  binary_at outs V 210 main_arg4 main_v159 main_v160 (addi : (⟨S1600000, .i32⟩ : BufTy).Contents (Elt F) → (⟨S1600000, .i32⟩ : BufTy).Contents (Elt F) → (⟨S1600000, .i32⟩ : BufTy).Contents (Elt F)) _ _ _ rfl (wr (j := 210) rfl (by decide)) (nw arg4_nw 210) (wr (j := 209) rfl (by decide))

theorem e_main_v161 (V : Valuation τ sig (Elt F)) :
    after ops V (main_v161 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v158 : DevRef τ sig)) (after ops V (main_v160 : DevRef τ sig)) (after ops V (main_arg4 : DevRef τ sig)) :=
  ternary_at outs V 211 main_v158 main_v160 main_arg4 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 211) rfl (by decide)) (wr (j := 207) rfl (by decide)) (wr (j := 210) rfl (by decide)) (nw arg4_nw 211)

theorem e_main_v162 (V : Valuation τ sig (Elt F)) :
    after ops V (main_v162 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v161 : DevRef τ sig)) :=
  unary_at outs V 212 main_v161 main_v162 (broadcastInDim S1600000x1 ![0] bcast_S1600000_S1600000x1_0 : (⟨S1600000, .i32⟩ : BufTy).Contents (Elt F) → (⟨S1600000x1, .i32⟩ : BufTy).Contents (Elt F)) _ _ rfl (wr (j := 212) rfl (by decide)) (wr (j := 211) rfl (by decide))

theorem e_main_v163 (V : Valuation τ sig (Elt F)) :
    after ops V (main_v163 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v156 : DevRef τ sig)) (after ops V (main_v162 : DevRef τ sig)) :=
  binary_at outs V 213 main_v156 main_v162 main_v163 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 213) rfl (by decide)) (wr (j := 204) rfl (by decide)) (wr (j := 212) rfl (by decide))

theorem e_main_cst_36 (V : Valuation τ sig (Elt F)) :
    after ops V (main_cst_36 : DevRef τ sig) = ((constant S_ .f32 0x00000000#32) : (⟨S_, .f32⟩ : BufTy).Contents (Elt F)) :=
  nullary_at outs V 214 main_cst_36 ((constant S_ .f32 0x00000000#32) : (⟨S_, .f32⟩ : BufTy).Contents (Elt F)) _ rfl (wr (j := 214) rfl (by decide))

theorem e_main_v164 (V : Valuation τ sig (Elt F)) :
    after ops V (main_v164 : DevRef τ sig) = (broadcastInDim S100000x128 ![] bcast_S_S100000x128 : (⟨S_, .f32⟩ : BufTy).Contents (Elt F) → (⟨S100000x128, .f32⟩ : BufTy).Contents (Elt F)) (after ops V (main_cst_36 : DevRef τ sig)) :=
  unary_at outs V 215 main_cst_36 main_v164 (broadcastInDim S100000x128 ![] bcast_S_S100000x128 : (⟨S_, .f32⟩ : BufTy).Contents (Elt F) → (⟨S100000x128, .f32⟩ : BufTy).Contents (Elt F)) _ _ rfl (wr (j := 215) rfl (by decide)) (wr (j := 214) rfl (by decide))

theorem e_main_v165 (V : Valuation τ sig (Elt F)) :
    after ops V (main_v165 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg5 : DevRef τ sig)) :=
  unary_at outs V 216 main_arg5 main_v165 (broadcastInDim S1600000x1 ![0] bcast_S1600000_S1600000x1_0 : (⟨S1600000, .i32⟩ : BufTy).Contents (Elt F) → (⟨S1600000x1, .i32⟩ : BufTy).Contents (Elt F)) _ _ rfl (wr (j := 216) rfl (by decide)) (nw arg5_nw 216)

theorem e_main_v166 (V : Valuation τ sig (Elt F)) :
    after ops V (main_v166 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v164 : DevRef τ sig)) (after ops V (main_v165 : DevRef τ sig)) (after ops V (main_v163 : DevRef τ sig)) :=
  ternary_at outs V 217 main_v164 main_v165 main_v163 main_v166 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 217) rfl (by decide)) (wr (j := 215) rfl (by decide)) (wr (j := 216) rfl (by decide)) (wr (j := 213) rfl (by decide))

theorem e_main_v167 (V : Valuation τ sig (Elt F)) :
    after ops V (main_v167 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 218 main_v153 main_v167 (broadcastInDim S100000x1 ![0] bcast_S100000_S100000x1_0 : (⟨S100000, .f32⟩ : BufTy).Contents (Elt F) → (⟨S100000x1, .f32⟩ : BufTy).Contents (Elt F)) _ _ rfl (wr (j := 218) rfl (by decide)) (wr (j := 201) rfl (by decide))

theorem e_main_v168 (V : Valuation τ sig (Elt F)) :
    after ops V (main_v168 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v167 : DevRef τ sig)) :=
  unary_at outs V 219 main_v167 main_v168 (broadcastInDim S100000x128 ![0, 1] bcast_S100000x1_S100000x128_0_1 : (⟨S100000x1, .f32⟩ : BufTy).Contents (Elt F) → (⟨S100000x128, .f32⟩ : BufTy).Contents (Elt F)) _ _ rfl (wr (j := 219) rfl (by decide)) (wr (j := 218) rfl (by decide))

theorem e_main_v169 (V : Valuation τ sig (Elt F)) :
    after ops V (main_v169 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v166 : DevRef τ sig)) (after ops V (main_v168 : DevRef τ sig)) :=
  binary_at outs V 220 main_v166 main_v168 main_v169 (mulf : (⟨S100000x128, .f32⟩ : BufTy).Contents (Elt F) → (⟨S100000x128, .f32⟩ : BufTy).Contents (Elt F) → (⟨S100000x128, .f32⟩ : BufTy).Contents (Elt F)) _ _ _ rfl (wr (j := 220) rfl (by decide)) (wr (j := 217) rfl (by decide)) (wr (j := 219) rfl (by decide))

theorem e_main_cst_37 (V : Valuation τ sig (Elt F)) :
    after ops V (main_cst_37 : DevRef τ sig) = ((constant S_ .f32 0x3F666666#32) : (⟨S_, .f32⟩ : BufTy).Contents (Elt F)) :=
  nullary_at outs V 221 main_cst_37 ((constant S_ .f32 0x3F666666#32) : (⟨S_, .f32⟩ : BufTy).Contents (Elt F)) _ rfl (wr (j := 221) rfl (by decide))

theorem e_main_v170 (V : Valuation τ sig (Elt F)) :
    after ops V (main_v170 : DevRef τ sig) = (broadcastInDim S100000x128 ![] bcast_S_S100000x128 : (⟨S_, .f32⟩ : BufTy).Contents (Elt F) → (⟨S100000x128, .f32⟩ : BufTy).Contents (Elt F)) (after ops V (main_cst_37 : DevRef τ sig)) :=
  unary_at outs V 222 main_cst_37 main_v170 (broadcastInDim S100000x128 ![] bcast_S_S100000x128 : (⟨S_, .f32⟩ : BufTy).Contents (Elt F) → (⟨S100000x128, .f32⟩ : BufTy).Contents (Elt F)) _ _ rfl (wr (j := 222) rfl (by decide)) (wr (j := 221) rfl (by decide))

theorem e_main_v171 (V : Valuation τ sig (Elt F)) :
    after ops V (main_v171 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v170 : DevRef τ sig)) (after ops V (main_v169 : DevRef τ sig)) :=
  binary_at outs V 223 main_v170 main_v169 main_v171 (mulf : (⟨S100000x128, .f32⟩ : BufTy).Contents (Elt F) → (⟨S100000x128, .f32⟩ : BufTy).Contents (Elt F) → (⟨S100000x128, .f32⟩ : BufTy).Contents (Elt F)) _ _ _ rfl (wr (j := 223) rfl (by decide)) (wr (j := 222) rfl (by decide)) (wr (j := 220) rfl (by decide))

theorem e_main_cst_38 (V : Valuation τ sig (Elt F)) :
    after ops V (main_cst_38 : DevRef τ sig) = ((constant S_ .f32 0x3DCCCCCD#32) : (⟨S_, .f32⟩ : BufTy).Contents (Elt F)) :=
  nullary_at outs V 224 main_cst_38 ((constant S_ .f32 0x3DCCCCCD#32) : (⟨S_, .f32⟩ : BufTy).Contents (Elt F)) _ rfl (wr (j := 224) rfl (by decide))

theorem e_main_v172 (V : Valuation τ sig (Elt F)) :
    after ops V (main_v172 : DevRef τ sig) = (broadcastInDim S100000x128 ![] bcast_S_S100000x128 : (⟨S_, .f32⟩ : BufTy).Contents (Elt F) → (⟨S100000x128, .f32⟩ : BufTy).Contents (Elt F)) (after ops V (main_cst_38 : DevRef τ sig)) :=
  unary_at outs V 225 main_cst_38 main_v172 (broadcastInDim S100000x128 ![] bcast_S_S100000x128 : (⟨S_, .f32⟩ : BufTy).Contents (Elt F) → (⟨S100000x128, .f32⟩ : BufTy).Contents (Elt F)) _ _ rfl (wr (j := 225) rfl (by decide)) (wr (j := 224) rfl (by decide))

theorem e_main_v173 (V : Valuation τ sig (Elt F)) :
    after ops V (main_v173 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v172 : DevRef τ sig)) (after ops V (main_arg1 : DevRef τ sig)) :=
  binary_at outs V 226 main_v172 main_arg1 main_v173 (mulf : (⟨S100000x128, .f32⟩ : BufTy).Contents (Elt F) → (⟨S100000x128, .f32⟩ : BufTy).Contents (Elt F) → (⟨S100000x128, .f32⟩ : BufTy).Contents (Elt F)) _ _ _ rfl (wr (j := 226) rfl (by decide)) (wr (j := 225) rfl (by decide)) (nw arg1_nw 226)

theorem e_main_v174 (V : Valuation τ sig (Elt F)) :
    after ops V (main_v174 : DevRef τ sig) = (addf : (⟨S100000x128, .f32⟩ : BufTy).Contents (Elt F) → (⟨S100000x128, .f32⟩ : BufTy).Contents (Elt F) → (⟨S100000x128, .f32⟩ : BufTy).Contents (Elt F)) (after ops V (main_v171 : DevRef τ sig)) (after ops V (main_v173 : DevRef τ sig)) :=
  binary_at outs V 227 main_v171 main_v173 main_v174 (addf : (⟨S100000x128, .f32⟩ : BufTy).Contents (Elt F) → (⟨S100000x128, .f32⟩ : BufTy).Contents (Elt F) → (⟨S100000x128, .f32⟩ : BufTy).Contents (Elt F)) _ _ _ rfl (wr (j := 227) rfl (by decide)) (wr (j := 223) rfl (by decide)) (wr (j := 226) rfl (by decide))

theorem e_main_cst_39 (V : Valuation τ sig (Elt F)) :
    after ops V (main_cst_39 : DevRef τ sig) = ((constant S_ .f32 0x3E9D1BD0#32) : (⟨S_, .f32⟩ : BufTy).Contents (Elt F)) :=
  nullary_at outs V 228 main_cst_39 ((constant S_ .f32 0x3E9D1BD0#32) : (⟨S_, .f32⟩ : BufTy).Contents (Elt F)) _ rfl (wr (j := 228) rfl (by decide))

theorem e_main_v175 (V : Valuation τ sig (Elt F)) :
    after ops V (main_v175 : DevRef τ sig) = (broadcastInDim S100000x128 ![] bcast_S_S100000x128 : (⟨S_, .f32⟩ : BufTy).Contents (Elt F) → (⟨S100000x128, .f32⟩ : BufTy).Contents (Elt F)) (after ops V (main_cst_39 : DevRef τ sig)) :=
  unary_at outs V 229 main_cst_39 main_v175 (broadcastInDim S100000x128 ![] bcast_S_S100000x128 : (⟨S_, .f32⟩ : BufTy).Contents (Elt F) → (⟨S100000x128, .f32⟩ : BufTy).Contents (Elt F)) _ _ rfl (wr (j := 229) rfl (by decide)) (wr (j := 228) rfl (by decide))

theorem e_main_v176 (V : Valuation τ sig (Elt F)) :
    after ops V (main_v176 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v175 : DevRef τ sig)) (after ops V (main_v174 : DevRef τ sig)) :=
  binary_at outs V 230 main_v175 main_v174 main_v176 (mulf : (⟨S100000x128, .f32⟩ : BufTy).Contents (Elt F) → (⟨S100000x128, .f32⟩ : BufTy).Contents (Elt F) → (⟨S100000x128, .f32⟩ : BufTy).Contents (Elt F)) _ _ _ rfl (wr (j := 230) rfl (by decide)) (wr (j := 229) rfl (by decide)) (wr (j := 227) rfl (by decide))

theorem e_main_v177 (V : Valuation τ sig (Elt F)) :
    after ops V (main_v177 : DevRef τ sig) = ((extractStridedSlice S1x128x128 ![0, 0, 0] · slices_S4x128x128_S1x128x128_0_0_0) : (⟨S4x128x128, .f32⟩ : BufTy).Contents (Elt F) → (⟨S1x128x128, .f32⟩ : BufTy).Contents (Elt F)) (after ops V (main_arg6 : DevRef τ sig)) :=
  unary_at outs V 231 main_arg6 main_v177 ((extractStridedSlice S1x128x128 ![0, 0, 0] · slices_S4x128x128_S1x128x128_0_0_0) : (⟨S4x128x128, .f32⟩ : BufTy).Contents (Elt F) → (⟨S1x128x128, .f32⟩ : BufTy).Contents (Elt F)) _ _ rfl (wr (j := 231) rfl (by decide)) (nw arg6_nw 231)

theorem e_main_v178 (V : Valuation τ sig (Elt F)) :
    after ops V (main_v178 : DevRef τ sig) = shapeCast S128x128 (after ops V (main_v177 : DevRef τ sig)) shapeCasts_S1x128x128_S128x128 :=
  reshape_at outs V 232 main_v177 main_v178 _ _ _ _ rfl (wr (j := 232) rfl (by decide)) (wr (j := 231) rfl (by decide))

theorem e_main_v179 (V : Valuation τ sig (Elt F)) :
    after ops V (main_v179 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v174 : DevRef τ sig)) (after ops V (main_v178 : DevRef τ sig)) :=
  binary_at outs V 233 main_v174 main_v178 main_v179 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 233) rfl (by decide)) (wr (j := 227) rfl (by decide)) (wr (j := 232) rfl (by decide))

theorem e_main_cst_40 (V : Valuation τ sig (Elt F)) :
    after ops V (main_cst_40 : DevRef τ sig) = ((constant S_ .f32 0x3F317218#32) : (⟨S_, .f32⟩ : BufTy).Contents (Elt F)) :=
  nullary_at outs V 234 main_cst_40 ((constant S_ .f32 0x3F317218#32) : (⟨S_, .f32⟩ : BufTy).Contents (Elt F)) _ rfl (wr (j := 234) rfl (by decide))

theorem e_main_v180 (V : Valuation τ sig (Elt F)) :
    after ops V (main_v180 : DevRef τ sig) = (broadcastInDim S100000x128 ![] bcast_S_S100000x128 : (⟨S_, .f32⟩ : BufTy).Contents (Elt F) → (⟨S100000x128, .f32⟩ : BufTy).Contents (Elt F)) (after ops V (main_cst_40 : DevRef τ sig)) :=
  unary_at outs V 235 main_cst_40 main_v180 (broadcastInDim S100000x128 ![] bcast_S_S100000x128 : (⟨S_, .f32⟩ : BufTy).Contents (Elt F) → (⟨S100000x128, .f32⟩ : BufTy).Contents (Elt F)) _ _ rfl (wr (j := 235) rfl (by decide)) (wr (j := 234) rfl (by decide))

theorem e_main_v181 (V : Valuation τ sig (Elt F)) :
    after ops V (main_v181 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v180 : DevRef τ sig)) (after ops V (main_v179 : DevRef τ sig)) :=
  binary_at outs V 236 main_v180 main_v179 main_v181 (mulf : (⟨S100000x128, .f32⟩ : BufTy).Contents (Elt F) → (⟨S100000x128, .f32⟩ : BufTy).Contents (Elt F) → (⟨S100000x128, .f32⟩ : BufTy).Contents (Elt F)) _ _ _ rfl (wr (j := 236) rfl (by decide)) (wr (j := 235) rfl (by decide)) (wr (j := 233) rfl (by decide))

theorem e_main_v182 (V : Valuation τ sig (Elt F)) :
    after ops V (main_v182 : DevRef τ sig) = (addf : (⟨S100000x128, .f32⟩ : BufTy).Contents (Elt F) → (⟨S100000x128, .f32⟩ : BufTy).Contents (Elt F) → (⟨S100000x128, .f32⟩ : BufTy).Contents (Elt F)) (after ops V (main_v176 : DevRef τ sig)) (after ops V (main_v181 : DevRef τ sig)) :=
  binary_at outs V 237 main_v176 main_v181 main_v182 (addf : (⟨S100000x128, .f32⟩ : BufTy).Contents (Elt F) → (⟨S100000x128, .f32⟩ : BufTy).Contents (Elt F) → (⟨S100000x128, .f32⟩ : BufTy).Contents (Elt F)) _ _ _ rfl (wr (j := 237) rfl (by decide)) (wr (j := 230) rfl (by decide)) (wr (j := 236) rfl (by decide))

theorem e_main_v183 (V : Valuation τ sig (Elt F)) :
    after ops V (main_v183 : DevRef τ sig) = ((extractStridedSlice S1x128 ![0, 0] · slices_S4x128_S1x128_0_0) : (⟨S4x128, .f32⟩ : BufTy).Contents (Elt F) → (⟨S1x128, .f32⟩ : BufTy).Contents (Elt F)) (after ops V (main_arg7 : DevRef τ sig)) :=
  unary_at outs V 238 main_arg7 main_v183 ((extractStridedSlice S1x128 ![0, 0] · slices_S4x128_S1x128_0_0) : (⟨S4x128, .f32⟩ : BufTy).Contents (Elt F) → (⟨S1x128, .f32⟩ : BufTy).Contents (Elt F)) _ _ rfl (wr (j := 238) rfl (by decide)) (nw arg7_nw 238)

theorem e_main_v184 (V : Valuation τ sig (Elt F)) :
    after ops V (main_v184 : DevRef τ sig) = shapeCast S128 (after ops V (main_v183 : DevRef τ sig)) shapeCasts_S1x128_S128 :=
  reshape_at outs V 239 main_v183 main_v184 _ _ _ _ rfl (wr (j := 239) rfl (by decide)) (wr (j := 238) rfl (by decide))

theorem e_main_v185 (V : Valuation τ sig (Elt F)) :
    after ops V (main_v185 : DevRef τ sig) = (broadcastInDim S1x128 ![1] bcast_S128_S1x128_1 : (⟨S128, .f32⟩ : BufTy).Contents (Elt F) → (⟨S1x128, .f32⟩ : BufTy).Contents (Elt F)) (after ops V (main_v184 : DevRef τ sig)) :=
  unary_at outs V 240 main_v184 main_v185 (broadcastInDim S1x128 ![1] bcast_S128_S1x128_1 : (⟨S128, .f32⟩ : BufTy).Contents (Elt F) → (⟨S1x128, .f32⟩ : BufTy).Contents (Elt F)) _ _ rfl (wr (j := 240) rfl (by decide)) (wr (j := 239) rfl (by decide))

theorem e_main_v186 (V : Valuation τ sig (Elt F)) :
    after ops V (main_v186 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v185 : DevRef τ sig)) :=
  unary_at outs V 241 main_v185 main_v186 (broadcastInDim S100000x128 ![0, 1] bcast_S1x128_S100000x128_0_1 : (⟨S1x128, .f32⟩ : BufTy).Contents (Elt F) → (⟨S100000x128, .f32⟩ : BufTy).Contents (Elt F)) _ _ rfl (wr (j := 241) rfl (by decide)) (wr (j := 240) rfl (by decide))

theorem e_main_v187 (V : Valuation τ sig (Elt F)) :
    after ops V (main_v187 : DevRef τ sig) = (addf : (⟨S100000x128, .f32⟩ : BufTy).Contents (Elt F) → (⟨S100000x128, .f32⟩ : BufTy).Contents (Elt F) → (⟨S100000x128, .f32⟩ : BufTy).Contents (Elt F)) (after ops V (main_v182 : DevRef τ sig)) (after ops V (main_v186 : DevRef τ sig)) :=
  binary_at outs V 242 main_v182 main_v186 main_v187 (addf : (⟨S100000x128, .f32⟩ : BufTy).Contents (Elt F) → (⟨S100000x128, .f32⟩ : BufTy).Contents (Elt F) → (⟨S100000x128, .f32⟩ : BufTy).Contents (Elt F)) _ _ _ rfl (wr (j := 242) rfl (by decide)) (wr (j := 237) rfl (by decide)) (wr (j := 241) rfl (by decide))

theorem e_main_call6_cst (V : Valuation τ sig (Elt F)) :
    after ops V (main_call6_cst : DevRef τ sig) = ((constant S_ .f32 0x00000000#32) : (⟨S_, .f32⟩ : BufTy).Contents (Elt F)) :=
  nullary_at outs V 243 main_call6_cst ((constant S_ .f32 0x00000000#32) : (⟨S_, .f32⟩ : BufTy).Contents (Elt F)) _ rfl (wr (j := 243) rfl (by decide))

theorem e_main_call6_v0 (V : Valuation τ sig (Elt F)) :
    after ops V (main_call6_v0 : DevRef τ sig) = ((broadcastInDim S100000x128 ![] bcast_S_S100000x128) : (⟨S_, .f32⟩ : BufTy).Contents (Elt F) → (⟨S100000x128, .f32⟩ : BufTy).Contents (Elt F)) (after ops V (main_call6_cst : DevRef τ sig)) :=
  unary_at outs V 244 main_call6_cst main_call6_v0 ((broadcastInDim S100000x128 ![] bcast_S_S100000x128) : (⟨S_, .f32⟩ : BufTy).Contents (Elt F) → (⟨S100000x128, .f32⟩ : BufTy).Contents (Elt F)) _ _ rfl (wr (j := 244) rfl (by decide)) (wr (j := 243) rfl (by decide))

theorem e_main_v188 (V : Valuation τ sig (Elt F)) :
    after ops V (main_v188 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v187 : DevRef τ sig)) (after ops V (main_call6_v0 : DevRef τ sig)) :=
  binary_at outs V 245 main_v187 main_call6_v0 main_v188 (maximumf : (⟨S100000x128, .f32⟩ : BufTy).Contents (Elt F) → (⟨S100000x128, .f32⟩ : BufTy).Contents (Elt F) → (⟨S100000x128, .f32⟩ : BufTy).Contents (Elt F)) _ _ _ rfl (wr (j := 245) rfl (by decide)) (wr (j := 242) rfl (by decide)) (wr (j := 244) rfl (by decide))

theorem e_main_v189 (V : Valuation τ sig (Elt F)) :
    after ops V (main_v189 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 246 main_v153 main_v189 (broadcastInDim S100000x1 ![0] bcast_S100000_S100000x1_0 : (⟨S100000, .f32⟩ : BufTy).Contents (Elt F) → (⟨S100000x1, .f32⟩ : BufTy).Contents (Elt F)) _ _ rfl (wr (j := 246) rfl (by decide)) (wr (j := 201) rfl (by decide))

theorem e_main_v190 (V : Valuation τ sig (Elt F)) :
    after ops V (main_v190 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v189 : DevRef τ sig)) :=
  unary_at outs V 247 main_v189 main_v190 (broadcastInDim S100000x128 ![0, 1] bcast_S100000x1_S100000x128_0_1 : (⟨S100000x1, .f32⟩ : BufTy).Contents (Elt F) → (⟨S100000x128, .f32⟩ : BufTy).Contents (Elt F)) _ _ rfl (wr (j := 247) rfl (by decide)) (wr (j := 246) rfl (by decide))

theorem e_main_v191 (V : Valuation τ sig (Elt F)) :
    after ops V (main_v191 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v188 : DevRef τ sig)) (after ops V (main_v190 : DevRef τ sig)) :=
  binary_at outs V 248 main_v188 main_v190 main_v191 (mulf : (⟨S100000x128, .f32⟩ : BufTy).Contents (Elt F) → (⟨S100000x128, .f32⟩ : BufTy).Contents (Elt F) → (⟨S100000x128, .f32⟩ : BufTy).Contents (Elt F)) _ _ _ rfl (wr (j := 248) rfl (by decide)) (wr (j := 245) rfl (by decide)) (wr (j := 247) rfl (by decide))

theorem e_main_c_41 (V : Valuation τ sig (Elt F)) :
    after ops V (main_c_41 : DevRef τ sig) = ((constantI S_ 32 0#32) : (⟨S_, .i32⟩ : BufTy).Contents (Elt F)) :=
  nullary_at outs V 249 main_c_41 ((constantI S_ 32 0#32) : (⟨S_, .i32⟩ : BufTy).Contents (Elt F)) _ rfl (wr (j := 249) rfl (by decide))

theorem e_main_v192 (V : Valuation τ sig (Elt F)) :
    after ops V (main_v192 : DevRef τ sig) = (broadcastInDim S1600000 ![] bcast_S_S1600000 : (⟨S_, .i32⟩ : BufTy).Contents (Elt F) → (⟨S1600000, .i32⟩ : BufTy).Contents (Elt F)) (after ops V (main_c_41 : DevRef τ sig)) :=
  unary_at outs V 250 main_c_41 main_v192 (broadcastInDim S1600000 ![] bcast_S_S1600000 : (⟨S_, .i32⟩ : BufTy).Contents (Elt F) → (⟨S1600000, .i32⟩ : BufTy).Contents (Elt F)) _ _ rfl (wr (j := 250) rfl (by decide)) (wr (j := 249) rfl (by decide))

theorem e_main_v193 (V : Valuation τ sig (Elt F)) :
    after ops V (main_v193 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg4 : DevRef τ sig)) (after ops V (main_v192 : DevRef τ sig)) :=
  binary_at outs V 251 main_arg4 main_v192 main_v193 (cmpi .slt : (⟨S1600000, .i32⟩ : BufTy).Contents (Elt F) → (⟨S1600000, .i32⟩ : BufTy).Contents (Elt F) → (⟨S1600000, .i1⟩ : BufTy).Contents (Elt F)) _ _ _ rfl (wr (j := 251) rfl (by decide)) (nw arg4_nw 251) (wr (j := 250) rfl (by decide))

theorem e_main_c_42 (V : Valuation τ sig (Elt F)) :
    after ops V (main_c_42 : DevRef τ sig) = ((constantI S_ 32 100000#32) : (⟨S_, .i32⟩ : BufTy).Contents (Elt F)) :=
  nullary_at outs V 252 main_c_42 ((constantI S_ 32 100000#32) : (⟨S_, .i32⟩ : BufTy).Contents (Elt F)) _ rfl (wr (j := 252) rfl (by decide))

theorem e_main_v194 (V : Valuation τ sig (Elt F)) :
    after ops V (main_v194 : DevRef τ sig) = (broadcastInDim S1600000 ![] bcast_S_S1600000 : (⟨S_, .i32⟩ : BufTy).Contents (Elt F) → (⟨S1600000, .i32⟩ : BufTy).Contents (Elt F)) (after ops V (main_c_42 : DevRef τ sig)) :=
  unary_at outs V 253 main_c_42 main_v194 (broadcastInDim S1600000 ![] bcast_S_S1600000 : (⟨S_, .i32⟩ : BufTy).Contents (Elt F) → (⟨S1600000, .i32⟩ : BufTy).Contents (Elt F)) _ _ rfl (wr (j := 253) rfl (by decide)) (wr (j := 252) rfl (by decide))

end Cert.ReferenceIdeal.Hand

end
-- ==== Proof.RefEq4.lean ====
/-
  The reference program read one operation at a time, window 4: after the whole line each buffer written by an
  operation of this window holds that operation's function of what its operand buffers hold after the whole line
  (every buffer is written once, and an operand is written, if at all, before the operation that reads it).
-/
import proofs.«158605_j26792005992870_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

theorem e_main_v195 (V : Valuation τ sig (Elt F)) :
    after ops V (main_v195 : DevRef τ sig) = (addi : (⟨S1600000, .i32⟩ : BufTy).Contents (Elt F) → (⟨S1600000, .i32⟩ : BufTy).Contents (Elt F) → (⟨S1600000, .i32⟩ : BufTy).Contents (Elt F)) (after ops V (main_arg4 : DevRef τ sig)) (after ops V (main_v194 : DevRef τ sig)) :=
  binary_at outs V 254 main_arg4 main_v194 main_v195 (addi : (⟨S1600000, .i32⟩ : BufTy).Contents (Elt F) → (⟨S1600000, .i32⟩ : BufTy).Contents (Elt F) → (⟨S1600000, .i32⟩ : BufTy).Contents (Elt F)) _ _ _ rfl (wr (j := 254) rfl (by decide)) (nw arg4_nw 254) (wr (j := 253) rfl (by decide))

theorem e_main_v196 (V : Valuation τ sig (Elt F)) :
    after ops V (main_v196 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v193 : DevRef τ sig)) (after ops V (main_v195 : DevRef τ sig)) (after ops V (main_arg4 : DevRef τ sig)) :=
  ternary_at outs V 255 main_v193 main_v195 main_arg4 main_v196 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 255) rfl (by decide)) (wr (j := 251) rfl (by decide)) (wr (j := 254) rfl (by decide)) (nw arg4_nw 255)

theorem e_main_v197 (V : Valuation τ sig (Elt F)) :
    after ops V (main_v197 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v196 : DevRef τ sig)) :=
  unary_at outs V 256 main_v196 main_v197 (broadcastInDim S1600000x1 ![0] bcast_S1600000_S1600000x1_0 : (⟨S1600000, .i32⟩ : BufTy).Contents (Elt F) → (⟨S1600000x1, .i32⟩ : BufTy).Contents (Elt F)) _ _ rfl (wr (j := 256) rfl (by decide)) (wr (j := 255) rfl (by decide))

theorem e_main_v198 (V : Valuation τ sig (Elt F)) :
    after ops V (main_v198 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v191 : DevRef τ sig)) (after ops V (main_v197 : DevRef τ sig)) :=
  binary_at outs V 257 main_v191 main_v197 main_v198 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 257) rfl (by decide)) (wr (j := 248) rfl (by decide)) (wr (j := 256) rfl (by decide))

theorem e_main_cst_43 (V : Valuation τ sig (Elt F)) :
    after ops V (main_cst_43 : DevRef τ sig) = ((constant S_ .f32 0x00000000#32) : (⟨S_, .f32⟩ : BufTy).Contents (Elt F)) :=
  nullary_at outs V 258 main_cst_43 ((constant S_ .f32 0x00000000#32) : (⟨S_, .f32⟩ : BufTy).Contents (Elt F)) _ rfl (wr (j := 258) rfl (by decide))

theorem e_main_v199 (V : Valuation τ sig (Elt F)) :
    after ops V (main_v199 : DevRef τ sig) = (broadcastInDim S100000x128 ![] bcast_S_S100000x128 : (⟨S_, .f32⟩ : BufTy).Contents (Elt F) → (⟨S100000x128, .f32⟩ : BufTy).Contents (Elt F)) (after ops V (main_cst_43 : DevRef τ sig)) :=
  unary_at outs V 259 main_cst_43 main_v199 (broadcastInDim S100000x128 ![] bcast_S_S100000x128 : (⟨S_, .f32⟩ : BufTy).Contents (Elt F) → (⟨S100000x128, .f32⟩ : BufTy).Contents (Elt F)) _ _ rfl (wr (j := 259) rfl (by decide)) (wr (j := 258) rfl (by decide))

theorem e_main_v200 (V : Valuation τ sig (Elt F)) :
    after ops V (main_v200 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg5 : DevRef τ sig)) :=
  unary_at outs V 260 main_arg5 main_v200 (broadcastInDim S1600000x1 ![0] bcast_S1600000_S1600000x1_0 : (⟨S1600000, .i32⟩ : BufTy).Contents (Elt F) → (⟨S1600000x1, .i32⟩ : BufTy).Contents (Elt F)) _ _ rfl (wr (j := 260) rfl (by decide)) (nw arg5_nw 260)

theorem e_main_v201 (V : Valuation τ sig (Elt F)) :
    after ops V (main_v201 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v199 : DevRef τ sig)) (after ops V (main_v200 : DevRef τ sig)) (after ops V (main_v198 : DevRef τ sig)) :=
  ternary_at outs V 261 main_v199 main_v200 main_v198 main_v201 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 261) rfl (by decide)) (wr (j := 259) rfl (by decide)) (wr (j := 260) rfl (by decide)) (wr (j := 257) rfl (by decide))

theorem e_main_v202 (V : Valuation τ sig (Elt F)) :
    after ops V (main_v202 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 262 main_v153 main_v202 (broadcastInDim S100000x1 ![0] bcast_S100000_S100000x1_0 : (⟨S100000, .f32⟩ : BufTy).Contents (Elt F) → (⟨S100000x1, .f32⟩ : BufTy).Contents (Elt F)) _ _ rfl (wr (j := 262) rfl (by decide)) (wr (j := 201) rfl (by decide))

theorem e_main_v203 (V : Valuation τ sig (Elt F)) :
    after ops V (main_v203 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v202 : DevRef τ sig)) :=
  unary_at outs V 263 main_v202 main_v203 (broadcastInDim S100000x128 ![0, 1] bcast_S100000x1_S100000x128_0_1 : (⟨S100000x1, .f32⟩ : BufTy).Contents (Elt F) → (⟨S100000x128, .f32⟩ : BufTy).Contents (Elt F)) _ _ rfl (wr (j := 263) rfl (by decide)) (wr (j := 262) rfl (by decide))

theorem e_main_v204 (V : Valuation τ sig (Elt F)) :
    after ops V (main_v204 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v201 : DevRef τ sig)) (after ops V (main_v203 : DevRef τ sig)) :=
  binary_at outs V 264 main_v201 main_v203 main_v204 (mulf : (⟨S100000x128, .f32⟩ : BufTy).Contents (Elt F) → (⟨S100000x128, .f32⟩ : BufTy).Contents (Elt F) → (⟨S100000x128, .f32⟩ : BufTy).Contents (Elt F)) _ _ _ rfl (wr (j := 264) rfl (by decide)) (wr (j := 261) rfl (by decide)) (wr (j := 263) rfl (by decide))

theorem e_main_cst_44 (V : Valuation τ sig (Elt F)) :
    after ops V (main_cst_44 : DevRef τ sig) = ((constant S_ .f32 0x3F666666#32) : (⟨S_, .f32⟩ : BufTy).Contents (Elt F)) :=
  nullary_at outs V 265 main_cst_44 ((constant S_ .f32 0x3F666666#32) : (⟨S_, .f32⟩ : BufTy).Contents (Elt F)) _ rfl (wr (j := 265) rfl (by decide))

theorem e_main_v205 (V : Valuation τ sig (Elt F)) :
    after ops V (main_v205 : DevRef τ sig) = (broadcastInDim S100000x128 ![] bcast_S_S100000x128 : (⟨S_, .f32⟩ : BufTy).Contents (Elt F) → (⟨S100000x128, .f32⟩ : BufTy).Contents (Elt F)) (after ops V (main_cst_44 : DevRef τ sig)) :=
  unary_at outs V 266 main_cst_44 main_v205 (broadcastInDim S100000x128 ![] bcast_S_S100000x128 : (⟨S_, .f32⟩ : BufTy).Contents (Elt F) → (⟨S100000x128, .f32⟩ : BufTy).Contents (Elt F)) _ _ rfl (wr (j := 266) rfl (by decide)) (wr (j := 265) rfl (by decide))

theorem e_main_v206 (V : Valuation τ sig (Elt F)) :
    after ops V (main_v206 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v205 : DevRef τ sig)) (after ops V (main_v204 : DevRef τ sig)) :=
  binary_at outs V 267 main_v205 main_v204 main_v206 (mulf : (⟨S100000x128, .f32⟩ : BufTy).Contents (Elt F) → (⟨S100000x128, .f32⟩ : BufTy).Contents (Elt F) → (⟨S100000x128, .f32⟩ : BufTy).Contents (Elt F)) _ _ _ rfl (wr (j := 267) rfl (by decide)) (wr (j := 266) rfl (by decide)) (wr (j := 264) rfl (by decide))

theorem e_main_cst_45 (V : Valuation τ sig (Elt F)) :
    after ops V (main_cst_45 : DevRef τ sig) = ((constant S_ .f32 0x3DCCCCCD#32) : (⟨S_, .f32⟩ : BufTy).Contents (Elt F)) :=
  nullary_at outs V 268 main_cst_45 ((constant S_ .f32 0x3DCCCCCD#32) : (⟨S_, .f32⟩ : BufTy).Contents (Elt F)) _ rfl (wr (j := 268) rfl (by decide))

theorem e_main_v207 (V : Valuation τ sig (Elt F)) :
    after ops V (main_v207 : DevRef τ sig) = (broadcastInDim S100000x128 ![] bcast_S_S100000x128 : (⟨S_, .f32⟩ : BufTy).Contents (Elt F) → (⟨S100000x128, .f32⟩ : BufTy).Contents (Elt F)) (after ops V (main_cst_45 : DevRef τ sig)) :=
  unary_at outs V 269 main_cst_45 main_v207 (broadcastInDim S100000x128 ![] bcast_S_S100000x128 : (⟨S_, .f32⟩ : BufTy).Contents (Elt F) → (⟨S100000x128, .f32⟩ : BufTy).Contents (Elt F)) _ _ rfl (wr (j := 269) rfl (by decide)) (wr (j := 268) rfl (by decide))

theorem e_main_v208 (V : Valuation τ sig (Elt F)) :
    after ops V (main_v208 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v207 : DevRef τ sig)) (after ops V (main_arg1 : DevRef τ sig)) :=
  binary_at outs V 270 main_v207 main_arg1 main_v208 (mulf : (⟨S100000x128, .f32⟩ : BufTy).Contents (Elt F) → (⟨S100000x128, .f32⟩ : BufTy).Contents (Elt F) → (⟨S100000x128, .f32⟩ : BufTy).Contents (Elt F)) _ _ _ rfl (wr (j := 270) rfl (by decide)) (wr (j := 269) rfl (by decide)) (nw arg1_nw 270)

theorem e_main_v209 (V : Valuation τ sig (Elt F)) :
    after ops V (main_v209 : DevRef τ sig) = (addf : (⟨S100000x128, .f32⟩ : BufTy).Contents (Elt F) → (⟨S100000x128, .f32⟩ : BufTy).Contents (Elt F) → (⟨S100000x128, .f32⟩ : BufTy).Contents (Elt F)) (after ops V (main_v206 : DevRef τ sig)) (after ops V (main_v208 : DevRef τ sig)) :=
  binary_at outs V 271 main_v206 main_v208 main_v209 (addf : (⟨S100000x128, .f32⟩ : BufTy).Contents (Elt F) → (⟨S100000x128, .f32⟩ : BufTy).Contents (Elt F) → (⟨S100000x128, .f32⟩ : BufTy).Contents (Elt F)) _ _ _ rfl (wr (j := 271) rfl (by decide)) (wr (j := 267) rfl (by decide)) (wr (j := 270) rfl (by decide))

theorem e_main_cst_46 (V : Valuation τ sig (Elt F)) :
    after ops V (main_cst_46 : DevRef τ sig) = ((constant S_ .f32 0x3F183370#32) : (⟨S_, .f32⟩ : BufTy).Contents (Elt F)) :=
  nullary_at outs V 272 main_cst_46 ((constant S_ .f32 0x3F183370#32) : (⟨S_, .f32⟩ : BufTy).Contents (Elt F)) _ rfl (wr (j := 272) rfl (by decide))

theorem e_main_v210 (V : Valuation τ sig (Elt F)) :
    after ops V (main_v210 : DevRef τ sig) = (broadcastInDim S100000x128 ![] bcast_S_S100000x128 : (⟨S_, .f32⟩ : BufTy).Contents (Elt F) → (⟨S100000x128, .f32⟩ : BufTy).Contents (Elt F)) (after ops V (main_cst_46 : DevRef τ sig)) :=
  unary_at outs V 273 main_cst_46 main_v210 (broadcastInDim S100000x128 ![] bcast_S_S100000x128 : (⟨S_, .f32⟩ : BufTy).Contents (Elt F) → (⟨S100000x128, .f32⟩ : BufTy).Contents (Elt F)) _ _ rfl (wr (j := 273) rfl (by decide)) (wr (j := 272) rfl (by decide))

theorem e_main_v211 (V : Valuation τ sig (Elt F)) :
    after ops V (main_v211 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v210 : DevRef τ sig)) (after ops V (main_v209 : DevRef τ sig)) :=
  binary_at outs V 274 main_v210 main_v209 main_v211 (mulf : (⟨S100000x128, .f32⟩ : BufTy).Contents (Elt F) → (⟨S100000x128, .f32⟩ : BufTy).Contents (Elt F) → (⟨S100000x128, .f32⟩ : BufTy).Contents (Elt F)) _ _ _ rfl (wr (j := 274) rfl (by decide)) (wr (j := 273) rfl (by decide)) (wr (j := 271) rfl (by decide))

theorem e_main_v212 (V : Valuation τ sig (Elt F)) :
    after ops V (main_v212 : DevRef τ sig) = ((extractStridedSlice S1x128x128 ![1, 0, 0] · slices_S4x128x128_S1x128x128_1_0_0) : (⟨S4x128x128, .f32⟩ : BufTy).Contents (Elt F) → (⟨S1x128x128, .f32⟩ : BufTy).Contents (Elt F)) (after ops V (main_arg6 : DevRef τ sig)) :=
  unary_at outs V 275 main_arg6 main_v212 ((extractStridedSlice S1x128x128 ![1, 0, 0] · slices_S4x128x128_S1x128x128_1_0_0) : (⟨S4x128x128, .f32⟩ : BufTy).Contents (Elt F) → (⟨S1x128x128, .f32⟩ : BufTy).Contents (Elt F)) _ _ rfl (wr (j := 275) rfl (by decide)) (nw arg6_nw 275)

theorem e_main_v213 (V : Valuation τ sig (Elt F)) :
    after ops V (main_v213 : DevRef τ sig) = shapeCast S128x128 (after ops V (main_v212 : DevRef τ sig)) shapeCasts_S1x128x128_S128x128 :=
  reshape_at outs V 276 main_v212 main_v213 _ _ _ _ rfl (wr (j := 276) rfl (by decide)) (wr (j := 275) rfl (by decide))

theorem e_main_v214 (V : Valuation τ sig (Elt F)) :
    after ops V (main_v214 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v209 : DevRef τ sig)) (after ops V (main_v213 : DevRef τ sig)) :=
  binary_at outs V 277 main_v209 main_v213 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 277) rfl (by decide)) (wr (j := 271) rfl (by decide)) (wr (j := 276) rfl (by decide))

theorem e_main_cst_47 (V : Valuation τ sig (Elt F)) :
    after ops V (main_cst_47 : DevRef τ sig) = ((constant S_ .f32 0x3ECF991F#32) : (⟨S_, .f32⟩ : BufTy).Contents (Elt F)) :=
  nullary_at outs V 278 main_cst_47 ((constant S_ .f32 0x3ECF991F#32) : (⟨S_, .f32⟩ : BufTy).Contents (Elt F)) _ rfl (wr (j := 278) rfl (by decide))

theorem e_main_v215 (V : Valuation τ sig (Elt F)) :
    after ops V (main_v215 : DevRef τ sig) = (broadcastInDim S100000x128 ![] bcast_S_S100000x128 : (⟨S_, .f32⟩ : BufTy).Contents (Elt F) → (⟨S100000x128, .f32⟩ : BufTy).Contents (Elt F)) (after ops V (main_cst_47 : DevRef τ sig)) :=
  unary_at outs V 279 main_cst_47 main_v215 (broadcastInDim S100000x128 ![] bcast_S_S100000x128 : (⟨S_, .f32⟩ : BufTy).Contents (Elt F) → (⟨S100000x128, .f32⟩ : BufTy).Contents (Elt F)) _ _ rfl (wr (j := 279) rfl (by decide)) (wr (j := 278) rfl (by decide))

theorem e_main_v216 (V : Valuation τ sig (Elt F)) :
    after ops V (main_v216 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v215 : DevRef τ sig)) (after ops V (main_v214 : DevRef τ sig)) :=
  binary_at outs V 280 main_v215 main_v214 main_v216 (mulf : (⟨S100000x128, .f32⟩ : BufTy).Contents (Elt F) → (⟨S100000x128, .f32⟩ : BufTy).Contents (Elt F) → (⟨S100000x128, .f32⟩ : BufTy).Contents (Elt F)) _ _ _ rfl (wr (j := 280) rfl (by decide)) (wr (j := 279) rfl (by decide)) (wr (j := 277) rfl (by decide))

theorem e_main_v217 (V : Valuation τ sig (Elt F)) :
    after ops V (main_v217 : DevRef τ sig) = (addf : (⟨S100000x128, .f32⟩ : BufTy).Contents (Elt F) → (⟨S100000x128, .f32⟩ : BufTy).Contents (Elt F) → (⟨S100000x128, .f32⟩ : BufTy).Contents (Elt F)) (after ops V (main_v211 : DevRef τ sig)) (after ops V (main_v216 : DevRef τ sig)) :=
  binary_at outs V 281 main_v211 main_v216 main_v217 (addf : (⟨S100000x128, .f32⟩ : BufTy).Contents (Elt F) → (⟨S100000x128, .f32⟩ : BufTy).Contents (Elt F) → (⟨S100000x128, .f32⟩ : BufTy).Contents (Elt F)) _ _ _ rfl (wr (j := 281) rfl (by decide)) (wr (j := 274) rfl (by decide)) (wr (j := 280) rfl (by decide))

theorem e_main_v218 (V : Valuation τ sig (Elt F)) :
    after ops V (main_v218 : DevRef τ sig) = ((extractStridedSlice S1x128 ![1, 0] · slices_S4x128_S1x128_1_0) : (⟨S4x128, .f32⟩ : BufTy).Contents (Elt F) → (⟨S1x128, .f32⟩ : BufTy).Contents (Elt F)) (after ops V (main_arg7 : DevRef τ sig)) :=
  unary_at outs V 282 main_arg7 main_v218 ((extractStridedSlice S1x128 ![1, 0] · slices_S4x128_S1x128_1_0) : (⟨S4x128, .f32⟩ : BufTy).Contents (Elt F) → (⟨S1x128, .f32⟩ : BufTy).Contents (Elt F)) _ _ rfl (wr (j := 282) rfl (by decide)) (nw arg7_nw 282)

theorem e_main_v219 (V : Valuation τ sig (Elt F)) :
    after ops V (main_v219 : DevRef τ sig) = shapeCast S128 (after ops V (main_v218 : DevRef τ sig)) shapeCasts_S1x128_S128 :=
  reshape_at outs V 283 main_v218 main_v219 _ _ _ _ rfl (wr (j := 283) rfl (by decide)) (wr (j := 282) rfl (by decide))

theorem e_main_v220 (V : Valuation τ sig (Elt F)) :
    after ops V (main_v220 : DevRef τ sig) = (broadcastInDim S1x128 ![1] bcast_S128_S1x128_1 : (⟨S128, .f32⟩ : BufTy).Contents (Elt F) → (⟨S1x128, .f32⟩ : BufTy).Contents (Elt F)) (after ops V (main_v219 : DevRef τ sig)) :=
  unary_at outs V 284 main_v219 main_v220 (broadcastInDim S1x128 ![1] bcast_S128_S1x128_1 : (⟨S128, .f32⟩ : BufTy).Contents (Elt F) → (⟨S1x128, .f32⟩ : BufTy).Contents (Elt F)) _ _ rfl (wr (j := 284) rfl (by decide)) (wr (j := 283) rfl (by decide))

theorem e_main_v221 (V : Valuation τ sig (Elt F)) :
    after ops V (main_v221 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v220 : DevRef τ sig)) :=
  unary_at outs V 285 main_v220 main_v221 (broadcastInDim S100000x128 ![0, 1] bcast_S1x128_S100000x128_0_1 : (⟨S1x128, .f32⟩ : BufTy).Contents (Elt F) → (⟨S100000x128, .f32⟩ : BufTy).Contents (Elt F)) _ _ rfl (wr (j := 285) rfl (by decide)) (wr (j := 284) rfl (by decide))

theorem e_main_v222 (V : Valuation τ sig (Elt F)) :
    after ops V (main_v222 : DevRef τ sig) = (addf : (⟨S100000x128, .f32⟩ : BufTy).Contents (Elt F) → (⟨S100000x128, .f32⟩ : BufTy).Contents (Elt F) → (⟨S100000x128, .f32⟩ : BufTy).Contents (Elt F)) (after ops V (main_v217 : DevRef τ sig)) (after ops V (main_v221 : DevRef τ sig)) :=
  binary_at outs V 286 main_v217 main_v221 main_v222 (addf : (⟨S100000x128, .f32⟩ : BufTy).Contents (Elt F) → (⟨S100000x128, .f32⟩ : BufTy).Contents (Elt F) → (⟨S100000x128, .f32⟩ : BufTy).Contents (Elt F)) _ _ _ rfl (wr (j := 286) rfl (by decide)) (wr (j := 281) rfl (by decide)) (wr (j := 285) rfl (by decide))

theorem e_main_call7_cst (V : Valuation τ sig (Elt F)) :
    after ops V (main_call7_cst : DevRef τ sig) = ((constant S_ .f32 0x00000000#32) : (⟨S_, .f32⟩ : BufTy).Contents (Elt F)) :=
  nullary_at outs V 287 main_call7_cst ((constant S_ .f32 0x00000000#32) : (⟨S_, .f32⟩ : BufTy).Contents (Elt F)) _ rfl (wr (j := 287) rfl (by decide))

theorem e_main_call7_v0 (V : Valuation τ sig (Elt F)) :
    after ops V (main_call7_v0 : DevRef τ sig) = ((broadcastInDim S100000x128 ![] bcast_S_S100000x128) : (⟨S_, .f32⟩ : BufTy).Contents (Elt F) → (⟨S100000x128, .f32⟩ : BufTy).Contents (Elt F)) (after ops V (main_call7_cst : DevRef τ sig)) :=
  unary_at outs V 288 main_call7_cst main_call7_v0 ((broadcastInDim S100000x128 ![] bcast_S_S100000x128) : (⟨S_, .f32⟩ : BufTy).Contents (Elt F) → (⟨S100000x128, .f32⟩ : BufTy).Contents (Elt F)) _ _ rfl (wr (j := 288) rfl (by decide)) (wr (j := 287) rfl (by decide))

theorem e_main_v223 (V : Valuation τ sig (Elt F)) :
    after ops V (main_v223 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v222 : DevRef τ sig)) (after ops V (main_call7_v0 : DevRef τ sig)) :=
  binary_at outs V 289 main_v222 main_call7_v0 main_v223 (maximumf : (⟨S100000x128, .f32⟩ : BufTy).Contents (Elt F) → (⟨S100000x128, .f32⟩ : BufTy).Contents (Elt F) → (⟨S100000x128, .f32⟩ : BufTy).Contents (Elt F)) _ _ _ rfl (wr (j := 289) rfl (by decide)) (wr (j := 286) rfl (by decide)) (wr (j := 288) rfl (by decide))

theorem e_main_v224 (V : Valuation τ sig (Elt F)) :
    after ops V (main_v224 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 290 main_v153 main_v224 (broadcastInDim S100000x1 ![0] bcast_S100000_S100000x1_0 : (⟨S100000, .f32⟩ : BufTy).Contents (Elt F) → (⟨S100000x1, .f32⟩ : BufTy).Contents (Elt F)) _ _ rfl (wr (j := 290) rfl (by decide)) (wr (j := 201) rfl (by decide))

theorem e_main_v225 (V : Valuation τ sig (Elt F)) :
    after ops V (main_v225 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v224 : DevRef τ sig)) :=
  unary_at outs V 291 main_v224 main_v225 (broadcastInDim S100000x128 ![0, 1] bcast_S100000x1_S100000x128_0_1 : (⟨S100000x1, .f32⟩ : BufTy).Contents (Elt F) → (⟨S100000x128, .f32⟩ : BufTy).Contents (Elt F)) _ _ rfl (wr (j := 291) rfl (by decide)) (wr (j := 290) rfl (by decide))

theorem e_main_v226 (V : Valuation τ sig (Elt F)) :
    after ops V (main_v226 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v223 : DevRef τ sig)) (after ops V (main_v225 : DevRef τ sig)) :=
  binary_at outs V 292 main_v223 main_v225 main_v226 (mulf : (⟨S100000x128, .f32⟩ : BufTy).Contents (Elt F) → (⟨S100000x128, .f32⟩ : BufTy).Contents (Elt F) → (⟨S100000x128, .f32⟩ : BufTy).Contents (Elt F)) _ _ _ rfl (wr (j := 292) rfl (by decide)) (wr (j := 289) rfl (by decide)) (wr (j := 291) rfl (by decide))

theorem e_main_c_48 (V : Valuation τ sig (Elt F)) :
    after ops V (main_c_48 : DevRef τ sig) = ((constantI S_ 32 0#32) : (⟨S_, .i32⟩ : BufTy).Contents (Elt F)) :=
  nullary_at outs V 293 main_c_48 ((constantI S_ 32 0#32) : (⟨S_, .i32⟩ : BufTy).Contents (Elt F)) _ rfl (wr (j := 293) rfl (by decide))

theorem e_main_v227 (V : Valuation τ sig (Elt F)) :
    after ops V (main_v227 : DevRef τ sig) = (broadcastInDim S1600000 ![] bcast_S_S1600000 : (⟨S_, .i32⟩ : BufTy).Contents (Elt F) → (⟨S1600000, .i32⟩ : BufTy).Contents (Elt F)) (after ops V (main_c_48 : DevRef τ sig)) :=
  unary_at outs V 294 main_c_48 main_v227 (broadcastInDim S1600000 ![] bcast_S_S1600000 : (⟨S_, .i32⟩ : BufTy).Contents (Elt F) → (⟨S1600000, .i32⟩ : BufTy).Contents (Elt F)) _ _ rfl (wr (j := 294) rfl (by decide)) (wr (j := 293) rfl (by decide))

theorem e_main_v228 (V : Valuation τ sig (Elt F)) :
    after ops V (main_v228 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg4 : DevRef τ sig)) (after ops V (main_v227 : DevRef τ sig)) :=
  binary_at outs V 295 main_arg4 main_v227 main_v228 (cmpi .slt : (⟨S1600000, .i32⟩ : BufTy).Contents (Elt F) → (⟨S1600000, .i32⟩ : BufTy).Contents (Elt F) → (⟨S1600000, .i1⟩ : BufTy).Contents (Elt F)) _ _ _ rfl (wr (j := 295) rfl (by decide)) (nw arg4_nw 295) (wr (j := 294) rfl (by decide))

theorem e_main_c_49 (V : Valuation τ sig (Elt F)) :
    after ops V (main_c_49 : DevRef τ sig) = ((constantI S_ 32 100000#32) : (⟨S_, .i32⟩ : BufTy).Contents (Elt F)) :=
  nullary_at outs V 296 main_c_49 ((constantI S_ 32 100000#32) : (⟨S_, .i32⟩ : BufTy).Contents (Elt F)) _ rfl (wr (j := 296) rfl (by decide))

theorem e_main_v229 (V : Valuation τ sig (Elt F)) :
    after ops V (main_v229 : DevRef τ sig) = (broadcastInDim S1600000 ![] bcast_S_S1600000 : (⟨S_, .i32⟩ : BufTy).Contents (Elt F) → (⟨S1600000, .i32⟩ : BufTy).Contents (Elt F)) (after ops V (main_c_49 : DevRef τ sig)) :=
  unary_at outs V 297 main_c_49 main_v229 (broadcastInDim S1600000 ![] bcast_S_S1600000 : (⟨S_, .i32⟩ : BufTy).Contents (Elt F) → (⟨S1600000, .i32⟩ : BufTy).Contents (Elt F)) _ _ rfl (wr (j := 297) rfl (by decide)) (wr (j := 296) rfl (by decide))

theorem e_main_v230 (V : Valuation τ sig (Elt F)) :
    after ops V (main_v230 : DevRef τ sig) = (addi : (⟨S1600000, .i32⟩ : BufTy).Contents (Elt F) → (⟨S1600000, .i32⟩ : BufTy).Contents (Elt F) → (⟨S1600000, .i32⟩ : BufTy).Contents (Elt F)) (after ops V (main_arg4 : DevRef τ sig)) (after ops V (main_v229 : DevRef τ sig)) :=
  binary_at outs V 298 main_arg4 main_v229 main_v230 (addi : (⟨S1600000, .i32⟩ : BufTy).Contents (Elt F) → (⟨S1600000, .i32⟩ : BufTy).Contents (Elt F) → (⟨S1600000, .i32⟩ : BufTy).Contents (Elt F)) _ _ _ rfl (wr (j := 298) rfl (by decide)) (nw arg4_nw 298) (wr (j := 297) rfl (by decide))

theorem e_main_v231 (V : Valuation τ sig (Elt F)) :
    after ops V (main_v231 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v228 : DevRef τ sig)) (after ops V (main_v230 : DevRef τ sig)) (after ops V (main_arg4 : DevRef τ sig)) :=
  ternary_at outs V 299 main_v228 main_v230 main_arg4 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 299) rfl (by decide)) (wr (j := 295) rfl (by decide)) (wr (j := 298) rfl (by decide)) (nw arg4_nw 299)

theorem e_main_v232 (V : Valuation τ sig (Elt F)) :
    after ops V (main_v232 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v231 : DevRef τ sig)) :=
  unary_at outs V 300 main_v231 main_v232 (broadcastInDim S1600000x1 ![0] bcast_S1600000_S1600000x1_0 : (⟨S1600000, .i32⟩ : BufTy).Contents (Elt F) → (⟨S1600000x1, .i32⟩ : BufTy).Contents (Elt F)) _ _ rfl (wr (j := 300) rfl (by decide)) (wr (j := 299) rfl (by decide))

theorem e_main_v233 (V : Valuation τ sig (Elt F)) :
    after ops V (main_v233 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v226 : DevRef τ sig)) (after ops V (main_v232 : DevRef τ sig)) :=
  binary_at outs V 301 main_v226 main_v232 main_v233 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 301) rfl (by decide)) (wr (j := 292) rfl (by decide)) (wr (j := 300) rfl (by decide))

theorem e_main_cst_50 (V : Valuation τ sig (Elt F)) :
    after ops V (main_cst_50 : DevRef τ sig) = ((constant S_ .f32 0x00000000#32) : (⟨S_, .f32⟩ : BufTy).Contents (Elt F)) :=
  nullary_at outs V 302 main_cst_50 ((constant S_ .f32 0x00000000#32) : (⟨S_, .f32⟩ : BufTy).Contents (Elt F)) _ rfl (wr (j := 302) rfl (by decide))

theorem e_main_v234 (V : Valuation τ sig (Elt F)) :
    after ops V (main_v234 : DevRef τ sig) = (broadcastInDim S100000x128 ![] bcast_S_S100000x128 : (⟨S_, .f32⟩ : BufTy).Contents (Elt F) → (⟨S100000x128, .f32⟩ : BufTy).Contents (Elt F)) (after ops V (main_cst_50 : DevRef τ sig)) :=
  unary_at outs V 303 main_cst_50 main_v234 (broadcastInDim S100000x128 ![] bcast_S_S100000x128 : (⟨S_, .f32⟩ : BufTy).Contents (Elt F) → (⟨S100000x128, .f32⟩ : BufTy).Contents (Elt F)) _ _ rfl (wr (j := 303) rfl (by decide)) (wr (j := 302) rfl (by decide))

theorem e_main_v235 (V : Valuation τ sig (Elt F)) :
    after ops V (main_v235 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg5 : DevRef τ sig)) :=
  unary_at outs V 304 main_arg5 main_v235 (broadcastInDim S1600000x1 ![0] bcast_S1600000_S1600000x1_0 : (⟨S1600000, .i32⟩ : BufTy).Contents (Elt F) → (⟨S1600000x1, .i32⟩ : BufTy).Contents (Elt F)) _ _ rfl (wr (j := 304) rfl (by decide)) (nw arg5_nw 304)

theorem e_main_v236 (V : Valuation τ sig (Elt F)) :
    after ops V (main_v236 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v234 : DevRef τ sig)) (after ops V (main_v235 : DevRef τ sig)) (after ops V (main_v233 : DevRef τ sig)) :=
  ternary_at outs V 305 main_v234 main_v235 main_v233 main_v236 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 305) rfl (by decide)) (wr (j := 303) rfl (by decide)) (wr (j := 304) rfl (by decide)) (wr (j := 301) rfl (by decide))

theorem e_main_v237 (V : Valuation τ sig (Elt F)) :
    after ops V (main_v237 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 306 main_v153 main_v237 (broadcastInDim S100000x1 ![0] bcast_S100000_S100000x1_0 : (⟨S100000, .f32⟩ : BufTy).Contents (Elt F) → (⟨S100000x1, .f32⟩ : BufTy).Contents (Elt F)) _ _ rfl (wr (j := 306) rfl (by decide)) (wr (j := 201) rfl (by decide))

theorem e_main_v238 (V : Valuation τ sig (Elt F)) :
    after ops V (main_v238 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v237 : DevRef τ sig)) :=
  unary_at outs V 307 main_v237 main_v238 (broadcastInDim S100000x128 ![0, 1] bcast_S100000x1_S100000x128_0_1 : (⟨S100000x1, .f32⟩ : BufTy).Contents (Elt F) → (⟨S100000x128, .f32⟩ : BufTy).Contents (Elt F)) _ _ rfl (wr (j := 307) rfl (by decide)) (wr (j := 306) rfl (by decide))

theorem e_main_v239 (V : Valuation τ sig (Elt F)) :
    after ops V (main_v239 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v236 : DevRef τ sig)) (after ops V (main_v238 : DevRef τ sig)) :=
  binary_at outs V 308 main_v236 main_v238 main_v239 (mulf : (⟨S100000x128, .f32⟩ : BufTy).Contents (Elt F) → (⟨S100000x128, .f32⟩ : BufTy).Contents (Elt F) → (⟨S100000x128, .f32⟩ : BufTy).Contents (Elt F)) _ _ _ rfl (wr (j := 308) rfl (by decide)) (wr (j := 305) rfl (by decide)) (wr (j := 307) rfl (by decide))

theorem e_main_cst_51 (V : Valuation τ sig (Elt F)) :
    after ops V (main_cst_51 : DevRef τ sig) = ((constant S_ .f32 0x3F666666#32) : (⟨S_, .f32⟩ : BufTy).Contents (Elt F)) :=
  nullary_at outs V 309 main_cst_51 ((constant S_ .f32 0x3F666666#32) : (⟨S_, .f32⟩ : BufTy).Contents (Elt F)) _ rfl (wr (j := 309) rfl (by decide))

theorem e_main_v240 (V : Valuation τ sig (Elt F)) :
    after ops V (main_v240 : DevRef τ sig) = (broadcastInDim S100000x128 ![] bcast_S_S100000x128 : (⟨S_, .f32⟩ : BufTy).Contents (Elt F) → (⟨S100000x128, .f32⟩ : BufTy).Contents (Elt F)) (after ops V (main_cst_51 : DevRef τ sig)) :=
  unary_at outs V 310 main_cst_51 main_v240 (broadcastInDim S100000x128 ![] bcast_S_S100000x128 : (⟨S_, .f32⟩ : BufTy).Contents (Elt F) → (⟨S100000x128, .f32⟩ : BufTy).Contents (Elt F)) _ _ rfl (wr (j := 310) rfl (by decide)) (wr (j := 309) rfl (by decide))

theorem e_main_v241 (V : Valuation τ sig (Elt F)) :
    after ops V (main_v241 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v240 : DevRef τ sig)) (after ops V (main_v239 : DevRef τ sig)) :=
  binary_at outs V 311 main_v240 main_v239 main_v241 (mulf : (⟨S100000x128, .f32⟩ : BufTy).Contents (Elt F) → (⟨S100000x128, .f32⟩ : BufTy).Contents (Elt F) → (⟨S100000x128, .f32⟩ : BufTy).Contents (Elt F)) _ _ _ rfl (wr (j := 311) rfl (by decide)) (wr (j := 310) rfl (by decide)) (wr (j := 308) rfl (by decide))

theorem e_main_cst_52 (V : Valuation τ sig (Elt F)) :
    after ops V (main_cst_52 : DevRef τ sig) = ((constant S_ .f32 0x3DCCCCCD#32) : (⟨S_, .f32⟩ : BufTy).Contents (Elt F)) :=
  nullary_at outs V 312 main_cst_52 ((constant S_ .f32 0x3DCCCCCD#32) : (⟨S_, .f32⟩ : BufTy).Contents (Elt F)) _ rfl (wr (j := 312) rfl (by decide))

theorem e_main_v242 (V : Valuation τ sig (Elt F)) :
    after ops V (main_v242 : DevRef τ sig) = (broadcastInDim S100000x128 ![] bcast_S_S100000x128 : (⟨S_, .f32⟩ : BufTy).Contents (Elt F) → (⟨S100000x128, .f32⟩ : BufTy).Contents (Elt F)) (after ops V (main_cst_52 : DevRef τ sig)) :=
  unary_at outs V 313 main_cst_52 main_v242 (broadcastInDim S100000x128 ![] bcast_S_S100000x128 : (⟨S_, .f32⟩ : BufTy).Contents (Elt F) → (⟨S100000x128, .f32⟩ : BufTy).Contents (Elt F)) _ _ rfl (wr (j := 313) rfl (by decide)) (wr (j := 312) rfl (by decide))

theorem e_main_v243 (V : Valuation τ sig (Elt F)) :
    after ops V (main_v243 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v242 : DevRef τ sig)) (after ops V (main_arg1 : DevRef τ sig)) :=
  binary_at outs V 314 main_v242 main_arg1 main_v243 (mulf : (⟨S100000x128, .f32⟩ : BufTy).Contents (Elt F) → (⟨S100000x128, .f32⟩ : BufTy).Contents (Elt F) → (⟨S100000x128, .f32⟩ : BufTy).Contents (Elt F)) _ _ _ rfl (wr (j := 314) rfl (by decide)) (wr (j := 313) rfl (by decide)) (nw arg1_nw 314)

theorem e_main_v244 (V : Valuation τ sig (Elt F)) :
    after ops V (main_v244 : DevRef τ sig) = (addf : (⟨S100000x128, .f32⟩ : BufTy).Contents (Elt F) → (⟨S100000x128, .f32⟩ : BufTy).Contents (Elt F) → (⟨S100000x128, .f32⟩ : BufTy).Contents (Elt F)) (after ops V (main_v241 : DevRef τ sig)) (after ops V (main_v243 : DevRef τ sig)) :=
  binary_at outs V 315 main_v241 main_v243 main_v244 (addf : (⟨S100000x128, .f32⟩ : BufTy).Contents (Elt F) → (⟨S100000x128, .f32⟩ : BufTy).Contents (Elt F) → (⟨S100000x128, .f32⟩ : BufTy).Contents (Elt F)) _ _ _ rfl (wr (j := 315) rfl (by decide)) (wr (j := 311) rfl (by decide)) (wr (j := 314) rfl (by decide))

end Cert.ReferenceIdeal.Hand

end
-- ==== Proof.RefEq5.lean ====
/-
  The reference program read one operation at a time, window 5: after the whole line each buffer written by an
  operation of this window holds that operation's function of what its operand buffers hold after the whole line
  (every buffer is written once, and an operand is written, if at all, before the operation that reads it).
-/
import proofs.«158605_j26792005992870_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

theorem e_main_cst_53 (V : Valuation τ sig (Elt F)) :
    after ops V (main_cst_53 : DevRef τ sig) = ((constant S_ .f32 0x3F365A78#32) : (⟨S_, .f32⟩ : BufTy).Contents (Elt F)) :=
  nullary_at outs V 316 main_cst_53 ((constant S_ .f32 0x3F365A78#32) : (⟨S_, .f32⟩ : BufTy).Contents (Elt F)) _ rfl (wr (j := 316) rfl (by decide))

theorem e_main_v245 (V : Valuation τ sig (Elt F)) :
    after ops V (main_v245 : DevRef τ sig) = (broadcastInDim S100000x128 ![] bcast_S_S100000x128 : (⟨S_, .f32⟩ : BufTy).Contents (Elt F) → (⟨S100000x128, .f32⟩ : BufTy).Contents (Elt F)) (after ops V (main_cst_53 : DevRef τ sig)) :=
  unary_at outs V 317 main_cst_53 main_v245 (broadcastInDim S100000x128 ![] bcast_S_S100000x128 : (⟨S_, .f32⟩ : BufTy).Contents (Elt F) → (⟨S100000x128, .f32⟩ : BufTy).Contents (Elt F)) _ _ rfl (wr (j := 317) rfl (by decide)) (wr (j := 316) rfl (by decide))

theorem e_main_v246 (V : Valuation τ sig (Elt F)) :
    after ops V (main_v246 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v245 : DevRef τ sig)) (after ops V (main_v244 : DevRef τ sig)) :=
  binary_at outs V 318 main_v245 main_v244 main_v246 (mulf : (⟨S100000x128, .f32⟩ : BufTy).Contents (Elt F) → (⟨S100000x128, .f32⟩ : BufTy).Contents (Elt F) → (⟨S100000x128, .f32⟩ : BufTy).Contents (Elt F)) _ _ _ rfl (wr (j := 318) rfl (by decide)) (wr (j := 317) rfl (by decide)) (wr (j := 315) rfl (by decide))

theorem e_main_v247 (V : Valuation τ sig (Elt F)) :
    after ops V (main_v247 : DevRef τ sig) = ((extractStridedSlice S1x128x128 ![2, 0, 0] · slices_S4x128x128_S1x128x128_2_0_0) : (⟨S4x128x128, .f32⟩ : BufTy).Contents (Elt F) → (⟨S1x128x128, .f32⟩ : BufTy).Contents (Elt F)) (after ops V (main_arg6 : DevRef τ sig)) :=
  unary_at outs V 319 main_arg6 main_v247 ((extractStridedSlice S1x128x128 ![2, 0, 0] · slices_S4x128x128_S1x128x128_2_0_0) : (⟨S4x128x128, .f32⟩ : BufTy).Contents (Elt F) → (⟨S1x128x128, .f32⟩ : BufTy).Contents (Elt F)) _ _ rfl (wr (j := 319) rfl (by decide)) (nw arg6_nw 319)

theorem e_main_v248 (V : Valuation τ sig (Elt F)) :
    after ops V (main_v248 : DevRef τ sig) = shapeCast S128x128 (after ops V (main_v247 : DevRef τ sig)) shapeCasts_S1x128x128_S128x128 :=
  reshape_at outs V 320 main_v247 main_v248 _ _ _ _ rfl (wr (j := 320) rfl (by decide)) (wr (j := 319) rfl (by decide))

theorem e_main_v249 (V : Valuation τ sig (Elt F)) :
    after ops V (main_v249 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v244 : DevRef τ sig)) (after ops V (main_v248 : DevRef τ sig)) :=
  binary_at outs V 321 main_v244 main_v248 main_v249 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 321) rfl (by decide)) (wr (j := 315) rfl (by decide)) (wr (j := 320) rfl (by decide))

theorem e_main_cst_54 (V : Valuation τ sig (Elt F)) :
    after ops V (main_cst_54 : DevRef τ sig) = ((constant S_ .f32 0x3E934B11#32) : (⟨S_, .f32⟩ : BufTy).Contents (Elt F)) :=
  nullary_at outs V 322 main_cst_54 ((constant S_ .f32 0x3E934B11#32) : (⟨S_, .f32⟩ : BufTy).Contents (Elt F)) _ rfl (wr (j := 322) rfl (by decide))

theorem e_main_v250 (V : Valuation τ sig (Elt F)) :
    after ops V (main_v250 : DevRef τ sig) = (broadcastInDim S100000x128 ![] bcast_S_S100000x128 : (⟨S_, .f32⟩ : BufTy).Contents (Elt F) → (⟨S100000x128, .f32⟩ : BufTy).Contents (Elt F)) (after ops V (main_cst_54 : DevRef τ sig)) :=
  unary_at outs V 323 main_cst_54 main_v250 (broadcastInDim S100000x128 ![] bcast_S_S100000x128 : (⟨S_, .f32⟩ : BufTy).Contents (Elt F) → (⟨S100000x128, .f32⟩ : BufTy).Contents (Elt F)) _ _ rfl (wr (j := 323) rfl (by decide)) (wr (j := 322) rfl (by decide))

theorem e_main_v251 (V : Valuation τ sig (Elt F)) :
    after ops V (main_v251 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v250 : DevRef τ sig)) (after ops V (main_v249 : DevRef τ sig)) :=
  binary_at outs V 324 main_v250 main_v249 main_v251 (mulf : (⟨S100000x128, .f32⟩ : BufTy).Contents (Elt F) → (⟨S100000x128, .f32⟩ : BufTy).Contents (Elt F) → (⟨S100000x128, .f32⟩ : BufTy).Contents (Elt F)) _ _ _ rfl (wr (j := 324) rfl (by decide)) (wr (j := 323) rfl (by decide)) (wr (j := 321) rfl (by decide))

theorem e_main_v252 (V : Valuation τ sig (Elt F)) :
    after ops V (main_v252 : DevRef τ sig) = (addf : (⟨S100000x128, .f32⟩ : BufTy).Contents (Elt F) → (⟨S100000x128, .f32⟩ : BufTy).Contents (Elt F) → (⟨S100000x128, .f32⟩ : BufTy).Contents (Elt F)) (after ops V (main_v246 : DevRef τ sig)) (after ops V (main_v251 : DevRef τ sig)) :=
  binary_at outs V 325 main_v246 main_v251 main_v252 (addf : (⟨S100000x128, .f32⟩ : BufTy).Contents (Elt F) → (⟨S100000x128, .f32⟩ : BufTy).Contents (Elt F) → (⟨S100000x128, .f32⟩ : BufTy).Contents (Elt F)) _ _ _ rfl (wr (j := 325) rfl (by decide)) (wr (j := 318) rfl (by decide)) (wr (j := 324) rfl (by decide))

theorem e_main_v253 (V : Valuation τ sig (Elt F)) :
    after ops V (main_v253 : DevRef τ sig) = ((extractStridedSlice S1x128 ![2, 0] · slices_S4x128_S1x128_2_0) : (⟨S4x128, .f32⟩ : BufTy).Contents (Elt F) → (⟨S1x128, .f32⟩ : BufTy).Contents (Elt F)) (after ops V (main_arg7 : DevRef τ sig)) :=
  unary_at outs V 326 main_arg7 main_v253 ((extractStridedSlice S1x128 ![2, 0] · slices_S4x128_S1x128_2_0) : (⟨S4x128, .f32⟩ : BufTy).Contents (Elt F) → (⟨S1x128, .f32⟩ : BufTy).Contents (Elt F)) _ _ rfl (wr (j := 326) rfl (by decide)) (nw arg7_nw 326)

theorem e_main_v254 (V : Valuation τ sig (Elt F)) :
    after ops V (main_v254 : DevRef τ sig) = shapeCast S128 (after ops V (main_v253 : DevRef τ sig)) shapeCasts_S1x128_S128 :=
  reshape_at outs V 327 main_v253 main_v254 _ _ _ _ rfl (wr (j := 327) rfl (by decide)) (wr (j := 326) rfl (by decide))

theorem e_main_v255 (V : Valuation τ sig (Elt F)) :
    after ops V (main_v255 : DevRef τ sig) = (broadcastInDim S1x128 ![1] bcast_S128_S1x128_1 : (⟨S128, .f32⟩ : BufTy).Contents (Elt F) → (⟨S1x128, .f32⟩ : BufTy).Contents (Elt F)) (after ops V (main_v254 : DevRef τ sig)) :=
  unary_at outs V 328 main_v254 main_v255 (broadcastInDim S1x128 ![1] bcast_S128_S1x128_1 : (⟨S128, .f32⟩ : BufTy).Contents (Elt F) → (⟨S1x128, .f32⟩ : BufTy).Contents (Elt F)) _ _ rfl (wr (j := 328) rfl (by decide)) (wr (j := 327) rfl (by decide))

theorem e_main_v256 (V : Valuation τ sig (Elt F)) :
    after ops V (main_v256 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v255 : DevRef τ sig)) :=
  unary_at outs V 329 main_v255 main_v256 (broadcastInDim S100000x128 ![0, 1] bcast_S1x128_S100000x128_0_1 : (⟨S1x128, .f32⟩ : BufTy).Contents (Elt F) → (⟨S100000x128, .f32⟩ : BufTy).Contents (Elt F)) _ _ rfl (wr (j := 329) rfl (by decide)) (wr (j := 328) rfl (by decide))

theorem e_main_v257 (V : Valuation τ sig (Elt F)) :
    after ops V (main_v257 : DevRef τ sig) = (addf : (⟨S100000x128, .f32⟩ : BufTy).Contents (Elt F) → (⟨S100000x128, .f32⟩ : BufTy).Contents (Elt F) → (⟨S100000x128, .f32⟩ : BufTy).Contents (Elt F)) (after ops V (main_v252 : DevRef τ sig)) (after ops V (main_v256 : DevRef τ sig)) :=
  binary_at outs V 330 main_v252 main_v256 main_v257 (addf : (⟨S100000x128, .f32⟩ : BufTy).Contents (Elt F) → (⟨S100000x128, .f32⟩ : BufTy).Contents (Elt F) → (⟨S100000x128, .f32⟩ : BufTy).Contents (Elt F)) _ _ _ rfl (wr (j := 330) rfl (by decide)) (wr (j := 325) rfl (by decide)) (wr (j := 329) rfl (by decide))

theorem e_main_call8_cst (V : Valuation τ sig (Elt F)) :
    after ops V (main_call8_cst : DevRef τ sig) = ((constant S_ .f32 0x00000000#32) : (⟨S_, .f32⟩ : BufTy).Contents (Elt F)) :=
  nullary_at outs V 331 main_call8_cst ((constant S_ .f32 0x00000000#32) : (⟨S_, .f32⟩ : BufTy).Contents (Elt F)) _ rfl (wr (j := 331) rfl (by decide))

theorem e_main_call8_v0 (V : Valuation τ sig (Elt F)) :
    after ops V (main_call8_v0 : DevRef τ sig) = ((broadcastInDim S100000x128 ![] bcast_S_S100000x128) : (⟨S_, .f32⟩ : BufTy).Contents (Elt F) → (⟨S100000x128, .f32⟩ : BufTy).Contents (Elt F)) (after ops V (main_call8_cst : DevRef τ sig)) :=
  unary_at outs V 332 main_call8_cst main_call8_v0 ((broadcastInDim S100000x128 ![] bcast_S_S100000x128) : (⟨S_, .f32⟩ : BufTy).Contents (Elt F) → (⟨S100000x128, .f32⟩ : BufTy).Contents (Elt F)) _ _ rfl (wr (j := 332) rfl (by decide)) (wr (j := 331) rfl (by decide))

theorem e_main_v258 (V : Valuation τ sig (Elt F)) :
    after ops V (main_v258 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v257 : DevRef τ sig)) (after ops V (main_call8_v0 : DevRef τ sig)) :=
  binary_at outs V 333 main_v257 main_call8_v0 main_v258 (maximumf : (⟨S100000x128, .f32⟩ : BufTy).Contents (Elt F) → (⟨S100000x128, .f32⟩ : BufTy).Contents (Elt F) → (⟨S100000x128, .f32⟩ : BufTy).Contents (Elt F)) _ _ _ rfl (wr (j := 333) rfl (by decide)) (wr (j := 330) rfl (by decide)) (wr (j := 332) rfl (by decide))

theorem e_main_v259 (V : Valuation τ sig (Elt F)) :
    after ops V (main_v259 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 334 main_v153 main_v259 (broadcastInDim S100000x1 ![0] bcast_S100000_S100000x1_0 : (⟨S100000, .f32⟩ : BufTy).Contents (Elt F) → (⟨S100000x1, .f32⟩ : BufTy).Contents (Elt F)) _ _ rfl (wr (j := 334) rfl (by decide)) (wr (j := 201) rfl (by decide))

theorem e_main_v260 (V : Valuation τ sig (Elt F)) :
    after ops V (main_v260 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v259 : DevRef τ sig)) :=
  unary_at outs V 335 main_v259 main_v260 (broadcastInDim S100000x128 ![0, 1] bcast_S100000x1_S100000x128_0_1 : (⟨S100000x1, .f32⟩ : BufTy).Contents (Elt F) → (⟨S100000x128, .f32⟩ : BufTy).Contents (Elt F)) _ _ rfl (wr (j := 335) rfl (by decide)) (wr (j := 334) rfl (by decide))

theorem e_main_v261 (V : Valuation τ sig (Elt F)) :
    after ops V (main_v261 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v258 : DevRef τ sig)) (after ops V (main_v260 : DevRef τ sig)) :=
  binary_at outs V 336 main_v258 main_v260 main_v261 (mulf : (⟨S100000x128, .f32⟩ : BufTy).Contents (Elt F) → (⟨S100000x128, .f32⟩ : BufTy).Contents (Elt F) → (⟨S100000x128, .f32⟩ : BufTy).Contents (Elt F)) _ _ _ rfl (wr (j := 336) rfl (by decide)) (wr (j := 333) rfl (by decide)) (wr (j := 335) rfl (by decide))

theorem e_main_c_55 (V : Valuation τ sig (Elt F)) :
    after ops V (main_c_55 : DevRef τ sig) = ((constantI S_ 32 0#32) : (⟨S_, .i32⟩ : BufTy).Contents (Elt F)) :=
  nullary_at outs V 337 main_c_55 ((constantI S_ 32 0#32) : (⟨S_, .i32⟩ : BufTy).Contents (Elt F)) _ rfl (wr (j := 337) rfl (by decide))

theorem e_main_v262 (V : Valuation τ sig (Elt F)) :
    after ops V (main_v262 : DevRef τ sig) = (broadcastInDim S1600000 ![] bcast_S_S1600000 : (⟨S_, .i32⟩ : BufTy).Contents (Elt F) → (⟨S1600000, .i32⟩ : BufTy).Contents (Elt F)) (after ops V (main_c_55 : DevRef τ sig)) :=
  unary_at outs V 338 main_c_55 main_v262 (broadcastInDim S1600000 ![] bcast_S_S1600000 : (⟨S_, .i32⟩ : BufTy).Contents (Elt F) → (⟨S1600000, .i32⟩ : BufTy).Contents (Elt F)) _ _ rfl (wr (j := 338) rfl (by decide)) (wr (j := 337) rfl (by decide))

theorem e_main_v263 (V : Valuation τ sig (Elt F)) :
    after ops V (main_v263 : DevRef τ sig) = (cmpi .slt : (⟨S1600000, .i32⟩ : BufTy).Contents (Elt F) → (⟨S1600000, .i32⟩ : BufTy).Contents (Elt F) → (⟨S1600000, .i1⟩ : BufTy).Contents (Elt F)) (after ops V (main_arg4 : DevRef τ sig)) (after ops V (main_v262 : DevRef τ sig)) :=
  binary_at outs V 339 main_arg4 main_v262 main_v263 (cmpi .slt : (⟨S1600000, .i32⟩ : BufTy).Contents (Elt F) → (⟨S1600000, .i32⟩ : BufTy).Contents (Elt F) → (⟨S1600000, .i1⟩ : BufTy).Contents (Elt F)) _ _ _ rfl (wr (j := 339) rfl (by decide)) (nw arg4_nw 339) (wr (j := 338) rfl (by decide))

theorem e_main_c_56 (V : Valuation τ sig (Elt F)) :
    after ops V (main_c_56 : DevRef τ sig) = ((constantI S_ 32 100000#32) : (⟨S_, .i32⟩ : BufTy).Contents (Elt F)) :=
  nullary_at outs V 340 main_c_56 ((constantI S_ 32 100000#32) : (⟨S_, .i32⟩ : BufTy).Contents (Elt F)) _ rfl (wr (j := 340) rfl (by decide))

theorem e_main_v264 (V : Valuation τ sig (Elt F)) :
    after ops V (main_v264 : DevRef τ sig) = (broadcastInDim S1600000 ![] bcast_S_S1600000 : (⟨S_, .i32⟩ : BufTy).Contents (Elt F) → (⟨S1600000, .i32⟩ : BufTy).Contents (Elt F)) (after ops V (main_c_56 : DevRef τ sig)) :=
  unary_at outs V 341 main_c_56 main_v264 (broadcastInDim S1600000 ![] bcast_S_S1600000 : (⟨S_, .i32⟩ : BufTy).Contents (Elt F) → (⟨S1600000, .i32⟩ : BufTy).Contents (Elt F)) _ _ rfl (wr (j := 341) rfl (by decide)) (wr (j := 340) rfl (by decide))

theorem e_main_v265 (V : Valuation τ sig (Elt F)) :
    after ops V (main_v265 : DevRef τ sig) = (addi : (⟨S1600000, .i32⟩ : BufTy).Contents (Elt F) → (⟨S1600000, .i32⟩ : BufTy).Contents (Elt F) → (⟨S1600000, .i32⟩ : BufTy).Contents (Elt F)) (after ops V (main_arg4 : DevRef τ sig)) (after ops V (main_v264 : DevRef τ sig)) :=
  binary_at outs V 342 main_arg4 main_v264 main_v265 (addi : (⟨S1600000, .i32⟩ : BufTy).Contents (Elt F) → (⟨S1600000, .i32⟩ : BufTy).Contents (Elt F) → (⟨S1600000, .i32⟩ : BufTy).Contents (Elt F)) _ _ _ rfl (wr (j := 342) rfl (by decide)) (nw arg4_nw 342) (wr (j := 341) rfl (by decide))

theorem e_main_v266 (V : Valuation τ sig (Elt F)) :
    after ops V (main_v266 : DevRef τ sig) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (main_v263 : DevRef τ sig)) (after ops V (main_v265 : DevRef τ sig)) (after ops V (main_arg4 : DevRef τ sig)) :=
  ternary_at outs V 343 main_v263 main_v265 main_arg4 main_v266 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (wr (j := 343) rfl (by decide)) (wr (j := 339) rfl (by decide)) (wr (j := 342) rfl (by decide)) (nw arg4_nw 343)

theorem e_main_v267 (V : Valuation τ sig (Elt F)) :
    after ops V (main_v267 : DevRef τ sig) = (broadcastInDim S1600000x1 ![0] bcast_S1600000_S1600000x1_0 : (⟨S1600000, .i32⟩ : BufTy).Contents (Elt F) → (⟨S1600000x1, .i32⟩ : BufTy).Contents (Elt F)) (after ops V (main_v266 : DevRef τ sig)) :=
  unary_at outs V 344 main_v266 main_v267 (broadcastInDim S1600000x1 ![0] bcast_S1600000_S1600000x1_0 : (⟨S1600000, .i32⟩ : BufTy).Contents (Elt F) → (⟨S1600000x1, .i32⟩ : BufTy).Contents (Elt F)) _ _ rfl (wr (j := 344) rfl (by decide)) (wr (j := 343) rfl (by decide))

theorem e_main_v268 (V : Valuation τ sig (Elt F)) :
    after ops V (main_v268 : DevRef τ sig) = ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (after ops V (main_v261 : DevRef τ sig)) (after ops V (main_v267 : DevRef τ sig)) :=
  binary_at outs V 345 main_v261 main_v267 main_v268 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) _ _ _ rfl (wr (j := 345) rfl (by decide)) (wr (j := 336) rfl (by decide)) (wr (j := 344) rfl (by decide))

theorem e_main_cst_57 (V : Valuation τ sig (Elt F)) :
    after ops V (main_cst_57 : DevRef τ sig) = ((constant S_ .f32 0x00000000#32) : (⟨S_, .f32⟩ : BufTy).Contents (Elt F)) :=
  nullary_at outs V 346 main_cst_57 ((constant S_ .f32 0x00000000#32) : (⟨S_, .f32⟩ : BufTy).Contents (Elt F)) _ rfl (wr (j := 346) rfl (by decide))

theorem e_main_v269 (V : Valuation τ sig (Elt F)) :
    after ops V (main_v269 : DevRef τ sig) = (broadcastInDim S100000x128 ![] bcast_S_S100000x128 : (⟨S_, .f32⟩ : BufTy).Contents (Elt F) → (⟨S100000x128, .f32⟩ : BufTy).Contents (Elt F)) (after ops V (main_cst_57 : DevRef τ sig)) :=
  unary_at outs V 347 main_cst_57 main_v269 (broadcastInDim S100000x128 ![] bcast_S_S100000x128 : (⟨S_, .f32⟩ : BufTy).Contents (Elt F) → (⟨S100000x128, .f32⟩ : BufTy).Contents (Elt F)) _ _ rfl (wr (j := 347) rfl (by decide)) (wr (j := 346) rfl (by decide))

theorem e_main_v270 (V : Valuation τ sig (Elt F)) :
    after ops V (main_v270 : DevRef τ sig) = (broadcastInDim S1600000x1 ![0] bcast_S1600000_S1600000x1_0 : (⟨S1600000, .i32⟩ : BufTy).Contents (Elt F) → (⟨S1600000x1, .i32⟩ : BufTy).Contents (Elt F)) (after ops V (main_arg5 : DevRef τ sig)) :=
  unary_at outs V 348 main_arg5 main_v270 (broadcastInDim S1600000x1 ![0] bcast_S1600000_S1600000x1_0 : (⟨S1600000, .i32⟩ : BufTy).Contents (Elt F) → (⟨S1600000x1, .i32⟩ : BufTy).Contents (Elt F)) _ _ rfl (wr (j := 348) rfl (by decide)) (nw arg5_nw 348)

theorem e_main_v271 (V : Valuation τ sig (Elt F)) :
    after ops V (main_v271 : DevRef τ sig) = ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (after ops V (main_v269 : DevRef τ sig)) (after ops V (main_v270 : DevRef τ sig)) (after ops V (main_v268 : DevRef τ sig)) :=
  ternary_at outs V 349 main_v269 main_v270 main_v268 main_v271 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) _ _ _ _ rfl (wr (j := 349) rfl (by decide)) (wr (j := 347) rfl (by decide)) (wr (j := 348) rfl (by decide)) (wr (j := 345) rfl (by decide))

theorem e_main_v272 (V : Valuation τ sig (Elt F)) :
    after ops V (main_v272 : DevRef τ sig) = (broadcastInDim S100000x1 ![0] bcast_S100000_S100000x1_0 : (⟨S100000, .f32⟩ : BufTy).Contents (Elt F) → (⟨S100000x1, .f32⟩ : BufTy).Contents (Elt F)) (after ops V (main_v153 : DevRef τ sig)) :=
  unary_at outs V 350 main_v153 main_v272 (broadcastInDim S100000x1 ![0] bcast_S100000_S100000x1_0 : (⟨S100000, .f32⟩ : BufTy).Contents (Elt F) → (⟨S100000x1, .f32⟩ : BufTy).Contents (Elt F)) _ _ rfl (wr (j := 350) rfl (by decide)) (wr (j := 201) rfl (by decide))

theorem e_main_v273 (V : Valuation τ sig (Elt F)) :
    after ops V (main_v273 : DevRef τ sig) = (broadcastInDim S100000x128 ![0, 1] bcast_S100000x1_S100000x128_0_1 : (⟨S100000x1, .f32⟩ : BufTy).Contents (Elt F) → (⟨S100000x128, .f32⟩ : BufTy).Contents (Elt F)) (after ops V (main_v272 : DevRef τ sig)) :=
  unary_at outs V 351 main_v272 main_v273 (broadcastInDim S100000x128 ![0, 1] bcast_S100000x1_S100000x128_0_1 : (⟨S100000x1, .f32⟩ : BufTy).Contents (Elt F) → (⟨S100000x128, .f32⟩ : BufTy).Contents (Elt F)) _ _ rfl (wr (j := 351) rfl (by decide)) (wr (j := 350) rfl (by decide))

theorem e_main_v274 (V : Valuation τ sig (Elt F)) :
    after ops V (main_v274 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v271 : DevRef τ sig)) (after ops V (main_v273 : DevRef τ sig)) :=
  binary_at outs V 352 main_v271 main_v273 main_v274 (mulf : (⟨S100000x128, .f32⟩ : BufTy).Contents (Elt F) → (⟨S100000x128, .f32⟩ : BufTy).Contents (Elt F) → (⟨S100000x128, .f32⟩ : BufTy).Contents (Elt F)) _ _ _ rfl (wr (j := 352) rfl (by decide)) (wr (j := 349) rfl (by decide)) (wr (j := 351) rfl (by decide))

theorem e_main_cst_58 (V : Valuation τ sig (Elt F)) :
    after ops V (main_cst_58 : DevRef τ sig) = ((constant S_ .f32 0x3F666666#32) : (⟨S_, .f32⟩ : BufTy).Contents (Elt F)) :=
  nullary_at outs V 353 main_cst_58 ((constant S_ .f32 0x3F666666#32) : (⟨S_, .f32⟩ : BufTy).Contents (Elt F)) _ rfl (wr (j := 353) rfl (by decide))

theorem e_main_v275 (V : Valuation τ sig (Elt F)) :
    after ops V (main_v275 : DevRef τ sig) = (broadcastInDim S100000x128 ![] bcast_S_S100000x128 : (⟨S_, .f32⟩ : BufTy).Contents (Elt F) → (⟨S100000x128, .f32⟩ : BufTy).Contents (Elt F)) (after ops V (main_cst_58 : DevRef τ sig)) :=
  unary_at outs V 354 main_cst_58 main_v275 (broadcastInDim S100000x128 ![] bcast_S_S100000x128 : (⟨S_, .f32⟩ : BufTy).Contents (Elt F) → (⟨S100000x128, .f32⟩ : BufTy).Contents (Elt F)) _ _ rfl (wr (j := 354) rfl (by decide)) (wr (j := 353) rfl (by decide))

theorem e_main_v276 (V : Valuation τ sig (Elt F)) :
    after ops V (main_v276 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v275 : DevRef τ sig)) (after ops V (main_v274 : DevRef τ sig)) :=
  binary_at outs V 355 main_v275 main_v274 main_v276 (mulf : (⟨S100000x128, .f32⟩ : BufTy).Contents (Elt F) → (⟨S100000x128, .f32⟩ : BufTy).Contents (Elt F) → (⟨S100000x128, .f32⟩ : BufTy).Contents (Elt F)) _ _ _ rfl (wr (j := 355) rfl (by decide)) (wr (j := 354) rfl (by decide)) (wr (j := 352) rfl (by decide))

theorem e_main_cst_59 (V : Valuation τ sig (Elt F)) :
    after ops V (main_cst_59 : DevRef τ sig) = ((constant S_ .f32 0x3DCCCCCD#32) : (⟨S_, .f32⟩ : BufTy).Contents (Elt F)) :=
  nullary_at outs V 356 main_cst_59 ((constant S_ .f32 0x3DCCCCCD#32) : (⟨S_, .f32⟩ : BufTy).Contents (Elt F)) _ rfl (wr (j := 356) rfl (by decide))

theorem e_main_v277 (V : Valuation τ sig (Elt F)) :
    after ops V (main_v277 : DevRef τ sig) = (broadcastInDim S100000x128 ![] bcast_S_S100000x128 : (⟨S_, .f32⟩ : BufTy).Contents (Elt F) → (⟨S100000x128, .f32⟩ : BufTy).Contents (Elt F)) (after ops V (main_cst_59 : DevRef τ sig)) :=
  unary_at outs V 357 main_cst_59 main_v277 (broadcastInDim S100000x128 ![] bcast_S_S100000x128 : (⟨S_, .f32⟩ : BufTy).Contents (Elt F) → (⟨S100000x128, .f32⟩ : BufTy).Contents (Elt F)) _ _ rfl (wr (j := 357) rfl (by decide)) (wr (j := 356) rfl (by decide))

theorem e_main_v278 (V : Valuation τ sig (Elt F)) :
    after ops V (main_v278 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v277 : DevRef τ sig)) (after ops V (main_arg1 : DevRef τ sig)) :=
  binary_at outs V 358 main_v277 main_arg1 main_v278 (mulf : (⟨S100000x128, .f32⟩ : BufTy).Contents (Elt F) → (⟨S100000x128, .f32⟩ : BufTy).Contents (Elt F) → (⟨S100000x128, .f32⟩ : BufTy).Contents (Elt F)) _ _ _ rfl (wr (j := 358) rfl (by decide)) (wr (j := 357) rfl (by decide)) (nw arg1_nw 358)

theorem e_main_v279 (V : Valuation τ sig (Elt F)) :
    after ops V (main_v279 : DevRef τ sig) = (addf : (⟨S100000x128, .f32⟩ : BufTy).Contents (Elt F) → (⟨S100000x128, .f32⟩ : BufTy).Contents (Elt F) → (⟨S100000x128, .f32⟩ : BufTy).Contents (Elt F)) (after ops V (main_v276 : DevRef τ sig)) (after ops V (main_v278 : DevRef τ sig)) :=
  binary_at outs V 359 main_v276 main_v278 main_v279 (addf : (⟨S100000x128, .f32⟩ : BufTy).Contents (Elt F) → (⟨S100000x128, .f32⟩ : BufTy).Contents (Elt F) → (⟨S100000x128, .f32⟩ : BufTy).Contents (Elt F)) _ _ _ rfl (wr (j := 359) rfl (by decide)) (wr (j := 355) rfl (by decide)) (wr (j := 358) rfl (by decide))

theorem e_main_cst_60 (V : Valuation τ sig (Elt F)) :
    after ops V (main_cst_60 : DevRef τ sig) = ((constant S_ .f32 0x3F46E010#32) : (⟨S_, .f32⟩ : BufTy).Contents (Elt F)) :=
  nullary_at outs V 360 main_cst_60 ((constant S_ .f32 0x3F46E010#32) : (⟨S_, .f32⟩ : BufTy).Contents (Elt F)) _ rfl (wr (j := 360) rfl (by decide))

theorem e_main_v280 (V : Valuation τ sig (Elt F)) :
    after ops V (main_v280 : DevRef τ sig) = (broadcastInDim S100000x128 ![] bcast_S_S100000x128 : (⟨S_, .f32⟩ : BufTy).Contents (Elt F) → (⟨S100000x128, .f32⟩ : BufTy).Contents (Elt F)) (after ops V (main_cst_60 : DevRef τ sig)) :=
  unary_at outs V 361 main_cst_60 main_v280 (broadcastInDim S100000x128 ![] bcast_S_S100000x128 : (⟨S_, .f32⟩ : BufTy).Contents (Elt F) → (⟨S100000x128, .f32⟩ : BufTy).Contents (Elt F)) _ _ rfl (wr (j := 361) rfl (by decide)) (wr (j := 360) rfl (by decide))

theorem e_main_v281 (V : Valuation τ sig (Elt F)) :
    after ops V (main_v281 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v280 : DevRef τ sig)) (after ops V (main_v279 : DevRef τ sig)) :=
  binary_at outs V 362 main_v280 main_v279 main_v281 (mulf : (⟨S100000x128, .f32⟩ : BufTy).Contents (Elt F) → (⟨S100000x128, .f32⟩ : BufTy).Contents (Elt F) → (⟨S100000x128, .f32⟩ : BufTy).Contents (Elt F)) _ _ _ rfl (wr (j := 362) rfl (by decide)) (wr (j := 361) rfl (by decide)) (wr (j := 359) rfl (by decide))

theorem e_main_v282 (V : Valuation τ sig (Elt F)) :
    after ops V (main_v282 : DevRef τ sig) = ((extractStridedSlice S1x128x128 ![3, 0, 0] · slices_S4x128x128_S1x128x128_3_0_0) : (⟨S4x128x128, .f32⟩ : BufTy).Contents (Elt F) → (⟨S1x128x128, .f32⟩ : BufTy).Contents (Elt F)) (after ops V (main_arg6 : DevRef τ sig)) :=
  unary_at outs V 363 main_arg6 main_v282 ((extractStridedSlice S1x128x128 ![3, 0, 0] · slices_S4x128x128_S1x128x128_3_0_0) : (⟨S4x128x128, .f32⟩ : BufTy).Contents (Elt F) → (⟨S1x128x128, .f32⟩ : BufTy).Contents (Elt F)) _ _ rfl (wr (j := 363) rfl (by decide)) (nw arg6_nw 363)

theorem e_main_v283 (V : Valuation τ sig (Elt F)) :
    after ops V (main_v283 : DevRef τ sig) = shapeCast S128x128 (after ops V (main_v282 : DevRef τ sig)) shapeCasts_S1x128x128_S128x128 :=
  reshape_at outs V 364 main_v282 main_v283 _ _ _ _ rfl (wr (j := 364) rfl (by decide)) (wr (j := 363) rfl (by decide))

theorem e_main_v284 (V : Valuation τ sig (Elt F)) :
    after ops V (main_v284 : DevRef τ sig) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (main_v279 : DevRef τ sig)) (after ops V (main_v283 : DevRef τ sig)) :=
  binary_at outs V 365 main_v279 main_v283 main_v284 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl (wr (j := 365) rfl (by decide)) (wr (j := 359) rfl (by decide)) (wr (j := 364) rfl (by decide))

theorem e_main_cst_61 (V : Valuation τ sig (Elt F)) :
    after ops V (main_cst_61 : DevRef τ sig) = ((constant S_ .f32 0x3E647FBE#32) : (⟨S_, .f32⟩ : BufTy).Contents (Elt F)) :=
  nullary_at outs V 366 main_cst_61 ((constant S_ .f32 0x3E647FBE#32) : (⟨S_, .f32⟩ : BufTy).Contents (Elt F)) _ rfl (wr (j := 366) rfl (by decide))

theorem e_main_v285 (V : Valuation τ sig (Elt F)) :
    after ops V (main_v285 : DevRef τ sig) = (broadcastInDim S100000x128 ![] bcast_S_S100000x128 : (⟨S_, .f32⟩ : BufTy).Contents (Elt F) → (⟨S100000x128, .f32⟩ : BufTy).Contents (Elt F)) (after ops V (main_cst_61 : DevRef τ sig)) :=
  unary_at outs V 367 main_cst_61 main_v285 (broadcastInDim S100000x128 ![] bcast_S_S100000x128 : (⟨S_, .f32⟩ : BufTy).Contents (Elt F) → (⟨S100000x128, .f32⟩ : BufTy).Contents (Elt F)) _ _ rfl (wr (j := 367) rfl (by decide)) (wr (j := 366) rfl (by decide))

theorem e_main_v286 (V : Valuation τ sig (Elt F)) :
    after ops V (main_v286 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v285 : DevRef τ sig)) (after ops V (main_v284 : DevRef τ sig)) :=
  binary_at outs V 368 main_v285 main_v284 main_v286 (mulf : (⟨S100000x128, .f32⟩ : BufTy).Contents (Elt F) → (⟨S100000x128, .f32⟩ : BufTy).Contents (Elt F) → (⟨S100000x128, .f32⟩ : BufTy).Contents (Elt F)) _ _ _ rfl (wr (j := 368) rfl (by decide)) (wr (j := 367) rfl (by decide)) (wr (j := 365) rfl (by decide))

theorem e_main_v287 (V : Valuation τ sig (Elt F)) :
    after ops V (main_v287 : DevRef τ sig) = (addf : (⟨S100000x128, .f32⟩ : BufTy).Contents (Elt F) → (⟨S100000x128, .f32⟩ : BufTy).Contents (Elt F) → (⟨S100000x128, .f32⟩ : BufTy).Contents (Elt F)) (after ops V (main_v281 : DevRef τ sig)) (after ops V (main_v286 : DevRef τ sig)) :=
  binary_at outs V 369 main_v281 main_v286 main_v287 (addf : (⟨S100000x128, .f32⟩ : BufTy).Contents (Elt F) → (⟨S100000x128, .f32⟩ : BufTy).Contents (Elt F) → (⟨S100000x128, .f32⟩ : BufTy).Contents (Elt F)) _ _ _ rfl (wr (j := 369) rfl (by decide)) (wr (j := 362) rfl (by decide)) (wr (j := 368) rfl (by decide))

theorem e_main_v288 (V : Valuation τ sig (Elt F)) :
    after ops V (main_v288 : DevRef τ sig) = ((extractStridedSlice S1x128 ![3, 0] · slices_S4x128_S1x128_3_0) : (⟨S4x128, .f32⟩ : BufTy).Contents (Elt F) → (⟨S1x128, .f32⟩ : BufTy).Contents (Elt F)) (after ops V (main_arg7 : DevRef τ sig)) :=
  unary_at outs V 370 main_arg7 main_v288 ((extractStridedSlice S1x128 ![3, 0] · slices_S4x128_S1x128_3_0) : (⟨S4x128, .f32⟩ : BufTy).Contents (Elt F) → (⟨S1x128, .f32⟩ : BufTy).Contents (Elt F)) _ _ rfl (wr (j := 370) rfl (by decide)) (nw arg7_nw 370)

theorem e_main_v289 (V : Valuation τ sig (Elt F)) :
    after ops V (main_v289 : DevRef τ sig) = shapeCast S128 (after ops V (main_v288 : DevRef τ sig)) shapeCasts_S1x128_S128 :=
  reshape_at outs V 371 main_v288 main_v289 _ _ _ _ rfl (wr (j := 371) rfl (by decide)) (wr (j := 370) rfl (by decide))

theorem e_main_v290 (V : Valuation τ sig (Elt F)) :
    after ops V (main_v290 : DevRef τ sig) = (broadcastInDim S1x128 ![1] bcast_S128_S1x128_1 : (⟨S128, .f32⟩ : BufTy).Contents (Elt F) → (⟨S1x128, .f32⟩ : BufTy).Contents (Elt F)) (after ops V (main_v289 : DevRef τ sig)) :=
  unary_at outs V 372 main_v289 main_v290 (broadcastInDim S1x128 ![1] bcast_S128_S1x128_1 : (⟨S128, .f32⟩ : BufTy).Contents (Elt F) → (⟨S1x128, .f32⟩ : BufTy).Contents (Elt F)) _ _ rfl (wr (j := 372) rfl (by decide)) (wr (j := 371) rfl (by decide))

theorem e_main_v291 (V : Valuation τ sig (Elt F)) :
    after ops V (main_v291 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v290 : DevRef τ sig)) :=
  unary_at outs V 373 main_v290 main_v291 (broadcastInDim S100000x128 ![0, 1] bcast_S1x128_S100000x128_0_1 : (⟨S1x128, .f32⟩ : BufTy).Contents (Elt F) → (⟨S100000x128, .f32⟩ : BufTy).Contents (Elt F)) _ _ rfl (wr (j := 373) rfl (by decide)) (wr (j := 372) rfl (by decide))

theorem e_main_v292 (V : Valuation τ sig (Elt F)) :
    after ops V (main_v292 : DevRef τ sig) = (addf : (⟨S100000x128, .f32⟩ : BufTy).Contents (Elt F) → (⟨S100000x128, .f32⟩ : BufTy).Contents (Elt F) → (⟨S100000x128, .f32⟩ : BufTy).Contents (Elt F)) (after ops V (main_v287 : DevRef τ sig)) (after ops V (main_v291 : DevRef τ sig)) :=
  binary_at outs V 374 main_v287 main_v291 main_v292 (addf : (⟨S100000x128, .f32⟩ : BufTy).Contents (Elt F) → (⟨S100000x128, .f32⟩ : BufTy).Contents (Elt F) → (⟨S100000x128, .f32⟩ : BufTy).Contents (Elt F)) _ _ _ rfl (wr (j := 374) rfl (by decide)) (wr (j := 369) rfl (by decide)) (wr (j := 373) rfl (by decide))

theorem e_main_call9_cst (V : Valuation τ sig (Elt F)) :
    after ops V (main_call9_cst : DevRef τ sig) = ((constant S_ .f32 0x00000000#32) : (⟨S_, .f32⟩ : BufTy).Contents (Elt F)) :=
  nullary_at outs V 375 main_call9_cst ((constant S_ .f32 0x00000000#32) : (⟨S_, .f32⟩ : BufTy).Contents (Elt F)) _ rfl (wr (j := 375) rfl (by decide))

theorem e_main_call9_v0 (V : Valuation τ sig (Elt F)) :
    after ops V (main_call9_v0 : DevRef τ sig) = ((broadcastInDim S100000x128 ![] bcast_S_S100000x128) : (⟨S_, .f32⟩ : BufTy).Contents (Elt F) → (⟨S100000x128, .f32⟩ : BufTy).Contents (Elt F)) (after ops V (main_call9_cst : DevRef τ sig)) :=
  unary_at outs V 376 main_call9_cst main_call9_v0 ((broadcastInDim S100000x128 ![] bcast_S_S100000x128) : (⟨S_, .f32⟩ : BufTy).Contents (Elt F) → (⟨S100000x128, .f32⟩ : BufTy).Contents (Elt F)) _ _ rfl (wr (j := 376) rfl (by decide)) (wr (j := 375) rfl (by decide))

theorem e_main_v293 (V : Valuation τ sig (Elt F)) :
    after ops V (main_v293 : DevRef τ sig) = (maximumf : (⟨S100000x128, .f32⟩ : BufTy).Contents (Elt F) → (⟨S100000x128, .f32⟩ : BufTy).Contents (Elt F) → (⟨S100000x128, .f32⟩ : BufTy).Contents (Elt F)) (after ops V (main_v292 : DevRef τ sig)) (after ops V (main_call9_v0 : DevRef τ sig)) :=
  binary_at outs V 377 main_v292 main_call9_v0 main_v293 (maximumf : (⟨S100000x128, .f32⟩ : BufTy).Contents (Elt F) → (⟨S100000x128, .f32⟩ : BufTy).Contents (Elt F) → (⟨S100000x128, .f32⟩ : BufTy).Contents (Elt F)) _ _ _ rfl (wr (j := 377) rfl (by decide)) (wr (j := 374) rfl (by decide)) (wr (j := 376) rfl (by decide))

theorem e_main_cst_62 (V : Valuation τ sig (Elt F)) :
    after ops V (main_cst_62 : DevRef τ sig) = ((constant S_ .f32 0x00000000#32) : (⟨S_, .f32⟩ : BufTy).Contents (Elt F)) :=
  nullary_at outs V 378 main_cst_62 ((constant S_ .f32 0x00000000#32) : (⟨S_, .f32⟩ : BufTy).Contents (Elt F)) _ rfl (wr (j := 378) rfl (by decide))

theorem e_main_v294 (V : Valuation τ sig (Elt F)) :
    after ops V (main_v294 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_v146 : DevRef τ sig)) (after ops V (main_cst_62 : DevRef τ sig)) :=
  binary_at outs V 379 main_v146 main_cst_62 main_v294 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (wr (j := 379) rfl (by decide)) (wr (j := 188) rfl (by decide)) (wr (j := 378) rfl (by decide))

end Cert.ReferenceIdeal.Hand

end
-- ==== Proof.RefEq6.lean ====
/-
  The reference program read one operation at a time, window 6: after the whole line each buffer written by an
  operation of this window holds that operation's function of what its operand buffers hold after the whole line
  (every buffer is written once, and an operand is written, if at all, before the operation that reads it).
-/
import proofs.«158605_j26792005992870_2_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

theorem e_main_cst_63 (V : Valuation τ sig (Elt F)) :
    after ops V (main_cst_63 : DevRef τ sig) = ((constant S_ .f32 0x47C35000#32) : (⟨S_, .f32⟩ : BufTy).Contents (Elt F)) :=
  nullary_at outs V 380 main_cst_63 ((constant S_ .f32 0x47C35000#32) : (⟨S_, .f32⟩ : BufTy).Contents (Elt F)) _ rfl (wr (j := 380) rfl (by decide))

theorem e_main_v295 (V : Valuation τ sig (Elt F)) :
    after ops V (main_v295 : DevRef τ sig) = (broadcastInDim S128 ![] bcast_S_S128 : (⟨S_, .f32⟩ : BufTy).Contents (Elt F) → (⟨S128, .f32⟩ : BufTy).Contents (Elt F)) (after ops V (main_cst_63 : DevRef τ sig)) :=
  unary_at outs V 381 main_cst_63 main_v295 (broadcastInDim S128 ![] bcast_S_S128 : (⟨S_, .f32⟩ : BufTy).Contents (Elt F) → (⟨S128, .f32⟩ : BufTy).Contents (Elt F)) _ _ rfl (wr (j := 381) rfl (by decide)) (wr (j := 380) rfl (by decide))

theorem e_main_v296 (V : Valuation τ sig (Elt F)) :
    after ops V (main_v296 : DevRef τ sig) = (Host.divf : (⟨S128, .f32⟩ : BufTy).Contents (Elt F) → (⟨S128, .f32⟩ : BufTy).Contents (Elt F) → (⟨S128, .f32⟩ : BufTy).Contents (Elt F)) (after ops V (main_v294 : DevRef τ sig)) (after ops V (main_v295 : DevRef τ sig)) :=
  binary_at outs V 382 main_v294 main_v295 main_v296 (Host.divf : (⟨S128, .f32⟩ : BufTy).Contents (Elt F) → (⟨S128, .f32⟩ : BufTy).Contents (Elt F) → (⟨S128, .f32⟩ : BufTy).Contents (Elt F)) _ _ _ rfl (wr (j := 382) rfl (by decide)) (wr (j := 379) rfl (by decide)) (wr (j := 381) rfl (by decide))

theorem e_main_c_64 (V : Valuation τ sig (Elt F)) :
    after ops V (main_c_64 : DevRef τ sig) = ((constantI S_ 32 1#32) : (⟨S_, .i32⟩ : BufTy).Contents (Elt F)) :=
  nullary_at outs V 383 main_c_64 ((constantI S_ 32 1#32) : (⟨S_, .i32⟩ : BufTy).Contents (Elt F)) _ rfl (wr (j := 383) rfl (by decide))

theorem e_main_call10_call0_cst (V : Valuation τ sig (Elt F)) :
    after ops V (main_call10_call0_cst : DevRef τ sig) = ((constant S_ .f32 0x00000000#32) : (⟨S_, .f32⟩ : BufTy).Contents (Elt F)) :=
  nullary_at outs V 384 main_call10_call0_cst ((constant S_ .f32 0x00000000#32) : (⟨S_, .f32⟩ : BufTy).Contents (Elt F)) _ rfl (wr (j := 384) rfl (by decide))

theorem e_main_call10_call0_v0 (V : Valuation τ sig (Elt F)) :
    after ops V (main_call10_call0_v0 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_v146 : DevRef τ sig)) (after ops V (main_call10_call0_cst : DevRef τ sig)) :=
  binary_at outs V 385 main_v146 main_call10_call0_cst main_call10_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (wr (j := 385) rfl (by decide)) (wr (j := 188) rfl (by decide)) (wr (j := 384) rfl (by decide))

theorem e_main_call10_call0_v1 (V : Valuation τ sig (Elt F)) :
    after ops V (main_call10_call0_v1 : DevRef τ sig) = ((broadcastInDim S1x128 ![1] bcast_S128_S1x128_1) : (⟨S128, .f32⟩ : BufTy).Contents (Elt F) → (⟨S1x128, .f32⟩ : BufTy).Contents (Elt F)) (after ops V (main_call10_call0_v0 : DevRef τ sig)) :=
  unary_at outs V 386 main_call10_call0_v0 main_call10_call0_v1 ((broadcastInDim S1x128 ![1] bcast_S128_S1x128_1) : (⟨S128, .f32⟩ : BufTy).Contents (Elt F) → (⟨S1x128, .f32⟩ : BufTy).Contents (Elt F)) _ _ rfl (wr (j := 386) rfl (by decide)) (wr (j := 385) rfl (by decide))

theorem e_main_call10_call0_cst_0 (V : Valuation τ sig (Elt F)) :
    after ops V (main_call10_call0_cst_0 : DevRef τ sig) = ((constant S_ .f32 0x47C35000#32) : (⟨S_, .f32⟩ : BufTy).Contents (Elt F)) :=
  nullary_at outs V 387 main_call10_call0_cst_0 ((constant S_ .f32 0x47C35000#32) : (⟨S_, .f32⟩ : BufTy).Contents (Elt F)) _ rfl (wr (j := 387) rfl (by decide))

theorem e_main_call10_call0_v2 (V : Valuation τ sig (Elt F)) :
    after ops V (main_call10_call0_v2 : DevRef τ sig) = ((broadcastInDim S1x128 ![] bcast_S_S1x128) : (⟨S_, .f32⟩ : BufTy).Contents (Elt F) → (⟨S1x128, .f32⟩ : BufTy).Contents (Elt F)) (after ops V (main_call10_call0_cst_0 : DevRef τ sig)) :=
  unary_at outs V 388 main_call10_call0_cst_0 main_call10_call0_v2 ((broadcastInDim S1x128 ![] bcast_S_S1x128) : (⟨S_, .f32⟩ : BufTy).Contents (Elt F) → (⟨S1x128, .f32⟩ : BufTy).Contents (Elt F)) _ _ rfl (wr (j := 388) rfl (by decide)) (wr (j := 387) rfl (by decide))

theorem e_main_call10_call0_v3 (V : Valuation τ sig (Elt F)) :
    after ops V (main_call10_call0_v3 : DevRef τ sig) = (Host.divf : (⟨S1x128, .f32⟩ : BufTy).Contents (Elt F) → (⟨S1x128, .f32⟩ : BufTy).Contents (Elt F) → (⟨S1x128, .f32⟩ : BufTy).Contents (Elt F)) (after ops V (main_call10_call0_v1 : DevRef τ sig)) (after ops V (main_call10_call0_v2 : DevRef τ sig)) :=
  binary_at outs V 389 main_call10_call0_v1 main_call10_call0_v2 main_call10_call0_v3 (Host.divf : (⟨S1x128, .f32⟩ : BufTy).Contents (Elt F) → (⟨S1x128, .f32⟩ : BufTy).Contents (Elt F) → (⟨S1x128, .f32⟩ : BufTy).Contents (Elt F)) _ _ _ rfl (wr (j := 389) rfl (by decide)) (wr (j := 386) rfl (by decide)) (wr (j := 388) rfl (by decide))

theorem e_main_call10_call0_v4 (V : Valuation τ sig (Elt F)) :
    after ops V (main_call10_call0_v4 : DevRef τ sig) = ((broadcastInDim S100000x128 ![0, 1] bcast_S1x128_S100000x128_0_1) : (⟨S1x128, .f32⟩ : BufTy).Contents (Elt F) → (⟨S100000x128, .f32⟩ : BufTy).Contents (Elt F)) (after ops V (main_call10_call0_v3 : DevRef τ sig)) :=
  unary_at outs V 390 main_call10_call0_v3 main_call10_call0_v4 ((broadcastInDim S100000x128 ![0, 1] bcast_S1x128_S100000x128_0_1) : (⟨S1x128, .f32⟩ : BufTy).Contents (Elt F) → (⟨S100000x128, .f32⟩ : BufTy).Contents (Elt F)) _ _ rfl (wr (j := 390) rfl (by decide)) (wr (j := 389) rfl (by decide))

theorem e_main_call10_call0_v5 (V : Valuation τ sig (Elt F)) :
    after ops V (main_call10_call0_v5 : DevRef τ sig) = (subf : (⟨S100000x128, .f32⟩ : BufTy).Contents (Elt F) → (⟨S100000x128, .f32⟩ : BufTy).Contents (Elt F) → (⟨S100000x128, .f32⟩ : BufTy).Contents (Elt F)) (after ops V (main_v146 : DevRef τ sig)) (after ops V (main_call10_call0_v4 : DevRef τ sig)) :=
  binary_at outs V 391 main_v146 main_call10_call0_v4 main_call10_call0_v5 (subf : (⟨S100000x128, .f32⟩ : BufTy).Contents (Elt F) → (⟨S100000x128, .f32⟩ : BufTy).Contents (Elt F) → (⟨S100000x128, .f32⟩ : BufTy).Contents (Elt F)) _ _ _ rfl (wr (j := 391) rfl (by decide)) (wr (j := 188) rfl (by decide)) (wr (j := 390) rfl (by decide))

theorem e_main_call10_call0_v6 (V : Valuation τ sig (Elt F)) :
    after ops V (main_call10_call0_v6 : DevRef τ sig) = (mulf : (⟨S100000x128, .f32⟩ : BufTy).Contents (Elt F) → (⟨S100000x128, .f32⟩ : BufTy).Contents (Elt F) → (⟨S100000x128, .f32⟩ : BufTy).Contents (Elt F)) (after ops V (main_call10_call0_v5 : DevRef τ sig)) (after ops V (main_call10_call0_v5 : DevRef τ sig)) :=
  binary_at outs V 392 main_call10_call0_v5 main_call10_call0_v5 main_call10_call0_v6 (mulf : (⟨S100000x128, .f32⟩ : BufTy).Contents (Elt F) → (⟨S100000x128, .f32⟩ : BufTy).Contents (Elt F) → (⟨S100000x128, .f32⟩ : BufTy).Contents (Elt F)) _ _ _ rfl (wr (j := 392) rfl (by decide)) (wr (j := 391) rfl (by decide)) (wr (j := 391) rfl (by decide))

theorem e_main_call10_call0_v7 (V : Valuation τ sig (Elt F)) :
    after ops V (main_call10_call0_v7 : DevRef τ sig) = ((sitofp .f32) : (⟨S_, .i32⟩ : BufTy).Contents (Elt F) → (⟨S_, .f32⟩ : BufTy).Contents (Elt F)) (after ops V (main_c_64 : DevRef τ sig)) :=
  unary_at outs V 393 main_c_64 main_call10_call0_v7 ((sitofp .f32) : (⟨S_, .i32⟩ : BufTy).Contents (Elt F) → (⟨S_, .f32⟩ : BufTy).Contents (Elt F)) _ _ rfl (wr (j := 393) rfl (by decide)) (wr (j := 383) rfl (by decide))

theorem e_main_call10_call0_cst_1 (V : Valuation τ sig (Elt F)) :
    after ops V (main_call10_call0_cst_1 : DevRef τ sig) = ((constant S_ .f32 0x47C35000#32) : (⟨S_, .f32⟩ : BufTy).Contents (Elt F)) :=
  nullary_at outs V 394 main_call10_call0_cst_1 ((constant S_ .f32 0x47C35000#32) : (⟨S_, .f32⟩ : BufTy).Contents (Elt F)) _ rfl (wr (j := 394) rfl (by decide))

theorem e_main_call10_call0_v8 (V : Valuation τ sig (Elt F)) :
    after ops V (main_call10_call0_v8 : DevRef τ sig) = (subf : (⟨S_, .f32⟩ : BufTy).Contents (Elt F) → (⟨S_, .f32⟩ : BufTy).Contents (Elt F) → (⟨S_, .f32⟩ : BufTy).Contents (Elt F)) (after ops V (main_call10_call0_cst_1 : DevRef τ sig)) (after ops V (main_call10_call0_v7 : DevRef τ sig)) :=
  binary_at outs V 395 main_call10_call0_cst_1 main_call10_call0_v7 main_call10_call0_v8 (subf : (⟨S_, .f32⟩ : BufTy).Contents (Elt F) → (⟨S_, .f32⟩ : BufTy).Contents (Elt F) → (⟨S_, .f32⟩ : BufTy).Contents (Elt F)) _ _ _ rfl (wr (j := 395) rfl (by decide)) (wr (j := 394) rfl (by decide)) (wr (j := 393) rfl (by decide))

theorem e_main_call10_call0_cst_2 (V : Valuation τ sig (Elt F)) :
    after ops V (main_call10_call0_cst_2 : DevRef τ sig) = ((constant S_ .f32 0x00000000#32) : (⟨S_, .f32⟩ : BufTy).Contents (Elt F)) :=
  nullary_at outs V 396 main_call10_call0_cst_2 ((constant S_ .f32 0x00000000#32) : (⟨S_, .f32⟩ : BufTy).Contents (Elt F)) _ rfl (wr (j := 396) rfl (by decide))

theorem e_main_call10_call0_v9 (V : Valuation τ sig (Elt F)) :
    after ops V (main_call10_call0_v9 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_call10_call0_v6 : DevRef τ sig)) (after ops V (main_call10_call0_cst_2 : DevRef τ sig)) :=
  binary_at outs V 397 main_call10_call0_v6 main_call10_call0_cst_2 main_call10_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (wr (j := 397) rfl (by decide)) (wr (j := 392) rfl (by decide)) (wr (j := 396) rfl (by decide))

theorem e_main_call10_call0_v10 (V : Valuation τ sig (Elt F)) :
    after ops V (main_call10_call0_v10 : DevRef τ sig) = ((broadcastInDim S128 ![] bcast_S_S128) : (⟨S_, .f32⟩ : BufTy).Contents (Elt F) → (⟨S128, .f32⟩ : BufTy).Contents (Elt F)) (after ops V (main_call10_call0_v8 : DevRef τ sig)) :=
  unary_at outs V 398 main_call10_call0_v8 main_call10_call0_v10 ((broadcastInDim S128 ![] bcast_S_S128) : (⟨S_, .f32⟩ : BufTy).Contents (Elt F) → (⟨S128, .f32⟩ : BufTy).Contents (Elt F)) _ _ rfl (wr (j := 398) rfl (by decide)) (wr (j := 395) rfl (by decide))

theorem e_main_call10_call0_v11 (V : Valuation τ sig (Elt F)) :
    after ops V (main_call10_call0_v11 : DevRef τ sig) = (Host.divf : (⟨S128, .f32⟩ : BufTy).Contents (Elt F) → (⟨S128, .f32⟩ : BufTy).Contents (Elt F) → (⟨S128, .f32⟩ : BufTy).Contents (Elt F)) (after ops V (main_call10_call0_v9 : DevRef τ sig)) (after ops V (main_call10_call0_v10 : DevRef τ sig)) :=
  binary_at outs V 399 main_call10_call0_v9 main_call10_call0_v10 main_call10_call0_v11 (Host.divf : (⟨S128, .f32⟩ : BufTy).Contents (Elt F) → (⟨S128, .f32⟩ : BufTy).Contents (Elt F) → (⟨S128, .f32⟩ : BufTy).Contents (Elt F)) _ _ _ rfl (wr (j := 399) rfl (by decide)) (wr (j := 397) rfl (by decide)) (wr (j := 398) rfl (by decide))

theorem e_main_call10_call0_cst_3 (V : Valuation τ sig (Elt F)) :
    after ops V (main_call10_call0_cst_3 : DevRef τ sig) = ((constant S_ .f32 0x00000000#32) : (⟨S_, .f32⟩ : BufTy).Contents (Elt F)) :=
  nullary_at outs V 400 main_call10_call0_cst_3 ((constant S_ .f32 0x00000000#32) : (⟨S_, .f32⟩ : BufTy).Contents (Elt F)) _ rfl (wr (j := 400) rfl (by decide))

theorem e_main_call10_call0_v12 (V : Valuation τ sig (Elt F)) :
    after ops V (main_call10_call0_v12 : DevRef τ sig) = ((cmpf .ogt) : (⟨S_, .f32⟩ : BufTy).Contents (Elt F) → (⟨S_, .f32⟩ : BufTy).Contents (Elt F) → (⟨S_, .i1⟩ : BufTy).Contents (Elt F)) (after ops V (main_call10_call0_v8 : DevRef τ sig)) (after ops V (main_call10_call0_cst_3 : DevRef τ sig)) :=
  binary_at outs V 401 main_call10_call0_v8 main_call10_call0_cst_3 main_call10_call0_v12 ((cmpf .ogt) : (⟨S_, .f32⟩ : BufTy).Contents (Elt F) → (⟨S_, .f32⟩ : BufTy).Contents (Elt F) → (⟨S_, .i1⟩ : BufTy).Contents (Elt F)) _ _ _ rfl (wr (j := 401) rfl (by decide)) (wr (j := 395) rfl (by decide)) (wr (j := 400) rfl (by decide))

theorem e_main_call10_call0_cst_4 (V : Valuation τ sig (Elt F)) :
    after ops V (main_call10_call0_cst_4 : DevRef τ sig) = ((constant S_ .f32 0x7FC00000#32) : (⟨S_, .f32⟩ : BufTy).Contents (Elt F)) :=
  nullary_at outs V 402 main_call10_call0_cst_4 ((constant S_ .f32 0x7FC00000#32) : (⟨S_, .f32⟩ : BufTy).Contents (Elt F)) _ rfl (wr (j := 402) rfl (by decide))

theorem e_main_call10_call0_call0_v0 (V : Valuation τ sig (Elt F)) :
    after ops V (main_call10_call0_call0_v0 : DevRef τ sig) = (id : (⟨S_, .f32⟩ : BufTy).Contents (Elt F) → (⟨S_, .f32⟩ : BufTy).Contents (Elt F)) (after ops V (main_call10_call0_cst_4 : DevRef τ sig)) :=
  unary_at outs V 403 main_call10_call0_cst_4 main_call10_call0_call0_v0 (id : (⟨S_, .f32⟩ : BufTy).Contents (Elt F) → (⟨S_, .f32⟩ : BufTy).Contents (Elt F)) _ _ rfl (wr (j := 403) rfl (by decide)) (wr (j := 402) rfl (by decide))

theorem e_main_call10_call0_call0_v1 (V : Valuation τ sig (Elt F)) :
    after ops V (main_call10_call0_call0_v1 : DevRef τ sig) = ((broadcastInDim S128 ![] bcast_S_S128) : (⟨S_, .f32⟩ : BufTy).Contents (Elt F) → (⟨S128, .f32⟩ : BufTy).Contents (Elt F)) (after ops V (main_call10_call0_call0_v0 : DevRef τ sig)) :=
  unary_at outs V 404 main_call10_call0_call0_v0 main_call10_call0_call0_v1 ((broadcastInDim S128 ![] bcast_S_S128) : (⟨S_, .f32⟩ : BufTy).Contents (Elt F) → (⟨S128, .f32⟩ : BufTy).Contents (Elt F)) _ _ rfl (wr (j := 404) rfl (by decide)) (wr (j := 403) rfl (by decide))

theorem e_main_call10_v0 (V : Valuation τ sig (Elt F)) :
    after ops V (main_call10_v0 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (main_call10_call0_v12 : DevRef τ sig)) (after ops V (main_call10_call0_v11 : DevRef τ sig)) (after ops V (main_call10_call0_call0_v1 : DevRef τ sig)) :=
  ternary_at outs V 405 main_call10_call0_v12 main_call10_call0_v11 main_call10_call0_call0_v1 main_call10_v0 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) _ _ _ _ rfl (wr (j := 405) rfl (by decide)) (wr (j := 401) rfl (by decide)) (wr (j := 399) rfl (by decide)) (wr (j := 404) rfl (by decide))

theorem e_main_v297 (V : Valuation τ sig (Elt F)) :
    after ops V (main_v297 : DevRef τ sig) = (Host.sqrt : (⟨S128, .f32⟩ : BufTy).Contents (Elt F) → (⟨S128, .f32⟩ : BufTy).Contents (Elt F)) (after ops V (main_call10_v0 : DevRef τ sig)) :=
  unary_at outs V 406 main_call10_v0 main_v297 (Host.sqrt : (⟨S128, .f32⟩ : BufTy).Contents (Elt F) → (⟨S128, .f32⟩ : BufTy).Contents (Elt F)) _ _ rfl (wr (j := 406) rfl (by decide)) (wr (j := 405) rfl (by decide))

theorem e_main_v298 (V : Valuation τ sig (Elt F)) :
    after ops V (main_v298 : DevRef τ sig) = (broadcastInDim S1x128 ![1] bcast_S128_S1x128_1 : (⟨S128, .f32⟩ : BufTy).Contents (Elt F) → (⟨S1x128, .f32⟩ : BufTy).Contents (Elt F)) (after ops V (main_v296 : DevRef τ sig)) :=
  unary_at outs V 407 main_v296 main_v298 (broadcastInDim S1x128 ![1] bcast_S128_S1x128_1 : (⟨S128, .f32⟩ : BufTy).Contents (Elt F) → (⟨S1x128, .f32⟩ : BufTy).Contents (Elt F)) _ _ rfl (wr (j := 407) rfl (by decide)) (wr (j := 382) rfl (by decide))

theorem e_main_v299 (V : Valuation τ sig (Elt F)) :
    after ops V (main_v299 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v298 : DevRef τ sig)) :=
  unary_at outs V 408 main_v298 main_v299 (broadcastInDim S100000x128 ![0, 1] bcast_S1x128_S100000x128_0_1 : (⟨S1x128, .f32⟩ : BufTy).Contents (Elt F) → (⟨S100000x128, .f32⟩ : BufTy).Contents (Elt F)) _ _ rfl (wr (j := 408) rfl (by decide)) (wr (j := 407) rfl (by decide))

theorem e_main_v300 (V : Valuation τ sig (Elt F)) :
    after ops V (main_v300 : DevRef τ sig) = (subf : (⟨S100000x128, .f32⟩ : BufTy).Contents (Elt F) → (⟨S100000x128, .f32⟩ : BufTy).Contents (Elt F) → (⟨S100000x128, .f32⟩ : BufTy).Contents (Elt F)) (after ops V (main_v146 : DevRef τ sig)) (after ops V (main_v299 : DevRef τ sig)) :=
  binary_at outs V 409 main_v146 main_v299 main_v300 (subf : (⟨S100000x128, .f32⟩ : BufTy).Contents (Elt F) → (⟨S100000x128, .f32⟩ : BufTy).Contents (Elt F) → (⟨S100000x128, .f32⟩ : BufTy).Contents (Elt F)) _ _ _ rfl (wr (j := 409) rfl (by decide)) (wr (j := 188) rfl (by decide)) (wr (j := 408) rfl (by decide))

theorem e_main_cst_65 (V : Valuation τ sig (Elt F)) :
    after ops V (main_cst_65 : DevRef τ sig) = ((constant S_ .f32 0x2B8CBCCC#32) : (⟨S_, .f32⟩ : BufTy).Contents (Elt F)) :=
  nullary_at outs V 410 main_cst_65 ((constant S_ .f32 0x2B8CBCCC#32) : (⟨S_, .f32⟩ : BufTy).Contents (Elt F)) _ rfl (wr (j := 410) rfl (by decide))

theorem e_main_call11_v0 (V : Valuation τ sig (Elt F)) :
    after ops V (main_call11_v0 : DevRef τ sig) = (id : (⟨S_, .f32⟩ : BufTy).Contents (Elt F) → (⟨S_, .f32⟩ : BufTy).Contents (Elt F)) (after ops V (main_cst_65 : DevRef τ sig)) :=
  unary_at outs V 411 main_cst_65 main_call11_v0 (id : (⟨S_, .f32⟩ : BufTy).Contents (Elt F) → (⟨S_, .f32⟩ : BufTy).Contents (Elt F)) _ _ rfl (wr (j := 411) rfl (by decide)) (wr (j := 410) rfl (by decide))

theorem e_main_call11_v1 (V : Valuation τ sig (Elt F)) :
    after ops V (main_call11_v1 : DevRef τ sig) = ((broadcastInDim S128 ![] bcast_S_S128) : (⟨S_, .f32⟩ : BufTy).Contents (Elt F) → (⟨S128, .f32⟩ : BufTy).Contents (Elt F)) (after ops V (main_call11_v0 : DevRef τ sig)) :=
  unary_at outs V 412 main_call11_v0 main_call11_v1 ((broadcastInDim S128 ![] bcast_S_S128) : (⟨S_, .f32⟩ : BufTy).Contents (Elt F) → (⟨S128, .f32⟩ : BufTy).Contents (Elt F)) _ _ rfl (wr (j := 412) rfl (by decide)) (wr (j := 411) rfl (by decide))

theorem e_main_v301 (V : Valuation τ sig (Elt F)) :
    after ops V (main_v301 : DevRef τ sig) = (maximumf : (⟨S128, .f32⟩ : BufTy).Contents (Elt F) → (⟨S128, .f32⟩ : BufTy).Contents (Elt F) → (⟨S128, .f32⟩ : BufTy).Contents (Elt F)) (after ops V (main_call11_v1 : DevRef τ sig)) (after ops V (main_v297 : DevRef τ sig)) :=
  binary_at outs V 413 main_call11_v1 main_v297 main_v301 (maximumf : (⟨S128, .f32⟩ : BufTy).Contents (Elt F) → (⟨S128, .f32⟩ : BufTy).Contents (Elt F) → (⟨S128, .f32⟩ : BufTy).Contents (Elt F)) _ _ _ rfl (wr (j := 413) rfl (by decide)) (wr (j := 412) rfl (by decide)) (wr (j := 406) rfl (by decide))

theorem e_main_v302 (V : Valuation τ sig (Elt F)) :
    after ops V (main_v302 : DevRef τ sig) = (broadcastInDim S1x128 ![1] bcast_S128_S1x128_1 : (⟨S128, .f32⟩ : BufTy).Contents (Elt F) → (⟨S1x128, .f32⟩ : BufTy).Contents (Elt F)) (after ops V (main_v301 : DevRef τ sig)) :=
  unary_at outs V 414 main_v301 main_v302 (broadcastInDim S1x128 ![1] bcast_S128_S1x128_1 : (⟨S128, .f32⟩ : BufTy).Contents (Elt F) → (⟨S1x128, .f32⟩ : BufTy).Contents (Elt F)) _ _ rfl (wr (j := 414) rfl (by decide)) (wr (j := 413) rfl (by decide))

theorem e_main_v303 (V : Valuation τ sig (Elt F)) :
    after ops V (main_v303 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v302 : DevRef τ sig)) :=
  unary_at outs V 415 main_v302 main_v303 (broadcastInDim S100000x128 ![0, 1] bcast_S1x128_S100000x128_0_1 : (⟨S1x128, .f32⟩ : BufTy).Contents (Elt F) → (⟨S100000x128, .f32⟩ : BufTy).Contents (Elt F)) _ _ rfl (wr (j := 415) rfl (by decide)) (wr (j := 414) rfl (by decide))

theorem e_main_v304 (V : Valuation τ sig (Elt F)) :
    after ops V (main_v304 : DevRef τ sig) = (Host.divf : (⟨S100000x128, .f32⟩ : BufTy).Contents (Elt F) → (⟨S100000x128, .f32⟩ : BufTy).Contents (Elt F) → (⟨S100000x128, .f32⟩ : BufTy).Contents (Elt F)) (after ops V (main_v300 : DevRef τ sig)) (after ops V (main_v303 : DevRef τ sig)) :=
  binary_at outs V 416 main_v300 main_v303 main_v304 (Host.divf : (⟨S100000x128, .f32⟩ : BufTy).Contents (Elt F) → (⟨S100000x128, .f32⟩ : BufTy).Contents (Elt F) → (⟨S100000x128, .f32⟩ : BufTy).Contents (Elt F)) _ _ _ rfl (wr (j := 416) rfl (by decide)) (wr (j := 409) rfl (by decide)) (wr (j := 415) rfl (by decide))

theorem e_main_cst_66 (V : Valuation τ sig (Elt F)) :
    after ops V (main_cst_66 : DevRef τ sig) = ((constant S_ .f32 0x00000000#32) : (⟨S_, .f32⟩ : BufTy).Contents (Elt F)) :=
  nullary_at outs V 417 main_cst_66 ((constant S_ .f32 0x00000000#32) : (⟨S_, .f32⟩ : BufTy).Contents (Elt F)) _ rfl (wr (j := 417) rfl (by decide))

theorem e_main_v305 (V : Valuation τ sig (Elt F)) :
    after ops V (main_v305 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_v293 : DevRef τ sig)) (after ops V (main_cst_66 : DevRef τ sig)) :=
  binary_at outs V 418 main_v293 main_cst_66 main_v305 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (wr (j := 418) rfl (by decide)) (wr (j := 377) rfl (by decide)) (wr (j := 417) rfl (by decide))

theorem e_main_cst_67 (V : Valuation τ sig (Elt F)) :
    after ops V (main_cst_67 : DevRef τ sig) = ((constant S_ .f32 0x47C35000#32) : (⟨S_, .f32⟩ : BufTy).Contents (Elt F)) :=
  nullary_at outs V 419 main_cst_67 ((constant S_ .f32 0x47C35000#32) : (⟨S_, .f32⟩ : BufTy).Contents (Elt F)) _ rfl (wr (j := 419) rfl (by decide))

theorem e_main_v306 (V : Valuation τ sig (Elt F)) :
    after ops V (main_v306 : DevRef τ sig) = (broadcastInDim S128 ![] bcast_S_S128 : (⟨S_, .f32⟩ : BufTy).Contents (Elt F) → (⟨S128, .f32⟩ : BufTy).Contents (Elt F)) (after ops V (main_cst_67 : DevRef τ sig)) :=
  unary_at outs V 420 main_cst_67 main_v306 (broadcastInDim S128 ![] bcast_S_S128 : (⟨S_, .f32⟩ : BufTy).Contents (Elt F) → (⟨S128, .f32⟩ : BufTy).Contents (Elt F)) _ _ rfl (wr (j := 420) rfl (by decide)) (wr (j := 419) rfl (by decide))

theorem e_main_v307 (V : Valuation τ sig (Elt F)) :
    after ops V (main_v307 : DevRef τ sig) = (Host.divf : (⟨S128, .f32⟩ : BufTy).Contents (Elt F) → (⟨S128, .f32⟩ : BufTy).Contents (Elt F) → (⟨S128, .f32⟩ : BufTy).Contents (Elt F)) (after ops V (main_v305 : DevRef τ sig)) (after ops V (main_v306 : DevRef τ sig)) :=
  binary_at outs V 421 main_v305 main_v306 main_v307 (Host.divf : (⟨S128, .f32⟩ : BufTy).Contents (Elt F) → (⟨S128, .f32⟩ : BufTy).Contents (Elt F) → (⟨S128, .f32⟩ : BufTy).Contents (Elt F)) _ _ _ rfl (wr (j := 421) rfl (by decide)) (wr (j := 418) rfl (by decide)) (wr (j := 420) rfl (by decide))

theorem e_main_c_68 (V : Valuation τ sig (Elt F)) :
    after ops V (main_c_68 : DevRef τ sig) = ((constantI S_ 32 1#32) : (⟨S_, .i32⟩ : BufTy).Contents (Elt F)) :=
  nullary_at outs V 422 main_c_68 ((constantI S_ 32 1#32) : (⟨S_, .i32⟩ : BufTy).Contents (Elt F)) _ rfl (wr (j := 422) rfl (by decide))

theorem e_main_call12_call0_cst (V : Valuation τ sig (Elt F)) :
    after ops V (main_call12_call0_cst : DevRef τ sig) = ((constant S_ .f32 0x00000000#32) : (⟨S_, .f32⟩ : BufTy).Contents (Elt F)) :=
  nullary_at outs V 423 main_call12_call0_cst ((constant S_ .f32 0x00000000#32) : (⟨S_, .f32⟩ : BufTy).Contents (Elt F)) _ rfl (wr (j := 423) rfl (by decide))

theorem e_main_call12_call0_v0 (V : Valuation τ sig (Elt F)) :
    after ops V (main_call12_call0_v0 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_v293 : DevRef τ sig)) (after ops V (main_call12_call0_cst : DevRef τ sig)) :=
  binary_at outs V 424 main_v293 main_call12_call0_cst main_call12_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (wr (j := 424) rfl (by decide)) (wr (j := 377) rfl (by decide)) (wr (j := 423) rfl (by decide))

theorem e_main_call12_call0_v1 (V : Valuation τ sig (Elt F)) :
    after ops V (main_call12_call0_v1 : DevRef τ sig) = ((broadcastInDim S1x128 ![1] bcast_S128_S1x128_1) : (⟨S128, .f32⟩ : BufTy).Contents (Elt F) → (⟨S1x128, .f32⟩ : BufTy).Contents (Elt F)) (after ops V (main_call12_call0_v0 : DevRef τ sig)) :=
  unary_at outs V 425 main_call12_call0_v0 main_call12_call0_v1 ((broadcastInDim S1x128 ![1] bcast_S128_S1x128_1) : (⟨S128, .f32⟩ : BufTy).Contents (Elt F) → (⟨S1x128, .f32⟩ : BufTy).Contents (Elt F)) _ _ rfl (wr (j := 425) rfl (by decide)) (wr (j := 424) rfl (by decide))

theorem e_main_call12_call0_cst_0 (V : Valuation τ sig (Elt F)) :
    after ops V (main_call12_call0_cst_0 : DevRef τ sig) = ((constant S_ .f32 0x47C35000#32) : (⟨S_, .f32⟩ : BufTy).Contents (Elt F)) :=
  nullary_at outs V 426 main_call12_call0_cst_0 ((constant S_ .f32 0x47C35000#32) : (⟨S_, .f32⟩ : BufTy).Contents (Elt F)) _ rfl (wr (j := 426) rfl (by decide))

theorem e_main_call12_call0_v2 (V : Valuation τ sig (Elt F)) :
    after ops V (main_call12_call0_v2 : DevRef τ sig) = ((broadcastInDim S1x128 ![] bcast_S_S1x128) : (⟨S_, .f32⟩ : BufTy).Contents (Elt F) → (⟨S1x128, .f32⟩ : BufTy).Contents (Elt F)) (after ops V (main_call12_call0_cst_0 : DevRef τ sig)) :=
  unary_at outs V 427 main_call12_call0_cst_0 main_call12_call0_v2 ((broadcastInDim S1x128 ![] bcast_S_S1x128) : (⟨S_, .f32⟩ : BufTy).Contents (Elt F) → (⟨S1x128, .f32⟩ : BufTy).Contents (Elt F)) _ _ rfl (wr (j := 427) rfl (by decide)) (wr (j := 426) rfl (by decide))

theorem e_main_call12_call0_v3 (V : Valuation τ sig (Elt F)) :
    after ops V (main_call12_call0_v3 : DevRef τ sig) = (Host.divf : (⟨S1x128, .f32⟩ : BufTy).Contents (Elt F) → (⟨S1x128, .f32⟩ : BufTy).Contents (Elt F) → (⟨S1x128, .f32⟩ : BufTy).Contents (Elt F)) (after ops V (main_call12_call0_v1 : DevRef τ sig)) (after ops V (main_call12_call0_v2 : DevRef τ sig)) :=
  binary_at outs V 428 main_call12_call0_v1 main_call12_call0_v2 main_call12_call0_v3 (Host.divf : (⟨S1x128, .f32⟩ : BufTy).Contents (Elt F) → (⟨S1x128, .f32⟩ : BufTy).Contents (Elt F) → (⟨S1x128, .f32⟩ : BufTy).Contents (Elt F)) _ _ _ rfl (wr (j := 428) rfl (by decide)) (wr (j := 425) rfl (by decide)) (wr (j := 427) rfl (by decide))

theorem e_main_call12_call0_v4 (V : Valuation τ sig (Elt F)) :
    after ops V (main_call12_call0_v4 : DevRef τ sig) = ((broadcastInDim S100000x128 ![0, 1] bcast_S1x128_S100000x128_0_1) : (⟨S1x128, .f32⟩ : BufTy).Contents (Elt F) → (⟨S100000x128, .f32⟩ : BufTy).Contents (Elt F)) (after ops V (main_call12_call0_v3 : DevRef τ sig)) :=
  unary_at outs V 429 main_call12_call0_v3 main_call12_call0_v4 ((broadcastInDim S100000x128 ![0, 1] bcast_S1x128_S100000x128_0_1) : (⟨S1x128, .f32⟩ : BufTy).Contents (Elt F) → (⟨S100000x128, .f32⟩ : BufTy).Contents (Elt F)) _ _ rfl (wr (j := 429) rfl (by decide)) (wr (j := 428) rfl (by decide))

theorem e_main_call12_call0_v5 (V : Valuation τ sig (Elt F)) :
    after ops V (main_call12_call0_v5 : DevRef τ sig) = (subf : (⟨S100000x128, .f32⟩ : BufTy).Contents (Elt F) → (⟨S100000x128, .f32⟩ : BufTy).Contents (Elt F) → (⟨S100000x128, .f32⟩ : BufTy).Contents (Elt F)) (after ops V (main_v293 : DevRef τ sig)) (after ops V (main_call12_call0_v4 : DevRef τ sig)) :=
  binary_at outs V 430 main_v293 main_call12_call0_v4 main_call12_call0_v5 (subf : (⟨S100000x128, .f32⟩ : BufTy).Contents (Elt F) → (⟨S100000x128, .f32⟩ : BufTy).Contents (Elt F) → (⟨S100000x128, .f32⟩ : BufTy).Contents (Elt F)) _ _ _ rfl (wr (j := 430) rfl (by decide)) (wr (j := 377) rfl (by decide)) (wr (j := 429) rfl (by decide))

theorem e_main_call12_call0_v6 (V : Valuation τ sig (Elt F)) :
    after ops V (main_call12_call0_v6 : DevRef τ sig) = (mulf : (⟨S100000x128, .f32⟩ : BufTy).Contents (Elt F) → (⟨S100000x128, .f32⟩ : BufTy).Contents (Elt F) → (⟨S100000x128, .f32⟩ : BufTy).Contents (Elt F)) (after ops V (main_call12_call0_v5 : DevRef τ sig)) (after ops V (main_call12_call0_v5 : DevRef τ sig)) :=
  binary_at outs V 431 main_call12_call0_v5 main_call12_call0_v5 main_call12_call0_v6 (mulf : (⟨S100000x128, .f32⟩ : BufTy).Contents (Elt F) → (⟨S100000x128, .f32⟩ : BufTy).Contents (Elt F) → (⟨S100000x128, .f32⟩ : BufTy).Contents (Elt F)) _ _ _ rfl (wr (j := 431) rfl (by decide)) (wr (j := 430) rfl (by decide)) (wr (j := 430) rfl (by decide))

theorem e_main_call12_call0_v7 (V : Valuation τ sig (Elt F)) :
    after ops V (main_call12_call0_v7 : DevRef τ sig) = ((sitofp .f32) : (⟨S_, .i32⟩ : BufTy).Contents (Elt F) → (⟨S_, .f32⟩ : BufTy).Contents (Elt F)) (after ops V (main_c_68 : DevRef τ sig)) :=
  unary_at outs V 432 main_c_68 main_call12_call0_v7 ((sitofp .f32) : (⟨S_, .i32⟩ : BufTy).Contents (Elt F) → (⟨S_, .f32⟩ : BufTy).Contents (Elt F)) _ _ rfl (wr (j := 432) rfl (by decide)) (wr (j := 422) rfl (by decide))

theorem e_main_call12_call0_cst_1 (V : Valuation τ sig (Elt F)) :
    after ops V (main_call12_call0_cst_1 : DevRef τ sig) = ((constant S_ .f32 0x47C35000#32) : (⟨S_, .f32⟩ : BufTy).Contents (Elt F)) :=
  nullary_at outs V 433 main_call12_call0_cst_1 ((constant S_ .f32 0x47C35000#32) : (⟨S_, .f32⟩ : BufTy).Contents (Elt F)) _ rfl (wr (j := 433) rfl (by decide))

theorem e_main_call12_call0_v8 (V : Valuation τ sig (Elt F)) :
    after ops V (main_call12_call0_v8 : DevRef τ sig) = (subf : (⟨S_, .f32⟩ : BufTy).Contents (Elt F) → (⟨S_, .f32⟩ : BufTy).Contents (Elt F) → (⟨S_, .f32⟩ : BufTy).Contents (Elt F)) (after ops V (main_call12_call0_cst_1 : DevRef τ sig)) (after ops V (main_call12_call0_v7 : DevRef τ sig)) :=
  binary_at outs V 434 main_call12_call0_cst_1 main_call12_call0_v7 main_call12_call0_v8 (subf : (⟨S_, .f32⟩ : BufTy).Contents (Elt F) → (⟨S_, .f32⟩ : BufTy).Contents (Elt F) → (⟨S_, .f32⟩ : BufTy).Contents (Elt F)) _ _ _ rfl (wr (j := 434) rfl (by decide)) (wr (j := 433) rfl (by decide)) (wr (j := 432) rfl (by decide))

theorem e_main_call12_call0_cst_2 (V : Valuation τ sig (Elt F)) :
    after ops V (main_call12_call0_cst_2 : DevRef τ sig) = ((constant S_ .f32 0x00000000#32) : (⟨S_, .f32⟩ : BufTy).Contents (Elt F)) :=
  nullary_at outs V 435 main_call12_call0_cst_2 ((constant S_ .f32 0x00000000#32) : (⟨S_, .f32⟩ : BufTy).Contents (Elt F)) _ rfl (wr (j := 435) rfl (by decide))

theorem e_main_call12_call0_v9 (V : Valuation τ sig (Elt F)) :
    after ops V (main_call12_call0_v9 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_call12_call0_v6 : DevRef τ sig)) (after ops V (main_call12_call0_cst_2 : DevRef τ sig)) :=
  binary_at outs V 436 main_call12_call0_v6 main_call12_call0_cst_2 main_call12_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl (wr (j := 436) rfl (by decide)) (wr (j := 431) rfl (by decide)) (wr (j := 435) rfl (by decide))

theorem e_main_call12_call0_v10 (V : Valuation τ sig (Elt F)) :
    after ops V (main_call12_call0_v10 : DevRef τ sig) = ((broadcastInDim S128 ![] bcast_S_S128) : (⟨S_, .f32⟩ : BufTy).Contents (Elt F) → (⟨S128, .f32⟩ : BufTy).Contents (Elt F)) (after ops V (main_call12_call0_v8 : DevRef τ sig)) :=
  unary_at outs V 437 main_call12_call0_v8 main_call12_call0_v10 ((broadcastInDim S128 ![] bcast_S_S128) : (⟨S_, .f32⟩ : BufTy).Contents (Elt F) → (⟨S128, .f32⟩ : BufTy).Contents (Elt F)) _ _ rfl (wr (j := 437) rfl (by decide)) (wr (j := 434) rfl (by decide))

theorem e_main_call12_call0_v11 (V : Valuation τ sig (Elt F)) :
    after ops V (main_call12_call0_v11 : DevRef τ sig) = (Host.divf : (⟨S128, .f32⟩ : BufTy).Contents (Elt F) → (⟨S128, .f32⟩ : BufTy).Contents (Elt F) → (⟨S128, .f32⟩ : BufTy).Contents (Elt F)) (after ops V (main_call12_call0_v9 : DevRef τ sig)) (after ops V (main_call12_call0_v10 : DevRef τ sig)) :=
  binary_at outs V 438 main_call12_call0_v9 main_call12_call0_v10 main_call12_call0_v11 (Host.divf : (⟨S128, .f32⟩ : BufTy).Contents (Elt F) → (⟨S128, .f32⟩ : BufTy).Contents (Elt F) → (⟨S128, .f32⟩ : BufTy).Contents (Elt F)) _ _ _ rfl (wr (j := 438) rfl (by decide)) (wr (j := 436) rfl (by decide)) (wr (j := 437) rfl (by decide))

theorem e_main_call12_call0_cst_3 (V : Valuation τ sig (Elt F)) :
    after ops V (main_call12_call0_cst_3 : DevRef τ sig) = ((constant S_ .f32 0x00000000#32) : (⟨S_, .f32⟩ : BufTy).Contents (Elt F)) :=
  nullary_at outs V 439 main_call12_call0_cst_3 ((constant S_ .f32 0x00000000#32) : (⟨S_, .f32⟩ : BufTy).Contents (Elt F)) _ rfl (wr (j := 439) rfl (by decide))

theorem e_main_call12_call0_v12 (V : Valuation τ sig (Elt F)) :
    after ops V (main_call12_call0_v12 : DevRef τ sig) = ((cmpf .ogt) : (⟨S_, .f32⟩ : BufTy).Contents (Elt F) → (⟨S_, .f32⟩ : BufTy).Contents (Elt F) → (⟨S_, .i1⟩ : BufTy).Contents (Elt F)) (after ops V (main_call12_call0_v8 : DevRef τ sig)) (after ops V (main_call12_call0_cst_3 : DevRef τ sig)) :=
  binary_at outs V 440 main_call12_call0_v8 main_call12_call0_cst_3 main_call12_call0_v12 ((cmpf .ogt) : (⟨S_, .f32⟩ : BufTy).Contents (Elt F) → (⟨S_, .f32⟩ : BufTy).Contents (Elt F) → (⟨S_, .i1⟩ : BufTy).Contents (Elt F)) _ _ _ rfl (wr (j := 440) rfl (by decide)) (wr (j := 434) rfl (by decide)) (wr (j := 439) rfl (by decide))

theorem e_main_call12_call0_cst_4 (V : Valuation τ sig (Elt F)) :
    after ops V (main_call12_call0_cst_4 : DevRef τ sig) = ((constant S_ .f32 0x7FC00000#32) : (⟨S_, .f32⟩ : BufTy).Contents (Elt F)) :=
  nullary_at outs V 441 main_call12_call0_cst_4 ((constant S_ .f32 0x7FC00000#32) : (⟨S_, .f32⟩ : BufTy).Contents (Elt F)) _ rfl (wr (j := 441) rfl (by decide))

theorem e_main_call12_call0_call0_v0 (V : Valuation τ sig (Elt F)) :
    after ops V (main_call12_call0_call0_v0 : DevRef τ sig) = (id : (⟨S_, .f32⟩ : BufTy).Contents (Elt F) → (⟨S_, .f32⟩ : BufTy).Contents (Elt F)) (after ops V (main_call12_call0_cst_4 : DevRef τ sig)) :=
  unary_at outs V 442 main_call12_call0_cst_4 main_call12_call0_call0_v0 (id : (⟨S_, .f32⟩ : BufTy).Contents (Elt F) → (⟨S_, .f32⟩ : BufTy).Contents (Elt F)) _ _ rfl (wr (j := 442) rfl (by decide)) (wr (j := 441) rfl (by decide))

theorem e_main_call12_call0_call0_v1 (V : Valuation τ sig (Elt F)) :
    after ops V (main_call12_call0_call0_v1 : DevRef τ sig) = ((broadcastInDim S128 ![] bcast_S_S128) : (⟨S_, .f32⟩ : BufTy).Contents (Elt F) → (⟨S128, .f32⟩ : BufTy).Contents (Elt F)) (after ops V (main_call12_call0_call0_v0 : DevRef τ sig)) :=
  unary_at outs V 443 main_call12_call0_call0_v0 main_call12_call0_call0_v1 ((broadcastInDim S128 ![] bcast_S_S128) : (⟨S_, .f32⟩ : BufTy).Contents (Elt F) → (⟨S128, .f32⟩ : BufTy).Contents (Elt F)) _ _ rfl (wr (j := 443) rfl (by decide)) (wr (j := 442) rfl (by decide))

theorem e_main_call12_v0 (V : Valuation τ sig (Elt F)) :
    after ops V (main_call12_v0 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (main_call12_call0_v12 : DevRef τ sig)) (after ops V (main_call12_call0_v11 : DevRef τ sig)) (after ops V (main_call12_call0_call0_v1 : DevRef τ sig)) :=
  ternary_at outs V 444 main_call12_call0_v12 main_call12_call0_v11 main_call12_call0_call0_v1 main_call12_v0 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) _ _ _ _ rfl (wr (j := 444) rfl (by decide)) (wr (j := 440) rfl (by decide)) (wr (j := 438) rfl (by decide)) (wr (j := 443) rfl (by decide))

theorem e_main_v308 (V : Valuation τ sig (Elt F)) :
    after ops V (main_v308 : DevRef τ sig) = (Host.sqrt : (⟨S128, .f32⟩ : BufTy).Contents (Elt F) → (⟨S128, .f32⟩ : BufTy).Contents (Elt F)) (after ops V (main_call12_v0 : DevRef τ sig)) :=
  unary_at outs V 445 main_call12_v0 main_v308 (Host.sqrt : (⟨S128, .f32⟩ : BufTy).Contents (Elt F) → (⟨S128, .f32⟩ : BufTy).Contents (Elt F)) _ _ rfl (wr (j := 445) rfl (by decide)) (wr (j := 444) rfl (by decide))

theorem e_main_v309 (V : Valuation τ sig (Elt F)) :
    after ops V (main_v309 : DevRef τ sig) = (broadcastInDim S1x128 ![1] bcast_S128_S1x128_1 : (⟨S128, .f32⟩ : BufTy).Contents (Elt F) → (⟨S1x128, .f32⟩ : BufTy).Contents (Elt F)) (after ops V (main_v307 : DevRef τ sig)) :=
  unary_at outs V 446 main_v307 main_v309 (broadcastInDim S1x128 ![1] bcast_S128_S1x128_1 : (⟨S128, .f32⟩ : BufTy).Contents (Elt F) → (⟨S1x128, .f32⟩ : BufTy).Contents (Elt F)) _ _ rfl (wr (j := 446) rfl (by decide)) (wr (j := 421) rfl (by decide))

theorem e_main_v310 (V : Valuation τ sig (Elt F)) :
    after ops V (main_v310 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v309 : DevRef τ sig)) :=
  unary_at outs V 447 main_v309 main_v310 (broadcastInDim S100000x128 ![0, 1] bcast_S1x128_S100000x128_0_1 : (⟨S1x128, .f32⟩ : BufTy).Contents (Elt F) → (⟨S100000x128, .f32⟩ : BufTy).Contents (Elt F)) _ _ rfl (wr (j := 447) rfl (by decide)) (wr (j := 446) rfl (by decide))

theorem e_main_v311 (V : Valuation τ sig (Elt F)) :
    after ops V (main_v311 : DevRef τ sig) = (subf : (⟨S100000x128, .f32⟩ : BufTy).Contents (Elt F) → (⟨S100000x128, .f32⟩ : BufTy).Contents (Elt F) → (⟨S100000x128, .f32⟩ : BufTy).Contents (Elt F)) (after ops V (main_v293 : DevRef τ sig)) (after ops V (main_v310 : DevRef τ sig)) :=
  binary_at outs V 448 main_v293 main_v310 main_v311 (subf : (⟨S100000x128, .f32⟩ : BufTy).Contents (Elt F) → (⟨S100000x128, .f32⟩ : BufTy).Contents (Elt F) → (⟨S100000x128, .f32⟩ : BufTy).Contents (Elt F)) _ _ _ rfl (wr (j := 448) rfl (by decide)) (wr (j := 377) rfl (by decide)) (wr (j := 447) rfl (by decide))

theorem e_main_cst_69 (V : Valuation τ sig (Elt F)) :
    after ops V (main_cst_69 : DevRef τ sig) = ((constant S_ .f32 0x2B8CBCCC#32) : (⟨S_, .f32⟩ : BufTy).Contents (Elt F)) :=
  nullary_at outs V 449 main_cst_69 ((constant S_ .f32 0x2B8CBCCC#32) : (⟨S_, .f32⟩ : BufTy).Contents (Elt F)) _ rfl (wr (j := 449) rfl (by decide))

theorem e_main_call13_v0 (V : Valuation τ sig (Elt F)) :
    after ops V (main_call13_v0 : DevRef τ sig) = (id : (⟨S_, .f32⟩ : BufTy).Contents (Elt F) → (⟨S_, .f32⟩ : BufTy).Contents (Elt F)) (after ops V (main_cst_69 : DevRef τ sig)) :=
  unary_at outs V 450 main_cst_69 main_call13_v0 (id : (⟨S_, .f32⟩ : BufTy).Contents (Elt F) → (⟨S_, .f32⟩ : BufTy).Contents (Elt F)) _ _ rfl (wr (j := 450) rfl (by decide)) (wr (j := 449) rfl (by decide))

theorem e_main_call13_v1 (V : Valuation τ sig (Elt F)) :
    after ops V (main_call13_v1 : DevRef τ sig) = ((broadcastInDim S128 ![] bcast_S_S128) : (⟨S_, .f32⟩ : BufTy).Contents (Elt F) → (⟨S128, .f32⟩ : BufTy).Contents (Elt F)) (after ops V (main_call13_v0 : DevRef τ sig)) :=
  unary_at outs V 451 main_call13_v0 main_call13_v1 ((broadcastInDim S128 ![] bcast_S_S128) : (⟨S_, .f32⟩ : BufTy).Contents (Elt F) → (⟨S128, .f32⟩ : BufTy).Contents (Elt F)) _ _ rfl (wr (j := 451) rfl (by decide)) (wr (j := 450) rfl (by decide))

theorem e_main_v312 (V : Valuation τ sig (Elt F)) :
    after ops V (main_v312 : DevRef τ sig) = (maximumf : (⟨S128, .f32⟩ : BufTy).Contents (Elt F) → (⟨S128, .f32⟩ : BufTy).Contents (Elt F) → (⟨S128, .f32⟩ : BufTy).Contents (Elt F)) (after ops V (main_call13_v1 : DevRef τ sig)) (after ops V (main_v308 : DevRef τ sig)) :=
  binary_at outs V 452 main_call13_v1 main_v308 main_v312 (maximumf : (⟨S128, .f32⟩ : BufTy).Contents (Elt F) → (⟨S128, .f32⟩ : BufTy).Contents (Elt F) → (⟨S128, .f32⟩ : BufTy).Contents (Elt F)) _ _ _ rfl (wr (j := 452) rfl (by decide)) (wr (j := 451) rfl (by decide)) (wr (j := 445) rfl (by decide))

theorem e_main_v313 (V : Valuation τ sig (Elt F)) :
    after ops V (main_v313 : DevRef τ sig) = (broadcastInDim S1x128 ![1] bcast_S128_S1x128_1 : (⟨S128, .f32⟩ : BufTy).Contents (Elt F) → (⟨S1x128, .f32⟩ : BufTy).Contents (Elt F)) (after ops V (main_v312 : DevRef τ sig)) :=
  unary_at outs V 453 main_v312 main_v313 (broadcastInDim S1x128 ![1] bcast_S128_S1x128_1 : (⟨S128, .f32⟩ : BufTy).Contents (Elt F) → (⟨S1x128, .f32⟩ : BufTy).Contents (Elt F)) _ _ rfl (wr (j := 453) rfl (by decide)) (wr (j := 452) rfl (by decide))

theorem e_main_v314 (V : Valuation τ sig (Elt F)) :
    after ops V (main_v314 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v313 : DevRef τ sig)) :=
  unary_at outs V 454 main_v313 main_v314 (broadcastInDim S100000x128 ![0, 1] bcast_S1x128_S100000x128_0_1 : (⟨S1x128, .f32⟩ : BufTy).Contents (Elt F) → (⟨S100000x128, .f32⟩ : BufTy).Contents (Elt F)) _ _ rfl (wr (j := 454) rfl (by decide)) (wr (j := 453) rfl (by decide))

theorem e_main_v315 (V : Valuation τ sig (Elt F)) :
    after ops V (main_v315 : DevRef τ sig) = (Host.divf : (⟨S100000x128, .f32⟩ : BufTy).Contents (Elt F) → (⟨S100000x128, .f32⟩ : BufTy).Contents (Elt F) → (⟨S100000x128, .f32⟩ : BufTy).Contents (Elt F)) (after ops V (main_v311 : DevRef τ sig)) (after ops V (main_v314 : DevRef τ sig)) :=
  binary_at outs V 455 main_v311 main_v314 main_v315 (Host.divf : (⟨S100000x128, .f32⟩ : BufTy).Contents (Elt F) → (⟨S100000x128, .f32⟩ : BufTy).Contents (Elt F) → (⟨S100000x128, .f32⟩ : BufTy).Contents (Elt F)) _ _ _ rfl (wr (j := 455) rfl (by decide)) (wr (j := 448) rfl (by decide)) (wr (j := 454) rfl (by decide))

end Cert.ReferenceIdeal.Hand

end
-- ==== Proof.RefValue.lean ====
/-
  What the reference program leaves in its two result buffers: the specification's function of the arguments.

  Every buffer after the whole line is its operation's function of its operands after the whole line; substituting these
  equations from a result buffer back to the arguments gives a composed term, which is the specification's function by
  definition. The substitution is done in stages, one per named quantity of the specification (the in-degree scale, the
  features after each layer, the standardised result), so that each stage is a short chain. With the run of the line,
  every weakly fair execution of the reference ends with the two results at the specification's function of the launch
  contents of the arguments, and the arguments unchanged.
-/
import proofs.«158605_j26792005992870_2_alg».proof.Proof.RefEq0
import proofs.«158605_j26792005992870_2_alg».proof.Proof.RefEq1
import proofs.«158605_j26792005992870_2_alg».proof.Proof.RefEq2
import proofs.«158605_j26792005992870_2_alg».proof.Proof.RefEq3
import proofs.«158605_j26792005992870_2_alg».proof.Proof.RefEq4
import proofs.«158605_j26792005992870_2_alg».proof.Proof.RefEq5
import proofs.«158605_j26792005992870_2_alg».proof.Proof.RefEq6
import proofs.«158605_j26792005992870_2_alg».proof.Proof.Spec

noncomputable section

namespace Cert.ReferenceIdeal.Hand

open Cert.ReferenceIdeal Cert.ReferenceIdeal.Facts₀ Cert.ReferenceIdeal.Facts Idealize.ShloMosaic Idealize.ShloMosaic.TcCoe Idealize.SL.Sem
open Idealize.ShloMosaic.StableHlo HostRead

variable {F : FTy → Type} [FloatOps F] [Cert.ReferenceIdeal.Facts]

/-- Argument 0 is never written: after the line it holds what it held. -/
theorem arg0_eq (V : Valuation τ sig (Elt F)) :
    after ops V (main_arg0 : DevRef τ sig) = V (main_arg0 : DevRef τ sig) :=
  after_of_forall_not_mem ops V (not_written outs main_arg0 arg0_nw)

/-- Argument 1 is never written: after the line it holds what it held. -/
theorem arg1_eq (V : Valuation τ sig (Elt F)) :
    after ops V (main_arg1 : DevRef τ sig) = V (main_arg1 : DevRef τ sig) :=
  after_of_forall_not_mem ops V (not_written outs main_arg1 arg1_nw)

/-- Argument 2 is never written: after the line it holds what it held. -/
theorem arg2_eq (V : Valuation τ sig (Elt F)) :
    after ops V (main_arg2 : DevRef τ sig) = V (main_arg2 : DevRef τ sig) :=
  after_of_forall_not_mem ops V (not_written outs main_arg2 arg2_nw)

/-- Argument 3 is never written: after the line it holds what it held. -/
theorem arg3_eq (V : Valuation τ sig (Elt F)) :
    after ops V (main_arg3 : DevRef τ sig) = V (main_arg3 : DevRef τ sig) :=
  after_of_forall_not_mem ops V (not_written outs main_arg3 arg3_nw)

/-- Argument 4 is never written: after the line it holds what it held. -/
theorem arg4_eq (V : Valuation τ sig (Elt F)) :
    after ops V (main_arg4 : DevRef τ sig) = V (main_arg4 : DevRef τ sig) :=
  after_of_forall_not_mem ops V (not_written outs main_arg4 arg4_nw)

/-- Argument 5 is never written: after the line it holds what it held. -/
theorem arg5_eq (V : Valuation τ sig (Elt F)) :
    after ops V (main_arg5 : DevRef τ sig) = V (main_arg5 : DevRef τ sig) :=
  after_of_forall_not_mem ops V (not_written outs main_arg5 arg5_nw)

/-- Argument 6 is never written: after the line it holds what it held. -/
theorem arg6_eq (V : Valuation τ sig (Elt F)) :
    after ops V (main_arg6 : DevRef τ sig) = V (main_arg6 : DevRef τ sig) :=
  after_of_forall_not_mem ops V (not_written outs main_arg6 arg6_nw)

/-- Argument 7 is never written: after the line it holds what it held. -/
theorem arg7_eq (V : Valuation τ sig (Elt F)) :
    after ops V (main_arg7 : DevRef τ sig) = V (main_arg7 : DevRef τ sig) :=
  after_of_forall_not_mem ops V (not_written outs main_arg7 arg7_nw)

/-- Graph 1: the in-degree scale. -/
theorem deg1_eq (V : Valuation τ sig (Elt F)) :
    after ops V (main_v6 : DevRef τ sig) = Cert.Gcn.degScale (F := F) (V (main_arg3 : DevRef τ sig)) := by
  rw [e_main_v6, e_main_v5, e_main_cst_2, e_main_v4, e_main_call0_v1, e_main_call0_v0,
    e_main_cst_1, e_main_v3, e_main_v2, e_main_v1, e_main_cst_0, e_main_v0,
    e_main_cst]
  rw [arg3_eq]
  rfl

/-- Graph 1: the features after layer 1. -/
theorem feat1_1_eq (V : Valuation τ sig (Elt F)) :
    after ops V (main_v41 : DevRef τ sig) = Cert.Gcn.feat1 (F := F) (V (main_arg0 : DevRef τ sig)) (V (main_arg2 : DevRef τ sig)) (V (main_arg3 : DevRef τ sig)) (V (main_arg6 : DevRef τ sig)) (V (main_arg7 : DevRef τ sig)) := by
  rw [e_main_v41, e_main_call1_v0, e_main_call1_cst, e_main_v40, e_main_v39, e_main_v38,
    e_main_v37, e_main_v36, e_main_v35, e_main_v34, e_main_v33, e_main_cst_8,
    e_main_v32, e_main_v31, e_main_v30, e_main_v29, e_main_v28, e_main_cst_7,
    e_main_v27, e_main_v26, e_main_v25, e_main_cst_6, e_main_v24, e_main_v23,
    e_main_cst_5, e_main_v22, e_main_v21, e_main_v20, e_main_v19, e_main_v18,
    e_main_v17, e_main_cst_4, e_main_v16, e_main_v15, e_main_v14, e_main_v13,
    e_main_v12, e_main_c_3, e_main_v11, e_main_v10, e_main_c, e_main_v9,
    e_main_v8, e_main_v7]
  rw [arg7_eq, arg6_eq, arg0_eq, deg1_eq, arg3_eq, arg2_eq]
  rfl

/-- Graph 1: the features after layer 2. -/
theorem feat2_1_eq (V : Valuation τ sig (Elt F)) :
    after ops V (main_v76 : DevRef τ sig) = Cert.Gcn.feat2 (F := F) (V (main_arg0 : DevRef τ sig)) (V (main_arg2 : DevRef τ sig)) (V (main_arg3 : DevRef τ sig)) (V (main_arg6 : DevRef τ sig)) (V (main_arg7 : DevRef τ sig)) := by
  rw [e_main_v76, e_main_call2_v0, e_main_call2_cst, e_main_v75, e_main_v74, e_main_v73,
    e_main_v72, e_main_v71, e_main_v70, e_main_v69, e_main_v68, e_main_cst_15,
    e_main_v67, e_main_v66, e_main_v65, e_main_v64, e_main_v63, e_main_cst_14,
    e_main_v62, e_main_v61, e_main_v60, e_main_cst_13, e_main_v59, e_main_v58,
    e_main_cst_12, e_main_v57, e_main_v56, e_main_v55, e_main_v54, e_main_v53,
    e_main_v52, e_main_cst_11, e_main_v51, e_main_v50, e_main_v49, e_main_v48,
    e_main_v47, e_main_c_10, e_main_v46, e_main_v45, e_main_c_9, e_main_v44,
    e_main_v43, e_main_v42]
  rw [arg7_eq, arg6_eq, arg0_eq, deg1_eq, arg3_eq, arg2_eq, feat1_1_eq]
  rfl

/-- Graph 1: the features after layer 3. -/
theorem feat3_1_eq (V : Valuation τ sig (Elt F)) :
    after ops V (main_v111 : DevRef τ sig) = Cert.Gcn.feat3 (F := F) (V (main_arg0 : DevRef τ sig)) (V (main_arg2 : DevRef τ sig)) (V (main_arg3 : DevRef τ sig)) (V (main_arg6 : DevRef τ sig)) (V (main_arg7 : DevRef τ sig)) := by
  rw [e_main_v111, e_main_call3_v0, e_main_call3_cst, e_main_v110, e_main_v109, e_main_v108,
    e_main_v107, e_main_v106, e_main_v105, e_main_v104, e_main_v103, e_main_cst_22,
    e_main_v102, e_main_v101, e_main_v100, e_main_v99, e_main_v98, e_main_cst_21,
    e_main_v97, e_main_v96, e_main_v95, e_main_cst_20, e_main_v94, e_main_v93,
    e_main_cst_19, e_main_v92, e_main_v91, e_main_v90, e_main_v89, e_main_v88,
    e_main_v87, e_main_cst_18, e_main_v86, e_main_v85, e_main_v84, e_main_v83,
    e_main_v82, e_main_c_17, e_main_v81, e_main_v80, e_main_c_16, e_main_v79,
    e_main_v78, e_main_v77]
  rw [arg7_eq, arg6_eq, arg0_eq, deg1_eq, arg3_eq, arg2_eq, feat2_1_eq]
  rfl

/-- Graph 1: the features after layer 4. -/
theorem feat4_1_eq (V : Valuation τ sig (Elt F)) :
    after ops V (main_v146 : DevRef τ sig) = Cert.Gcn.feat4 (F := F) (V (main_arg0 : DevRef τ sig)) (V (main_arg2 : DevRef τ sig)) (V (main_arg3 : DevRef τ sig)) (V (main_arg6 : DevRef τ sig)) (V (main_arg7 : DevRef τ sig)) := by
  rw [e_main_v146, e_main_call4_v0, e_main_call4_cst, e_main_v145, e_main_v144, e_main_v143,
    e_main_v142, e_main_v141, e_main_v140, e_main_v139, e_main_v138, e_main_cst_29,
    e_main_v137, e_main_v136, e_main_v135, e_main_v134, e_main_v133, e_main_cst_28,
    e_main_v132, e_main_v131, e_main_v130, e_main_cst_27, e_main_v129, e_main_v128,
    e_main_cst_26, e_main_v127, e_main_v126, e_main_v125, e_main_v124, e_main_v123,
    e_main_v122, e_main_cst_25, e_main_v121, e_main_v120, e_main_v119, e_main_v118,
    e_main_v117, e_main_c_24, e_main_v116, e_main_v115, e_main_c_23, e_main_v114,
    e_main_v113, e_main_v112]
  rw [arg7_eq, arg6_eq, arg0_eq, deg1_eq, arg3_eq, arg2_eq, feat3_1_eq]
  rfl

/-- Graph 1: the standardised result. -/
theorem out1_eq (V : Valuation τ sig (Elt F)) :
    after ops V (main_v304 : DevRef τ sig) = Cert.Gcn.out (F := F) (V (main_arg0 : DevRef τ sig)) (V (main_arg2 : DevRef τ sig)) (V (main_arg3 : DevRef τ sig)) (V (main_arg6 : DevRef τ sig)) (V (main_arg7 : DevRef τ sig)) := by
  rw [e_main_v304, e_main_v303, e_main_v302, e_main_v301, e_main_call11_v1, e_main_call11_v0,
    e_main_cst_65, e_main_v300, e_main_v299, e_main_v298, e_main_v297, e_main_call10_v0,
    e_main_call10_call0_call0_v1, e_main_call10_call0_call0_v0, e_main_call10_call0_cst_4, e_main_call10_call0_v12, e_main_call10_call0_cst_3, e_main_call10_call0_v11,
    e_main_call10_call0_v10, e_main_call10_call0_v9, e_main_call10_call0_cst_2, e_main_call10_call0_v8, e_main_call10_call0_cst_1, e_main_call10_call0_v7,
    e_main_call10_call0_v6, e_main_call10_call0_v5, e_main_call10_call0_v4, e_main_call10_call0_v3, e_main_call10_call0_v2, e_main_call10_call0_cst_0,
    e_main_call10_call0_v1, e_main_call10_call0_v0, e_main_call10_call0_cst, e_main_c_64, e_main_v296, e_main_v295,
    e_main_cst_63, e_main_v294, e_main_cst_62]
  rw [feat4_1_eq]
  rfl

/-- Graph 2: the in-degree scale. -/
theorem deg2_eq (V : Valuation τ sig (Elt F)) :
    after ops V (main_v153 : DevRef τ sig) = Cert.Gcn.degScale (F := F) (V (main_arg5 : DevRef τ sig)) := by
  rw [e_main_v153, e_main_v152, e_main_cst_33, e_main_v151, e_main_call5_v1, e_main_call5_v0,
    e_main_cst_32, e_main_v150, e_main_v149, e_main_v148, e_main_cst_31, e_main_v147,
    e_main_cst_30]
  rw [arg5_eq]
  rfl

/-- Graph 2: the features after layer 1. -/
theorem feat1_2_eq (V : Valuation τ sig (Elt F)) :
    after ops V (main_v188 : DevRef τ sig) = Cert.Gcn.feat1 (F := F) (V (main_arg1 : DevRef τ sig)) (V (main_arg4 : DevRef τ sig)) (V (main_arg5 : DevRef τ sig)) (V (main_arg6 : DevRef τ sig)) (V (main_arg7 : DevRef τ sig)) := by
  rw [e_main_v188, e_main_call6_v0, e_main_call6_cst, e_main_v187, e_main_v186, e_main_v185,
    e_main_v184, e_main_v183, e_main_v182, e_main_v181, e_main_v180, e_main_cst_40,
    e_main_v179, e_main_v178, e_main_v177, e_main_v176, e_main_v175, e_main_cst_39,
    e_main_v174, e_main_v173, e_main_v172, e_main_cst_38, e_main_v171, e_main_v170,
    e_main_cst_37, e_main_v169, e_main_v168, e_main_v167, e_main_v166, e_main_v165,
    e_main_v164, e_main_cst_36, e_main_v163, e_main_v162, e_main_v161, e_main_v160,
    e_main_v159, e_main_c_35, e_main_v158, e_main_v157, e_main_c_34, e_main_v156,
    e_main_v155, e_main_v154]
  rw [arg7_eq, arg6_eq, arg1_eq, deg2_eq, arg5_eq, arg4_eq]
  rfl

/-- Graph 2: the features after layer 2. -/
theorem feat2_2_eq (V : Valuation τ sig (Elt F)) :
    after ops V (main_v223 : DevRef τ sig) = Cert.Gcn.feat2 (F := F) (V (main_arg1 : DevRef τ sig)) (V (main_arg4 : DevRef τ sig)) (V (main_arg5 : DevRef τ sig)) (V (main_arg6 : DevRef τ sig)) (V (main_arg7 : DevRef τ sig)) := by
  rw [e_main_v223, e_main_call7_v0, e_main_call7_cst, e_main_v222, e_main_v221, e_main_v220,
    e_main_v219, e_main_v218, e_main_v217, e_main_v216, e_main_v215, e_main_cst_47,
    e_main_v214, e_main_v213, e_main_v212, e_main_v211, e_main_v210, e_main_cst_46,
    e_main_v209, e_main_v208, e_main_v207, e_main_cst_45, e_main_v206, e_main_v205,
    e_main_cst_44, e_main_v204, e_main_v203, e_main_v202, e_main_v201, e_main_v200,
    e_main_v199, e_main_cst_43, e_main_v198, e_main_v197, e_main_v196, e_main_v195,
    e_main_v194, e_main_c_42, e_main_v193, e_main_v192, e_main_c_41, e_main_v191,
    e_main_v190, e_main_v189]
  rw [arg7_eq, arg6_eq, arg1_eq, deg2_eq, arg5_eq, arg4_eq, feat1_2_eq]
  rfl

/-- Graph 2: the features after layer 3. -/
theorem feat3_2_eq (V : Valuation τ sig (Elt F)) :
    after ops V (main_v258 : DevRef τ sig) = Cert.Gcn.feat3 (F := F) (V (main_arg1 : DevRef τ sig)) (V (main_arg4 : DevRef τ sig)) (V (main_arg5 : DevRef τ sig)) (V (main_arg6 : DevRef τ sig)) (V (main_arg7 : DevRef τ sig)) := by
  rw [e_main_v258, e_main_call8_v0, e_main_call8_cst, e_main_v257, e_main_v256, e_main_v255,
    e_main_v254, e_main_v253, e_main_v252, e_main_v251, e_main_v250, e_main_cst_54,
    e_main_v249, e_main_v248, e_main_v247, e_main_v246, e_main_v245, e_main_cst_53,
    e_main_v244, e_main_v243, e_main_v242, e_main_cst_52, e_main_v241, e_main_v240,
    e_main_cst_51, e_main_v239, e_main_v238, e_main_v237, e_main_v236, e_main_v235,
    e_main_v234, e_main_cst_50, e_main_v233, e_main_v232, e_main_v231, e_main_v230,
    e_main_v229, e_main_c_49, e_main_v228, e_main_v227, e_main_c_48, e_main_v226,
    e_main_v225, e_main_v224]
  rw [arg7_eq, arg6_eq, arg1_eq, deg2_eq, arg5_eq, arg4_eq, feat2_2_eq]
  rfl

/-- Graph 2: the features after layer 4. -/
theorem feat4_2_eq (V : Valuation τ sig (Elt F)) :
    after ops V (main_v293 : DevRef τ sig) = Cert.Gcn.feat4 (F := F) (V (main_arg1 : DevRef τ sig)) (V (main_arg4 : DevRef τ sig)) (V (main_arg5 : DevRef τ sig)) (V (main_arg6 : DevRef τ sig)) (V (main_arg7 : DevRef τ sig)) := by
  rw [e_main_v293, e_main_call9_v0, e_main_call9_cst, e_main_v292, e_main_v291, e_main_v290,
    e_main_v289, e_main_v288, e_main_v287, e_main_v286, e_main_v285, e_main_cst_61,
    e_main_v284, e_main_v283, e_main_v282, e_main_v281, e_main_v280, e_main_cst_60,
    e_main_v279, e_main_v278, e_main_v277, e_main_cst_59, e_main_v276, e_main_v275,
    e_main_cst_58, e_main_v274, e_main_v273, e_main_v272, e_main_v271, e_main_v270,
    e_main_v269, e_main_cst_57, e_main_v268, e_main_v267, e_main_v266, e_main_v265,
    e_main_v264, e_main_c_56, e_main_v263, e_main_v262, e_main_c_55, e_main_v261,
    e_main_v260, e_main_v259]
  rw [arg7_eq, arg6_eq, arg1_eq, deg2_eq, arg5_eq, arg4_eq, feat3_2_eq]
  rfl

/-- Graph 2: the standardised result. -/
theorem out2_eq (V : Valuation τ sig (Elt F)) :
    after ops V (main_v315 : DevRef τ sig) = Cert.Gcn.out (F := F) (V (main_arg1 : DevRef τ sig)) (V (main_arg4 : DevRef τ sig)) (V (main_arg5 : DevRef τ sig)) (V (main_arg6 : DevRef τ sig)) (V (main_arg7 : DevRef τ sig)) := by
  rw [e_main_v315, e_main_v314, e_main_v313, e_main_v312, e_main_call13_v1, e_main_call13_v0,
    e_main_cst_69, e_main_v311, e_main_v310, e_main_v309, e_main_v308, e_main_call12_v0,
    e_main_call12_call0_call0_v1, e_main_call12_call0_call0_v0, e_main_call12_call0_cst_4, e_main_call12_call0_v12, e_main_call12_call0_cst_3, e_main_call12_call0_v11,
    e_main_call12_call0_v10, e_main_call12_call0_v9, e_main_call12_call0_cst_2, e_main_call12_call0_v8, e_main_call12_call0_cst_1, e_main_call12_call0_v7,
    e_main_call12_call0_v6, e_main_call12_call0_v5, e_main_call12_call0_v4, e_main_call12_call0_v3, e_main_call12_call0_v2, e_main_call12_call0_cst_0,
    e_main_call12_call0_v1, e_main_call12_call0_v0, e_main_call12_call0_cst, e_main_c_68, e_main_v307, e_main_v306,
    e_main_cst_67, e_main_v305, e_main_cst_66]
  rw [feat4_2_eq]
  rfl

/-- On the compiled mesh, for any float values, from any memory with zero counters: every weakly fair execution of the
    reference's main function terminates with each result at the specification's function of the arguments' launch
    contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v304) = Cert.Gcn.out (F := F) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v315) = Cert.Gcn.out (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v304).trans (out1_eq (launchContents m c)),
      (h c main_v315).trans (out2_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_main m ρ)

end Cert.ReferenceIdeal.Hand

end
-- ==== Proof.lean ====
/-
  The certificate's claims, assembled.

  The kernel and the reference, read at the ideal float values, compute the same two arrays: for each graph the four
  residual graph-convolution layers followed by the column standardisation, `Cert.Gcn.out` of that graph's features and
  edge lists and the shared weights and biases.  The reference's run ends at that function by reading its host operations
  in order.  The kernel's run ends at what its segments leave in the two result buffers, and those are the same function
  of the arguments once every float input is real: that is what the precondition (all entries finite) says at the
  ideal values.  Both runs leave the argument arrays as launched, which are the three frame claims; the idealized kernel
  is the kernel's own text read at the ideal values, with no operation rewritten, so the preservation claim is trivial.
-/
import proofs.«158605_j26792005992870_2_alg».proof.Defs
import proofs.«158605_j26792005992870_2_alg».proof.Proof.Gen.Kernel
import proofs.«158605_j26792005992870_2_alg».proof.Proof.Gen.Kernel.Skeleton
import proofs.«158605_j26792005992870_2_alg».proof.Proof.Gen.Kernel.Launch
import proofs.«158605_j26792005992870_2_alg».proof.Proof.Gen.Kernel.Points
import proofs.«158605_j26792005992870_2_alg».proof.Proof.Gen.Kernel.Frame
import proofs.«158605_j26792005992870_2_alg».proof.Proof.Gen.KernelIdeal
import proofs.«158605_j26792005992870_2_alg».proof.Proof.Gen.KernelIdeal.Skeleton
import proofs.«158605_j26792005992870_2_alg».proof.Proof.Gen.KernelIdeal.Launch
import proofs.«158605_j26792005992870_2_alg».proof.Proof.Gen.KernelIdeal.Points
import proofs.«158605_j26792005992870_2_alg».proof.Proof.Gen.KernelIdeal.Frame
import proofs.«158605_j26792005992870_2_alg».proof.Proof.Gen.ReferenceIdeal
import proofs.«158605_j26792005992870_2_alg».proof.Proof.Gen.Pre_finite_inputs
import proofs.«158605_j26792005992870_2_alg».proof.Proof.Spec
import proofs.«158605_j26792005992870_2_alg».proof.Proof.PreReal
import proofs.«158605_j26792005992870_2_alg».proof.Proof.KernelRun
import proofs.«158605_j26792005992870_2_alg».proof.Proof.KValue
import proofs.«158605_j26792005992870_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the two results dropped. -/
theorem frame_ri : Cert.frame_ReferenceIdeal := fun m ρ _ =>
  (θ_run (Cert.ReferenceIdeal.defs (F := Ideal)) _ _).mono (fun _ h c => (h c).2.2) (Cert.ReferenceIdeal.Hand.run (F := Ideal) m ρ)

/-- No operation of the kernel was rewritten on the way to its idealization. -/
theorem preserves : Cert.preserves_Kernel_KernelIdeal := trivial

/-- At the ideal values, from memories that agree on the arguments, whose float entries are all finite, both programs
    end with each graph's result array at `Cert.Gcn.out` of that graph's arguments. -/
theorem algebraic : Cert.algebraic_KernelIdeal_ReferenceIdeal := by
  intro m ρ m' ρ' hpre hagree
  refine ⟨fun c => Cert.Gcn.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
      fun c => Cert.Gcn.out (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · -- the kernel: its two result buffers, as functions of real arguments
    refine (θ_run (Cert.KernelIdeal.defs (F := Ideal)) _ _).mono (fun _ h c => ?_) (Cert.KernelIdeal.Hand.run (F := Ideal) m ρ)
    obtain ⟨hr0, hr1, hr6, hr7⟩ := Cert.Gcn.pre_real _ _ _ _ _ _ _ _ (hpre c)
    exact ⟨(h c).1.trans (Cert.KernelIdeal.Hand.value1 m ρ c hr0 hr6 hr7),
      (h c).2.1.trans (Cert.KernelIdeal.Hand.value2 m ρ c hr1 hr6 hr7), (h c).2.2⟩
  · -- the reference, from the agreeing memory: the same function of the same arguments
    refine (θ_run (Cert.ReferenceIdeal.defs (F := Ideal)) _ _).mono (fun _ h c => ?_) (Cert.ReferenceIdeal.Hand.run (F := Ideal) m' ρ')
    obtain ⟨a0, a1, a2, a3, a4, a5, a6, a7⟩ := hagree c
    refine ⟨(h c).1.trans ?_, (h c).2.1.trans ?_, (h c).2.2⟩
    · rw [a0, a2, a3, a6, a7]
    · rw [a1, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
